-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v26)) (v3 : (c : Dev Cert.KernelIdeal.nD) → Buf (Elt Ideal) ((c.tc : Thread Cert.KernelIdeal.nD Cert.KernelIdeal.τ).loc Cert.KernelIdeal.main_v23)) (v4 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v26) = v2 c
          ∧ r.2.mem ((c.tc : Thread Cert.KernelIdeal.nD Cert.KernelIdeal.τ).loc Cert.KernelIdeal.main_v23) = v3 c
          ∧ r.2.mem ((c.tc : Thread Cert.KernelIdeal.nD Cert.KernelIdeal.τ).loc Cert.KernelIdeal.main_v24) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_v11) = v3 c
          ∧ r.2.mem ((c.tc : Thread Cert.ReferenceIdeal.nD Cert.ReferenceIdeal.τ).loc Cert.ReferenceIdeal.main_v17) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  main_v88

def fn_part4 {F : FTy → Type} [FloatOps F] (main_arg14 : FVec F S64x128 .f32) (main_arg15 : FVec F S128 .f32) (main_arg16 : FVec F S64x64 .f32) (main_arg17 : FVec F S64 .f32) (main_v63 : IVec S_ 1) (main_v67 : IVec S_ 1) : IVec S_ 1 :=
  let main_v68 : IVec S_ 1 := andi main_v63 main_v67
  let main_v69 : FVec F S64x128 .f32 := Host.absf main_arg14
  let main_cst_26 : FVec F S_ .f32 := constant S_ .f32 0x7F800000#32
  let main_v70 : FVec F S64x128 .f32 := broadcastInDim S64x128 ![] bcast_S_S64x128 main_cst_26
  let main_v71 : IVec S64x128 1 := cmpf .olt main_v69 main_v70
  let main_c_27 : IVec S_ 1 := constantI S_ 1 1#1
  let main_v72 : IVec S_ 1 := (fun x v => Host.reduce IntOp.andi x v reducesTo_S64x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S64x64 .f32 := Host.absf main_arg16
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg17
  let main_cst_32 : FVec F S_ .f32 := constant S_ .f32 0x7F800000#32
  fn_part5 (F := F) main_v83 main_v84 main_cst_32

def fn_part3 {F : FTy → Type} [FloatOps F] (main_arg11 : FVec F S128 .f32) (main_arg12 : FVec F S64x64 .f32) (main_arg13 : FVec F S64 .f32) (main_arg14 : FVec F S64x128 .f32) (main_arg15 : FVec F S128 .f32) (main_arg16 : FVec F S64x64 .f32) (main_arg17 : FVec F S64 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S64x64 .f32 := Host.absf main_arg12
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_v63 main_v67

def fn_part2 {F : FTy → Type} [FloatOps F] (main_arg7 : FVec F S64 .f32) (main_arg8 : FVec F S64x64 .f32) (main_arg9 : FVec F S64 .f32) (main_arg10 : FVec F S64x128 .f32) (main_arg11 : FVec F S128 .f32) (main_arg12 : FVec F S64x64 .f32) (main_arg13 : FVec F S64 .f32) (main_arg14 : FVec F S64x128 .f32) (main_arg15 : FVec F S128 .f32) (main_arg16 : FVec F S64x64 .f32) (main_arg17 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x128 .f32 := Host.absf main_arg10
  let main_cst_18 : FVec F S_ .f32 := constant S_ .f32 0x7F800000#32
  let main_v50 : FVec F S64x128 .f32 := broadcastInDim S64x128 ![] bcast_S_S64x128 main_cst_18
  fn_part3 (F := F) main_arg11 main_arg12 main_arg13 main_arg14 main_arg15 main_arg16 main_arg17 main_v48 main_v49 main_v50

def fn_part1 {F : FTy → Type} [FloatOps F] (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x128 .f32) (main_arg11 : FVec F S128 .f32) (main_arg12 : FVec F S64x64 .f32) (main_arg13 : FVec F S64 .f32) (main_arg14 : FVec F S64x128 .f32) (main_arg15 : FVec F S128 .f32) (main_arg16 : FVec F S64x64 .f32) (main_arg17 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S10000x128 .f32) (main_arg1 : FVec F S10000x10000 .f32) (main_arg2 : FVec F S128x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x128 .f32) (main_arg11 : FVec F S128 .f32) (main_arg12 : FVec F S64x64 .f32) (main_arg13 : FVec F S64 .f32) (main_arg14 : FVec F S64x128 .f32) (main_arg15 : FVec F S128 .f32) (main_arg16 : FVec F S64x64 .f32) (main_arg17 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S_ : Shape := ⟨0, ![]⟩
abbrev S1x128 : Shape := ⟨2, ![1, 128]⟩
abbrev S64x192 : Shape := ⟨2, ![64, 192]⟩
abbrev S128x192 : Shape := ⟨2, ![128, 192]⟩
abbrev S192 : Shape := ⟨1, ![192]⟩
abbrev S1x192 : Shape := ⟨2, ![1, 192]⟩
abbrev S64x256 : Shape := ⟨2, ![64, 256]⟩
abbrev S128x256 : Shape := ⟨2, ![128, 256]⟩
abbrev S256 : Shape := ⟨1, ![256]⟩
abbrev S1x256 : Shape := ⟨2, ![1, 256]⟩
abbrev S1x64 : Shape := ⟨2, ![1, 64]⟩
abbrev S10000x64 : Shape := ⟨2, ![10000, 64]⟩
abbrev S2000x128 : Shape := ⟨2, ![2000, 128]⟩
abbrev S2000x64 : Shape := ⟨2, ![2000, 64]⟩
abbrev S400x10000 : Shape := ⟨2, ![400, 10000]⟩
abbrev S400x128 : Shape := ⟨2, ![400, 128]⟩
abbrev S400x64 : Shape := ⟨2, ![400, 64]⟩
abbrev S10000x192 : Shape := ⟨2, ![10000, 192]⟩
abbrev S1000x10000 : Shape := ⟨2, ![1000, 10000]⟩
abbrev S1000x128 : Shape := ⟨2, ![1000, 128]⟩
abbrev S1000x192 : Shape := ⟨2, ![1000, 192]⟩
abbrev S10000x256 : Shape := ⟨2, ![10000, 256]⟩
abbrev S1000x256 : Shape := ⟨2, ![1000, 256]⟩

abbrev nBuf : Space → Nat
  | .hbm => 50
  | .vmem => 43
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x128, .f32⟩
  | .hbm, ⟨11, _⟩ => ⟨S128, .f32⟩
  | .hbm, ⟨12, _⟩ => ⟨S64x64, .f32⟩
  | .hbm, ⟨13, _⟩ => ⟨S64, .f32⟩
  | .hbm, ⟨14, _⟩ => ⟨S64x128, .f32⟩
  | .hbm, ⟨15, _⟩ => ⟨S128, .f32⟩
  | .hbm, ⟨16, _⟩ => ⟨S64x64, .f32⟩
  | .hbm, ⟨17, _⟩ => ⟨S64, .f32⟩
  | .hbm, ⟨18, _⟩ => ⟨S_, .f32⟩
  | .hbm, ⟨19, _⟩ => ⟨S64x64, .f32⟩
  | .hbm, ⟨20, _⟩ => ⟨S_, .f32⟩
  | .hbm, ⟨21, _⟩ => ⟨S64x128, .f32⟩
  | .hbm, ⟨22, _⟩ => ⟨S64x128, .f32⟩
  | .hbm, ⟨23, _⟩ => ⟨S128, .f32⟩
  | .hbm, ⟨24, _⟩ => ⟨S1x128, .f32⟩
  | .hbm, ⟨25, _⟩ => ⟨S64x192, .f32⟩
  | .hbm, ⟨26, _⟩ => ⟨S64x192, .f32⟩
  | .hbm, ⟨27, _⟩ => ⟨S128x192, .f32⟩
  | .hbm, ⟨28, _⟩ => ⟨S192, .f32⟩
  | .hbm, ⟨29, _⟩ => ⟨S1x192, .f32⟩
  | .hbm, ⟨30, _⟩ => ⟨S64x256, .f32⟩
  | .hbm, ⟨31, _⟩ => ⟨S64x256, .f32⟩
  | .hbm, ⟨32, _⟩ => ⟨S128x256, .f32⟩
  | .hbm, ⟨33, _⟩ => ⟨S256, .f32⟩
  | .hbm, ⟨34, _⟩ => ⟨S1x256, .f32⟩
  | .hbm, ⟨35, _⟩ => ⟨S1x64, .f32⟩
  | .hbm, ⟨36, _⟩ => ⟨S10000x64, .f32⟩
  | .hbm, ⟨37, _⟩ => ⟨S10000x10000, .bf16⟩
  | .hbm, ⟨38, _⟩ => ⟨S10000x128, .bf16⟩
  | .hbm, ⟨39, _⟩ => ⟨S10000x128, .f32⟩
  | .hbm, ⟨40, _⟩ => ⟨S10000x192, .bf16⟩
  | .hbm, ⟨41, _⟩ => ⟨S10000x192, .f32⟩
  | .hbm, ⟨42, _⟩ => ⟨S10000x256, .bf16⟩
  | .hbm, ⟨43, _⟩ => ⟨S10000x256, .f32⟩
  | .hbm, ⟨44, _⟩ => ⟨S10000x64, .f32⟩
  | .hbm, ⟨45, _⟩ => ⟨S10000x10000, .f32⟩
  | .hbm, ⟨46, _⟩ => ⟨S10000x64, .f32⟩
  | .hbm, ⟨47, _⟩ => ⟨S10000x64, .f32⟩
  | .hbm, ⟨48, _⟩ => ⟨S10000x128, .f32⟩
  | .hbm, ⟨49, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S400x10000, .f32⟩
  | .local _ .vmem, ⟨6, _⟩ => ⟨S400x10000, .f32⟩
  | .local _ .vmem, ⟨7, _⟩ => ⟨S10000x64, .f32⟩
  | .local _ .vmem, ⟨8, _⟩ => ⟨S1x64, .f32⟩
  | .local _ .vmem, ⟨9, _⟩ => ⟨S64x128, .f32⟩
  | .local _ .vmem, ⟨10, _⟩ => ⟨S400x10000, .bf16⟩
  | .local _ .vmem, ⟨11, _⟩ => ⟨S400x10000, .bf16⟩
  | .local _ .vmem, ⟨12, _⟩ => ⟨S400x128, .bf16⟩
  | .local _ .vmem, ⟨13, _⟩ => ⟨S400x128, .bf16⟩
  | .local _ .vmem, ⟨14, _⟩ => ⟨S1000x10000, .bf16⟩
  | .local _ .vmem, ⟨15, _⟩ => ⟨S1000x10000, .bf16⟩
  | .local _ .vmem, ⟨16, _⟩ => ⟨S10000x128, .bf16⟩
  | .local _ .vmem, ⟨17, _⟩ => ⟨S1x128, .f32⟩
  | .local _ .vmem, ⟨18, _⟩ => ⟨S128x192, .f32⟩
  | .local _ .vmem, ⟨19, _⟩ => ⟨S1000x128, .f32⟩
  | .local _ .vmem, ⟨20, _⟩ => ⟨S1000x128, .f32⟩
  | .local _ .vmem, ⟨21, _⟩ => ⟨S1000x192, .bf16⟩
  | .local _ .vmem, ⟨22, _⟩ => ⟨S1000x192, .bf16⟩
  | .local _ .vmem, ⟨23, _⟩ => ⟨S1000x10000, .bf16⟩
  | .local _ .vmem, ⟨24, _⟩ => ⟨S1000x10000, .bf16⟩
  | .local _ .vmem, ⟨25, _⟩ => ⟨S10000x192, .bf16⟩
  | .local _ .vmem, ⟨26, _⟩ => ⟨S1x192, .f32⟩
  | .local _ .vmem, ⟨27, _⟩ => ⟨S128x256, .f32⟩
  | .local _ .vmem, ⟨28, _⟩ => ⟨S1000x192, .f32⟩
  | .local _ .vmem, ⟨29, _⟩ => ⟨S1000x192, .f32⟩
  | .local _ .vmem, ⟨30, _⟩ => ⟨S1000x256, .bf16⟩
  | .local _ .vmem, ⟨31, _⟩ => ⟨S1000x256, .bf16⟩
  | .local _ .vmem, ⟨32, _⟩ => ⟨S1000x10000, .bf16⟩
  | .local _ .vmem, ⟨33, _⟩ => ⟨S1000x10000, .bf16⟩
  | .local _ .vmem, ⟨34, _⟩ => ⟨S10000x256, .bf16⟩
  | .local _ .vmem, ⟨35, _⟩ => ⟨S1x256, .f32⟩
  | .local _ .vmem, ⟨36, _⟩ => ⟨S1000x256, .f32⟩
  | .local _ .vmem, ⟨37, _⟩ => ⟨S1000x256, .f32⟩
  | .local _ .vmem, ⟨38, _⟩ => ⟨S400x64, .f32⟩
  | .local _ .vmem, ⟨39, _⟩ => ⟨S400x64, .f32⟩
  | .local _ .vmem, ⟨40, _⟩ => ⟨S10000x64, .f32⟩
  | .local _ .vmem, ⟨41, _⟩ => ⟨S400x10000, .f32⟩
  | .local _ .vmem, ⟨42, _⟩ => ⟨S400x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_cst_0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17_0 : Ref sig .tc := ⟨.hbm, 37, rfl⟩
abbrev main_v17_1 : Ref sig .tc := ⟨.hbm, 38, rfl⟩
abbrev main_v18_0 : Ref sig .tc := ⟨.hbm, 39, rfl⟩
abbrev main_v18_1 : Ref sig .tc := ⟨.hbm, 40, rfl⟩
abbrev main_v19_0 : Ref sig .tc := ⟨.hbm, 41, rfl⟩
abbrev main_v19_1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg2_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20
abbrev cc2_sem5_0 : DmaSem sig := 21
abbrev cc2_sem5_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem4_1 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem2_1 : DmaSem sig := 42

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x10000 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x192 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1000x192 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x192 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x192 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1000x192 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1000x256 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x10000 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S400x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10000x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S400x10000 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  bcast_S_S64x64 : S_.BroadcastsInDim S64x64 (![] : Fin 0 → Fin S64x64.rank)
  bcast_S_S64x128 : S_.BroadcastsInDim S64x128 (![] : Fin 0 → Fin S64x128.rank)
  concatenates_S64x64_S64x64_S64x128_d1 : Shape.Concatenates [S64x64, S64x64] S64x128 1
  concatenates_S64_S64_S128_d0 : Shape.Concatenates [S64, S64] S128 0
  bcast_S128_S1x128_1 : S128.BroadcastsInDim S1x128 (![1] : Fin 1 → Fin S1x128.rank)
  concatenates_S64x64_S64x64_S64x64_S64x192_d1 : Shape.Concatenates [S64x64, S64x64, S64x64] S64x192 1
  concatenates_S64x192_S64x192_S128x192_d0 : Shape.Concatenates [S64x192, S64x192] S128x192 0
  concatenates_S64_S64_S64_S192_d0 : Shape.Concatenates [S64, S64, S64] S192 0
  bcast_S192_S1x192_1 : S192.BroadcastsInDim S1x192 (![1] : Fin 1 → Fin S1x192.rank)
  concatenates_S64x128_S64x128_S64x256_d1 : Shape.Concatenates [S64x128, S64x128] S64x256 1
  concatenates_S64x256_S64x256_S128x256_d0 : Shape.Concatenates [S64x256, S64x256] S128x256 0
  concatenates_S128_S128_S256_d0 : Shape.Concatenates [S128, S128] S256 0
  bcast_S256_S1x256_1 : S256.BroadcastsInDim S1x256 (![1] : Fin 1 → Fin S1x256.rank)
  bcast_S64_S1x64_1 : S64.BroadcastsInDim S1x64 (![1] : Fin 1 → Fin S1x64.rank)
  inb_S2000x128_S2000x128_0_0 : ∀ a, (![0, 0] : Fin 2 → Nat) a + S2000x128.size a ≤ S2000x128.size a
  h_S2000x128 : 0 < S2000x128.numel
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  packedbf16_S400x10000_S400x10000_0_0 : (Rect.unit (s := S400x10000) ![0, 0] S400x10000.size inb_S400x10000_S400x10000_0_0).PackedRows (EltTy.packing .bf16)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  inb_S128x192_S128x192_0_0 : ∀ a, (![0, 0] : Fin 2 → Nat) a + S128x192.size a ≤ S128x192.size a
  h_S128x192 : 0 < S128x192.numel
  shapeCasts_S128x192_S128x192 : S128x192.ShapeCasts S128x192
  inb_S1000x192_S1000x192_0_0 : ∀ a, (![0, 0] : Fin 2 → Nat) a + S1000x192.size a ≤ S1000x192.size a
  h_S1000x192 : 0 < S1000x192.numel
  packedbf16_S1000x192_S1000x192_0_0 : (Rect.unit (s := S1000x192) ![0, 0] S1000x192.size inb_S1000x192_S1000x192_0_0).PackedRows (EltTy.packing .bf16)
  inb_S10000x192_S10000x192_0_0 : ∀ a, (![0, 0] : Fin 2 → Nat) a + S10000x192.size a ≤ S10000x192.size a
  h_S10000x192 : 0 < S10000x192.numel
  shapeCasts_S10000x192_S10000x192 : S10000x192.ShapeCasts S10000x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S1000x192 : S1x192.Broadcasts S1000x192
  slices_S1000x192_o0_0_S1000x128 : S1000x192.Slices ![0, 0] S1000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1000x256_S1000x256_0_0 : ∀ a, (![0, 0] : Fin 2 → Nat) a + S1000x256.size a ≤ S1000x256.size a
  h_S1000x256 : 0 < S1000x256.numel
  packedbf16_S1000x256_S1000x256_0_0 : (Rect.unit (s := S1000x256) ![0, 0] S1000x256.size inb_S1000x256_S1000x256_0_0).PackedRows (EltTy.packing .bf16)
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  slices_S10000x192_S10000x64_0_128 : S10000x192.Slices ![0, 128] S10000x64
  inb_S400x64_S400x64_0_0 : ∀ a, (![0, 0] : Fin 2 → Nat) a + S400x64.size a ≤ S400x64.size a
  h_S400x64 : 0 < S400x64.numel
  shapeCasts_S400x64_S400x64 : S400x64.ShapeCasts S400x64
  slices_S10000x128_S10000x64_0_0 : S10000x128.Slices ![0, 0] S10000x64
  slices_S10000x128_S10000x64_0_64 : S10000x128.Slices ![0, 64] S10000x64
  slices_S10000x256_S10000x128_0_0 : S10000x256.Slices ![0, 0] S10000x128
  slices_S10000x256_S10000x128_0_128 : S10000x256.Slices ![0, 128] S10000x128
  dot_S2000x128_S128x64_S2000x64_1_0_0_1_n_n_wf : DotDims.WF S2000x128 S128x64 S2000x64 [1] [0] [0] [1] [] []
  dot_S400x10000_S10000x64_S400x64_1_0_0_1_n_n_wf : DotDims.WF S400x10000 S10000x64 S400x64 [1] [0] [0] [1] [] []
  dot_S400x64_S64x128_S400x128_1_0_0_1_n_n_wf : DotDims.WF S400x64 S64x128 S400x128 [1] [0] [0] [1] [] []
  dot_S1000x10000_S10000x128_S1000x128_1_0_0_1_n_n_wf : DotDims.WF S1000x10000 S10000x128 S1000x128 [1] [0] [0] [1] [] []
  dot_S1000x128_S128x192_S1000x192_1_0_0_1_n_n_wf : DotDims.WF S1000x128 S128x192 S1000x192 [1] [0] [0] [1] [] []
  dot_S1000x10000_S10000x192_S1000x192_1_0_0_1_n_n_wf : DotDims.WF S1000x10000 S10000x192 S1000x192 [1] [0] [0] [1] [] []
  dot_S1000x128_S128x256_S1000x256_1_0_0_1_n_n_wf : DotDims.WF S1000x128 S128x256 S1000x256 [1] [0] [0] [1] [] []
  dot_S1000x10000_S10000x256_S1000x256_1_0_0_1_n_n_wf : DotDims.WF S1000x10000 S10000x256 S1000x256 [1] [0] [0] [1] [] []
  dot_S400x64_S10000x64_S400x10000_1_1_0_0_n_n_wf : DotDims.WF S400x64 S10000x64 S400x10000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S10000x64.size a
  hwx0_2 : ∀ i : grid0.Coords, EltTy.bits .f32 = 32 ∨ (Rect.block (s := S10000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .f32 = 32 ∨ (Rect.block (s := S10000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x10000.size a ≤ S10000x10000.size a
  hwx1_4 : ∀ i : grid1.Coords, EltTy.bits .bf16 = 32 ∨ (Rect.block (s := S10000x10000) S400x10000.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x128.size a ≤ S10000x128.size a
  hwx1_5 : ∀ i : grid1.Coords, EltTy.bits .bf16 = 32 ∨ (Rect.block (s := S10000x128) S400x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x10000.size a ≤ S10000x10000.size a
  hwx2_0 : ∀ i : grid2.Coords, EltTy.bits .bf16 = 32 ∨ (Rect.block (s := S10000x10000) S1000x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x192.size a ≤ S128x192.size a
  hwx2_3 : ∀ i : grid2.Coords, EltTy.bits .f32 = 32 ∨ (Rect.block (s := S128x192) S128x192.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x128.size a ≤ S10000x128.size a
  hwx2_4 : ∀ i : grid2.Coords, EltTy.bits .f32 = 32 ∨ (Rect.block (s := S10000x128) S1000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x192.size a ≤ S10000x192.size a
  hwx2_5 : ∀ i : grid2.Coords, EltTy.bits .bf16 = 32 ∨ (Rect.block (s := S10000x192) S1000x192.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x10000.size a ≤ S10000x10000.size a
  hwx3_0 : ∀ i : grid3.Coords, EltTy.bits .bf16 = 32 ∨ (Rect.block (s := S10000x10000) S1000x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x192.size a ≤ S10000x192.size a
  hwx3_1 : ∀ i : grid3.Coords, EltTy.bits .bf16 = 32 ∨ (Rect.block (s := S10000x192) S10000x192.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x192.size a ≤ S1x192.size a
  hwx3_2 : ∀ i : grid3.Coords, EltTy.bits .f32 = 32 ∨ (Rect.block (s := S1x192) S1x192.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x256.size a ≤ S128x256.size a
  hwx3_3 : ∀ i : grid3.Coords, EltTy.bits .f32 = 32 ∨ (Rect.block (s := S128x256) S128x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1000x192.size a ≤ S10000x192.size a
  hwx3_4 : ∀ i : grid3.Coords, EltTy.bits .f32 = 32 ∨ (Rect.block (s := S10000x192) S1000x192.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x256.size a ≤ S10000x256.size a
  hwx3_5 : ∀ i : grid3.Coords, EltTy.bits .bf16 = 32 ∨ (Rect.block (s := S10000x256) S1000x256.size (cc3_transform_5 i) (hinb3_5 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x10000.size a ≤ S10000x10000.size a
  hwx4_0 : ∀ i : grid4.Coords, EltTy.bits .bf16 = 32 ∨ (Rect.block (s := S10000x10000) S1000x10000.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x256.size a ≤ S10000x256.size a
  hwx4_1 : ∀ i : grid4.Coords, EltTy.bits .bf16 = 32 ∨ (Rect.block (s := S10000x256) S10000x256.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x256.size a ≤ S10000x256.size a
  hwx4_3 : ∀ i : grid4.Coords, EltTy.bits .f32 = 32 ∨ (Rect.block (s := S10000x256) S1000x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S400x64.size a ≤ S10000x64.size a
  hwx5_0 : ∀ i : grid5.Coords, EltTy.bits .f32 = 32 ∨ (Rect.block (s := S10000x64) S400x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S10000x64.size a
  hwx5_1 : ∀ i : grid5.Coords, EltTy.bits .f32 = 32 ∨ (Rect.block (s := S10000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S400x10000.size a ≤ S10000x10000.size a
  hwx5_2 : ∀ i : grid5.Coords, EltTy.bits .f32 = 32 ∨ (Rect.block (s := S10000x10000) S400x10000.size (cc5_transform_2 i) (hinb5_2 i)).WholeWords (EltTy.packing .f32)

variable [Facts₀]

def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x128_S400x128_1_0_0_1_n_n : DotDims S400x64 S64x128 S400x128 where
  lhsContracting := [1]
  rhsContracting := [0]
  lhsNonContracting := [0]
  rhsNonContracting := [1]
  lhsBatch := []
  rhsBatch := []
  wf := dot_S400x64_S64x128_S400x128_1_0_0_1_n_n_wf
def dot_S1000x10000_S10000x128_S1000x128_1_0_0_1_n_n : DotDims S1000x10000 S10000x128 S1000x128 where
  lhsContracting := [1]
  rhsContracting := [0]
  lhsNonContracting := [0]
  rhsNonContracting := [1]
  lhsBatch := []
  rhsBatch := []
  wf := dot_S1000x10000_S10000x128_S1000x128_1_0_0_1_n_n_wf
def dot_S1000x128_S128x192_S1000x192_1_0_0_1_n_n : DotDims S1000x128 S128x192 S1000x192 where
  lhsContracting := [1]
  rhsContracting := [0]
  lhsNonContracting := [0]
  rhsNonContracting := [1]
  lhsBatch := []
  rhsBatch := []
  wf := dot_S1000x128_S128x192_S1000x192_1_0_0_1_n_n_wf
def dot_S1000x10000_S10000x192_S1000x192_1_0_0_1_n_n : DotDims S1000x10000 S10000x192 S1000x192 where
  lhsContracting := [1]
  rhsContracting := [0]
  lhsNonContracting := [0]
  rhsNonContracting := [1]
  lhsBatch := []
  rhsBatch := []
  wf := dot_S1000x10000_S10000x192_S1000x192_1_0_0_1_n_n_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def dot_S1000x10000_S10000x256_S1000x256_1_0_0_1_n_n : DotDims S1000x10000 S10000x256 S1000x256 where
  lhsContracting := [1]
  rhsContracting := [0]
  lhsNonContracting := [0]
  rhsNonContracting := [1]
  lhsBatch := []
  rhsBatch := []
  wf := dot_S1000x10000_S10000x256_S1000x256_1_0_0_1_n_n_wf
def dot_S400x64_S10000x64_S400x10000_1_1_0_0_n_n : DotDims S400x64 S10000x64 S400x10000 where
  lhsContracting := [1]
  rhsContracting := [1]
  lhsNonContracting := [0]
  rhsNonContracting := [0]
  lhsBatch := []
  rhsBatch := []
  wf := dot_S400x64_S10000x64_S400x10000_1_1_0_0_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17_0) S400x10000.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v17_1) S400x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v17_0) S1000x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17_1) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S128x192.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v18_0) S1000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v18_1) S1000x192.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v17_0) S1000x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18_1) S10000x192.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v9) S1x192.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v12) S128x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v19_0) S1000x192.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v19_1) S1000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v17_0) S1000x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v19_1) S10000x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v14) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v20) S1000x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v21) S400x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v21) S10000x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v22) S400x10000.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S10000x64 : Shape := ⟨2, ![10000, 64]⟩
abbrev S1x64 : Shape := ⟨2, ![1, 64]⟩
abbrev S_ : Shape := ⟨0, ![]⟩
abbrev S1x128 : Shape := ⟨2, ![1, 128]⟩
abbrev S64x10000 : Shape := ⟨2, ![64, 10000]⟩

abbrev nBuf : Space → Nat
  | .hbm => 84
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x128, .f32⟩
  | .hbm, ⟨11, _⟩ => ⟨S128, .f32⟩
  | .hbm, ⟨12, _⟩ => ⟨S64x64, .f32⟩
  | .hbm, ⟨13, _⟩ => ⟨S64, .f32⟩
  | .hbm, ⟨14, _⟩ => ⟨S64x128, .f32⟩
  | .hbm, ⟨15, _⟩ => ⟨S128, .f32⟩
  | .hbm, ⟨16, _⟩ => ⟨S64x64, .f32⟩
  | .hbm, ⟨17, _⟩ => ⟨S64, .f32⟩
  | .hbm, ⟨18, _⟩ => ⟨S10000x64, .f32⟩
  | .hbm, ⟨19, _⟩ => ⟨S10000x64, .f32⟩
  | .hbm, ⟨20, _⟩ => ⟨S1x64, .f32⟩
  | .hbm, ⟨21, _⟩ => ⟨S10000x64, .f32⟩
  | .hbm, ⟨22, _⟩ => ⟨S10000x64, .f32⟩
  | .hbm, ⟨23, _⟩ => ⟨S_, .f32⟩
  | .hbm, ⟨24, _⟩ => ⟨S10000x64, .f32⟩
  | .hbm, ⟨25, _⟩ => ⟨S10000x64, .f32⟩
  | .hbm, ⟨26, _⟩ => ⟨S10000x64, .f32⟩
  | .hbm, ⟨27, _⟩ => ⟨S10000x64, .f32⟩
  | .hbm, ⟨28, _⟩ => ⟨S1x64, .f32⟩
  | .hbm, ⟨29, _⟩ => ⟨S10000x64, .f32⟩
  | .hbm, ⟨30, _⟩ => ⟨S10000x64, .f32⟩
  | .hbm, ⟨31, _⟩ => ⟨S_, .f32⟩
  | .hbm, ⟨32, _⟩ => ⟨S10000x64, .f32⟩
  | .hbm, ⟨33, _⟩ => ⟨S10000x64, .f32⟩
  | .hbm, ⟨34, _⟩ => ⟨S10000x64, .f32⟩
  | .hbm, ⟨35, _⟩ => ⟨S10000x64, .f32⟩
  | .hbm, ⟨36, _⟩ => ⟨S1x64, .f32⟩
  | .hbm, ⟨37, _⟩ => ⟨S10000x64, .f32⟩
  | .hbm, ⟨38, _⟩ => ⟨S10000x64, .f32⟩
  | .hbm, ⟨39, _⟩ => ⟨S_, .f32⟩
  | .hbm, ⟨40, _⟩ => ⟨S10000x64, .f32⟩
  | .hbm, ⟨41, _⟩ => ⟨S10000x64, .f32⟩
  | .hbm, ⟨42, _⟩ => ⟨S10000x64, .f32⟩
  | .hbm, ⟨43, _⟩ => ⟨S10000x64, .f32⟩
  | .hbm, ⟨44, _⟩ => ⟨S1x64, .f32⟩
  | .hbm, ⟨45, _⟩ => ⟨S10000x64, .f32⟩
  | .hbm, ⟨46, _⟩ => ⟨S10000x64, .f32⟩
  | .hbm, ⟨47, _⟩ => ⟨S_, .f32⟩
  | .hbm, ⟨48, _⟩ => ⟨S10000x64, .f32⟩
  | .hbm, ⟨49, _⟩ => ⟨S10000x64, .f32⟩
  | .hbm, ⟨50, _⟩ => ⟨S10000x128, .f32⟩
  | .hbm, ⟨51, _⟩ => ⟨S10000x128, .f32⟩
  | .hbm, ⟨52, _⟩ => ⟨S1x128, .f32⟩
  | .hbm, ⟨53, _⟩ => ⟨S10000x128, .f32⟩
  | .hbm, ⟨54, _⟩ => ⟨S10000x128, .f32⟩
  | .hbm, ⟨55, _⟩ => ⟨S_, .f32⟩
  | .hbm, ⟨56, _⟩ => ⟨S10000x128, .f32⟩
  | .hbm, ⟨57, _⟩ => ⟨S10000x128, .f32⟩
  | .hbm, ⟨58, _⟩ => ⟨S10000x64, .f32⟩
  | .hbm, ⟨59, _⟩ => ⟨S10000x64, .f32⟩
  | .hbm, ⟨60, _⟩ => ⟨S1x64, .f32⟩
  | .hbm, ⟨61, _⟩ => ⟨S10000x64, .f32⟩
  | .hbm, ⟨62, _⟩ => ⟨S10000x64, .f32⟩
  | .hbm, ⟨63, _⟩ => ⟨S_, .f32⟩
  | .hbm, ⟨64, _⟩ => ⟨S10000x64, .f32⟩
  | .hbm, ⟨65, _⟩ => ⟨S10000x64, .f32⟩
  | .hbm, ⟨66, _⟩ => ⟨S10000x128, .f32⟩
  | .hbm, ⟨67, _⟩ => ⟨S10000x128, .f32⟩
  | .hbm, ⟨68, _⟩ => ⟨S1x128, .f32⟩
  | .hbm, ⟨69, _⟩ => ⟨S10000x128, .f32⟩
  | .hbm, ⟨70, _⟩ => ⟨S10000x128, .f32⟩
  | .hbm, ⟨71, _⟩ => ⟨S_, .f32⟩
  | .hbm, ⟨72, _⟩ => ⟨S10000x128, .f32⟩
  | .hbm, ⟨73, _⟩ => ⟨S10000x128, .f32⟩
  | .hbm, ⟨74, _⟩ => ⟨S10000x64, .f32⟩
  | .hbm, ⟨75, _⟩ => ⟨S10000x64, .f32⟩
  | .hbm, ⟨76, _⟩ => ⟨S1x64, .f32⟩
  | .hbm, ⟨77, _⟩ => ⟨S10000x64, .f32⟩
  | .hbm, ⟨78, _⟩ => ⟨S10000x64, .f32⟩
  | .hbm, ⟨79, _⟩ => ⟨S_, .f32⟩
  | .hbm, ⟨80, _⟩ => ⟨S10000x64, .f32⟩
  | .hbm, ⟨81, _⟩ => ⟨S10000x64, .f32⟩
  | .hbm, ⟨82, _⟩ => ⟨S64x10000, .f32⟩
  | .hbm, ⟨83, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_call0_cst : Ref sig .tc := ⟨.hbm, 23, rfl⟩
abbrev main_call0_v0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_call1_cst : Ref sig .tc := ⟨.hbm, 31, rfl⟩
abbrev main_call1_v0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_call2_cst : Ref sig .tc := ⟨.hbm, 39, rfl⟩
abbrev main_call2_v0 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_call3_cst : Ref sig .tc := ⟨.hbm, 47, rfl⟩
abbrev main_call3_v0 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_call4_cst : Ref sig .tc := ⟨.hbm, 55, rfl⟩
abbrev main_call4_v0 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_call5_cst : Ref sig .tc := ⟨.hbm, 63, rfl⟩
abbrev main_call5_v0 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_call6_cst : Ref sig .tc := ⟨.hbm, 71, rfl⟩
abbrev main_call6_v0 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_call7_cst : Ref sig .tc := ⟨.hbm, 79, rfl⟩
abbrev main_call7_v0 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  transposes_S10000x64_S64x10000_1_0 : S10000x64.Transposes [1, 0] S64x10000
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x64_S10000x64_1_0_0_1_n_n_wf : DotDims.WF S10000x64 S64x64 S10000x64 [1] [0] [0] [1] [] []
  dot_S10000x64_S64x128_S10000x128_1_0_0_1_n_n_wf : DotDims.WF S10000x64 S64x128 S10000x128 [1] [0] [0] [1] [] []
  dot_S10000x10000_S10000x128_S10000x128_1_0_0_1_n_n_wf : DotDims.WF S10000x10000 S10000x128 S10000x128 [1] [0] [0] [1] [] []
  dot_S10000x64_S64x10000_S10000x10000_1_0_0_1_n_n_wf : DotDims.WF S10000x64 S64x10000 S10000x10000 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x64_S64x10000_S10000x10000_1_0_0_1_n_n : DotDims S10000x64 S64x10000 S10000x10000 where
  lhsContracting := [1]
  rhsContracting := [0]
  lhsNonContracting := [0]
  rhsNonContracting := [1]
  lhsBatch := []
  rhsBatch := []
  wf := dot_S10000x64_S64x10000_S10000x10000_1_0_0_1_n_n_wf

class Facts : Prop extends Facts₀ where

variable [Facts]
-- ==== Proof.Region0.lean ====
import proofs.«168842_g31997506355971_cont_9to1_2144_8_alg».proof.Proof.Gen.KernelIdeal.Launch
import proofs.«168842_g31997506355971_cont_9to1_2144_8_alg».proof.Proof.Gen.KernelIdeal.Skeleton
import proofs.«168842_g31997506355971_cont_9to1_2144_8_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the body `cc0__mm_kern` at the region-entry contents `V`

One grid point multiplies a block of 2000 rows of the features by the first weight matrix: windows 0 (the row block)
and 1 (the resident weights) are read, window 2 is written whole. -/

/-- The block of window `w` at grid point `t`: the window's array, as the region finds it, read through the
    block's view. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every grid point, whether the block was moved in
    at that point or stayed from an earlier one: the body leaves it in place and an unmoved block index means the
    same block. Stated for any proof data over `V`'s array that leaves the block as found. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds the window's block at every grid point, whether the block was moved in
    at that point or stayed from an earlier one: the body leaves it in place and an unmoved block index means the
    same block. Stated for any proof data over `V`'s array that leaves the block as found. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: every one a whole staging buffer -/

abbrev r0_0 : Rect S2000x128 := Rect.unit (s := S2000x128) ![0, 0] S2000x128.size inb_S2000x128_S2000x128_0_0
abbrev r0_1 : Rect S128x64 := Rect.unit (s := S128x64) ![0, 0] S128x64.size inb_S128x64_S128x64_0_0
abbrev r0_2 : Rect S2000x64 := Rect.unit (s := S2000x64) ![0, 0] S2000x64.size inb_S2000x64_S2000x64_0_0

/-- A single write through the whole-buffer rectangle reaches every index of the buffer. -/
theorem coverWhole0 {S : Shape} {e : EltTy} {off : Fin S.rank → Nat} (h : off = fun _ => 0) (inb : ∀ a, off a + S.size a ≤ S.size a)
    (p : S.Idx → Elt F e) (y : S.Idx) :
    ∃ pc ∈ ([⟨Rect.unit off S.size inb, p⟩] : List (View.Piece (Elt F) S e)), y ∈ pc.1.set := by
  subst h
  exact ⟨_, List.mem_singleton_self _, by show y ∈ (Rect.whole S).set; rw [Rect.set_whole]; exact Finset.mem_univ y⟩

theorem zeroOff0 : (![0, 0] : Fin 2 → Nat) = fun _ => 0 := by
  funext a; fin_cases a <;> rfl

/-! ## What the body leaves in each output buffer -/

/-- Output window 2's staging buffer after the body, as a function of the input blocks: the one whole-buffer
    store's value laid over the buffer. -/
def out0_2 (x0 : Vec F S2000x128 .f32) (x1 : Vec F S128x64 .f32) : Vec F S2000x64 .f32 :=
  View.canon [⟨r0_2, k0_pay1 (View.ld x0 r0_0) (View.ld x1 r0_1)⟩]

theorem cover0_2 (p0 : Vec F S2000x64 .f32) (y : S2000x64.Idx) :
    ∃ pc ∈ ([⟨r0_2, p0⟩] : List (View.Piece (Elt F) S2000x64 .f32)), y ∈ pc.1.set :=
  coverWhole0 zeroOff0 inb_S2000x64_S2000x64_0_0 p0 y

/-! ## The body's triple -/

set_option maxHeartbeats 1000000 in
/-- The body on whole staging buffers — the inputs' holding `x`, the outputs' holding anything — runs to a state where
    the inputs' are unchanged and each output's holds `out0_w` of the inputs. The body also reads each output buffer
    before writing it; that value is not used. -/
theorem sound_kernel0 (c : Dev nD) (E : Set ℕ) (i : grid0.Coords) (arg1 : Memref sig .tc .vmem S2000x128 .f32) (harg1 : arg1.IsWhole) (arg2 : Memref sig .tc .vmem S128x64 .f32) (harg2 : arg2.IsWhole) (arg3 : Memref sig .tc .vmem S2000x64 .f32) (harg3 : arg3.IsWhole)
    (x0 : Vec F S2000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__mm_kern i arg1 harg1 arg2 harg2 arg3 harg3) K := by
  simp only [cc0__mm_kern_eq_skeleton]; unfold cc0__mm_kern_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this region on core `c`: the arrays as the region finds them; after the body at a point each
    input's buffer still holds its block and each output's holds `out0_w` of the input blocks; the invariant is the
    untouched remainder of the core's state; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is entered with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: every input buffer holds its block, so the triple above applies; the invariant and what is
    owed pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline's proof data, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1.lean ====
import proofs.«168842_g31997506355971_cont_9to1_2144_8_alg».proof.Proof.Gen.KernelIdeal.Launch
import proofs.«168842_g31997506355971_cont_9to1_2144_8_alg».proof.Proof.Gen.KernelIdeal.Skeleton
import proofs.«168842_g31997506355971_cont_9to1_2144_8_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the body `cc1__pass1_kern` at the region-entry contents `V`

One grid point rounds a block of 400 rows of the adjacency to the narrow format and computes
`max(adj_block · S + bias, 0)` times the next layer's weights: windows 0 (the adjacency block), 1 (the resident right
operand), 2 (the bias row) and 3 (the next weights) are read; window 4 receives the rounded block and window 5 the
rounded product, each written whole. -/

/-- The block of window `w` at grid point `t`: the window's array, as the region finds it, read through the
    block's view. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every grid point, whether the block was moved in
    at that point or stayed from an earlier one: the body leaves it in place and an unmoved block index means the
    same block. Stated for any proof data over `V`'s array that leaves the block as found. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block at every grid point, whether the block was moved in
    at that point or stayed from an earlier one: the body leaves it in place and an unmoved block index means the
    same block. Stated for any proof data over `V`'s array that leaves the block as found. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block at every grid point, whether the block was moved in
    at that point or stayed from an earlier one: the body leaves it in place and an unmoved block index means the
    same block. Stated for any proof data over `V`'s array that leaves the block as found. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block at every grid point, whether the block was moved in
    at that point or stayed from an earlier one: the body leaves it in place and an unmoved block index means the
    same block. Stated for any proof data over `V`'s array that leaves the block as found. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: every one a whole staging buffer -/

abbrev r1_0 : Rect S400x10000 := Rect.unit (s := S400x10000) ![0, 0] S400x10000.size inb_S400x10000_S400x10000_0_0
abbrev r1_1 : Rect S10000x64 := Rect.unit (s := S10000x64) ![0, 0] S10000x64.size inb_S10000x64_S10000x64_0_0
abbrev r1_2 : Rect S1x64 := Rect.unit (s := S1x64) ![0, 0] S1x64.size inb_S1x64_S1x64_0_0
abbrev r1_3 : Rect S64x128 := Rect.unit (s := S64x128) ![0, 0] S64x128.size inb_S64x128_S64x128_0_0
abbrev r1_4 : Rect S400x10000 := Rect.unit (s := S400x10000) ![0, 0] S400x10000.size inb_S400x10000_S400x10000_0_0
abbrev r1_5 : Rect S400x128 := Rect.unit (s := S400x128) ![0, 0] S400x128.size inb_S400x128_S400x128_0_0

/-- A single write through the whole-buffer rectangle reaches every index of the buffer. -/
theorem coverWhole1 {S : Shape} {e : EltTy} {off : Fin S.rank → Nat} (h : off = fun _ => 0) (inb : ∀ a, off a + S.size a ≤ S.size a)
    (p : S.Idx → Elt F e) (y : S.Idx) :
    ∃ pc ∈ ([⟨Rect.unit off S.size inb, p⟩] : List (View.Piece (Elt F) S e)), y ∈ pc.1.set := by
  subst h
  exact ⟨_, List.mem_singleton_self _, by show y ∈ (Rect.whole S).set; rw [Rect.set_whole]; exact Finset.mem_univ y⟩

theorem zeroOff1 : (![0, 0] : Fin 2 → Nat) = fun _ => 0 := by
  funext a; fin_cases a <;> rfl

/-! ## What the body leaves in each output buffer -/

/-- Output window 4's staging buffer after the body, as a function of the input blocks: the one whole-buffer
    store's value laid over the buffer. -/
def out1_4 (x0 : Vec F S400x10000 .f32) (x1 : Vec F S10000x64 .f32) (x2 : Vec F S1x64 .f32) (x3 : Vec F S64x128 .f32) : Vec F S400x10000 .bf16 :=
  View.canon [⟨r1_4, k1_pay1 (View.ld x0 r1_0)⟩]

theorem cover1_4 (p0 : Vec F S400x10000 .bf16) (y : S400x10000.Idx) :
    ∃ pc ∈ ([⟨r1_4, p0⟩] : List (View.Piece (Elt F) S400x10000 .bf16)), y ∈ pc.1.set :=
  coverWhole1 zeroOff1 inb_S400x10000_S400x10000_0_0 p0 y

/-- Output window 5's staging buffer after the body, as a function of the input blocks: the one whole-buffer
    store's value laid over the buffer. -/
def out1_5 (x0 : Vec F S400x10000 .f32) (x1 : Vec F S10000x64 .f32) (x2 : Vec F S1x64 .f32) (x3 : Vec F S64x128 .f32) : Vec F S400x128 .bf16 :=
  View.canon [⟨r1_5, k1_pay2 (View.ld x0 r1_0) (View.ld x1 r1_1) (View.ld x2 r1_2) (View.ld x3 r1_3)⟩]

theorem cover1_5 (p0 : Vec F S400x128 .bf16) (y : S400x128.Idx) :
    ∃ pc ∈ ([⟨r1_5, p0⟩] : List (View.Piece (Elt F) S400x128 .bf16)), y ∈ pc.1.set :=
  coverWhole1 zeroOff1 inb_S400x128_S400x128_0_0 p0 y

/-! ## The body's triple -/

set_option maxHeartbeats 1000000 in
/-- The body on whole staging buffers — the inputs' holding `x`, the outputs' holding anything — runs to a state where
    the inputs' are unchanged and each output's holds `out1_w` of the inputs. The body also reads each output buffer
    before writing it; that value is not used. -/
theorem sound_kernel1 (c : Dev nD) (E : Set ℕ) (i : grid1.Coords) (arg1 : Memref sig .tc .vmem S400x10000 .f32) (harg1 : arg1.IsWhole) (arg2 : Memref sig .tc .vmem S10000x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S400x10000 .bf16) (harg5 : arg5.IsWhole) (arg6 : Memref sig .tc .vmem S400x128 .bf16) (harg6 : arg6.IsWhole)
    (x0 : Vec F S400x10000 .f32) (x1 : Vec F S10000x64 .f32) (x2 : Vec F S1x64 .f32) (x3 : Vec F S64x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3) ∗ owns (c : Thread nD τ) arg6 fullShare (out1_5 x0 x1 x2 x3)) -∗ K ⟨⟩))
      ⊢ wp frame (wpE (defs₀ (F := F)) Variants.none c none) E (cc1__pass1_kern i arg1 harg1 arg2 harg2 arg3 harg3 arg4 harg4 arg5 harg5 arg6 harg6) K := by
  simp only [cc1__pass1_kern_eq_skeleton]; unfold cc1__pass1_kern_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-! ## The pipeline's proof data -/

/-- The proof data of this region on core `c`: the arrays as the region finds them; after the body at a point each
    input's buffer still holds its block and each output's holds `out1_w` of the input blocks; the invariant is the
    untouched remainder of the core's state; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is entered with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: every input buffer holds its block, so the triple above applies; the invariant and what is
    owed pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline's proof data, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Region2.lean ====
import proofs.«168842_g31997506355971_cont_9to1_2144_8_alg».proof.Proof.Gen.KernelIdeal.Launch
import proofs.«168842_g31997506355971_cont_9to1_2144_8_alg».proof.Proof.Gen.KernelIdeal.Skeleton
import proofs.«168842_g31997506355971_cont_9to1_2144_8_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the body `cc2__pass_hs_kern` at the region-entry contents `V`

One grid point computes `h = max(adj_block · S + bias, 0)` for a block of 1000 rows and multiplies `h` by the next
layer's weights: windows 0 (the adjacency block), 1 (the resident right operand), 2 (the bias row) and 3 (the next
weights) are read; window 4 receives `h` and window 5 the rounded product, each written whole. -/

/-- The block of window `w` at grid point `t`: the window's array, as the region finds it, read through the
    block's view. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every grid point, whether the block was moved in
    at that point or stayed from an earlier one: the body leaves it in place and an unmoved block index means the
    same block. Stated for any proof data over `V`'s array that leaves the block as found. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds the window's block at every grid point, whether the block was moved in
    at that point or stayed from an earlier one: the body leaves it in place and an unmoved block index means the
    same block. Stated for any proof data over `V`'s array that leaves the block as found. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds the window's block at every grid point, whether the block was moved in
    at that point or stayed from an earlier one: the body leaves it in place and an unmoved block index means the
    same block. Stated for any proof data over `V`'s array that leaves the block as found. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds the window's block at every grid point, whether the block was moved in
    at that point or stayed from an earlier one: the body leaves it in place and an unmoved block index means the
    same block. Stated for any proof data over `V`'s array that leaves the block as found. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: every one a whole staging buffer -/

abbrev r2_0 : Rect S1000x10000 := Rect.unit (s := S1000x10000) ![0, 0] S1000x10000.size inb_S1000x10000_S1000x10000_0_0
abbrev r2_1 : Rect S10000x128 := Rect.unit (s := S10000x128) ![0, 0] S10000x128.size inb_S10000x128_S10000x128_0_0
abbrev r2_2 : Rect S1x128 := Rect.unit (s := S1x128) ![0, 0] S1x128.size inb_S1x128_S1x128_0_0
abbrev r2_3 : Rect S128x192 := Rect.unit (s := S128x192) ![0, 0] S128x192.size inb_S128x192_S128x192_0_0
abbrev r2_4 : Rect S1000x128 := Rect.unit (s := S1000x128) ![0, 0] S1000x128.size inb_S1000x128_S1000x128_0_0
abbrev r2_5 : Rect S1000x192 := Rect.unit (s := S1000x192) ![0, 0] S1000x192.size inb_S1000x192_S1000x192_0_0

/-- A single write through the whole-buffer rectangle reaches every index of the buffer. -/
theorem coverWhole2 {S : Shape} {e : EltTy} {off : Fin S.rank → Nat} (h : off = fun _ => 0) (inb : ∀ a, off a + S.size a ≤ S.size a)
    (p : S.Idx → Elt F e) (y : S.Idx) :
    ∃ pc ∈ ([⟨Rect.unit off S.size inb, p⟩] : List (View.Piece (Elt F) S e)), y ∈ pc.1.set := by
  subst h
  exact ⟨_, List.mem_singleton_self _, by show y ∈ (Rect.whole S).set; rw [Rect.set_whole]; exact Finset.mem_univ y⟩

theorem zeroOff2 : (![0, 0] : Fin 2 → Nat) = fun _ => 0 := by
  funext a; fin_cases a <;> rfl

/-! ## What the body leaves in each output buffer -/

/-- Output window 4's staging buffer after the body, as a function of the input blocks: the one whole-buffer
    store's value laid over the buffer. -/
def out2_4 (x0 : Vec F S1000x10000 .bf16) (x1 : Vec F S10000x128 .bf16) (x2 : Vec F S1x128 .f32) (x3 : Vec F S128x192 .f32) : Vec F S1000x128 .f32 :=
  View.canon [⟨r2_4, k2_pay1 (View.ld x0 r2_0) (View.ld x1 r2_1) (View.ld x2 r2_2)⟩]

theorem cover2_4 (p0 : Vec F S1000x128 .f32) (y : S1000x128.Idx) :
    ∃ pc ∈ ([⟨r2_4, p0⟩] : List (View.Piece (Elt F) S1000x128 .f32)), y ∈ pc.1.set :=
  coverWhole2 zeroOff2 inb_S1000x128_S1000x128_0_0 p0 y

/-- Output window 5's staging buffer after the body, as a function of the input blocks: the one whole-buffer
    store's value laid over the buffer. -/
def out2_5 (x0 : Vec F S1000x10000 .bf16) (x1 : Vec F S10000x128 .bf16) (x2 : Vec F S1x128 .f32) (x3 : Vec F S128x192 .f32) : Vec F S1000x192 .bf16 :=
  View.canon [⟨r2_5, k2_pay2 (View.ld x0 r2_0) (View.ld x1 r2_1) (View.ld x2 r2_2) (View.ld x3 r2_3)⟩]

theorem cover2_5 (p0 : Vec F S1000x192 .bf16) (y : S1000x192.Idx) :
    ∃ pc ∈ ([⟨r2_5, p0⟩] : List (View.Piece (Elt F) S1000x192 .bf16)), y ∈ pc.1.set :=
  coverWhole2 zeroOff2 inb_S1000x192_S1000x192_0_0 p0 y

/-! ## The body's triple -/

set_option maxHeartbeats 1000000 in
/-- The body on whole staging buffers — the inputs' holding `x`, the outputs' holding anything — runs to a state where
    the inputs' are unchanged and each output's holds `out2_w` of the inputs. The body also reads each output buffer
    before writing it; that value is not used. -/
theorem sound_kernel2 (c : Dev nD) (E : Set ℕ) (i : grid2.Coords) (arg1 : Memref sig .tc .vmem S1000x10000 .bf16) (harg1 : arg1.IsWhole) (arg2 : Memref sig .tc .vmem S10000x128 .bf16) (harg2 : arg2.IsWhole) (arg3 : Memref sig .tc .vmem S1x128 .f32) (harg3 : arg3.IsWhole) (arg4 : Memref sig .tc .vmem S128x192 .f32) (harg4 : arg4.IsWhole) (arg5 : Memref sig .tc .vmem S1000x128 .f32) (harg5 : arg5.IsWhole) (arg6 : Memref sig .tc .vmem S1000x192 .bf16) (harg6 : arg6.IsWhole)
    (x0 : Vec F S1000x10000 .bf16) (x1 : Vec F S10000x128 .bf16) (x2 : Vec F S1x128 .f32) (x3 : Vec F S128x192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3) ∗ owns (c : Thread nD τ) arg6 fullShare (out2_5 x0 x1 x2 x3)) -∗ K ⟨⟩))
      ⊢ wp frame (wpE (defs₀ (F := F)) Variants.none c none) E (cc2__pass_hs_kern i arg1 harg1 arg2 harg2 arg3 harg3 arg4 harg4 arg5 harg5 arg6 harg6) K := by
  simp only [cc2__pass_hs_kern_eq_skeleton]; unfold cc2__pass_hs_kern_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  iexists _; isplitr
  swap; · iexact H5
  ipureintro
  exact View.read_writes_eq_canon _ _ _ (cover2_5 _)

/-! ## The pipeline's proof data -/

/-- The proof data of this region on core `c`: the arrays as the region finds them; after the body at a point each
    input's buffer still holds its block and each output's holds `out2_w` of the input blocks; the invariant is the
    untouched remainder of the core's state; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

/-- What the body is entered with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: every input buffer holds its block, so the triple above applies; the invariant and what is
    owed pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline's proof data, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Region3.lean ====
import proofs.«168842_g31997506355971_cont_9to1_2144_8_alg».proof.Proof.Gen.KernelIdeal.Launch
import proofs.«168842_g31997506355971_cont_9to1_2144_8_alg».proof.Proof.Gen.KernelIdeal.Skeleton
import proofs.«168842_g31997506355971_cont_9to1_2144_8_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: the body `cc3__pass_hs128_kern` at the region-entry contents `V`

One grid point computes `h = max(adj_block · S + bias, 0)` for a block of 1000 rows and multiplies the first 128
columns of `h` by the next layer's weights: windows 0 (the adjacency block), 1 (the resident right operand), 2 (the
bias row) and 3 (the next weights) are read; window 4 receives `h` and window 5 the rounded product, each written whole. -/

/-- The block of window `w` at grid point `t`: the window's array, as the region finds it, read through the
    block's view. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds the window's block at every grid point, whether the block was moved in
    at that point or stayed from an earlier one: the body leaves it in place and an unmoved block index means the
    same block. Stated for any proof data over `V`'s array that leaves the block as found. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds the window's block at every grid point, whether the block was moved in
    at that point or stayed from an earlier one: the body leaves it in place and an unmoved block index means the
    same block. Stated for any proof data over `V`'s array that leaves the block as found. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds the window's block at every grid point, whether the block was moved in
    at that point or stayed from an earlier one: the body leaves it in place and an unmoved block index means the
    same block. Stated for any proof data over `V`'s array that leaves the block as found. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds the window's block at every grid point, whether the block was moved in
    at that point or stayed from an earlier one: the body leaves it in place and an unmoved block index means the
    same block. Stated for any proof data over `V`'s array that leaves the block as found. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes: every one a whole staging buffer -/

abbrev r3_0 : Rect S1000x10000 := Rect.unit (s := S1000x10000) ![0, 0] S1000x10000.size inb_S1000x10000_S1000x10000_0_0
abbrev r3_1 : Rect S10000x192 := Rect.unit (s := S10000x192) ![0, 0] S10000x192.size inb_S10000x192_S10000x192_0_0
abbrev r3_2 : Rect S1x192 := Rect.unit (s := S1x192) ![0, 0] S1x192.size inb_S1x192_S1x192_0_0
abbrev r3_3 : Rect S128x256 := Rect.unit (s := S128x256) ![0, 0] S128x256.size inb_S128x256_S128x256_0_0
abbrev r3_4 : Rect S1000x192 := Rect.unit (s := S1000x192) ![0, 0] S1000x192.size inb_S1000x192_S1000x192_0_0
abbrev r3_5 : Rect S1000x256 := Rect.unit (s := S1000x256) ![0, 0] S1000x256.size inb_S1000x256_S1000x256_0_0

/-- A single write through the whole-buffer rectangle reaches every index of the buffer. -/
theorem coverWhole3 {S : Shape} {e : EltTy} {off : Fin S.rank → Nat} (h : off = fun _ => 0) (inb : ∀ a, off a + S.size a ≤ S.size a)
    (p : S.Idx → Elt F e) (y : S.Idx) :
    ∃ pc ∈ ([⟨Rect.unit off S.size inb, p⟩] : List (View.Piece (Elt F) S e)), y ∈ pc.1.set := by
  subst h
  exact ⟨_, List.mem_singleton_self _, by show y ∈ (Rect.whole S).set; rw [Rect.set_whole]; exact Finset.mem_univ y⟩

theorem zeroOff3 : (![0, 0] : Fin 2 → Nat) = fun _ => 0 := by
  funext a; fin_cases a <;> rfl

/-! ## What the body leaves in each output buffer -/

/-- Output window 4's staging buffer after the body, as a function of the input blocks: the one whole-buffer
    store's value laid over the buffer. -/
def out3_4 (x0 : Vec F S1000x10000 .bf16) (x1 : Vec F S10000x192 .bf16) (x2 : Vec F S1x192 .f32) (x3 : Vec F S128x256 .f32) : Vec F S1000x192 .f32 :=
  View.canon [⟨r3_4, k3_pay1 (View.ld x0 r3_0) (View.ld x1 r3_1) (View.ld x2 r3_2)⟩]

theorem cover3_4 (p0 : Vec F S1000x192 .f32) (y : S1000x192.Idx) :
    ∃ pc ∈ ([⟨r3_4, p0⟩] : List (View.Piece (Elt F) S1000x192 .f32)), y ∈ pc.1.set :=
  coverWhole3 zeroOff3 inb_S1000x192_S1000x192_0_0 p0 y

/-- Output window 5's staging buffer after the body, as a function of the input blocks: the one whole-buffer
    store's value laid over the buffer. -/
def out3_5 (x0 : Vec F S1000x10000 .bf16) (x1 : Vec F S10000x192 .bf16) (x2 : Vec F S1x192 .f32) (x3 : Vec F S128x256 .f32) : Vec F S1000x256 .bf16 :=
  View.canon [⟨r3_5, k3_pay2 (View.ld x0 r3_0) (View.ld x1 r3_1) (View.ld x2 r3_2) (View.ld x3 r3_3)⟩]

theorem cover3_5 (p0 : Vec F S1000x256 .bf16) (y : S1000x256.Idx) :
    ∃ pc ∈ ([⟨r3_5, p0⟩] : List (View.Piece (Elt F) S1000x256 .bf16)), y ∈ pc.1.set :=
  coverWhole3 zeroOff3 inb_S1000x256_S1000x256_0_0 p0 y

/-! ## The body's triple -/

set_option maxHeartbeats 1000000 in
/-- The body on whole staging buffers — the inputs' holding `x`, the outputs' holding anything — runs to a state where
    the inputs' are unchanged and each output's holds `out3_w` of the inputs. The body also reads each output buffer
    before writing it; that value is not used. -/
theorem sound_kernel3 (c : Dev nD) (E : Set ℕ) (i : grid3.Coords) (arg1 : Memref sig .tc .vmem S1000x10000 .bf16) (harg1 : arg1.IsWhole) (arg2 : Memref sig .tc .vmem S10000x192 .bf16) (harg2 : arg2.IsWhole) (arg3 : Memref sig .tc .vmem S1x192 .f32) (harg3 : arg3.IsWhole) (arg4 : Memref sig .tc .vmem S128x256 .f32) (harg4 : arg4.IsWhole) (arg5 : Memref sig .tc .vmem S1000x192 .f32) (harg5 : arg5.IsWhole) (arg6 : Memref sig .tc .vmem S1000x256 .bf16) (harg6 : arg6.IsWhole)
    (x0 : Vec F S1000x10000 .bf16) (x1 : Vec F S10000x192 .bf16) (x2 : Vec F S1x192 .f32) (x3 : Vec F S128x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3) ∗ owns (c : Thread nD τ) arg6 fullShare (out3_5 x0 x1 x2 x3)) -∗ K ⟨⟩))
      ⊢ wp frame (wpE (defs₀ (F := F)) Variants.none c none) E (cc3__pass_hs128_kern i arg1 harg1 arg2 harg2 arg3 harg3 arg4 harg4 arg5 harg5 arg6 harg6) K := by
  simp only [cc3__pass_hs128_kern_eq_skeleton]; unfold cc3__pass_hs128_kern_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover3_4 _)
  iexists _; isplitr
  swap; · iexact H5
  ipureintro
  exact View.read_writes_eq_canon _ _ _ (cover3_5 _)

/-! ## The pipeline's proof data -/

/-- The proof data of this region on core `c`: the arrays as the region finds them; after the body at a point each
    input's buffer still holds its block and each output's holds `out3_w` of the input blocks; the invariant is the
    untouched remainder of the core's state; full shares; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
    | ⟨5, _⟩ => out3_5 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]
theorem after3_5 (c : Dev nD) (t : Fin cfg3.N) : (dat3 V c).after 5 t = out3_5 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation -/

/-- What the body is entered with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: every input buffer holds its block, so the triple above applies; the invariant and what is
    owed pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline's proof data, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.Region4.lean ====
import proofs.«168842_g31997506355971_cont_9to1_2144_8_alg».proof.Proof.Gen.KernelIdeal.Launch
import proofs.«168842_g31997506355971_cont_9to1_2144_8_alg».proof.Proof.Gen.KernelIdeal.Skeleton
import proofs.«168842_g31997506355971_cont_9to1_2144_8_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: the body `cc4__pass_h_kern` at the region-entry contents `V`

One grid point computes `max(adj_block · S + bias, 0)` for a block of 1000 rows: windows 0 (the adjacency block), 1 (the
resident right operand) and 2 (the bias row) are read, window 3 is written whole. -/

/-- The block of window `w` at grid point `t`: the window's array, as the region finds it, read through the
    block's view. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds the window's block at every grid point, whether the block was moved in
    at that point or stayed from an earlier one: the body leaves it in place and an unmoved block index means the
    same block. Stated for any proof data over `V`'s array that leaves the block as found. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds the window's block at every grid point, whether the block was moved in
    at that point or stayed from an earlier one: the body leaves it in place and an unmoved block index means the
    same block. Stated for any proof data over `V`'s array that leaves the block as found. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds the window's block at every grid point, whether the block was moved in
    at that point or stayed from an earlier one: the body leaves it in place and an unmoved block index means the
    same block. Stated for any proof data over `V`'s array that leaves the block as found. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The rectangles the body reads and writes: every one a whole staging buffer -/

abbrev r4_0 : Rect S1000x10000 := Rect.unit (s := S1000x10000) ![0, 0] S1000x10000.size inb_S1000x10000_S1000x10000_0_0
abbrev r4_1 : Rect S10000x256 := Rect.unit (s := S10000x256) ![0, 0] S10000x256.size inb_S10000x256_S10000x256_0_0
abbrev r4_2 : Rect S1x256 := Rect.unit (s := S1x256) ![0, 0] S1x256.size inb_S1x256_S1x256_0_0
abbrev r4_3 : Rect S1000x256 := Rect.unit (s := S1000x256) ![0, 0] S1000x256.size inb_S1000x256_S1000x256_0_0

/-- A single write through the whole-buffer rectangle reaches every index of the buffer. -/
theorem coverWhole4 {S : Shape} {e : EltTy} {off : Fin S.rank → Nat} (h : off = fun _ => 0) (inb : ∀ a, off a + S.size a ≤ S.size a)
    (p : S.Idx → Elt F e) (y : S.Idx) :
    ∃ pc ∈ ([⟨Rect.unit off S.size inb, p⟩] : List (View.Piece (Elt F) S e)), y ∈ pc.1.set := by
  subst h
  exact ⟨_, List.mem_singleton_self _, by show y ∈ (Rect.whole S).set; rw [Rect.set_whole]; exact Finset.mem_univ y⟩

theorem zeroOff4 : (![0, 0] : Fin 2 → Nat) = fun _ => 0 := by
  funext a; fin_cases a <;> rfl

/-! ## What the body leaves in each output buffer -/

/-- Output window 3's staging buffer after the body, as a function of the input blocks: the one whole-buffer
    store's value laid over the buffer. -/
def out4_3 (x0 : Vec F S1000x10000 .bf16) (x1 : Vec F S10000x256 .bf16) (x2 : Vec F S1x256 .f32) : Vec F S1000x256 .f32 :=
  View.canon [⟨r4_3, k4_pay1 (View.ld x0 r4_0) (View.ld x1 r4_1) (View.ld x2 r4_2)⟩]

theorem cover4_3 (p0 : Vec F S1000x256 .f32) (y : S1000x256.Idx) :
    ∃ pc ∈ ([⟨r4_3, p0⟩] : List (View.Piece (Elt F) S1000x256 .f32)), y ∈ pc.1.set :=
  coverWhole4 zeroOff4 inb_S1000x256_S1000x256_0_0 p0 y

/-! ## The body's triple -/

set_option maxHeartbeats 1000000 in
/-- The body on whole staging buffers — the inputs' holding `x`, the outputs' holding anything — runs to a state where
    the inputs' are unchanged and each output's holds `out4_w` of the inputs. The body also reads each output buffer
    before writing it; that value is not used. -/
theorem sound_kernel4 (c : Dev nD) (E : Set ℕ) (i : grid4.Coords) (arg1 : Memref sig .tc .vmem S1000x10000 .bf16) (harg1 : arg1.IsWhole) (arg2 : Memref sig .tc .vmem S10000x256 .bf16) (harg2 : arg2.IsWhole) (arg3 : Memref sig .tc .vmem S1x256 .f32) (harg3 : arg3.IsWhole) (arg4 : Memref sig .tc .vmem S1000x256 .f32) (harg4 : arg4.IsWhole)
    (x0 : Vec F S1000x10000 .bf16) (x1 : Vec F S10000x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__pass_h_kern i arg1 harg1 arg2 harg2 arg3 harg3 arg4 harg4) K := by
  simp only [cc4__pass_h_kern_eq_skeleton]; unfold cc4__pass_h_kern_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of this region on core `c`: the arrays as the region finds them; after the body at a point each
    input's buffer still holds its block and each output's holds `out4_w` of the input blocks; the invariant is the
    untouched remainder of the core's state; full shares; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation -/

/-- What the body is entered with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it leaves. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: every input buffer holds its block, so the triple above applies; the invariant and what is
    owed pass through untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline's proof data, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.Region5.lean ====
import proofs.«168842_g31997506355971_cont_9to1_2144_8_alg».proof.Proof.Gen.KernelIdeal.Launch
import proofs.«168842_g31997506355971_cont_9to1_2144_8_alg».proof.Proof.Gen.KernelIdeal.Skeleton
import proofs.«168842_g31997506355971_cont_9to1_2144_8_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The shared array, dealt between the two windows that read it

The library's entry and exit lemmas for a region's arrays take the windows' arrays to be pairwise distinct buffers.
Here windows 0 and 1 are the same buffer. What replaces them: the buffers behind the windows' arrays are the two
buffers `main_v21` (read) and `main_v22` (written); a points-to at the full share is the two points-tos at its left and
right halves; so the two buffers whole, at the contents `W`, ARE the three windows' arrays of any proof data that
holds window 0's at the left half and window 1's at the right half, at those contents — in both directions. -/

/-- The buffers behind the three windows' arrays are two: the shared input array and the output array. -/
theorem arrImage5 : (Finset.univ.image (Pipeline.arrRef spec5) : Finset (Ref sig .tc)) = {main_v21, main_v22} := by decide

theorem v21_ne_v22 : (main_v21 : Ref sig .tc) ≠ main_v22 := by decide

section Deal
variable {c : Dev nD} (dat : Dat τ (Elt F) Unit ℕ (UR sig nD τ) ℕ cfg5 c)

/-- The shares the proof data hold the three arrays at: the inputs' their own, the output's full. -/
theorem share5_0 (hq : dat.q 0 = fullShare.left) : dat.share 0 = fullShare.left := by
  unfold Dat.share; exact hq
theorem share5_1 (hq : dat.q 1 = fullShare.right) : dat.share 1 = fullShare.right := by
  unfold Dat.share; exact hq
theorem share5_2 : dat.share 2 = fullShare := by
  unfold Dat.share; rfl

/-- The two buffers whole at contents `W` are the three windows' arrays at contents `G` that read `W`: the shared
    buffer's full share is the left half (window 0's) beside the right half (window 1's). -/
theorem arrays5_iff (W : (b : Ref sig .tc) → Buf (Elt F) ((c : Thread nD τ).loc b))
    (hq0 : dat.q 0 = fullShare.left) (hq1 : dat.q 1 = fullShare.right)
    (G : (w : Fin cfg5.W) → Buf (Elt F) ((cfg5.win w).arr.view.loc (c : Thread nD τ)))
    (hG : ∀ w, G w = W (Pipeline.arrRef spec5 w)) :
    (Pipeline.arrBufs spec5 c W : sProp 𝕄) ⊣⊢ dat.arrays G := by
  have e0 : ((cfg5.win 0).arr.view.loc (c : Thread nD τ) ↦[(cfg5.win 0).arr.view.set]{dat.share 0} G 0 : sProp 𝕄)
      = ((c : Thread nD τ).loc main_v21 ↦{fullShare.left} W main_v21) := by
    rw [(arr_whole5 0).set_eq_univ, share5_0 dat hq0, hG 0]
  have e1 : ((cfg5.win 1).arr.view.loc (c : Thread nD τ) ↦[(cfg5.win 1).arr.view.set]{dat.share 1} G 1 : sProp 𝕄)
      = ((c : Thread nD τ).loc main_v21 ↦{fullShare.right} W main_v21) := by
    rw [(arr_whole5 1).set_eq_univ, share5_1 dat hq1, hG 1]
  have e2 : ((cfg5.win 2).arr.view.loc (c : Thread nD τ) ↦[(cfg5.win 2).arr.view.set]{dat.share 2} G 2 : sProp 𝕄)
      = ((c : Thread nD τ).loc main_v22 ↦{fullShare} W main_v22) := by
    rw [(arr_whole5 2).set_eq_univ, share5_2 dat, hG 2]
  have eb : (Pipeline.arrBufs spec5 c W : sProp 𝕄)
      = iprop(((c : Thread nD τ).loc main_v21 ↦{fullShare} W main_v21) ∗ ((c : Thread nD τ).loc main_v22 ↦{fullShare} W main_v22)) := by
    unfold Pipeline.arrBufs
    rw [arrImage5, BI.bigSep_insert (by rw [Finset.mem_singleton]; exact v21_ne_v22), BI.bigSep_singleton]; rfl
  rw [eb]
  unfold Dat.arrays
  rw [bigSep_W5, e0, e1, e2]
  constructor
  · iintro ⟨Ha, Hb⟩
    ihave Ha := (pointsTo_share (PosShare.mem_left_op_right fullShare)).1 $$ Ha
    icases Ha with ⟨Hl, Hr⟩
    isplitl [Hl]; · iexact Hl
    isplitl [Hr]; · iexact Hr
    iexact Hb
  · iintro ⟨Hl, Hr, Hb⟩
    isplitr [Hb]
    · iapply (pointsTo_share (PosShare.mem_left_op_right fullShare)).2; isplitl [Hl]; · iexact Hl
      iexact Hr
    iexact Hb

/-- A core's unscoped buffers are the two buffers behind the windows' arrays and the rest. -/
theorem unscopedBufs_split5 (W : (b : Ref sig .tc) → Buf (Elt F) ((c : Thread nD τ).loc b)) :
    (unscopedBufs c W : sProp 𝕄) = iprop(Pipeline.arrBufs spec5 c W ∗ Pipeline.unscopedRest spec5 c W) :=
  Pipeline.unscopedBufs_split₀ (fun _ : Unit => cfg5) () winFacts₀5.arr_unscoped c W

end Deal

/-! # REGION 5: the structure kernel, whose two input windows read ONE array

The kernel computes, 400 rows at a time, the product of a block of rows of a matrix with the transpose of the whole
matrix. Both operands are windows on the same array: window 0 takes the block of 400 rows at each point, window 1
the whole array, fetched once; window 2 is the 400-by-10000 block of the product written back at each point.
Because the two input windows read one buffer, the core holds that buffer for them at two complementary shares: the
left half of the full share for window 0 and the right half for window 1. -/

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block of rows at every point (it is fetched at each), for any
    proof data whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds the whole array at every point, though it is fetched at the first only: its
    block index never moves, and the body leaves the buffer as it found it. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer read or written whole -/

abbrev r5_0 : Rect S400x64 := Rect.unit (s := S400x64) ![0, 0] S400x64.size inb_S400x64_S400x64_0_0
abbrev r5_1 : Rect S10000x64 := Rect.unit (s := S10000x64) ![0, 0] S10000x64.size inb_S10000x64_S10000x64_0_0
abbrev r5_2 : Rect S400x10000 := Rect.unit (s := S400x10000) ![0, 0] S400x10000.size inb_S400x10000_S400x10000_0_0

/-! ## What the body leaves in the output window's buffer -/

/-- Window 2's staging buffer after the body, from the two input blocks: its one store, of the product of the block
    of rows with the transpose of the whole array. -/
def out5_2 (x0 : Vec F S400x64 .f32) (x1 : Vec F S10000x64 .f32) : Vec F S400x10000 .f32 :=
  View.canon [⟨r5_2, k5_pay1 (View.ld x0 r5_0) (View.ld x1 r5_1)⟩]

/-- The store's rectangle is the whole buffer, so it covers it. -/
theorem cover5_2 (p0 : Vec F S400x10000 .f32) (y : S400x10000.Idx) :
    ∃ pc ∈ ([⟨r5_2, p0⟩] : List (View.Piece (Elt F) S400x10000 .f32)), y ∈ pc.1.set :=
  View.cover_of_tiled [⟨r5_2, p0⟩] S400x10000.size (by rfl) y

/-! ## The body's triple -/

set_option maxHeartbeats 1000000 in
/-- The kernel body on whole staging memrefs — the inputs' at read contents `x0`, `x1`, the output's at anything (the
    body loads it before it stores to it, and the loaded value is dead) — runs to the continuation holding the inputs'
    as they were and the output's at `out5_2` of the inputs'. -/
theorem sound_kernel5 (c : Dev nD) (E : Set ℕ) (i : grid5.Coords)
    (arg1 : Memref sig .tc .vmem S400x64 .f32) (harg1 : arg1.IsWhole)
    (arg2 : Memref sig .tc .vmem S10000x64 .f32) (harg2 : arg2.IsWhole)
    (arg3 : Memref sig .tc .vmem S400x10000 .f32) (harg3 : arg3.IsWhole)
    (x0 : Vec F S400x64 .f32) (x1 : Vec F S10000x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) E (cc5__struct_kern i arg1 harg1 arg2 harg2 arg3 harg3) K := by
  simp only [cc5__struct_kern_eq_skeleton]; unfold cc5__struct_kern_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of the pipeline on core `c`: the arrays as the region finds them (`V`); after the body at point
    `t` each input's buffer at its block and the output's at `out5_2` of the input blocks; the invariant the scoped
    rest and the generator register, untouched; nothing owed. The shared input array is held at the left half of
    the full share for window 0 and at the right half for window 1. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q w := match w with
    | ⟨0, _⟩ => fullShare.left
    | ⟨1, _⟩ => fullShare.right
    | ⟨2, _⟩ => fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-- The shares the two input windows hold their common array at. -/
theorem q5_0 (c : Dev nD) : (dat5 V c).q 0 = fullShare.left := by dsimp only [dat5]
theorem q5_1 (c : Dev nD) : (dat5 V c).q 1 = fullShare.right := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so the body's triple applies; the invariant and the
    core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## The region's entry and exit: its arrays out of the core's unscoped buffers, and back -/

/-- ENTRY: a core's unscoped buffers at the contents `V c` are the pipeline's arrays at the proof data's entry
    contents — the shared input array dealt to windows 0 and 1 at the two halves of the full share — and the
    unscoped rest. -/
theorem arrays5_of_unscopedBufs (c : Dev nD) :
    (unscopedBufs c (V c) : sProp 𝕄)
      ⊢ iprop((dat5 V c).arrays ((dat5 V c).arrAt · 0) ∗ Pipeline.unscopedRest spec5 c (V c)) := by
  rw [unscopedBufs_split5]
  exact sep_mono (arrays5_iff (dat5 V c) (V c) (q5_0 V c) (q5_1 V c) _ (fun w => A_eq5 V c w)).1 .rfl

/-- EXIT: the pipeline's arrays at their final contents — the input array as it was, its two halves joined; the
    output array as the write-backs left it — and the unscoped rest at `V c` are the core's unscoped buffers at any
    contents `V' c` that have the arrays at their final contents and agree with `V c` off them. -/
theorem unscopedBufs5_of_arrays (c : Dev nD)
    (V' : (c : Dev nD) → (b : Ref sig .tc) → Buf (Elt F) ((c : Thread nD τ).loc b))
    (hF : ∀ w, (dat5 V c).arrAt w cfg5.N = V' c (Pipeline.arrRef spec5 w))
    (hrest : ∀ b, b ∉ Finset.univ.image (Pipeline.arrRef spec5) → V' c b = V c b) :
    iprop((dat5 V c).arrays ((dat5 V c).arrAt · cfg5.N) ∗ Pipeline.unscopedRest spec5 c (V c))
      ⊢ (unscopedBufs c (V' c) : sProp 𝕄) := by
  rw [unscopedBufs_split5]
  refine sep_mono (arrays5_iff (dat5 V c) (V' c) (q5_0 V c) (q5_1 V c) _ hF).2 (Entails.of_eq ?_)
  unfold Pipeline.unscopedRest
  exact bigSep_congr fun b hb => by rw [hrest b (Finset.mem_sdiff.mp hb).2]

/-- The input windows' array is never written: at every point it holds the entry contents. -/
theorem arrAt5_0 (c : Dev nD) (n : ℕ) : (dat5 V c).arrAt 0 n = V c (Pipeline.arrRef spec5 0) :=
  ((dat5 V c).arrAt_in 0 rfl n).trans (A_eq5 V c 0)
theorem arrAt5_1 (c : Dev nD) (n : ℕ) : (dat5 V c).arrAt 1 n = V c (Pipeline.arrRef spec5 1) :=
  ((dat5 V c).arrAt_in 1 rfl n).trans (A_eq5 V c 1)

end Cert.KernelIdeal.Hand

end
-- ==== Proof.Run.lean ====
/-
  The run of the whole program, region by region, at any float instance.

  @main is nine items: a stretch of host operations (the block weights and bias rows), five pipelined matrix passes,
  one host slice, the Gram-matrix pass, four host slices.  Between two items a core's unscoped buffers are held whole
  at known contents: at launch the memory; after a host stretch the stretch's operations applied; after a pass the
  pass's output arrays at what its write-backs leave (the proof data's fold `arrAt` over all grid points) and every
  other buffer as before.  Each pass is entered with its windows' arrays split out of the unscoped buffers and left
  with them put back; the generator register and the core's (empty) debts ride beside the buffers.  The theorem
  `run_all` reads every unscoped buffer of the final state at the last contents `B9`.
-/
import proofs.«168842_g31997506355971_cont_9to1_2144_8_alg».proof.Proof.Gen.KernelIdeal.Regions
import proofs.«168842_g31997506355971_cont_9to1_2144_8_alg».proof.Proof.Region0
import proofs.«168842_g31997506355971_cont_9to1_2144_8_alg».proof.Proof.Region1
import proofs.«168842_g31997506355971_cont_9to1_2144_8_alg».proof.Proof.Region2
import proofs.«168842_g31997506355971_cont_9to1_2144_8_alg».proof.Proof.Region3
import proofs.«168842_g31997506355971_cont_9to1_2144_8_alg».proof.Proof.Region4
import proofs.«168842_g31997506355971_cont_9to1_2144_8_alg».proof.Proof.Region5

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries between items -/

/-- At launch. -/
abbrev B0 : Dev nD → Valuation τ sig (Elt F) := fun c b => (s₀ m ρ).mem ((c : Dev nD), b)
/-- After the first host stretch: the block weights and bias rows are in place. -/
abbrev B1 : Dev nD → Valuation τ sig (Elt F) := fun c => StableHlo.after hostOps0 (B0 m ρ c)
abbrev T1 : (c : Dev nD) → (b : Ref sig .tc) → Buf (Elt F) ((c : Thread nD τ).loc b) := fun c b => B1 m ρ c b

/-- After pass 0: its arrays at what its write-backs leave, every other buffer as it was. -/
def B2 (c : Dev nD) : Valuation τ sig (Elt F) :=
  Pipeline.withArrays spec0 c (B1 m ρ c) fun w => (dat0 (T1 m ρ) c).arrAt w cfg0.N
theorem B2_arr (c : Dev nD) (w : Fin cfg0.W) :
    B2 m ρ c (Proc.devRef .tc (Pipeline.arrRef spec0 w)) = (dat0 (T1 m ρ) c).arrAt w cfg0.N := by
  unfold B2; exact Pipeline.withArrays_arr spec0 launch0.win.arr_inj c _ _ w
theorem B2_off (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev T2 : (c : Dev nD) → (b : Ref sig .tc) → Buf (Elt F) ((c : Thread nD τ).loc b) := fun c b => B2 m ρ c b
theorem exitArr0 (c : Dev nD) (w : Fin cfg0.W) : (dat0 (T1 m ρ) c).arrAt w cfg0.N = T2 m ρ c (Pipeline.arrRef spec0 w) :=
  (B2_arr m ρ c w).symm
theorem exitOff0 (c : Dev nD) : ∀ b, b ∉ Finset.univ.image (Pipeline.arrRef spec0) → T2 m ρ c b = T1 m ρ c b :=
  fun b hb => B2_off m ρ c b fun w e => hb (Finset.mem_image.mpr ⟨w, Finset.mem_univ _, e⟩)

/-- After pass 1: its arrays at what its write-backs leave, every other buffer as it was. -/
def B3 (c : Dev nD) : Valuation τ sig (Elt F) :=
  Pipeline.withArrays spec1 c (B2 m ρ c) fun w => (dat1 (T2 m ρ) c).arrAt w cfg1.N
theorem B3_arr (c : Dev nD) (w : Fin cfg1.W) :
    B3 m ρ c (Proc.devRef .tc (Pipeline.arrRef spec1 w)) = (dat1 (T2 m ρ) c).arrAt w cfg1.N := by
  unfold B3; exact Pipeline.withArrays_arr spec1 launch1.win.arr_inj c _ _ w
theorem B3_off (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev T3 : (c : Dev nD) → (b : Ref sig .tc) → Buf (Elt F) ((c : Thread nD τ).loc b) := fun c b => B3 m ρ c b
theorem exitArr1 (c : Dev nD) (w : Fin cfg1.W) : (dat1 (T2 m ρ) c).arrAt w cfg1.N = T3 m ρ c (Pipeline.arrRef spec1 w) :=
  (B3_arr m ρ c w).symm
theorem exitOff1 (c : Dev nD) : ∀ b, b ∉ Finset.univ.image (Pipeline.arrRef spec1) → T3 m ρ c b = T2 m ρ c b :=
  fun b hb => B3_off m ρ c b fun w e => hb (Finset.mem_image.mpr ⟨w, Finset.mem_univ _, e⟩)

/-- After pass 2: its arrays at what its write-backs leave, every other buffer as it was. -/
def B4 (c : Dev nD) : Valuation τ sig (Elt F) :=
  Pipeline.withArrays spec2 c (B3 m ρ c) fun w => (dat2 (T3 m ρ) c).arrAt w cfg2.N
theorem B4_arr (c : Dev nD) (w : Fin cfg2.W) :
    B4 m ρ c (Proc.devRef .tc (Pipeline.arrRef spec2 w)) = (dat2 (T3 m ρ) c).arrAt w cfg2.N := by
  unfold B4; exact Pipeline.withArrays_arr spec2 launch2.win.arr_inj c _ _ w
theorem B4_off (c : Dev nD) (b : Ref sig .tc) (hb : ∀ w, Pipeline.arrRef spec2 w ≠ b) :
    B4 m ρ c (Proc.devRef .tc b) = B3 m ρ c (Proc.devRef .tc b) := by
  unfold B4; exact Pipeline.withArrays_of_ne spec2 c _ _ b hb
abbrev T4 : (c : Dev nD) → (b : Ref sig .tc) → Buf (Elt F) ((c : Thread nD τ).loc b) := fun c b => B4 m ρ c b
theorem exitArr2 (c : Dev nD) (w : Fin cfg2.W) : (dat2 (T3 m ρ) c).arrAt w cfg2.N = T4 m ρ c (Pipeline.arrRef spec2 w) :=
  (B4_arr m ρ c w).symm
theorem exitOff2 (c : Dev nD) : ∀ b, b ∉ Finset.univ.image (Pipeline.arrRef spec2) → T4 m ρ c b = T3 m ρ c b :=
  fun b hb => B4_off m ρ c b fun w e => hb (Finset.mem_image.mpr ⟨w, Finset.mem_univ _, e⟩)

/-- After pass 3: its arrays at what its write-backs leave, every other buffer as it was. -/
def B5 (c : Dev nD) : Valuation τ sig (Elt F) :=
  Pipeline.withArrays spec3 c (B4 m ρ c) fun w => (dat3 (T4 m ρ) c).arrAt w cfg3.N
theorem B5_arr (c : Dev nD) (w : Fin cfg3.W) :
    B5 m ρ c (Proc.devRef .tc (Pipeline.arrRef spec3 w)) = (dat3 (T4 m ρ) c).arrAt w cfg3.N := by
  unfold B5; exact Pipeline.withArrays_arr spec3 launch3.win.arr_inj c _ _ w
theorem B5_off (c : Dev nD) (b : Ref sig .tc) (hb : ∀ w, Pipeline.arrRef spec3 w ≠ b) :
    B5 m ρ c (Proc.devRef .tc b) = B4 m ρ c (Proc.devRef .tc b) := by
  unfold B5; exact Pipeline.withArrays_of_ne spec3 c _ _ b hb
abbrev T5 : (c : Dev nD) → (b : Ref sig .tc) → Buf (Elt F) ((c : Thread nD τ).loc b) := fun c b => B5 m ρ c b
theorem exitArr3 (c : Dev nD) (w : Fin cfg3.W) : (dat3 (T4 m ρ) c).arrAt w cfg3.N = T5 m ρ c (Pipeline.arrRef spec3 w) :=
  (B5_arr m ρ c w).symm
theorem exitOff3 (c : Dev nD) : ∀ b, b ∉ Finset.univ.image (Pipeline.arrRef spec3) → T5 m ρ c b = T4 m ρ c b :=
  fun b hb => B5_off m ρ c b fun w e => hb (Finset.mem_image.mpr ⟨w, Finset.mem_univ _, e⟩)

/-- After pass 4: its arrays at what its write-backs leave, every other buffer as it was. -/
def B6 (c : Dev nD) : Valuation τ sig (Elt F) :=
  Pipeline.withArrays spec4 c (B5 m ρ c) fun w => (dat4 (T5 m ρ) c).arrAt w cfg4.N
theorem B6_arr (c : Dev nD) (w : Fin cfg4.W) :
    B6 m ρ c (Proc.devRef .tc (Pipeline.arrRef spec4 w)) = (dat4 (T5 m ρ) c).arrAt w cfg4.N := by
  unfold B6; exact Pipeline.withArrays_arr spec4 launch4.win.arr_inj c _ _ w
theorem B6_off (c : Dev nD) (b : Ref sig .tc) (hb : ∀ w, Pipeline.arrRef spec4 w ≠ b) :
    B6 m ρ c (Proc.devRef .tc b) = B5 m ρ c (Proc.devRef .tc b) := by
  unfold B6; exact Pipeline.withArrays_of_ne spec4 c _ _ b hb
abbrev T6 : (c : Dev nD) → (b : Ref sig .tc) → Buf (Elt F) ((c : Thread nD τ).loc b) := fun c b => B6 m ρ c b
theorem exitArr4 (c : Dev nD) (w : Fin cfg4.W) : (dat4 (T5 m ρ) c).arrAt w cfg4.N = T6 m ρ c (Pipeline.arrRef spec4 w) :=
  (B6_arr m ρ c w).symm
theorem exitOff4 (c : Dev nD) : ∀ b, b ∉ Finset.univ.image (Pipeline.arrRef spec4) → T6 m ρ c b = T5 m ρ c b :=
  fun b hb => B6_off m ρ c b fun w e => hb (Finset.mem_image.mpr ⟨w, Finset.mem_univ _, e⟩)

/-- After the host slice that cuts the structure branch's 64 columns out of the third pass's activations. -/
abbrev B7 : Dev nD → Valuation τ sig (Elt F) := fun c => StableHlo.after hostOps5 (B6 m ρ c)
abbrev T7 : (c : Dev nD) → (b : Ref sig .tc) → Buf (Elt F) ((c : Thread nD τ).loc b) := fun c b => B7 m ρ c b

/-- After the Gram-matrix pass: only its output array changes (both input windows read one array, which it leaves). -/
def B8 (c : Dev nD) : Valuation τ sig (Elt F) :=
  Function.update (B7 m ρ c) (Proc.devRef .tc main_v22) ((dat5 (T7 m ρ) c).arrAt 2 cfg5.N)
abbrev T8 : (c : Dev nD) → (b : Ref sig .tc) → Buf (Elt F) ((c : Thread nD τ).loc b) := fun c b => B8 m ρ c b
theorem B8_out (c : Dev nD) : B8 m ρ c (Proc.devRef .tc main_v22) = (dat5 (T7 m ρ) c).arrAt 2 cfg5.N := by
  unfold B8; exact Function.update_self ..
theorem B8_off (c : Dev nD) (b : Ref sig .tc) (hb : b ≠ main_v22) :
    B8 m ρ c (Proc.devRef .tc b) = B7 m ρ c (Proc.devRef .tc b) := by
  unfold B8; exact Function.update_of_ne (StableHlo.devRef_ne_of_ne hb) ..
theorem exitArr5 (c : Dev nD) (w : Fin cfg5.W) : (dat5 (T7 m ρ) c).arrAt w cfg5.N = T8 m ρ c (Pipeline.arrRef spec5 w) := by
  match w with
  | ⟨0, _⟩ => exact ((dat5 (T7 m ρ) c).arrAt_in 0 rfl _).trans ((A_eq5 (T7 m ρ) c 0).trans (B8_off m ρ c main_v21 (by decide)).symm)
  | ⟨1, _⟩ => exact ((dat5 (T7 m ρ) c).arrAt_in 1 rfl _).trans ((A_eq5 (T7 m ρ) c 1).trans (B8_off m ρ c main_v21 (by decide)).symm)
  | ⟨2, _⟩ => exact (B8_out m ρ c).symm
theorem exitOff5 (c : Dev nD) : ∀ b, b ∉ Finset.univ.image (Pipeline.arrRef spec5) → T8 m ρ c b = T7 m ρ c b :=
  fun b hb => B8_off m ρ c b fun e => hb (Finset.mem_image.mpr ⟨2, Finset.mem_univ _, e.symm⟩)

/-- After the last host stretch: the four result slices. -/
abbrev B9 : Dev nD → Valuation τ sig (Elt F) := fun c => StableHlo.after hostOps6 (B8 m ρ c)

/-! ## What a pass leaves alone

A pass changes only its OUTPUT windows' arrays: an input window's array folds to its entry contents, and a buffer
that is no window's array is not touched. -/

theorem B2_keep (c : Dev nD) (r : Ref sig .tc) (hr : ∀ w, (cfg0.win w).isOut = true → Pipeline.arrRef spec0 w ≠ r) :
    B2 m ρ c (Proc.devRef .tc r) = B1 m ρ c (Proc.devRef .tc r) := by
  by_cases h : ∃ w, Pipeline.arrRef spec0 w = r
  · obtain ⟨w, rfl⟩ := h
    have hin : (cfg0.win w).isOut = false := by
      cases hw : (cfg0.win w).isOut
      · rfl
      · exact absurd rfl (hr w hw)
    exact (B2_arr m ρ c w).trans (((dat0 (T1 m ρ) c).arrAt_in w hin _).trans (A_eq0 (T1 m ρ) c w))
  · exact B2_off m ρ c r fun w e => h ⟨w, e⟩

theorem B3_keep (c : Dev nD) (r : Ref sig .tc) (hr : ∀ w, (cfg1.win w).isOut = true → Pipeline.arrRef spec1 w ≠ r) :
    B3 m ρ c (Proc.devRef .tc r) = B2 m ρ c (Proc.devRef .tc r) := by
  by_cases h : ∃ w, Pipeline.arrRef spec1 w = r
  · obtain ⟨w, rfl⟩ := h
    have hin : (cfg1.win w).isOut = false := by
      cases hw : (cfg1.win w).isOut
      · rfl
      · exact absurd rfl (hr w hw)
    exact (B3_arr m ρ c w).trans (((dat1 (T2 m ρ) c).arrAt_in w hin _).trans (A_eq1 (T2 m ρ) c w))
  · exact B3_off m ρ c r fun w e => h ⟨w, e⟩

theorem B4_keep (c : Dev nD) (r : Ref sig .tc) (hr : ∀ w, (cfg2.win w).isOut = true → Pipeline.arrRef spec2 w ≠ r) :
    B4 m ρ c (Proc.devRef .tc r) = B3 m ρ c (Proc.devRef .tc r) := by
  by_cases h : ∃ w, Pipeline.arrRef spec2 w = r
  · obtain ⟨w, rfl⟩ := h
    have hin : (cfg2.win w).isOut = false := by
      cases hw : (cfg2.win w).isOut
      · rfl
      · exact absurd rfl (hr w hw)
    exact (B4_arr m ρ c w).trans (((dat2 (T3 m ρ) c).arrAt_in w hin _).trans (A_eq2 (T3 m ρ) c w))
  · exact B4_off m ρ c r fun w e => h ⟨w, e⟩

theorem B5_keep (c : Dev nD) (r : Ref sig .tc) (hr : ∀ w, (cfg3.win w).isOut = true → Pipeline.arrRef spec3 w ≠ r) :
    B5 m ρ c (Proc.devRef .tc r) = B4 m ρ c (Proc.devRef .tc r) := by
  by_cases h : ∃ w, Pipeline.arrRef spec3 w = r
  · obtain ⟨w, rfl⟩ := h
    have hin : (cfg3.win w).isOut = false := by
      cases hw : (cfg3.win w).isOut
      · rfl
      · exact absurd rfl (hr w hw)
    exact (B5_arr m ρ c w).trans (((dat3 (T4 m ρ) c).arrAt_in w hin _).trans (A_eq3 (T4 m ρ) c w))
  · exact B5_off m ρ c r fun w e => h ⟨w, e⟩

theorem B6_keep (c : Dev nD) (r : Ref sig .tc) (hr : ∀ w, (cfg4.win w).isOut = true → Pipeline.arrRef spec4 w ≠ r) :
    B6 m ρ c (Proc.devRef .tc r) = B5 m ρ c (Proc.devRef .tc r) := by
  by_cases h : ∃ w, Pipeline.arrRef spec4 w = r
  · obtain ⟨w, rfl⟩ := h
    have hin : (cfg4.win w).isOut = false := by
      cases hw : (cfg4.win w).isOut
      · rfl
      · exact absurd rfl (hr w hw)
    exact (B6_arr m ρ c w).trans (((dat4 (T5 m ρ) c).arrAt_in w hin _).trans (A_eq4 (T5 m ρ) c w))
  · exact B6_off m ρ c r fun w e => h ⟨w, e⟩

/-- A buffer no host stretch writes and no pass has as an output ends as launched. -/
theorem B9_keep (c : Dev nD) (r : Ref sig .tc) (h0 : r ∉ hostOps0_W) (h5 : r ∉ hostOps5_W) (h6 : r ∉ hostOps6_W)
    (hr : r ∉ ([main_v16, main_v17_0, main_v17_1, main_v18_0, main_v18_1, main_v19_0, main_v19_1, main_v20, main_v22] : List (Ref sig .tc))) :
    B9 m ρ c (Proc.devRef .tc r) = m ((c : Thread nD τ).loc r) := by
  simp only [List.mem_cons, List.not_mem_nil, or_false, not_or] at hr
  obtain ⟨n16, n170, n171, n180, n181, n190, n191, n20, n22⟩ := hr
  calc B9 m ρ c (Proc.devRef .tc r)
    _ = B8 m ρ c (Proc.devRef .tc r) := StableHlo.after_of_writes_sub hostOps6 _ hostOps6_writes h6
    _ = B7 m ρ c (Proc.devRef .tc r) := B8_off m ρ c r n22
    _ = B6 m ρ c (Proc.devRef .tc r) := StableHlo.after_of_writes_sub hostOps5 _ hostOps5_writes h5
    _ = B5 m ρ c (Proc.devRef .tc r) := B6_keep m ρ c r (by
          intro w hw; fin_cases w <;> first | exact absurd hw (by decide) | exact Ne.symm n20)
    _ = B4 m ρ c (Proc.devRef .tc r) := B5_keep m ρ c r (by
          intro w hw; fin_cases w <;> first | exact absurd hw (by decide) | exact Ne.symm n190 | exact Ne.symm n191)
    _ = B3 m ρ c (Proc.devRef .tc r) := B4_keep m ρ c r (by
          intro w hw; fin_cases w <;> first | exact absurd hw (by decide) | exact Ne.symm n180 | exact Ne.symm n181)
    _ = B2 m ρ c (Proc.devRef .tc r) := B3_keep m ρ c r (by
          intro w hw; fin_cases w <;> first | exact absurd hw (by decide) | exact Ne.symm n170 | exact Ne.symm n171)
    _ = B1 m ρ c (Proc.devRef .tc r) := B2_keep m ρ c r (by
          intro w hw; fin_cases w <;> first | exact absurd hw (by decide) | exact Ne.symm n16)
    _ = B0 m ρ c (Proc.devRef .tc r) := StableHlo.after_of_writes_sub hostOps0 _ hostOps0_writes h0
    _ = m ((c : Thread nD τ).loc r) := rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The proof data of all passes, and what rides beside the buffers -/

/-- No pass prefetches a table. -/
abbrev adm : (p : Fin 6) → (pcfgs (F := F) p).Adm := fun p => (cfgs p).toPCfg_adm

/-- Each pass's proof data at the contents it is entered with. -/
def pdats : (p : Fin 6) → (c : Dev nD) → Dat τ (Elt F) Unit ℕ (UR sig nD τ) ℕ (Pipeline.pin (pcfgs (F := F)) adm p) c
  | ⟨0, _⟩ => fun c => dat0 (T1 m ρ) c
  | ⟨1, _⟩ => fun c => dat1 (T2 m ρ) c
  | ⟨2, _⟩ => fun c => dat2 (T3 m ρ) c
  | ⟨3, _⟩ => fun c => dat3 (T4 m ρ) c
  | ⟨4, _⟩ => fun c => dat4 (T5 m ρ) c
  | ⟨5, _⟩ => fun c => dat5 (T7 m ρ) c

abbrev noVariants : Variants := Variants.none
/-- No core waits on another: no level is assigned. -/
abbrev noLevels : GSem nD τ sig → Finset Unit := fun _ => ∅
abbrev lvl0 : GSem nD τ sig → Unit → ℕ := fun _ _ => 0

/-- Beside the buffers: the generator register at some state and the core's debts, none. -/
abbrev Beside (c : Dev nD) : sProp 𝕄 := iprop((∃ r, prngReg c r) ∗ ∃ W, owes (c : Thread nD τ) (0 : CellTallies nD τ sig Unit) W)

/-- The thread state at a boundary: every unscoped buffer whole at the boundary's contents, and `Beside`. -/
abbrev At (B : Dev nD → Valuation τ sig (Elt F)) (c : Dev nD) : sProp 𝕄 :=
  iprop(StableHlo.held (c : Thread nD τ) (Pipeline.ucRefs τ sig) (B c) ∗ Beside c)

/-- A stretch of host operations as a segment from the contents `B`. -/
abbrev hostSeg (ops : List (HloOp τ sig (Elt F))) (hsub : ops.Forall fun op => op.bufs ⊆ StableHlo.tcRefs τ sig)
    (hfresh : ops.Forall fun op => op.fresh = ∅) (B : Dev nD → Valuation τ sig (Elt F)) :
    Pipeline.HostSeg (Name := ℕ) (U := UR sig nD τ) (pcfgs (F := F)) defs₀ noVariants noLevels lvl0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) B Beside

/-! ## The passes as segments -/

set_option backward.isDefEq.respectTransparency.types false in
/-- Pass 0: entered with every unscoped buffer at `B1`, left with them at `B2`. -/
def reg0 : Pipeline.RegionSeg (pcfgs (F := F)) adm (pdats m ρ) () defs₀ noVariants noLevels lvl0 0 where
  win := launch0.win.to₀
  block_pos := launch0.block_pos
  stage_whole := launch0.stage_whole
  K := PEmpty
  osem k := k.elim
  ho := Pipeline.OwnSemFacts.none _
  hbody c := (body_obligation0 (T1 m ρ) c).loose
  hwaits := Pipeline.hwaits_of_owed_zero _ _ _ _ noLevels lvl0 0 fun _ _ => rfl
  pre := At (B1 m ρ)
  post := At (B2 m ρ)
  X c := iprop(∃ r, prngReg c r)
  Y c := iprop(∃ r, prngReg c r)
  Z c := Pipeline.unscopedRest (Ix := Unit) (Name := ℕ) (U := UR sig nD τ) (Lvl := ℕ) spec0 c (T1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (T1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (T1 m ρ c) (T2 m ρ c) ((pdats m ρ 0 c).arrAt · cfg0.N) (exitArr0 m ρ c) (exitOff0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 1: entered with every unscoped buffer at `B2`, left with them at `B3`. -/
def reg1 : Pipeline.RegionSeg (pcfgs (F := F)) adm (pdats m ρ) () defs₀ noVariants noLevels lvl0 1 where
  win := launch1.win.to₀
  block_pos := launch1.block_pos
  stage_whole := launch1.stage_whole
  K := PEmpty
  osem k := k.elim
  ho := Pipeline.OwnSemFacts.none _
  hbody c := (body_obligation1 (T2 m ρ) c).loose
  hwaits := Pipeline.hwaits_of_owed_zero _ _ _ _ noLevels lvl0 1 fun _ _ => rfl
  pre := At (B2 m ρ)
  post := At (B3 m ρ)
  X c := iprop(∃ r, prngReg c r)
  Y c := iprop(∃ r, prngReg c r)
  Z c := Pipeline.unscopedRest (Ix := Unit) (Name := ℕ) (U := UR sig nD τ) (Lvl := ℕ) spec1 c (T2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (T2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (T2 m ρ c) (T3 m ρ c) ((pdats m ρ 1 c).arrAt · cfg1.N) (exitArr1 m ρ c) (exitOff1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 2: entered with every unscoped buffer at `B3`, left with them at `B4`. -/
def reg2 : Pipeline.RegionSeg (pcfgs (F := F)) adm (pdats m ρ) () defs₀ noVariants noLevels lvl0 2 where
  win := launch2.win.to₀
  block_pos := launch2.block_pos
  stage_whole := launch2.stage_whole
  K := PEmpty
  osem k := k.elim
  ho := Pipeline.OwnSemFacts.none _
  hbody c := (body_obligation2 (T3 m ρ) c).loose
  hwaits := Pipeline.hwaits_of_owed_zero _ _ _ _ noLevels lvl0 2 fun _ _ => rfl
  pre := At (B3 m ρ)
  post := At (B4 m ρ)
  X c := iprop(∃ r, prngReg c r)
  Y c := iprop(∃ r, prngReg c r)
  Z c := Pipeline.unscopedRest (Ix := Unit) (Name := ℕ) (U := UR sig nD τ) (Lvl := ℕ) spec2 c (T3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (T3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (T3 m ρ c) (T4 m ρ c) ((pdats m ρ 2 c).arrAt · cfg2.N) (exitArr2 m ρ c) (exitOff2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 3: entered with every unscoped buffer at `B4`, left with them at `B5`. -/
def reg3 : Pipeline.RegionSeg (pcfgs (F := F)) adm (pdats m ρ) () defs₀ noVariants noLevels lvl0 3 where
  win := launch3.win.to₀
  block_pos := launch3.block_pos
  stage_whole := launch3.stage_whole
  K := PEmpty
  osem k := k.elim
  ho := Pipeline.OwnSemFacts.none _
  hbody c := (body_obligation3 (T4 m ρ) c).loose
  hwaits := Pipeline.hwaits_of_owed_zero _ _ _ _ noLevels lvl0 3 fun _ _ => rfl
  pre := At (B4 m ρ)
  post := At (B5 m ρ)
  X c := iprop(∃ r, prngReg c r)
  Y c := iprop(∃ r, prngReg c r)
  Z c := Pipeline.unscopedRest (Ix := Unit) (Name := ℕ) (U := UR sig nD τ) (Lvl := ℕ) spec3 c (T4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (T4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (T4 m ρ c) (T5 m ρ c) ((pdats m ρ 3 c).arrAt · cfg3.N) (exitArr3 m ρ c) (exitOff3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 4: entered with every unscoped buffer at `B5`, left with them at `B6`. -/
def reg4 : Pipeline.RegionSeg (pcfgs (F := F)) adm (pdats m ρ) () defs₀ noVariants noLevels lvl0 4 where
  win := launch4.win.to₀
  block_pos := launch4.block_pos
  stage_whole := launch4.stage_whole
  K := PEmpty
  osem k := k.elim
  ho := Pipeline.OwnSemFacts.none _
  hbody c := (body_obligation4 (T5 m ρ) c).loose
  hwaits := Pipeline.hwaits_of_owed_zero _ _ _ _ noLevels lvl0 4 fun _ _ => rfl
  pre := At (B5 m ρ)
  post := At (B6 m ρ)
  X c := iprop(∃ r, prngReg c r)
  Y c := iprop(∃ r, prngReg c r)
  Z c := Pipeline.unscopedRest (Ix := Unit) (Name := ℕ) (U := UR sig nD τ) (Lvl := ℕ) spec4 c (T5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (T5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (T5 m ρ c) (T6 m ρ c) ((pdats m ρ 4 c).arrAt · cfg4.N) (exitArr4 m ρ c) (exitOff4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 5: entered with every unscoped buffer at `B7`, left with them at `B8`. -/
def reg5 : Pipeline.RegionSeg (pcfgs (F := F)) adm (pdats m ρ) () defs₀ noVariants noLevels lvl0 5 where
  win := winFacts₀5
  block_pos := block_pos5
  stage_whole := stage_whole5
  K := PEmpty
  osem k := k.elim
  ho := Pipeline.OwnSemFacts.none _
  hbody c := (body_obligation5 (T7 m ρ) c).loose
  hwaits := Pipeline.hwaits_of_owed_zero _ _ _ _ noLevels lvl0 5 fun _ _ => rfl
  pre := At (B7 m ρ)
  post := At (B8 m ρ)
  X c := iprop(∃ r, prngReg c r)
  Y c := iprop(∃ r, prngReg c r)
  Z c := Pipeline.unscopedRest (Ix := Unit) (Name := ℕ) (U := UR sig nD τ) (Lvl := ℕ) spec5 c (T7 m ρ c)
  hentry c := by
    rw [Pipeline.ownSems0_none]
    have hsplit := arrays5_of_unscopedBufs (T7 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin : iprop((pdats m ρ 5 c).arrays ((pdats m ρ 5 c).arrAt · cfg5.N)
          ∗ Pipeline.unscopedRest (Ix := Unit) (Name := ℕ) (U := UR sig nD τ) (Lvl := ℕ) spec5 c (T7 m ρ c))
        ⊢ (unscopedBufs c (T8 m ρ c) : sProp 𝕄) :=
      unscopedBufs5_of_arrays (T7 m ρ) c (T8 m ρ) (exitArr5 m ρ c) (exitOff5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The nine items in order. -/
abbrev items : List (Pipeline.Seg (pcfgs (F := F)) adm (pdats m ρ) () defs₀ noVariants noLevels lvl0) :=
  [ .host (hostSeg hostOps0 hostOps0_sub hostOps0_fresh (B0 m ρ)),
    .region (reg0 m ρ), .region (reg1 m ρ), .region (reg2 m ρ), .region (reg3 m ρ), .region (reg4 m ρ),
    .host (hostSeg hostOps5 hostOps5_sub hostOps5_fresh (B6 m ρ)),
    .region (reg5 m ρ),
    .host (hostSeg hostOps6 hostOps6_sub hostOps6_fresh (B8 m ρ)) ]

theorem main_items (c : Dev nD) : main (F := F) c = Pipeline.Seg.run (items m ρ) := (main_chain c).trans (by chain_rfl)

set_option backward.isDefEq.respectTransparency.types false in
/-- Every weakly fair execution of @main from memory `m` with zero counters terminates, nothing faulting, and the final
    memory holds every unscoped buffer at the last boundary's contents `B9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B9 m ρ c b) :=
  Pipeline.θ_run_regions_kit (pcfgs (F := F)) adm (pdats m ρ) () cellOf_inj emb₁ defs₀ noVariants noLevels lvl0 m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := At (B0 m ρ))
    (Tₙ := fun c => iprop(StableHlo.held (c : Thread nD τ) (Pipeline.ucRefs τ sig) (B9 m ρ c) ∗ ∃ r, prngReg c r))
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (B9 m ρ c) ∗ Beside c) : sProp 𝕄) ⊢ _
        iintro ⟨Hh, Hp, HO⟩
        isplitl [Hh Hp]
        · isplitl [Hh]; · iexact Hh
          iexact Hp
        iexact HO⟩)
    (hinit := by
      refine Pipeline.initEach noLevels lvl0 fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B9 m ρ c b)
    (hfin := fun c s' => by
      iintro ⟨⟨Hh, -⟩, HSI⟩
      unfold StableHlo.held
      imodintro
      iapply (pointsTo_read_all (Pipeline.ucRefs τ sig) (fun b => (((c : Thread nD τ)).1, b)) (B9 m ρ c) s')
      isplitl [Hh] <;> iassumption)
    (hQ := fun s h c => h c)

end Cert.KernelIdeal.Hand

end
-- ==== Proof.KRegion0.lean ====
import proofs.«168842_g31997506355971_cont_9to1_2144_8_alg».proof.Proof.Gen.Kernel.Launch
import proofs.«168842_g31997506355971_cont_9to1_2144_8_alg».proof.Proof.Gen.Kernel.Skeleton
import proofs.«168842_g31997506355971_cont_9to1_2144_8_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the body `cc0__mm_kern` at the region-entry contents `V`

One grid point multiplies a block of 2000 rows of the features by the first weight matrix: windows 0 (the row block)
and 1 (the resident weights) are read, window 2 is written whole. -/

/-- The block of window `w` at grid point `t`: the window's array, as the region finds it, read through the
    block's view. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every grid point, whether the block was moved in
    at that point or stayed from an earlier one: the body leaves it in place and an unmoved block index means the
    same block. Stated for any proof data over `V`'s array that leaves the block as found. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds the window's block at every grid point, whether the block was moved in
    at that point or stayed from an earlier one: the body leaves it in place and an unmoved block index means the
    same block. Stated for any proof data over `V`'s array that leaves the block as found. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: every one a whole staging buffer -/

abbrev r0_0 : Rect S2000x128 := Rect.unit (s := S2000x128) ![0, 0] S2000x128.size inb_S2000x128_S2000x128_0_0
abbrev r0_1 : Rect S128x64 := Rect.unit (s := S128x64) ![0, 0] S128x64.size inb_S128x64_S128x64_0_0
abbrev r0_2 : Rect S2000x64 := Rect.unit (s := S2000x64) ![0, 0] S2000x64.size inb_S2000x64_S2000x64_0_0

/-- A single write through the whole-buffer rectangle reaches every index of the buffer. -/
theorem coverWhole0 {S : Shape} {e : EltTy} {off : Fin S.rank → Nat} (h : off = fun _ => 0) (inb : ∀ a, off a + S.size a ≤ S.size a)
    (p : S.Idx → Elt F e) (y : S.Idx) :
    ∃ pc ∈ ([⟨Rect.unit off S.size inb, p⟩] : List (View.Piece (Elt F) S e)), y ∈ pc.1.set := by
  subst h
  exact ⟨_, List.mem_singleton_self _, by show y ∈ (Rect.whole S).set; rw [Rect.set_whole]; exact Finset.mem_univ y⟩

theorem zeroOff0 : (![0, 0] : Fin 2 → Nat) = fun _ => 0 := by
  funext a; fin_cases a <;> rfl

/-! ## What the body leaves in each output buffer -/

/-- Output window 2's staging buffer after the body, as a function of the input blocks: the one whole-buffer
    store's value laid over the buffer. -/
def out0_2 (x0 : Vec F S2000x128 .f32) (x1 : Vec F S128x64 .f32) : Vec F S2000x64 .f32 :=
  View.canon [⟨r0_2, k0_pay1 (View.ld x0 r0_0) (View.ld x1 r0_1)⟩]

theorem cover0_2 (p0 : Vec F S2000x64 .f32) (y : S2000x64.Idx) :
    ∃ pc ∈ ([⟨r0_2, p0⟩] : List (View.Piece (Elt F) S2000x64 .f32)), y ∈ pc.1.set :=
  coverWhole0 zeroOff0 inb_S2000x64_S2000x64_0_0 p0 y

/-! ## The body's triple -/

set_option maxHeartbeats 1000000 in
/-- The body on whole staging buffers — the inputs' holding `x`, the outputs' holding anything — runs to a state where
    the inputs' are unchanged and each output's holds `out0_w` of the inputs. The body also reads each output buffer
    before writing it; that value is not used. -/
theorem sound_kernel0 (c : Dev nD) (E : Set ℕ) (i : grid0.Coords) (arg1 : Memref sig .tc .vmem S2000x128 .f32) (harg1 : arg1.IsWhole) (arg2 : Memref sig .tc .vmem S128x64 .f32) (harg2 : arg2.IsWhole) (arg3 : Memref sig .tc .vmem S2000x64 .f32) (harg3 : arg3.IsWhole)
    (x0 : Vec F S2000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__mm_kern i arg1 harg1 arg2 harg2 arg3 harg3) K := by
  simp only [cc0__mm_kern_eq_skeleton]; unfold cc0__mm_kern_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this region on core `c`: the arrays as the region finds them; after the body at a point each
    input's buffer still holds its block and each output's holds `out0_w` of the input blocks; the invariant is the
    untouched remainder of the core's state; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is entered with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: every input buffer holds its block, so the triple above applies; the invariant and what is
    owed pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline's proof data, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
import proofs.«168842_g31997506355971_cont_9to1_2144_8_alg».proof.Proof.Gen.Kernel.Launch
import proofs.«168842_g31997506355971_cont_9to1_2144_8_alg».proof.Proof.Gen.Kernel.Skeleton
import proofs.«168842_g31997506355971_cont_9to1_2144_8_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the body `cc1__pass1_kern` at the region-entry contents `V`

One grid point rounds a block of 400 rows of the adjacency to the narrow format and computes
`max(adj_block · S + bias, 0)` times the next layer's weights: windows 0 (the adjacency block), 1 (the resident right
operand), 2 (the bias row) and 3 (the next weights) are read; window 4 receives the rounded block and window 5 the
rounded product, each written whole. -/

/-- The block of window `w` at grid point `t`: the window's array, as the region finds it, read through the
    block's view. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every grid point, whether the block was moved in
    at that point or stayed from an earlier one: the body leaves it in place and an unmoved block index means the
    same block. Stated for any proof data over `V`'s array that leaves the block as found. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block at every grid point, whether the block was moved in
    at that point or stayed from an earlier one: the body leaves it in place and an unmoved block index means the
    same block. Stated for any proof data over `V`'s array that leaves the block as found. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block at every grid point, whether the block was moved in
    at that point or stayed from an earlier one: the body leaves it in place and an unmoved block index means the
    same block. Stated for any proof data over `V`'s array that leaves the block as found. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block at every grid point, whether the block was moved in
    at that point or stayed from an earlier one: the body leaves it in place and an unmoved block index means the
    same block. Stated for any proof data over `V`'s array that leaves the block as found. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: every one a whole staging buffer -/

abbrev r1_0 : Rect S400x10000 := Rect.unit (s := S400x10000) ![0, 0] S400x10000.size inb_S400x10000_S400x10000_0_0
abbrev r1_1 : Rect S10000x64 := Rect.unit (s := S10000x64) ![0, 0] S10000x64.size inb_S10000x64_S10000x64_0_0
abbrev r1_2 : Rect S1x64 := Rect.unit (s := S1x64) ![0, 0] S1x64.size inb_S1x64_S1x64_0_0
abbrev r1_3 : Rect S64x128 := Rect.unit (s := S64x128) ![0, 0] S64x128.size inb_S64x128_S64x128_0_0
abbrev r1_4 : Rect S400x10000 := Rect.unit (s := S400x10000) ![0, 0] S400x10000.size inb_S400x10000_S400x10000_0_0
abbrev r1_5 : Rect S400x128 := Rect.unit (s := S400x128) ![0, 0] S400x128.size inb_S400x128_S400x128_0_0

/-- A single write through the whole-buffer rectangle reaches every index of the buffer. -/
theorem coverWhole1 {S : Shape} {e : EltTy} {off : Fin S.rank → Nat} (h : off = fun _ => 0) (inb : ∀ a, off a + S.size a ≤ S.size a)
    (p : S.Idx → Elt F e) (y : S.Idx) :
    ∃ pc ∈ ([⟨Rect.unit off S.size inb, p⟩] : List (View.Piece (Elt F) S e)), y ∈ pc.1.set := by
  subst h
  exact ⟨_, List.mem_singleton_self _, by show y ∈ (Rect.whole S).set; rw [Rect.set_whole]; exact Finset.mem_univ y⟩

theorem zeroOff1 : (![0, 0] : Fin 2 → Nat) = fun _ => 0 := by
  funext a; fin_cases a <;> rfl

/-! ## What the body leaves in each output buffer -/

/-- Output window 4's staging buffer after the body, as a function of the input blocks: the one whole-buffer
    store's value laid over the buffer. -/
def out1_4 (x0 : Vec F S400x10000 .f32) (x1 : Vec F S10000x64 .f32) (x2 : Vec F S1x64 .f32) (x3 : Vec F S64x128 .f32) : Vec F S400x10000 .bf16 :=
  View.canon [⟨r1_4, k1_pay1 (View.ld x0 r1_0)⟩]

theorem cover1_4 (p0 : Vec F S400x10000 .bf16) (y : S400x10000.Idx) :
    ∃ pc ∈ ([⟨r1_4, p0⟩] : List (View.Piece (Elt F) S400x10000 .bf16)), y ∈ pc.1.set :=
  coverWhole1 zeroOff1 inb_S400x10000_S400x10000_0_0 p0 y

/-- Output window 5's staging buffer after the body, as a function of the input blocks: the one whole-buffer
    store's value laid over the buffer. -/
def out1_5 (x0 : Vec F S400x10000 .f32) (x1 : Vec F S10000x64 .f32) (x2 : Vec F S1x64 .f32) (x3 : Vec F S64x128 .f32) : Vec F S400x128 .bf16 :=
  View.canon [⟨r1_5, k1_pay2 (View.ld x0 r1_0) (View.ld x1 r1_1) (View.ld x2 r1_2) (View.ld x3 r1_3)⟩]

theorem cover1_5 (p0 : Vec F S400x128 .bf16) (y : S400x128.Idx) :
    ∃ pc ∈ ([⟨r1_5, p0⟩] : List (View.Piece (Elt F) S400x128 .bf16)), y ∈ pc.1.set :=
  coverWhole1 zeroOff1 inb_S400x128_S400x128_0_0 p0 y

/-! ## The body's triple -/

set_option maxHeartbeats 1000000 in
/-- The body on whole staging buffers — the inputs' holding `x`, the outputs' holding anything — runs to a state where
    the inputs' are unchanged and each output's holds `out1_w` of the inputs. The body also reads each output buffer
    before writing it; that value is not used. -/
theorem sound_kernel1 (c : Dev nD) (E : Set ℕ) (i : grid1.Coords) (arg1 : Memref sig .tc .vmem S400x10000 .f32) (harg1 : arg1.IsWhole) (arg2 : Memref sig .tc .vmem S10000x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S400x10000 .bf16) (harg5 : arg5.IsWhole) (arg6 : Memref sig .tc .vmem S400x128 .bf16) (harg6 : arg6.IsWhole)
    (x0 : Vec F S400x10000 .f32) (x1 : Vec F S10000x64 .f32) (x2 : Vec F S1x64 .f32) (x3 : Vec F S64x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3) ∗ owns (c : Thread nD τ) arg6 fullShare (out1_5 x0 x1 x2 x3)) -∗ K ⟨⟩))
      ⊢ wp frame (wpE (defs₀ (F := F)) Variants.none c none) E (cc1__pass1_kern i arg1 harg1 arg2 harg2 arg3 harg3 arg4 harg4 arg5 harg5 arg6 harg6) K := by
  simp only [cc1__pass1_kern_eq_skeleton]; unfold cc1__pass1_kern_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-! ## The pipeline's proof data -/

/-- The proof data of this region on core `c`: the arrays as the region finds them; after the body at a point each
    input's buffer still holds its block and each output's holds `out1_w` of the input blocks; the invariant is the
    untouched remainder of the core's state; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is entered with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: every input buffer holds its block, so the triple above applies; the invariant and what is
    owed pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline's proof data, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRegion2.lean ====
import proofs.«168842_g31997506355971_cont_9to1_2144_8_alg».proof.Proof.Gen.Kernel.Launch
import proofs.«168842_g31997506355971_cont_9to1_2144_8_alg».proof.Proof.Gen.Kernel.Skeleton
import proofs.«168842_g31997506355971_cont_9to1_2144_8_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the body `cc2__pass_hs_kern` at the region-entry contents `V`

One grid point computes `h = max(adj_block · S + bias, 0)` for a block of 1000 rows and multiplies `h` by the next
layer's weights: windows 0 (the adjacency block), 1 (the resident right operand), 2 (the bias row) and 3 (the next
weights) are read; window 4 receives `h` and window 5 the rounded product, each written whole. -/

/-- The block of window `w` at grid point `t`: the window's array, as the region finds it, read through the
    block's view. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every grid point, whether the block was moved in
    at that point or stayed from an earlier one: the body leaves it in place and an unmoved block index means the
    same block. Stated for any proof data over `V`'s array that leaves the block as found. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds the window's block at every grid point, whether the block was moved in
    at that point or stayed from an earlier one: the body leaves it in place and an unmoved block index means the
    same block. Stated for any proof data over `V`'s array that leaves the block as found. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds the window's block at every grid point, whether the block was moved in
    at that point or stayed from an earlier one: the body leaves it in place and an unmoved block index means the
    same block. Stated for any proof data over `V`'s array that leaves the block as found. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds the window's block at every grid point, whether the block was moved in
    at that point or stayed from an earlier one: the body leaves it in place and an unmoved block index means the
    same block. Stated for any proof data over `V`'s array that leaves the block as found. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: every one a whole staging buffer -/

abbrev r2_0 : Rect S1000x10000 := Rect.unit (s := S1000x10000) ![0, 0] S1000x10000.size inb_S1000x10000_S1000x10000_0_0
abbrev r2_1 : Rect S10000x128 := Rect.unit (s := S10000x128) ![0, 0] S10000x128.size inb_S10000x128_S10000x128_0_0
abbrev r2_2 : Rect S1x128 := Rect.unit (s := S1x128) ![0, 0] S1x128.size inb_S1x128_S1x128_0_0
abbrev r2_3 : Rect S128x192 := Rect.unit (s := S128x192) ![0, 0] S128x192.size inb_S128x192_S128x192_0_0
abbrev r2_4 : Rect S1000x128 := Rect.unit (s := S1000x128) ![0, 0] S1000x128.size inb_S1000x128_S1000x128_0_0
abbrev r2_5 : Rect S1000x192 := Rect.unit (s := S1000x192) ![0, 0] S1000x192.size inb_S1000x192_S1000x192_0_0

/-- A single write through the whole-buffer rectangle reaches every index of the buffer. -/
theorem coverWhole2 {S : Shape} {e : EltTy} {off : Fin S.rank → Nat} (h : off = fun _ => 0) (inb : ∀ a, off a + S.size a ≤ S.size a)
    (p : S.Idx → Elt F e) (y : S.Idx) :
    ∃ pc ∈ ([⟨Rect.unit off S.size inb, p⟩] : List (View.Piece (Elt F) S e)), y ∈ pc.1.set := by
  subst h
  exact ⟨_, List.mem_singleton_self _, by show y ∈ (Rect.whole S).set; rw [Rect.set_whole]; exact Finset.mem_univ y⟩

theorem zeroOff2 : (![0, 0] : Fin 2 → Nat) = fun _ => 0 := by
  funext a; fin_cases a <;> rfl

/-! ## What the body leaves in each output buffer -/

/-- Output window 4's staging buffer after the body, as a function of the input blocks: the one whole-buffer
    store's value laid over the buffer. -/
def out2_4 (x0 : Vec F S1000x10000 .bf16) (x1 : Vec F S10000x128 .bf16) (x2 : Vec F S1x128 .f32) (x3 : Vec F S128x192 .f32) : Vec F S1000x128 .f32 :=
  View.canon [⟨r2_4, k2_pay1 (View.ld x0 r2_0) (View.ld x1 r2_1) (View.ld x2 r2_2)⟩]

theorem cover2_4 (p0 : Vec F S1000x128 .f32) (y : S1000x128.Idx) :
    ∃ pc ∈ ([⟨r2_4, p0⟩] : List (View.Piece (Elt F) S1000x128 .f32)), y ∈ pc.1.set :=
  coverWhole2 zeroOff2 inb_S1000x128_S1000x128_0_0 p0 y

/-- Output window 5's staging buffer after the body, as a function of the input blocks: the one whole-buffer
    store's value laid over the buffer. -/
def out2_5 (x0 : Vec F S1000x10000 .bf16) (x1 : Vec F S10000x128 .bf16) (x2 : Vec F S1x128 .f32) (x3 : Vec F S128x192 .f32) : Vec F S1000x192 .bf16 :=
  View.canon [⟨r2_5, k2_pay2 (View.ld x0 r2_0) (View.ld x1 r2_1) (View.ld x2 r2_2) (View.ld x3 r2_3)⟩]

theorem cover2_5 (p0 : Vec F S1000x192 .bf16) (y : S1000x192.Idx) :
    ∃ pc ∈ ([⟨r2_5, p0⟩] : List (View.Piece (Elt F) S1000x192 .bf16)), y ∈ pc.1.set :=
  coverWhole2 zeroOff2 inb_S1000x192_S1000x192_0_0 p0 y

/-! ## The body's triple -/

set_option maxHeartbeats 1000000 in
/-- The body on whole staging buffers — the inputs' holding `x`, the outputs' holding anything — runs to a state where
    the inputs' are unchanged and each output's holds `out2_w` of the inputs. The body also reads each output buffer
    before writing it; that value is not used. -/
theorem sound_kernel2 (c : Dev nD) (E : Set ℕ) (i : grid2.Coords) (arg1 : Memref sig .tc .vmem S1000x10000 .bf16) (harg1 : arg1.IsWhole) (arg2 : Memref sig .tc .vmem S10000x128 .bf16) (harg2 : arg2.IsWhole) (arg3 : Memref sig .tc .vmem S1x128 .f32) (harg3 : arg3.IsWhole) (arg4 : Memref sig .tc .vmem S128x192 .f32) (harg4 : arg4.IsWhole) (arg5 : Memref sig .tc .vmem S1000x128 .f32) (harg5 : arg5.IsWhole) (arg6 : Memref sig .tc .vmem S1000x192 .bf16) (harg6 : arg6.IsWhole)
    (x0 : Vec F S1000x10000 .bf16) (x1 : Vec F S10000x128 .bf16) (x2 : Vec F S1x128 .f32) (x3 : Vec F S128x192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3) ∗ owns (c : Thread nD τ) arg6 fullShare (out2_5 x0 x1 x2 x3)) -∗ K ⟨⟩))
      ⊢ wp frame (wpE (defs₀ (F := F)) Variants.none c none) E (cc2__pass_hs_kern i arg1 harg1 arg2 harg2 arg3 harg3 arg4 harg4 arg5 harg5 arg6 harg6) K := by
  simp only [cc2__pass_hs_kern_eq_skeleton]; unfold cc2__pass_hs_kern_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  iexists _; isplitr
  swap; · iexact H5
  ipureintro
  exact View.read_writes_eq_canon _ _ _ (cover2_5 _)

/-! ## The pipeline's proof data -/

/-- The proof data of this region on core `c`: the arrays as the region finds them; after the body at a point each
    input's buffer still holds its block and each output's holds `out2_w` of the input blocks; the invariant is the
    untouched remainder of the core's state; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

/-- What the body is entered with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: every input buffer holds its block, so the triple above applies; the invariant and what is
    owed pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline's proof data, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRegion3.lean ====
import proofs.«168842_g31997506355971_cont_9to1_2144_8_alg».proof.Proof.Gen.Kernel.Launch
import proofs.«168842_g31997506355971_cont_9to1_2144_8_alg».proof.Proof.Gen.Kernel.Skeleton
import proofs.«168842_g31997506355971_cont_9to1_2144_8_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: the body `cc3__pass_hs128_kern` at the region-entry contents `V`

One grid point computes `h = max(adj_block · S + bias, 0)` for a block of 1000 rows and multiplies the first 128
columns of `h` by the next layer's weights: windows 0 (the adjacency block), 1 (the resident right operand), 2 (the
bias row) and 3 (the next weights) are read; window 4 receives `h` and window 5 the rounded product, each written whole. -/

/-- The block of window `w` at grid point `t`: the window's array, as the region finds it, read through the
    block's view. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds the window's block at every grid point, whether the block was moved in
    at that point or stayed from an earlier one: the body leaves it in place and an unmoved block index means the
    same block. Stated for any proof data over `V`'s array that leaves the block as found. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds the window's block at every grid point, whether the block was moved in
    at that point or stayed from an earlier one: the body leaves it in place and an unmoved block index means the
    same block. Stated for any proof data over `V`'s array that leaves the block as found. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds the window's block at every grid point, whether the block was moved in
    at that point or stayed from an earlier one: the body leaves it in place and an unmoved block index means the
    same block. Stated for any proof data over `V`'s array that leaves the block as found. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds the window's block at every grid point, whether the block was moved in
    at that point or stayed from an earlier one: the body leaves it in place and an unmoved block index means the
    same block. Stated for any proof data over `V`'s array that leaves the block as found. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes: every one a whole staging buffer -/

abbrev r3_0 : Rect S1000x10000 := Rect.unit (s := S1000x10000) ![0, 0] S1000x10000.size inb_S1000x10000_S1000x10000_0_0
abbrev r3_1 : Rect S10000x192 := Rect.unit (s := S10000x192) ![0, 0] S10000x192.size inb_S10000x192_S10000x192_0_0
abbrev r3_2 : Rect S1x192 := Rect.unit (s := S1x192) ![0, 0] S1x192.size inb_S1x192_S1x192_0_0
abbrev r3_3 : Rect S128x256 := Rect.unit (s := S128x256) ![0, 0] S128x256.size inb_S128x256_S128x256_0_0
abbrev r3_4 : Rect S1000x192 := Rect.unit (s := S1000x192) ![0, 0] S1000x192.size inb_S1000x192_S1000x192_0_0
abbrev r3_5 : Rect S1000x256 := Rect.unit (s := S1000x256) ![0, 0] S1000x256.size inb_S1000x256_S1000x256_0_0

/-- A single write through the whole-buffer rectangle reaches every index of the buffer. -/
theorem coverWhole3 {S : Shape} {e : EltTy} {off : Fin S.rank → Nat} (h : off = fun _ => 0) (inb : ∀ a, off a + S.size a ≤ S.size a)
    (p : S.Idx → Elt F e) (y : S.Idx) :
    ∃ pc ∈ ([⟨Rect.unit off S.size inb, p⟩] : List (View.Piece (Elt F) S e)), y ∈ pc.1.set := by
  subst h
  exact ⟨_, List.mem_singleton_self _, by show y ∈ (Rect.whole S).set; rw [Rect.set_whole]; exact Finset.mem_univ y⟩

theorem zeroOff3 : (![0, 0] : Fin 2 → Nat) = fun _ => 0 := by
  funext a; fin_cases a <;> rfl

/-! ## What the body leaves in each output buffer -/

/-- Output window 4's staging buffer after the body, as a function of the input blocks: the one whole-buffer
    store's value laid over the buffer. -/
def out3_4 (x0 : Vec F S1000x10000 .bf16) (x1 : Vec F S10000x192 .bf16) (x2 : Vec F S1x192 .f32) (x3 : Vec F S128x256 .f32) : Vec F S1000x192 .f32 :=
  View.canon [⟨r3_4, k3_pay1 (View.ld x0 r3_0) (View.ld x1 r3_1) (View.ld x2 r3_2)⟩]

theorem cover3_4 (p0 : Vec F S1000x192 .f32) (y : S1000x192.Idx) :
    ∃ pc ∈ ([⟨r3_4, p0⟩] : List (View.Piece (Elt F) S1000x192 .f32)), y ∈ pc.1.set :=
  coverWhole3 zeroOff3 inb_S1000x192_S1000x192_0_0 p0 y

/-- Output window 5's staging buffer after the body, as a function of the input blocks: the one whole-buffer
    store's value laid over the buffer. -/
def out3_5 (x0 : Vec F S1000x10000 .bf16) (x1 : Vec F S10000x192 .bf16) (x2 : Vec F S1x192 .f32) (x3 : Vec F S128x256 .f32) : Vec F S1000x256 .bf16 :=
  View.canon [⟨r3_5, k3_pay2 (View.ld x0 r3_0) (View.ld x1 r3_1) (View.ld x2 r3_2) (View.ld x3 r3_3)⟩]

theorem cover3_5 (p0 : Vec F S1000x256 .bf16) (y : S1000x256.Idx) :
    ∃ pc ∈ ([⟨r3_5, p0⟩] : List (View.Piece (Elt F) S1000x256 .bf16)), y ∈ pc.1.set :=
  coverWhole3 zeroOff3 inb_S1000x256_S1000x256_0_0 p0 y

/-! ## The body's triple -/

set_option maxHeartbeats 1000000 in
/-- The body on whole staging buffers — the inputs' holding `x`, the outputs' holding anything — runs to a state where
    the inputs' are unchanged and each output's holds `out3_w` of the inputs. The body also reads each output buffer
    before writing it; that value is not used. -/
theorem sound_kernel3 (c : Dev nD) (E : Set ℕ) (i : grid3.Coords) (arg1 : Memref sig .tc .vmem S1000x10000 .bf16) (harg1 : arg1.IsWhole) (arg2 : Memref sig .tc .vmem S10000x192 .bf16) (harg2 : arg2.IsWhole) (arg3 : Memref sig .tc .vmem S1x192 .f32) (harg3 : arg3.IsWhole) (arg4 : Memref sig .tc .vmem S128x256 .f32) (harg4 : arg4.IsWhole) (arg5 : Memref sig .tc .vmem S1000x192 .f32) (harg5 : arg5.IsWhole) (arg6 : Memref sig .tc .vmem S1000x256 .bf16) (harg6 : arg6.IsWhole)
    (x0 : Vec F S1000x10000 .bf16) (x1 : Vec F S10000x192 .bf16) (x2 : Vec F S1x192 .f32) (x3 : Vec F S128x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3) ∗ owns (c : Thread nD τ) arg6 fullShare (out3_5 x0 x1 x2 x3)) -∗ K ⟨⟩))
      ⊢ wp frame (wpE (defs₀ (F := F)) Variants.none c none) E (cc3__pass_hs128_kern i arg1 harg1 arg2 harg2 arg3 harg3 arg4 harg4 arg5 harg5 arg6 harg6) K := by
  simp only [cc3__pass_hs128_kern_eq_skeleton]; unfold cc3__pass_hs128_kern_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover3_4 _)
  iexists _; isplitr
  swap; · iexact H5
  ipureintro
  exact View.read_writes_eq_canon _ _ _ (cover3_5 _)

/-! ## The pipeline's proof data -/

/-- The proof data of this region on core `c`: the arrays as the region finds them; after the body at a point each
    input's buffer still holds its block and each output's holds `out3_w` of the input blocks; the invariant is the
    untouched remainder of the core's state; full shares; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
    | ⟨5, _⟩ => out3_5 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]
theorem after3_5 (c : Dev nD) (t : Fin cfg3.N) : (dat3 V c).after 5 t = out3_5 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation -/

/-- What the body is entered with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: every input buffer holds its block, so the triple above applies; the invariant and what is
    owed pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline's proof data, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KRegion4.lean ====
import proofs.«168842_g31997506355971_cont_9to1_2144_8_alg».proof.Proof.Gen.Kernel.Launch
import proofs.«168842_g31997506355971_cont_9to1_2144_8_alg».proof.Proof.Gen.Kernel.Skeleton
import proofs.«168842_g31997506355971_cont_9to1_2144_8_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: the body `cc4__pass_h_kern` at the region-entry contents `V`

One grid point computes `max(adj_block · S + bias, 0)` for a block of 1000 rows: windows 0 (the adjacency block), 1 (the
resident right operand) and 2 (the bias row) are read, window 3 is written whole. -/

/-- The block of window `w` at grid point `t`: the window's array, as the region finds it, read through the
    block's view. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds the window's block at every grid point, whether the block was moved in
    at that point or stayed from an earlier one: the body leaves it in place and an unmoved block index means the
    same block. Stated for any proof data over `V`'s array that leaves the block as found. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds the window's block at every grid point, whether the block was moved in
    at that point or stayed from an earlier one: the body leaves it in place and an unmoved block index means the
    same block. Stated for any proof data over `V`'s array that leaves the block as found. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds the window's block at every grid point, whether the block was moved in
    at that point or stayed from an earlier one: the body leaves it in place and an unmoved block index means the
    same block. Stated for any proof data over `V`'s array that leaves the block as found. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The rectangles the body reads and writes: every one a whole staging buffer -/

abbrev r4_0 : Rect S1000x10000 := Rect.unit (s := S1000x10000) ![0, 0] S1000x10000.size inb_S1000x10000_S1000x10000_0_0
abbrev r4_1 : Rect S10000x256 := Rect.unit (s := S10000x256) ![0, 0] S10000x256.size inb_S10000x256_S10000x256_0_0
abbrev r4_2 : Rect S1x256 := Rect.unit (s := S1x256) ![0, 0] S1x256.size inb_S1x256_S1x256_0_0
abbrev r4_3 : Rect S1000x256 := Rect.unit (s := S1000x256) ![0, 0] S1000x256.size inb_S1000x256_S1000x256_0_0

/-- A single write through the whole-buffer rectangle reaches every index of the buffer. -/
theorem coverWhole4 {S : Shape} {e : EltTy} {off : Fin S.rank → Nat} (h : off = fun _ => 0) (inb : ∀ a, off a + S.size a ≤ S.size a)
    (p : S.Idx → Elt F e) (y : S.Idx) :
    ∃ pc ∈ ([⟨Rect.unit off S.size inb, p⟩] : List (View.Piece (Elt F) S e)), y ∈ pc.1.set := by
  subst h
  exact ⟨_, List.mem_singleton_self _, by show y ∈ (Rect.whole S).set; rw [Rect.set_whole]; exact Finset.mem_univ y⟩

theorem zeroOff4 : (![0, 0] : Fin 2 → Nat) = fun _ => 0 := by
  funext a; fin_cases a <;> rfl

/-! ## What the body leaves in each output buffer -/

/-- Output window 3's staging buffer after the body, as a function of the input blocks: the one whole-buffer
    store's value laid over the buffer. -/
def out4_3 (x0 : Vec F S1000x10000 .bf16) (x1 : Vec F S10000x256 .bf16) (x2 : Vec F S1x256 .f32) : Vec F S1000x256 .f32 :=
  View.canon [⟨r4_3, k4_pay1 (View.ld x0 r4_0) (View.ld x1 r4_1) (View.ld x2 r4_2)⟩]

theorem cover4_3 (p0 : Vec F S1000x256 .f32) (y : S1000x256.Idx) :
    ∃ pc ∈ ([⟨r4_3, p0⟩] : List (View.Piece (Elt F) S1000x256 .f32)), y ∈ pc.1.set :=
  coverWhole4 zeroOff4 inb_S1000x256_S1000x256_0_0 p0 y

/-! ## The body's triple -/

set_option maxHeartbeats 1000000 in
/-- The body on whole staging buffers — the inputs' holding `x`, the outputs' holding anything — runs to a state where
    the inputs' are unchanged and each output's holds `out4_w` of the inputs. The body also reads each output buffer
    before writing it; that value is not used. -/
theorem sound_kernel4 (c : Dev nD) (E : Set ℕ) (i : grid4.Coords) (arg1 : Memref sig .tc .vmem S1000x10000 .bf16) (harg1 : arg1.IsWhole) (arg2 : Memref sig .tc .vmem S10000x256 .bf16) (harg2 : arg2.IsWhole) (arg3 : Memref sig .tc .vmem S1x256 .f32) (harg3 : arg3.IsWhole) (arg4 : Memref sig .tc .vmem S1000x256 .f32) (harg4 : arg4.IsWhole)
    (x0 : Vec F S1000x10000 .bf16) (x1 : Vec F S10000x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__pass_h_kern i arg1 harg1 arg2 harg2 arg3 harg3 arg4 harg4) K := by
  simp only [cc4__pass_h_kern_eq_skeleton]; unfold cc4__pass_h_kern_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of this region on core `c`: the arrays as the region finds them; after the body at a point each
    input's buffer still holds its block and each output's holds `out4_w` of the input blocks; the invariant is the
    untouched remainder of the core's state; full shares; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation -/

/-- What the body is entered with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it leaves. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: every input buffer holds its block, so the triple above applies; the invariant and what is
    owed pass through untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline's proof data, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KRegion5.lean ====
import proofs.«168842_g31997506355971_cont_9to1_2144_8_alg».proof.Proof.Gen.Kernel.Launch
import proofs.«168842_g31997506355971_cont_9to1_2144_8_alg».proof.Proof.Gen.Kernel.Skeleton
import proofs.«168842_g31997506355971_cont_9to1_2144_8_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The shared array, dealt between the two windows that read it

The library's entry and exit lemmas for a region's arrays take the windows' arrays to be pairwise distinct buffers.
Here windows 0 and 1 are the same buffer. What replaces them: the buffers behind the windows' arrays are the two
buffers `main_v21` (read) and `main_v22` (written); a points-to at the full share is the two points-tos at its left and
right halves; so the two buffers whole, at the contents `W`, ARE the three windows' arrays of any proof data that
holds window 0's at the left half and window 1's at the right half, at those contents — in both directions. -/

/-- The buffers behind the three windows' arrays are two: the shared input array and the output array. -/
theorem arrImage5 : (Finset.univ.image (Pipeline.arrRef spec5) : Finset (Ref sig .tc)) = {main_v21, main_v22} := by decide

theorem v21_ne_v22 : (main_v21 : Ref sig .tc) ≠ main_v22 := by decide

section Deal
variable {c : Dev nD} (dat : Dat τ (Elt F) Unit ℕ (UR sig nD τ) ℕ cfg5 c)

/-- The shares the proof data hold the three arrays at: the inputs' their own, the output's full. -/
theorem share5_0 (hq : dat.q 0 = fullShare.left) : dat.share 0 = fullShare.left := by
  unfold Dat.share; exact hq
theorem share5_1 (hq : dat.q 1 = fullShare.right) : dat.share 1 = fullShare.right := by
  unfold Dat.share; exact hq
theorem share5_2 : dat.share 2 = fullShare := by
  unfold Dat.share; rfl

/-- The two buffers whole at contents `W` are the three windows' arrays at contents `G` that read `W`: the shared
    buffer's full share is the left half (window 0's) beside the right half (window 1's). -/
theorem arrays5_iff (W : (b : Ref sig .tc) → Buf (Elt F) ((c : Thread nD τ).loc b))
    (hq0 : dat.q 0 = fullShare.left) (hq1 : dat.q 1 = fullShare.right)
    (G : (w : Fin cfg5.W) → Buf (Elt F) ((cfg5.win w).arr.view.loc (c : Thread nD τ)))
    (hG : ∀ w, G w = W (Pipeline.arrRef spec5 w)) :
    (Pipeline.arrBufs spec5 c W : sProp 𝕄) ⊣⊢ dat.arrays G := by
  have e0 : ((cfg5.win 0).arr.view.loc (c : Thread nD τ) ↦[(cfg5.win 0).arr.view.set]{dat.share 0} G 0 : sProp 𝕄)
      = ((c : Thread nD τ).loc main_v21 ↦{fullShare.left} W main_v21) := by
    rw [(arr_whole5 0).set_eq_univ, share5_0 dat hq0, hG 0]
  have e1 : ((cfg5.win 1).arr.view.loc (c : Thread nD τ) ↦[(cfg5.win 1).arr.view.set]{dat.share 1} G 1 : sProp 𝕄)
      = ((c : Thread nD τ).loc main_v21 ↦{fullShare.right} W main_v21) := by
    rw [(arr_whole5 1).set_eq_univ, share5_1 dat hq1, hG 1]
  have e2 : ((cfg5.win 2).arr.view.loc (c : Thread nD τ) ↦[(cfg5.win 2).arr.view.set]{dat.share 2} G 2 : sProp 𝕄)
      = ((c : Thread nD τ).loc main_v22 ↦{fullShare} W main_v22) := by
    rw [(arr_whole5 2).set_eq_univ, share5_2 dat, hG 2]
  have eb : (Pipeline.arrBufs spec5 c W : sProp 𝕄)
      = iprop(((c : Thread nD τ).loc main_v21 ↦{fullShare} W main_v21) ∗ ((c : Thread nD τ).loc main_v22 ↦{fullShare} W main_v22)) := by
    unfold Pipeline.arrBufs
    rw [arrImage5, BI.bigSep_insert (by rw [Finset.mem_singleton]; exact v21_ne_v22), BI.bigSep_singleton]; rfl
  rw [eb]
  unfold Dat.arrays
  rw [bigSep_W5, e0, e1, e2]
  constructor
  · iintro ⟨Ha, Hb⟩
    ihave Ha := (pointsTo_share (PosShare.mem_left_op_right fullShare)).1 $$ Ha
    icases Ha with ⟨Hl, Hr⟩
    isplitl [Hl]; · iexact Hl
    isplitl [Hr]; · iexact Hr
    iexact Hb
  · iintro ⟨Hl, Hr, Hb⟩
    isplitr [Hb]
    · iapply (pointsTo_share (PosShare.mem_left_op_right fullShare)).2; isplitl [Hl]; · iexact Hl
      iexact Hr
    iexact Hb

/-- A core's unscoped buffers are the two buffers behind the windows' arrays and the rest. -/
theorem unscopedBufs_split5 (W : (b : Ref sig .tc) → Buf (Elt F) ((c : Thread nD τ).loc b)) :
    (unscopedBufs c W : sProp 𝕄) = iprop(Pipeline.arrBufs spec5 c W ∗ Pipeline.unscopedRest spec5 c W) :=
  Pipeline.unscopedBufs_split₀ (fun _ : Unit => cfg5) () winFacts₀5.arr_unscoped c W

end Deal

/-! # REGION 5: the structure kernel, whose two input windows read ONE array

The kernel computes, 400 rows at a time, the product of a block of rows of a matrix with the transpose of the whole
matrix. Both operands are windows on the same array: window 0 takes the block of 400 rows at each point, window 1
the whole array, fetched once; window 2 is the 400-by-10000 block of the product written back at each point.
Because the two input windows read one buffer, the core holds that buffer for them at two complementary shares: the
left half of the full share for window 0 and the right half for window 1. -/

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block of rows at every point (it is fetched at each), for any
    proof data whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds the whole array at every point, though it is fetched at the first only: its
    block index never moves, and the body leaves the buffer as it found it. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer read or written whole -/

abbrev r5_0 : Rect S400x64 := Rect.unit (s := S400x64) ![0, 0] S400x64.size inb_S400x64_S400x64_0_0
abbrev r5_1 : Rect S10000x64 := Rect.unit (s := S10000x64) ![0, 0] S10000x64.size inb_S10000x64_S10000x64_0_0
abbrev r5_2 : Rect S400x10000 := Rect.unit (s := S400x10000) ![0, 0] S400x10000.size inb_S400x10000_S400x10000_0_0

/-! ## What the body leaves in the output window's buffer -/

/-- Window 2's staging buffer after the body, from the two input blocks: its one store, of the product of the block
    of rows with the transpose of the whole array. -/
def out5_2 (x0 : Vec F S400x64 .f32) (x1 : Vec F S10000x64 .f32) : Vec F S400x10000 .f32 :=
  View.canon [⟨r5_2, k5_pay1 (View.ld x0 r5_0) (View.ld x1 r5_1)⟩]

/-- The store's rectangle is the whole buffer, so it covers it. -/
theorem cover5_2 (p0 : Vec F S400x10000 .f32) (y : S400x10000.Idx) :
    ∃ pc ∈ ([⟨r5_2, p0⟩] : List (View.Piece (Elt F) S400x10000 .f32)), y ∈ pc.1.set :=
  View.cover_of_tiled [⟨r5_2, p0⟩] S400x10000.size (by rfl) y

/-! ## The body's triple -/

set_option maxHeartbeats 1000000 in
/-- The kernel body on whole staging memrefs — the inputs' at read contents `x0`, `x1`, the output's at anything (the
    body loads it before it stores to it, and the loaded value is dead) — runs to the continuation holding the inputs'
    as they were and the output's at `out5_2` of the inputs'. -/
theorem sound_kernel5 (c : Dev nD) (E : Set ℕ) (i : grid5.Coords)
    (arg1 : Memref sig .tc .vmem S400x64 .f32) (harg1 : arg1.IsWhole)
    (arg2 : Memref sig .tc .vmem S10000x64 .f32) (harg2 : arg2.IsWhole)
    (arg3 : Memref sig .tc .vmem S400x10000 .f32) (harg3 : arg3.IsWhole)
    (x0 : Vec F S400x64 .f32) (x1 : Vec F S10000x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) E (cc5__struct_kern i arg1 harg1 arg2 harg2 arg3 harg3) K := by
  simp only [cc5__struct_kern_eq_skeleton]; unfold cc5__struct_kern_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of the pipeline on core `c`: the arrays as the region finds them (`V`); after the body at point
    `t` each input's buffer at its block and the output's at `out5_2` of the input blocks; the invariant the scoped
    rest and the generator register, untouched; nothing owed. The shared input array is held at the left half of
    the full share for window 0 and at the right half for window 1. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q w := match w with
    | ⟨0, _⟩ => fullShare.left
    | ⟨1, _⟩ => fullShare.right
    | ⟨2, _⟩ => fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-- The shares the two input windows hold their common array at. -/
theorem q5_0 (c : Dev nD) : (dat5 V c).q 0 = fullShare.left := by dsimp only [dat5]
theorem q5_1 (c : Dev nD) : (dat5 V c).q 1 = fullShare.right := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so the body's triple applies; the invariant and the
    core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## The region's entry and exit: its arrays out of the core's unscoped buffers, and back -/

/-- ENTRY: a core's unscoped buffers at the contents `V c` are the pipeline's arrays at the proof data's entry
    contents — the shared input array dealt to windows 0 and 1 at the two halves of the full share — and the
    unscoped rest. -/
theorem arrays5_of_unscopedBufs (c : Dev nD) :
    (unscopedBufs c (V c) : sProp 𝕄)
      ⊢ iprop((dat5 V c).arrays ((dat5 V c).arrAt · 0) ∗ Pipeline.unscopedRest spec5 c (V c)) := by
  rw [unscopedBufs_split5]
  exact sep_mono (arrays5_iff (dat5 V c) (V c) (q5_0 V c) (q5_1 V c) _ (fun w => A_eq5 V c w)).1 .rfl

/-- EXIT: the pipeline's arrays at their final contents — the input array as it was, its two halves joined; the
    output array as the write-backs left it — and the unscoped rest at `V c` are the core's unscoped buffers at any
    contents `V' c` that have the arrays at their final contents and agree with `V c` off them. -/
theorem unscopedBufs5_of_arrays (c : Dev nD)
    (V' : (c : Dev nD) → (b : Ref sig .tc) → Buf (Elt F) ((c : Thread nD τ).loc b))
    (hF : ∀ w, (dat5 V c).arrAt w cfg5.N = V' c (Pipeline.arrRef spec5 w))
    (hrest : ∀ b, b ∉ Finset.univ.image (Pipeline.arrRef spec5) → V' c b = V c b) :
    iprop((dat5 V c).arrays ((dat5 V c).arrAt · cfg5.N) ∗ Pipeline.unscopedRest spec5 c (V c))
      ⊢ (unscopedBufs c (V' c) : sProp 𝕄) := by
  rw [unscopedBufs_split5]
  refine sep_mono (arrays5_iff (dat5 V c) (V' c) (q5_0 V c) (q5_1 V c) _ hF).2 (Entails.of_eq ?_)
  unfold Pipeline.unscopedRest
  exact bigSep_congr fun b hb => by rw [hrest b (Finset.mem_sdiff.mp hb).2]

/-- The input windows' array is never written: at every point it holds the entry contents. -/
theorem arrAt5_0 (c : Dev nD) (n : ℕ) : (dat5 V c).arrAt 0 n = V c (Pipeline.arrRef spec5 0) :=
  ((dat5 V c).arrAt_in 0 rfl n).trans (A_eq5 V c 0)
theorem arrAt5_1 (c : Dev nD) (n : ℕ) : (dat5 V c).arrAt 1 n = V c (Pipeline.arrRef spec5 1) :=
  ((dat5 V c).arrAt_in 1 rfl n).trans (A_eq5 V c 1)

end Cert.Kernel.Hand

end
-- ==== Proof.KRun.lean ====
/-
  The run of the whole program, region by region, at any float instance.

  @main is nine items: a stretch of host operations (the block weights and bias rows), five pipelined matrix passes,
  one host slice, the Gram-matrix pass, four host slices.  Between two items a core's unscoped buffers are held whole
  at known contents: at launch the memory; after a host stretch the stretch's operations applied; after a pass the
  pass's output arrays at what its write-backs leave (the proof data's fold `arrAt` over all grid points) and every
  other buffer as before.  Each pass is entered with its windows' arrays split out of the unscoped buffers and left
  with them put back; the generator register and the core's (empty) debts ride beside the buffers.  The theorem
  `run_all` reads every unscoped buffer of the final state at the last contents `B9`.
-/
import proofs.«168842_g31997506355971_cont_9to1_2144_8_alg».proof.Proof.Gen.Kernel.Regions
import proofs.«168842_g31997506355971_cont_9to1_2144_8_alg».proof.Proof.KRegion0
import proofs.«168842_g31997506355971_cont_9to1_2144_8_alg».proof.Proof.KRegion1
import proofs.«168842_g31997506355971_cont_9to1_2144_8_alg».proof.Proof.KRegion2
import proofs.«168842_g31997506355971_cont_9to1_2144_8_alg».proof.Proof.KRegion3
import proofs.«168842_g31997506355971_cont_9to1_2144_8_alg».proof.Proof.KRegion4
import proofs.«168842_g31997506355971_cont_9to1_2144_8_alg».proof.Proof.KRegion5

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries between items -/

/-- At launch. -/
abbrev B0 : Dev nD → Valuation τ sig (Elt F) := fun c b => (s₀ m ρ).mem ((c : Dev nD), b)
/-- After the first host stretch: the block weights and bias rows are in place. -/
abbrev B1 : Dev nD → Valuation τ sig (Elt F) := fun c => StableHlo.after hostOps0 (B0 m ρ c)
abbrev T1 : (c : Dev nD) → (b : Ref sig .tc) → Buf (Elt F) ((c : Thread nD τ).loc b) := fun c b => B1 m ρ c b

/-- After pass 0: its arrays at what its write-backs leave, every other buffer as it was. -/
def B2 (c : Dev nD) : Valuation τ sig (Elt F) :=
  Pipeline.withArrays spec0 c (B1 m ρ c) fun w => (dat0 (T1 m ρ) c).arrAt w cfg0.N
theorem B2_arr (c : Dev nD) (w : Fin cfg0.W) :
    B2 m ρ c (Proc.devRef .tc (Pipeline.arrRef spec0 w)) = (dat0 (T1 m ρ) c).arrAt w cfg0.N := by
  unfold B2; exact Pipeline.withArrays_arr spec0 launch0.win.arr_inj c _ _ w
theorem B2_off (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev T2 : (c : Dev nD) → (b : Ref sig .tc) → Buf (Elt F) ((c : Thread nD τ).loc b) := fun c b => B2 m ρ c b
theorem exitArr0 (c : Dev nD) (w : Fin cfg0.W) : (dat0 (T1 m ρ) c).arrAt w cfg0.N = T2 m ρ c (Pipeline.arrRef spec0 w) :=
  (B2_arr m ρ c w).symm
theorem exitOff0 (c : Dev nD) : ∀ b, b ∉ Finset.univ.image (Pipeline.arrRef spec0) → T2 m ρ c b = T1 m ρ c b :=
  fun b hb => B2_off m ρ c b fun w e => hb (Finset.mem_image.mpr ⟨w, Finset.mem_univ _, e⟩)

/-- After pass 1: its arrays at what its write-backs leave, every other buffer as it was. -/
def B3 (c : Dev nD) : Valuation τ sig (Elt F) :=
  Pipeline.withArrays spec1 c (B2 m ρ c) fun w => (dat1 (T2 m ρ) c).arrAt w cfg1.N
theorem B3_arr (c : Dev nD) (w : Fin cfg1.W) :
    B3 m ρ c (Proc.devRef .tc (Pipeline.arrRef spec1 w)) = (dat1 (T2 m ρ) c).arrAt w cfg1.N := by
  unfold B3; exact Pipeline.withArrays_arr spec1 launch1.win.arr_inj c _ _ w
theorem B3_off (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev T3 : (c : Dev nD) → (b : Ref sig .tc) → Buf (Elt F) ((c : Thread nD τ).loc b) := fun c b => B3 m ρ c b
theorem exitArr1 (c : Dev nD) (w : Fin cfg1.W) : (dat1 (T2 m ρ) c).arrAt w cfg1.N = T3 m ρ c (Pipeline.arrRef spec1 w) :=
  (B3_arr m ρ c w).symm
theorem exitOff1 (c : Dev nD) : ∀ b, b ∉ Finset.univ.image (Pipeline.arrRef spec1) → T3 m ρ c b = T2 m ρ c b :=
  fun b hb => B3_off m ρ c b fun w e => hb (Finset.mem_image.mpr ⟨w, Finset.mem_univ _, e⟩)

/-- After pass 2: its arrays at what its write-backs leave, every other buffer as it was. -/
def B4 (c : Dev nD) : Valuation τ sig (Elt F) :=
  Pipeline.withArrays spec2 c (B3 m ρ c) fun w => (dat2 (T3 m ρ) c).arrAt w cfg2.N
theorem B4_arr (c : Dev nD) (w : Fin cfg2.W) :
    B4 m ρ c (Proc.devRef .tc (Pipeline.arrRef spec2 w)) = (dat2 (T3 m ρ) c).arrAt w cfg2.N := by
  unfold B4; exact Pipeline.withArrays_arr spec2 launch2.win.arr_inj c _ _ w
theorem B4_off (c : Dev nD) (b : Ref sig .tc) (hb : ∀ w, Pipeline.arrRef spec2 w ≠ b) :
    B4 m ρ c (Proc.devRef .tc b) = B3 m ρ c (Proc.devRef .tc b) := by
  unfold B4; exact Pipeline.withArrays_of_ne spec2 c _ _ b hb
abbrev T4 : (c : Dev nD) → (b : Ref sig .tc) → Buf (Elt F) ((c : Thread nD τ).loc b) := fun c b => B4 m ρ c b
theorem exitArr2 (c : Dev nD) (w : Fin cfg2.W) : (dat2 (T3 m ρ) c).arrAt w cfg2.N = T4 m ρ c (Pipeline.arrRef spec2 w) :=
  (B4_arr m ρ c w).symm
theorem exitOff2 (c : Dev nD) : ∀ b, b ∉ Finset.univ.image (Pipeline.arrRef spec2) → T4 m ρ c b = T3 m ρ c b :=
  fun b hb => B4_off m ρ c b fun w e => hb (Finset.mem_image.mpr ⟨w, Finset.mem_univ _, e⟩)

/-- After pass 3: its arrays at what its write-backs leave, every other buffer as it was. -/
def B5 (c : Dev nD) : Valuation τ sig (Elt F) :=
  Pipeline.withArrays spec3 c (B4 m ρ c) fun w => (dat3 (T4 m ρ) c).arrAt w cfg3.N
theorem B5_arr (c : Dev nD) (w : Fin cfg3.W) :
    B5 m ρ c (Proc.devRef .tc (Pipeline.arrRef spec3 w)) = (dat3 (T4 m ρ) c).arrAt w cfg3.N := by
  unfold B5; exact Pipeline.withArrays_arr spec3 launch3.win.arr_inj c _ _ w
theorem B5_off (c : Dev nD) (b : Ref sig .tc) (hb : ∀ w, Pipeline.arrRef spec3 w ≠ b) :
    B5 m ρ c (Proc.devRef .tc b) = B4 m ρ c (Proc.devRef .tc b) := by
  unfold B5; exact Pipeline.withArrays_of_ne spec3 c _ _ b hb
abbrev T5 : (c : Dev nD) → (b : Ref sig .tc) → Buf (Elt F) ((c : Thread nD τ).loc b) := fun c b => B5 m ρ c b
theorem exitArr3 (c : Dev nD) (w : Fin cfg3.W) : (dat3 (T4 m ρ) c).arrAt w cfg3.N = T5 m ρ c (Pipeline.arrRef spec3 w) :=
  (B5_arr m ρ c w).symm
theorem exitOff3 (c : Dev nD) : ∀ b, b ∉ Finset.univ.image (Pipeline.arrRef spec3) → T5 m ρ c b = T4 m ρ c b :=
  fun b hb => B5_off m ρ c b fun w e => hb (Finset.mem_image.mpr ⟨w, Finset.mem_univ _, e⟩)

/-- After pass 4: its arrays at what its write-backs leave, every other buffer as it was. -/
def B6 (c : Dev nD) : Valuation τ sig (Elt F) :=
  Pipeline.withArrays spec4 c (B5 m ρ c) fun w => (dat4 (T5 m ρ) c).arrAt w cfg4.N
theorem B6_arr (c : Dev nD) (w : Fin cfg4.W) :
    B6 m ρ c (Proc.devRef .tc (Pipeline.arrRef spec4 w)) = (dat4 (T5 m ρ) c).arrAt w cfg4.N := by
  unfold B6; exact Pipeline.withArrays_arr spec4 launch4.win.arr_inj c _ _ w
theorem B6_off (c : Dev nD) (b : Ref sig .tc) (hb : ∀ w, Pipeline.arrRef spec4 w ≠ b) :
    B6 m ρ c (Proc.devRef .tc b) = B5 m ρ c (Proc.devRef .tc b) := by
  unfold B6; exact Pipeline.withArrays_of_ne spec4 c _ _ b hb
abbrev T6 : (c : Dev nD) → (b : Ref sig .tc) → Buf (Elt F) ((c : Thread nD τ).loc b) := fun c b => B6 m ρ c b
theorem exitArr4 (c : Dev nD) (w : Fin cfg4.W) : (dat4 (T5 m ρ) c).arrAt w cfg4.N = T6 m ρ c (Pipeline.arrRef spec4 w) :=
  (B6_arr m ρ c w).symm
theorem exitOff4 (c : Dev nD) : ∀ b, b ∉ Finset.univ.image (Pipeline.arrRef spec4) → T6 m ρ c b = T5 m ρ c b :=
  fun b hb => B6_off m ρ c b fun w e => hb (Finset.mem_image.mpr ⟨w, Finset.mem_univ _, e⟩)

/-- After the host slice that cuts the structure branch's 64 columns out of the third pass's activations. -/
abbrev B7 : Dev nD → Valuation τ sig (Elt F) := fun c => StableHlo.after hostOps5 (B6 m ρ c)
abbrev T7 : (c : Dev nD) → (b : Ref sig .tc) → Buf (Elt F) ((c : Thread nD τ).loc b) := fun c b => B7 m ρ c b

/-- After the Gram-matrix pass: only its output array changes (both input windows read one array, which it leaves). -/
def B8 (c : Dev nD) : Valuation τ sig (Elt F) :=
  Function.update (B7 m ρ c) (Proc.devRef .tc main_v22) ((dat5 (T7 m ρ) c).arrAt 2 cfg5.N)
abbrev T8 : (c : Dev nD) → (b : Ref sig .tc) → Buf (Elt F) ((c : Thread nD τ).loc b) := fun c b => B8 m ρ c b
theorem B8_out (c : Dev nD) : B8 m ρ c (Proc.devRef .tc main_v22) = (dat5 (T7 m ρ) c).arrAt 2 cfg5.N := by
  unfold B8; exact Function.update_self ..
theorem B8_off (c : Dev nD) (b : Ref sig .tc) (hb : b ≠ main_v22) :
    B8 m ρ c (Proc.devRef .tc b) = B7 m ρ c (Proc.devRef .tc b) := by
  unfold B8; exact Function.update_of_ne (StableHlo.devRef_ne_of_ne hb) ..
theorem exitArr5 (c : Dev nD) (w : Fin cfg5.W) : (dat5 (T7 m ρ) c).arrAt w cfg5.N = T8 m ρ c (Pipeline.arrRef spec5 w) := by
  match w with
  | ⟨0, _⟩ => exact ((dat5 (T7 m ρ) c).arrAt_in 0 rfl _).trans ((A_eq5 (T7 m ρ) c 0).trans (B8_off m ρ c main_v21 (by decide)).symm)
  | ⟨1, _⟩ => exact ((dat5 (T7 m ρ) c).arrAt_in 1 rfl _).trans ((A_eq5 (T7 m ρ) c 1).trans (B8_off m ρ c main_v21 (by decide)).symm)
  | ⟨2, _⟩ => exact (B8_out m ρ c).symm
theorem exitOff5 (c : Dev nD) : ∀ b, b ∉ Finset.univ.image (Pipeline.arrRef spec5) → T8 m ρ c b = T7 m ρ c b :=
  fun b hb => B8_off m ρ c b fun e => hb (Finset.mem_image.mpr ⟨2, Finset.mem_univ _, e.symm⟩)

/-- After the last host stretch: the four result slices. -/
abbrev B9 : Dev nD → Valuation τ sig (Elt F) := fun c => StableHlo.after hostOps6 (B8 m ρ c)

/-! ## What a pass leaves alone

A pass changes only its OUTPUT windows' arrays: an input window's array folds to its entry contents, and a buffer
that is no window's array is not touched. -/

theorem B2_keep (c : Dev nD) (r : Ref sig .tc) (hr : ∀ w, (cfg0.win w).isOut = true → Pipeline.arrRef spec0 w ≠ r) :
    B2 m ρ c (Proc.devRef .tc r) = B1 m ρ c (Proc.devRef .tc r) := by
  by_cases h : ∃ w, Pipeline.arrRef spec0 w = r
  · obtain ⟨w, rfl⟩ := h
    have hin : (cfg0.win w).isOut = false := by
      cases hw : (cfg0.win w).isOut
      · rfl
      · exact absurd rfl (hr w hw)
    exact (B2_arr m ρ c w).trans (((dat0 (T1 m ρ) c).arrAt_in w hin _).trans (A_eq0 (T1 m ρ) c w))
  · exact B2_off m ρ c r fun w e => h ⟨w, e⟩

theorem B3_keep (c : Dev nD) (r : Ref sig .tc) (hr : ∀ w, (cfg1.win w).isOut = true → Pipeline.arrRef spec1 w ≠ r) :
    B3 m ρ c (Proc.devRef .tc r) = B2 m ρ c (Proc.devRef .tc r) := by
  by_cases h : ∃ w, Pipeline.arrRef spec1 w = r
  · obtain ⟨w, rfl⟩ := h
    have hin : (cfg1.win w).isOut = false := by
      cases hw : (cfg1.win w).isOut
      · rfl
      · exact absurd rfl (hr w hw)
    exact (B3_arr m ρ c w).trans (((dat1 (T2 m ρ) c).arrAt_in w hin _).trans (A_eq1 (T2 m ρ) c w))
  · exact B3_off m ρ c r fun w e => h ⟨w, e⟩

theorem B4_keep (c : Dev nD) (r : Ref sig .tc) (hr : ∀ w, (cfg2.win w).isOut = true → Pipeline.arrRef spec2 w ≠ r) :
    B4 m ρ c (Proc.devRef .tc r) = B3 m ρ c (Proc.devRef .tc r) := by
  by_cases h : ∃ w, Pipeline.arrRef spec2 w = r
  · obtain ⟨w, rfl⟩ := h
    have hin : (cfg2.win w).isOut = false := by
      cases hw : (cfg2.win w).isOut
      · rfl
      · exact absurd rfl (hr w hw)
    exact (B4_arr m ρ c w).trans (((dat2 (T3 m ρ) c).arrAt_in w hin _).trans (A_eq2 (T3 m ρ) c w))
  · exact B4_off m ρ c r fun w e => h ⟨w, e⟩

theorem B5_keep (c : Dev nD) (r : Ref sig .tc) (hr : ∀ w, (cfg3.win w).isOut = true → Pipeline.arrRef spec3 w ≠ r) :
    B5 m ρ c (Proc.devRef .tc r) = B4 m ρ c (Proc.devRef .tc r) := by
  by_cases h : ∃ w, Pipeline.arrRef spec3 w = r
  · obtain ⟨w, rfl⟩ := h
    have hin : (cfg3.win w).isOut = false := by
      cases hw : (cfg3.win w).isOut
      · rfl
      · exact absurd rfl (hr w hw)
    exact (B5_arr m ρ c w).trans (((dat3 (T4 m ρ) c).arrAt_in w hin _).trans (A_eq3 (T4 m ρ) c w))
  · exact B5_off m ρ c r fun w e => h ⟨w, e⟩

theorem B6_keep (c : Dev nD) (r : Ref sig .tc) (hr : ∀ w, (cfg4.win w).isOut = true → Pipeline.arrRef spec4 w ≠ r) :
    B6 m ρ c (Proc.devRef .tc r) = B5 m ρ c (Proc.devRef .tc r) := by
  by_cases h : ∃ w, Pipeline.arrRef spec4 w = r
  · obtain ⟨w, rfl⟩ := h
    have hin : (cfg4.win w).isOut = false := by
      cases hw : (cfg4.win w).isOut
      · rfl
      · exact absurd rfl (hr w hw)
    exact (B6_arr m ρ c w).trans (((dat4 (T5 m ρ) c).arrAt_in w hin _).trans (A_eq4 (T5 m ρ) c w))
  · exact B6_off m ρ c r fun w e => h ⟨w, e⟩

/-- A buffer no host stretch writes and no pass has as an output ends as launched. -/
theorem B9_keep (c : Dev nD) (r : Ref sig .tc) (h0 : r ∉ hostOps0_W) (h5 : r ∉ hostOps5_W) (h6 : r ∉ hostOps6_W)
    (hr : r ∉ ([main_v16, main_v17_0, main_v17_1, main_v18_0, main_v18_1, main_v19_0, main_v19_1, main_v20, main_v22] : List (Ref sig .tc))) :
    B9 m ρ c (Proc.devRef .tc r) = m ((c : Thread nD τ).loc r) := by
  simp only [List.mem_cons, List.not_mem_nil, or_false, not_or] at hr
  obtain ⟨n16, n170, n171, n180, n181, n190, n191, n20, n22⟩ := hr
  calc B9 m ρ c (Proc.devRef .tc r)
    _ = B8 m ρ c (Proc.devRef .tc r) := StableHlo.after_of_writes_sub hostOps6 _ hostOps6_writes h6
    _ = B7 m ρ c (Proc.devRef .tc r) := B8_off m ρ c r n22
    _ = B6 m ρ c (Proc.devRef .tc r) := StableHlo.after_of_writes_sub hostOps5 _ hostOps5_writes h5
    _ = B5 m ρ c (Proc.devRef .tc r) := B6_keep m ρ c r (by
          intro w hw; fin_cases w <;> first | exact absurd hw (by decide) | exact Ne.symm n20)
    _ = B4 m ρ c (Proc.devRef .tc r) := B5_keep m ρ c r (by
          intro w hw; fin_cases w <;> first | exact absurd hw (by decide) | exact Ne.symm n190 | exact Ne.symm n191)
    _ = B3 m ρ c (Proc.devRef .tc r) := B4_keep m ρ c r (by
          intro w hw; fin_cases w <;> first | exact absurd hw (by decide) | exact Ne.symm n180 | exact Ne.symm n181)
    _ = B2 m ρ c (Proc.devRef .tc r) := B3_keep m ρ c r (by
          intro w hw; fin_cases w <;> first | exact absurd hw (by decide) | exact Ne.symm n170 | exact Ne.symm n171)
    _ = B1 m ρ c (Proc.devRef .tc r) := B2_keep m ρ c r (by
          intro w hw; fin_cases w <;> first | exact absurd hw (by decide) | exact Ne.symm n16)
    _ = B0 m ρ c (Proc.devRef .tc r) := StableHlo.after_of_writes_sub hostOps0 _ hostOps0_writes h0
    _ = m ((c : Thread nD τ).loc r) := rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The proof data of all passes, and what rides beside the buffers -/

/-- No pass prefetches a table. -/
abbrev adm : (p : Fin 6) → (pcfgs (F := F) p).Adm := fun p => (cfgs p).toPCfg_adm

/-- Each pass's proof data at the contents it is entered with. -/
def pdats : (p : Fin 6) → (c : Dev nD) → Dat τ (Elt F) Unit ℕ (UR sig nD τ) ℕ (Pipeline.pin (pcfgs (F := F)) adm p) c
  | ⟨0, _⟩ => fun c => dat0 (T1 m ρ) c
  | ⟨1, _⟩ => fun c => dat1 (T2 m ρ) c
  | ⟨2, _⟩ => fun c => dat2 (T3 m ρ) c
  | ⟨3, _⟩ => fun c => dat3 (T4 m ρ) c
  | ⟨4, _⟩ => fun c => dat4 (T5 m ρ) c
  | ⟨5, _⟩ => fun c => dat5 (T7 m ρ) c

abbrev noVariants : Variants := Variants.none
/-- No core waits on another: no level is assigned. -/
abbrev noLevels : GSem nD τ sig → Finset Unit := fun _ => ∅
abbrev lvl0 : GSem nD τ sig → Unit → ℕ := fun _ _ => 0

/-- Beside the buffers: the generator register at some state and the core's debts, none. -/
abbrev Beside (c : Dev nD) : sProp 𝕄 := iprop((∃ r, prngReg c r) ∗ ∃ W, owes (c : Thread nD τ) (0 : CellTallies nD τ sig Unit) W)

/-- The thread state at a boundary: every unscoped buffer whole at the boundary's contents, and `Beside`. -/
abbrev At (B : Dev nD → Valuation τ sig (Elt F)) (c : Dev nD) : sProp 𝕄 :=
  iprop(StableHlo.held (c : Thread nD τ) (Pipeline.ucRefs τ sig) (B c) ∗ Beside c)

/-- A stretch of host operations as a segment from the contents `B`. -/
abbrev hostSeg (ops : List (HloOp τ sig (Elt F))) (hsub : ops.Forall fun op => op.bufs ⊆ StableHlo.tcRefs τ sig)
    (hfresh : ops.Forall fun op => op.fresh = ∅) (B : Dev nD → Valuation τ sig (Elt F)) :
    Pipeline.HostSeg (Name := ℕ) (U := UR sig nD τ) (pcfgs (F := F)) defs₀ noVariants noLevels lvl0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) B Beside

/-! ## The passes as segments -/

set_option backward.isDefEq.respectTransparency.types false in
/-- Pass 0: entered with every unscoped buffer at `B1`, left with them at `B2`. -/
def reg0 : Pipeline.RegionSeg (pcfgs (F := F)) adm (pdats m ρ) () defs₀ noVariants noLevels lvl0 0 where
  win := launch0.win.to₀
  block_pos := launch0.block_pos
  stage_whole := launch0.stage_whole
  K := PEmpty
  osem k := k.elim
  ho := Pipeline.OwnSemFacts.none _
  hbody c := (body_obligation0 (T1 m ρ) c).loose
  hwaits := Pipeline.hwaits_of_owed_zero _ _ _ _ noLevels lvl0 0 fun _ _ => rfl
  pre := At (B1 m ρ)
  post := At (B2 m ρ)
  X c := iprop(∃ r, prngReg c r)
  Y c := iprop(∃ r, prngReg c r)
  Z c := Pipeline.unscopedRest (Ix := Unit) (Name := ℕ) (U := UR sig nD τ) (Lvl := ℕ) spec0 c (T1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (T1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (T1 m ρ c) (T2 m ρ c) ((pdats m ρ 0 c).arrAt · cfg0.N) (exitArr0 m ρ c) (exitOff0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 1: entered with every unscoped buffer at `B2`, left with them at `B3`. -/
def reg1 : Pipeline.RegionSeg (pcfgs (F := F)) adm (pdats m ρ) () defs₀ noVariants noLevels lvl0 1 where
  win := launch1.win.to₀
  block_pos := launch1.block_pos
  stage_whole := launch1.stage_whole
  K := PEmpty
  osem k := k.elim
  ho := Pipeline.OwnSemFacts.none _
  hbody c := (body_obligation1 (T2 m ρ) c).loose
  hwaits := Pipeline.hwaits_of_owed_zero _ _ _ _ noLevels lvl0 1 fun _ _ => rfl
  pre := At (B2 m ρ)
  post := At (B3 m ρ)
  X c := iprop(∃ r, prngReg c r)
  Y c := iprop(∃ r, prngReg c r)
  Z c := Pipeline.unscopedRest (Ix := Unit) (Name := ℕ) (U := UR sig nD τ) (Lvl := ℕ) spec1 c (T2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (T2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (T2 m ρ c) (T3 m ρ c) ((pdats m ρ 1 c).arrAt · cfg1.N) (exitArr1 m ρ c) (exitOff1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 2: entered with every unscoped buffer at `B3`, left with them at `B4`. -/
def reg2 : Pipeline.RegionSeg (pcfgs (F := F)) adm (pdats m ρ) () defs₀ noVariants noLevels lvl0 2 where
  win := launch2.win.to₀
  block_pos := launch2.block_pos
  stage_whole := launch2.stage_whole
  K := PEmpty
  osem k := k.elim
  ho := Pipeline.OwnSemFacts.none _
  hbody c := (body_obligation2 (T3 m ρ) c).loose
  hwaits := Pipeline.hwaits_of_owed_zero _ _ _ _ noLevels lvl0 2 fun _ _ => rfl
  pre := At (B3 m ρ)
  post := At (B4 m ρ)
  X c := iprop(∃ r, prngReg c r)
  Y c := iprop(∃ r, prngReg c r)
  Z c := Pipeline.unscopedRest (Ix := Unit) (Name := ℕ) (U := UR sig nD τ) (Lvl := ℕ) spec2 c (T3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (T3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (T3 m ρ c) (T4 m ρ c) ((pdats m ρ 2 c).arrAt · cfg2.N) (exitArr2 m ρ c) (exitOff2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 3: entered with every unscoped buffer at `B4`, left with them at `B5`. -/
def reg3 : Pipeline.RegionSeg (pcfgs (F := F)) adm (pdats m ρ) () defs₀ noVariants noLevels lvl0 3 where
  win := launch3.win.to₀
  block_pos := launch3.block_pos
  stage_whole := launch3.stage_whole
  K := PEmpty
  osem k := k.elim
  ho := Pipeline.OwnSemFacts.none _
  hbody c := (body_obligation3 (T4 m ρ) c).loose
  hwaits := Pipeline.hwaits_of_owed_zero _ _ _ _ noLevels lvl0 3 fun _ _ => rfl
  pre := At (B4 m ρ)
  post := At (B5 m ρ)
  X c := iprop(∃ r, prngReg c r)
  Y c := iprop(∃ r, prngReg c r)
  Z c := Pipeline.unscopedRest (Ix := Unit) (Name := ℕ) (U := UR sig nD τ) (Lvl := ℕ) spec3 c (T4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (T4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (T4 m ρ c) (T5 m ρ c) ((pdats m ρ 3 c).arrAt · cfg3.N) (exitArr3 m ρ c) (exitOff3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 4: entered with every unscoped buffer at `B5`, left with them at `B6`. -/
def reg4 : Pipeline.RegionSeg (pcfgs (F := F)) adm (pdats m ρ) () defs₀ noVariants noLevels lvl0 4 where
  win := launch4.win.to₀
  block_pos := launch4.block_pos
  stage_whole := launch4.stage_whole
  K := PEmpty
  osem k := k.elim
  ho := Pipeline.OwnSemFacts.none _
  hbody c := (body_obligation4 (T5 m ρ) c).loose
  hwaits := Pipeline.hwaits_of_owed_zero _ _ _ _ noLevels lvl0 4 fun _ _ => rfl
  pre := At (B5 m ρ)
  post := At (B6 m ρ)
  X c := iprop(∃ r, prngReg c r)
  Y c := iprop(∃ r, prngReg c r)
  Z c := Pipeline.unscopedRest (Ix := Unit) (Name := ℕ) (U := UR sig nD τ) (Lvl := ℕ) spec4 c (T5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (T5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (T5 m ρ c) (T6 m ρ c) ((pdats m ρ 4 c).arrAt · cfg4.N) (exitArr4 m ρ c) (exitOff4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 5: entered with every unscoped buffer at `B7`, left with them at `B8`. -/
def reg5 : Pipeline.RegionSeg (pcfgs (F := F)) adm (pdats m ρ) () defs₀ noVariants noLevels lvl0 5 where
  win := winFacts₀5
  block_pos := block_pos5
  stage_whole := stage_whole5
  K := PEmpty
  osem k := k.elim
  ho := Pipeline.OwnSemFacts.none _
  hbody c := (body_obligation5 (T7 m ρ) c).loose
  hwaits := Pipeline.hwaits_of_owed_zero _ _ _ _ noLevels lvl0 5 fun _ _ => rfl
  pre := At (B7 m ρ)
  post := At (B8 m ρ)
  X c := iprop(∃ r, prngReg c r)
  Y c := iprop(∃ r, prngReg c r)
  Z c := Pipeline.unscopedRest (Ix := Unit) (Name := ℕ) (U := UR sig nD τ) (Lvl := ℕ) spec5 c (T7 m ρ c)
  hentry c := by
    rw [Pipeline.ownSems0_none]
    have hsplit := arrays5_of_unscopedBufs (T7 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin : iprop((pdats m ρ 5 c).arrays ((pdats m ρ 5 c).arrAt · cfg5.N)
          ∗ Pipeline.unscopedRest (Ix := Unit) (Name := ℕ) (U := UR sig nD τ) (Lvl := ℕ) spec5 c (T7 m ρ c))
        ⊢ (unscopedBufs c (T8 m ρ c) : sProp 𝕄) :=
      unscopedBufs5_of_arrays (T7 m ρ) c (T8 m ρ) (exitArr5 m ρ c) (exitOff5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The nine items in order. -/
abbrev items : List (Pipeline.Seg (pcfgs (F := F)) adm (pdats m ρ) () defs₀ noVariants noLevels lvl0) :=
  [ .host (hostSeg hostOps0 hostOps0_sub hostOps0_fresh (B0 m ρ)),
    .region (reg0 m ρ), .region (reg1 m ρ), .region (reg2 m ρ), .region (reg3 m ρ), .region (reg4 m ρ),
    .host (hostSeg hostOps5 hostOps5_sub hostOps5_fresh (B6 m ρ)),
    .region (reg5 m ρ),
    .host (hostSeg hostOps6 hostOps6_sub hostOps6_fresh (B8 m ρ)) ]

theorem main_items (c : Dev nD) : main (F := F) c = Pipeline.Seg.run (items m ρ) := (main_chain c).trans (by chain_rfl)

set_option backward.isDefEq.respectTransparency.types false in
/-- Every weakly fair execution of @main from memory `m` with zero counters terminates, nothing faulting, and the final
    memory holds every unscoped buffer at the last boundary's contents `B9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B9 m ρ c b) :=
  Pipeline.θ_run_regions_kit (pcfgs (F := F)) adm (pdats m ρ) () cellOf_inj emb₁ defs₀ noVariants noLevels lvl0 m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := At (B0 m ρ))
    (Tₙ := fun c => iprop(StableHlo.held (c : Thread nD τ) (Pipeline.ucRefs τ sig) (B9 m ρ c) ∗ ∃ r, prngReg c r))
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (B9 m ρ c) ∗ Beside c) : sProp 𝕄) ⊢ _
        iintro ⟨Hh, Hp, HO⟩
        isplitl [Hh Hp]
        · isplitl [Hh]; · iexact Hh
          iexact Hp
        iexact HO⟩)
    (hinit := by
      refine Pipeline.initEach noLevels lvl0 fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B9 m ρ c b)
    (hfin := fun c s' => by
      iintro ⟨⟨Hh, -⟩, HSI⟩
      unfold StableHlo.held
      imodintro
      iapply (pointsTo_read_all (Pipeline.ucRefs τ sig) (fun b => (((c : Thread nD τ)).1, b)) (B9 m ρ c) s')
      isplitl [Hh] <;> iassumption)
    (hQ := fun s h c => h c)

end Cert.Kernel.Hand

end
-- ==== Proof.Frames.lean ====
/-
  The frame claims of the two kernel programs.

  The run of the nine items ends with every unscoped buffer at the last boundary's contents; an argument array is
  written by no host operation and is the output of no pass, so those contents are the launch memory's.  The same
  text holds at the word-level instance and at the ideal one: nothing in the run depends on how floats are read.
-/
import proofs.«168842_g31997506355971_cont_9to1_2144_8_alg».proof.Defs
import proofs.«168842_g31997506355971_cont_9to1_2144_8_alg».proof.Proof.Gen.Pre_finite_inputs
import proofs.«168842_g31997506355971_cont_9to1_2144_8_alg».proof.Proof.Gen.Kernel
import proofs.«168842_g31997506355971_cont_9to1_2144_8_alg».proof.Proof.Gen.KernelIdeal
import proofs.«168842_g31997506355971_cont_9to1_2144_8_alg».proof.Proof.Run
import proofs.«168842_g31997506355971_cont_9to1_2144_8_alg».proof.Proof.KRun

set_option maxRecDepth 16384

noncomputable section

namespace Cert.Proof.Frames

open Idealize.ShloMosaic Idealize.SL.Sem

/-- Every argument array ends as launched: no host operation writes it and no pass has it as an output. -/
theorem frame_k : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.B9_keep m ρ c Cert.Kernel.main_arg0 (by decide) (by decide) (by decide) (by decide)),
     (h c _ (Cert.Kernel.Hand.mem_uc Cert.Kernel.main_arg1 (by decide))).trans (Cert.Kernel.Hand.B9_keep m ρ c Cert.Kernel.main_arg1 (by decide) (by decide) (by decide) (by decide)),
     (h c _ (Cert.Kernel.Hand.mem_uc Cert.Kernel.main_arg2 (by decide))).trans (Cert.Kernel.Hand.B9_keep m ρ c Cert.Kernel.main_arg2 (by decide) (by decide) (by decide) (by decide)),
     (h c _ (Cert.Kernel.Hand.mem_uc Cert.Kernel.main_arg3 (by decide))).trans (Cert.Kernel.Hand.B9_keep m ρ c Cert.Kernel.main_arg3 (by decide) (by decide) (by decide) (by decide)),
     (h c _ (Cert.Kernel.Hand.mem_uc Cert.Kernel.main_arg4 (by decide))).trans (Cert.Kernel.Hand.B9_keep m ρ c Cert.Kernel.main_arg4 (by decide) (by decide) (by decide) (by decide)),
     (h c _ (Cert.Kernel.Hand.mem_uc Cert.Kernel.main_arg5 (by decide))).trans (Cert.Kernel.Hand.B9_keep m ρ c Cert.Kernel.main_arg5 (by decide) (by decide) (by decide) (by decide)),
     (h c _ (Cert.Kernel.Hand.mem_uc Cert.Kernel.main_arg6 (by decide))).trans (Cert.Kernel.Hand.B9_keep m ρ c Cert.Kernel.main_arg6 (by decide) (by decide) (by decide) (by decide)),
     (h c _ (Cert.Kernel.Hand.mem_uc Cert.Kernel.main_arg7 (by decide))).trans (Cert.Kernel.Hand.B9_keep m ρ c Cert.Kernel.main_arg7 (by decide) (by decide) (by decide) (by decide)),
     (h c _ (Cert.Kernel.Hand.mem_uc Cert.Kernel.main_arg8 (by decide))).trans (Cert.Kernel.Hand.B9_keep m ρ c Cert.Kernel.main_arg8 (by decide) (by decide) (by decide) (by decide)),
     (h c _ (Cert.Kernel.Hand.mem_uc Cert.Kernel.main_arg9 (by decide))).trans (Cert.Kernel.Hand.B9_keep m ρ c Cert.Kernel.main_arg9 (by decide) (by decide) (by decide) (by decide)),
     (h c _ (Cert.Kernel.Hand.mem_uc Cert.Kernel.main_arg10 (by decide))).trans (Cert.Kernel.Hand.B9_keep m ρ c Cert.Kernel.main_arg10 (by decide) (by decide) (by decide) (by decide)),
     (h c _ (Cert.Kernel.Hand.mem_uc Cert.Kernel.main_arg11 (by decide))).trans (Cert.Kernel.Hand.B9_keep m ρ c Cert.Kernel.main_arg11 (by decide) (by decide) (by decide) (by decide)),
     (h c _ (Cert.Kernel.Hand.mem_uc Cert.Kernel.main_arg12 (by decide))).trans (Cert.Kernel.Hand.B9_keep m ρ c Cert.Kernel.main_arg12 (by decide) (by decide) (by decide) (by decide)),
     (h c _ (Cert.Kernel.Hand.mem_uc Cert.Kernel.main_arg13 (by decide))).trans (Cert.Kernel.Hand.B9_keep m ρ c Cert.Kernel.main_arg13 (by decide) (by decide) (by decide) (by decide)),
     (h c _ (Cert.Kernel.Hand.mem_uc Cert.Kernel.main_arg14 (by decide))).trans (Cert.Kernel.Hand.B9_keep m ρ c Cert.Kernel.main_arg14 (by decide) (by decide) (by decide) (by decide)),
     (h c _ (Cert.Kernel.Hand.mem_uc Cert.Kernel.main_arg15 (by decide))).trans (Cert.Kernel.Hand.B9_keep m ρ c Cert.Kernel.main_arg15 (by decide) (by decide) (by decide) (by decide)),
     (h c _ (Cert.Kernel.Hand.mem_uc Cert.Kernel.main_arg16 (by decide))).trans (Cert.Kernel.Hand.B9_keep m ρ c Cert.Kernel.main_arg16 (by decide) (by decide) (by decide) (by decide)),
     (h c _ (Cert.Kernel.Hand.mem_uc Cert.Kernel.main_arg17 (by decide))).trans (Cert.Kernel.Hand.B9_keep m ρ c Cert.Kernel.main_arg17 (by decide) (by decide) (by decide) (by decide))⟩)
    (Cert.Kernel.Hand.run_all (F := Bits) m ρ)

/-- Every argument array ends as launched: no host operation writes it and no pass has it as an output. -/
theorem frame_ki : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.B9_keep m ρ c Cert.KernelIdeal.main_arg0 (by decide) (by decide) (by decide) (by decide)),
     (h c _ (Cert.KernelIdeal.Hand.mem_uc Cert.KernelIdeal.main_arg1 (by decide))).trans (Cert.KernelIdeal.Hand.B9_keep m ρ c Cert.KernelIdeal.main_arg1 (by decide) (by decide) (by decide) (by decide)),
     (h c _ (Cert.KernelIdeal.Hand.mem_uc Cert.KernelIdeal.main_arg2 (by decide))).trans (Cert.KernelIdeal.Hand.B9_keep m ρ c Cert.KernelIdeal.main_arg2 (by decide) (by decide) (by decide) (by decide)),
     (h c _ (Cert.KernelIdeal.Hand.mem_uc Cert.KernelIdeal.main_arg3 (by decide))).trans (Cert.KernelIdeal.Hand.B9_keep m ρ c Cert.KernelIdeal.main_arg3 (by decide) (by decide) (by decide) (by decide)),
     (h c _ (Cert.KernelIdeal.Hand.mem_uc Cert.KernelIdeal.main_arg4 (by decide))).trans (Cert.KernelIdeal.Hand.B9_keep m ρ c Cert.KernelIdeal.main_arg4 (by decide) (by decide) (by decide) (by decide)),
     (h c _ (Cert.KernelIdeal.Hand.mem_uc Cert.KernelIdeal.main_arg5 (by decide))).trans (Cert.KernelIdeal.Hand.B9_keep m ρ c Cert.KernelIdeal.main_arg5 (by decide) (by decide) (by decide) (by decide)),
     (h c _ (Cert.KernelIdeal.Hand.mem_uc Cert.KernelIdeal.main_arg6 (by decide))).trans (Cert.KernelIdeal.Hand.B9_keep m ρ c Cert.KernelIdeal.main_arg6 (by decide) (by decide) (by decide) (by decide)),
     (h c _ (Cert.KernelIdeal.Hand.mem_uc Cert.KernelIdeal.main_arg7 (by decide))).trans (Cert.KernelIdeal.Hand.B9_keep m ρ c Cert.KernelIdeal.main_arg7 (by decide) (by decide) (by decide) (by decide)),
     (h c _ (Cert.KernelIdeal.Hand.mem_uc Cert.KernelIdeal.main_arg8 (by decide))).trans (Cert.KernelIdeal.Hand.B9_keep m ρ c Cert.KernelIdeal.main_arg8 (by decide) (by decide) (by decide) (by decide)),
     (h c _ (Cert.KernelIdeal.Hand.mem_uc Cert.KernelIdeal.main_arg9 (by decide))).trans (Cert.KernelIdeal.Hand.B9_keep m ρ c Cert.KernelIdeal.main_arg9 (by decide) (by decide) (by decide) (by decide)),
     (h c _ (Cert.KernelIdeal.Hand.mem_uc Cert.KernelIdeal.main_arg10 (by decide))).trans (Cert.KernelIdeal.Hand.B9_keep m ρ c Cert.KernelIdeal.main_arg10 (by decide) (by decide) (by decide) (by decide)),
     (h c _ (Cert.KernelIdeal.Hand.mem_uc Cert.KernelIdeal.main_arg11 (by decide))).trans (Cert.KernelIdeal.Hand.B9_keep m ρ c Cert.KernelIdeal.main_arg11 (by decide) (by decide) (by decide) (by decide)),
     (h c _ (Cert.KernelIdeal.Hand.mem_uc Cert.KernelIdeal.main_arg12 (by decide))).trans (Cert.KernelIdeal.Hand.B9_keep m ρ c Cert.KernelIdeal.main_arg12 (by decide) (by decide) (by decide) (by decide)),
     (h c _ (Cert.KernelIdeal.Hand.mem_uc Cert.KernelIdeal.main_arg13 (by decide))).trans (Cert.KernelIdeal.Hand.B9_keep m ρ c Cert.KernelIdeal.main_arg13 (by decide) (by decide) (by decide) (by decide)),
     (h c _ (Cert.KernelIdeal.Hand.mem_uc Cert.KernelIdeal.main_arg14 (by decide))).trans (Cert.KernelIdeal.Hand.B9_keep m ρ c Cert.KernelIdeal.main_arg14 (by decide) (by decide) (by decide) (by decide)),
     (h c _ (Cert.KernelIdeal.Hand.mem_uc Cert.KernelIdeal.main_arg15 (by decide))).trans (Cert.KernelIdeal.Hand.B9_keep m ρ c Cert.KernelIdeal.main_arg15 (by decide) (by decide) (by decide) (by decide)),
     (h c _ (Cert.KernelIdeal.Hand.mem_uc Cert.KernelIdeal.main_arg16 (by decide))).trans (Cert.KernelIdeal.Hand.B9_keep m ρ c Cert.KernelIdeal.main_arg16 (by decide) (by decide) (by decide) (by decide)),
     (h c _ (Cert.KernelIdeal.Hand.mem_uc Cert.KernelIdeal.main_arg17 (by decide))).trans (Cert.KernelIdeal.Hand.B9_keep m ρ c Cert.KernelIdeal.main_arg17 (by decide) (by decide) (by decide) (by decide))⟩)
    (Cert.KernelIdeal.Hand.run_all (F := Ideal) m ρ)

end Cert.Proof.Frames

end
-- ==== Proof.Blocks0.lean ====
import proofs.«168842_g31997506355971_cont_9to1_2144_8_alg».proof.Proof.Region0
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))

/-! # Region 0: what the pass leaves in its output array, entry by entry

Row `p` of an output array is written by the grid point `p / 2000`, at its local row `p % 2000`. -/

/-! ## A whole-buffer store leaves its value -/

theorem out0_2_eq (x0 : Vec F S2000x128 .f32) (x1 : Vec F S128x64 .f32) : out0_2 x0 x1 = k0_pay1 x0 x1 := by
  unfold out0_2
  rw [View.canon_unit_zero zeroOff0]
  simp only [View.ld_unit_zero (S := S2000x128) zeroOff0, View.ld_unit_zero (S := S128x64) zeroOff0]

/-! ## The grid's points and rows -/

theorem gridN0 : cfg0.N = 5 := N_0

/-- The grid point that handles row `p`: `p / 2000`. -/
@[irreducible] def pt0 (p : Fin 10000) : Fin cfg0.N := ⟨p.val / 2000, by have h := p.isLt; rw [gridN0]; omega⟩
theorem pt0_val (p : Fin 10000) : (pt0 p).val = p.val / 2000 := by unfold pt0; rfl
theorem pt0_eq (p : Fin 10000) (h : p.val / 2000 < cfg0.N) : pt0 p = ⟨p.val / 2000, h⟩ := Fin.ext (pt0_val p)
/-- Row `p`'s place inside its block: `p % 2000`. -/
@[irreducible] def loc0 (p : Fin 10000) : Fin 2000 := ⟨p.val % 2000, Nat.mod_lt _ (by decide)⟩
theorem loc0_val (p : Fin 10000) : (loc0 p).val = p.val % 2000 := by unfold loc0; rfl
theorem loc0_eq (p : Fin 10000) (h : p.val % 2000 < 2000) : loc0 p = ⟨p.val % 2000, h⟩ := Fin.ext (loc0_val p)
/-- The array row of local row `r` of point `t`'s block. -/
abbrev row0 (t : Fin cfg0.N) (r : Fin 2000) : Fin 10000 :=
  ⟨t.val * 2000 + r.val, by have h : t.val < 5 := Nat.lt_of_lt_of_eq t.isLt gridN0; have h' := r.isLt; omega⟩

/-- The block index maps over the grid: the row-blocked windows move with the point along the rows, the resident ones
    stay at the origin. -/
theorem idxMaps0 : ∀ t : Fin cfg0.N, win0_0.index t (0 : Fin 2) = t.val
    ∧ win0_0.index t (1 : Fin 2) = 0
    ∧ win0_2.index t (0 : Fin 2) = t.val
    ∧ win0_2.index t (1 : Fin 2) = 0
    ∧ win0_1.index t (0 : Fin 2) = 0
    ∧ win0_1.index t (1 : Fin 2) = 0 :=
  (by decide +kernel : ∀ t : Fin grid0.N, _)

/-! ## The input blocks, read at an entry -/

theorem iblk0_0_apply (c : Dev nD) (t : Fin cfg0.N) (r : Fin 2000) (u : Fin 128) :
    iblk0 V c 0 t (ix2 r u) = V c (Pipeline.arrRef spec0 0) (ix2 (row0 t r) u) := by
  obtain ⟨e0, e1, e2, e3, e4, e5⟩ := idxMaps0 t
  show V c (Pipeline.arrRef spec0 0) (((cfg0.win 0).blk t).view.emb (ix2 r u)) = _
  refine congrArg _ (funext fun a => Fin.ext ?_)
  match a with
  | ⟨0, _⟩ => show win0_0.index t (0 : Fin 2) * 2000 + 1 * r.val = t.val * 2000 + r.val; rw [e0]; omega
  | ⟨1, _⟩ => show win0_0.index t (1 : Fin 2) * 128 + 1 * u.val = u.val; rw [e1]; omega

theorem iblk0_1_apply (c : Dev nD) (t : Fin cfg0.N) (r : Fin 128) (u : Fin 64) :
    iblk0 V c 1 t (ix2 r u) = V c (Pipeline.arrRef spec0 1) (ix2 r u) := by
  obtain ⟨e0, e1, e2, e3, e4, e5⟩ := idxMaps0 t
  show V c (Pipeline.arrRef spec0 1) (((cfg0.win 1).blk t).view.emb (ix2 r u)) = _
  refine congrArg _ (funext fun a => Fin.ext ?_)
  match a with
  | ⟨0, _⟩ => show win0_1.index t (0 : Fin 2) * 128 + 1 * r.val = r.val; rw [e4]; omega
  | ⟨1, _⟩ => show win0_1.index t (1 : Fin 2) * 64 + 1 * u.val = u.val; rw [e5]; omega

/-! ## From blocks to the array -/

/-- The whole array window 2 ends holding: row `p` is what point `p / 2000` leaves at its local row. -/
def whole0_2 (c : Dev nD) : S10000x64.Idx → Elt F .f32 := fun i =>
  out0_2 (iblk0 V c 0 (pt0 (i 0))) (iblk0 V c 1 (pt0 (i 0))) (ix2 (loc0 (i 0)) (i 1))

/-- The same output value at equal points and equal local indices. -/
theorem out0_2_congr (c : Dev nD) (t t' : Fin cfg0.N) (ht : t' = t) (j j' : S2000x64.Idx) (hj : j' = j) :
    out0_2 (iblk0 V c 0 t') (iblk0 V c 1 t') j' = out0_2 (iblk0 V c 0 t) (iblk0 V c 1 t) j := by
  subst ht; subst hj; rfl

/-- Where local index `j` of point `t`'s block sits in the array. -/
theorem emb0_2 (t : Fin cfg0.N) (j : S2000x64.Idx) :
    ((((cfg0.win 2).blk t).view.emb j) 0).val = t.val * 2000 + (j 0).val ∧ ((((cfg0.win 2).blk t).view.emb j) 1).val = (j 1).val := by
  obtain ⟨e0, e1, e2, e3, e4, e5⟩ := idxMaps0 t
  constructor
  · show win0_2.index t (0 : Fin 2) * 2000 + 1 * (j 0).val = _; rw [e2]; omega
  · show win0_2.index t (1 : Fin 2) * 64 + 1 * (j 1).val = _; rw [e3]; omega

/-- `whole0_2` at an entry whose row is local row `j 0` of point `t`'s block and whose column is `j 1`. -/
theorem whole0_2_at (c : Dev nD) (t : Fin cfg0.N) (j : S2000x64.Idx) (i : S10000x64.Idx)
    (h0 : (i 0).val = t.val * 2000 + (j 0).val) (h1 : (i 1).val = (j 1).val) :
    whole0_2 V c i = out0_2 (iblk0 V c 0 t) (iblk0 V c 1 t) j := by
  have hj0 : (j 0).val < 2000 := (j 0).isLt
  have hN : t.val < 5 := Nat.lt_of_lt_of_eq t.isLt gridN0
  have hp : (pt0 (i 0)).val = (i 0).val / 2000 := pt0_val (i 0)
  have hl : (loc0 (i 0)).val = (i 0).val % 2000 := loc0_val (i 0)
  unfold whole0_2
  refine out0_2_congr V c t (pt0 (i 0)) (Fin.ext ?_) j (ix2 (loc0 (i 0)) (i 1)) (funext fun a => Fin.ext ?_)
  · omega
  · match a with
    | ⟨0, _⟩ => show (loc0 (i 0)).val = (j 0).val; omega
    | ⟨1, _⟩ => exact h1

/-- Reading a block of an array: the array at the block's entries. -/
theorem blkRead0_2 (t : Fin cfg0.N) (j : ((cfg0.win 2).xblock (grid0.coords t)).Idx) (G : S10000x64.Idx → Elt F .f32) :
    ((cfg0.win 2).blk t).view.read (Elt F) G j = G (((cfg0.win 2).blk t).view.emb j) := rfl

/-- What point `t` writes back is block `t` of `whole0_2`. -/
theorem flushed0_2_eq (c : Dev nD) (t : Fin cfg0.N) :
    (dat0 V c).flushed 2 t = ((cfg0.win 2).blk t).view.read (Elt F) (whole0_2 V c) := by
  show (cfg0.win 2).cut (grid0.coords t) ((dat0 V c).after 2 t) = _
  rw [after0_2]
  funext j
  obtain ⟨h0, h1⟩ := emb0_2 t j
  exact (whole0_2_at V c t j _ h0 h1).symm.trans (blkRead0_2 t j (whole0_2 V c)).symm

/-- An entry of the array is in point `t`'s block iff each coordinate is in the block's range. -/
theorem mem_blk0_2 (t : Fin cfg0.N) (i : S10000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v16).slice (win0_2.rect t)).set ↔ _
  rw [View.set_slice_whole, Rect.mem_set_unit]
  exact Iff.rfl

/-- Every entry is in the block of the point that handles its row. -/
theorem cover_arr0_2 (i : S10000x64.Idx) :
    ∃ t : Fin cfg0.N, (cfg0.win 2).flush t = true ∧ i ∈ ((cfg0.win 2).blk t).view.set := by
  refine ⟨pt0 (i 0), flush0_2 _, ?_⟩
  obtain ⟨e0, e1, e2, e3, e4, e5⟩ := idxMaps0 (pt0 (i 0))
  have hi0 : (i 0).val < 10000 := (i 0).isLt
  have hi1 : (i 1).val < 64 := (i 1).isLt
  have hp : (pt0 (i 0)).val = (i 0).val / 2000 := pt0_val (i 0)
  rw [mem_blk0_2]
  intro a
  match a with
  | ⟨0, _⟩ => show win0_2.index (pt0 (i 0)) (0 : Fin 2) * 2000 ≤ (i 0).val ∧ (i 0).val < win0_2.index (pt0 (i 0)) (0 : Fin 2) * 2000 + 2000; rw [e2]; omega
  | ⟨1, _⟩ => show win0_2.index (pt0 (i 0)) (1 : Fin 2) * 64 ≤ (i 1).val ∧ (i 1).val < win0_2.index (pt0 (i 0)) (1 : Fin 2) * 64 + 64; rw [e3]; omega

/-- The array after the pass. -/
theorem final0_2 (c : Dev nD) : (dat0 V c).arrAt 2 cfg0.N = whole0_2 V c :=
  (dat0 V c).arrAt_eq_of_cover 2 (whole0_2 V c) (fun t _ => flushed0_2_eq V c t) cover_arr0_2

/-- Entry `(p, q)` of the array after the pass: what point `p / 2000` leaves at local row `p % 2000`, column `q`. -/
theorem arrAt0_2 (c : Dev nD) (p : Fin 10000) (q : Fin 64) :
    (dat0 V c).arrAt 2 cfg0.N (ix2 p q) = out0_2 (iblk0 V c 0 (pt0 p)) (iblk0 V c 1 (pt0 p)) (ix2 (loc0 p) q) :=
  congrFun (final0_2 V c) (ix2 p q)

end Cert.KernelIdeal.Hand

end
-- ==== Proof.Blocks1.lean ====
import proofs.«168842_g31997506355971_cont_9to1_2144_8_alg».proof.Proof.Region1
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

variable {F : FTy → Type} [FloatOps F]

-- the TensorCore's buffer contents when the region is entered
variable (V : (c : Dev nD) → (b : Ref sig .tc) → Buf (Elt F) ((c : Thread nD τ).loc b))

/-! # REGION 1, read: what each point writes, and its two output arrays row by row

The region's grid has 25 points; point `t` reads rows `400 t … 400 t + 399` of the adjacency matrix (window 0) and
three resident operands whole (windows 1, 2, 3), and writes rows `400 t … 400 t + 399` of two arrays: the rounded copy
of the adjacency rows (window 4) and the first hidden layer times the next weights (window 5). -/

/-- Each whole-buffer store at offset zero leaves its payload. -/
theorem out1_4_eq (x0 : Vec F S400x10000 .f32) (x1 : Vec F S10000x64 .f32) (x2 : Vec F S1x64 .f32) (x3 : Vec F S64x128 .f32) :
    out1_4 x0 x1 x2 x3 = k1_pay1 x0 := by
  unfold out1_4
  rw [View.canon_unit_zero zeroOff1]
  simp only [View.ld_unit_zero (S := S400x10000) zeroOff1]

theorem out1_5_eq (x0 : Vec F S400x10000 .f32) (x1 : Vec F S10000x64 .f32) (x2 : Vec F S1x64 .f32) (x3 : Vec F S64x128 .f32) :
    out1_5 x0 x1 x2 x3 = k1_pay2 x0 x1 x2 x3 := by
  unfold out1_5
  rw [View.canon_unit_zero zeroOff1]
  simp only [View.ld_unit_zero (S := S400x10000) zeroOff1, View.ld_unit_zero (S := S10000x64) zeroOff1,
    View.ld_unit_zero (S := S1x64) zeroOff1, View.ld_unit_zero (S := S64x128) zeroOff1]

/-! ## The grid's points and rows -/

theorem gridN1 : cfg1.N = 25 := N_1
theorem point1_lt (t : Fin cfg1.N) : t.val < 25 := lt_of_lt_of_eq t.isLt gridN1

/-- The grid point that handles row `p`: `p / 400`. -/
@[irreducible] def pt1 (p : Fin 10000) : Fin cfg1.N := ⟨p.val / 400, by have h := p.isLt; rw [gridN1]; omega⟩
theorem pt1_val (p : Fin 10000) : (pt1 p).val = p.val / 400 := by unfold pt1; rfl
/-- Row `p`'s place inside its block: `p % 400`. -/
@[irreducible] def loc1 (p : Fin 10000) : Fin 400 := ⟨p.val % 400, Nat.mod_lt _ (by decide)⟩
theorem loc1_val (p : Fin 10000) : (loc1 p).val = p.val % 400 := by unfold loc1; rfl
/-- The array row of local row `r` of point `t`'s block. -/
abbrev row1 (t : Fin cfg1.N) (r : Fin 400) : Fin 10000 :=
  ⟨t.val * 400 + r.val, by have h := point1_lt t; have h' := r.isLt; omega⟩

/-- The printed index maps, decided over the grid: the row-blocked windows (0, 4, 5) are at row block `t`, the
    resident ones (1, 2, 3) stay at the origin. -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-! ## The input blocks, read at an entry -/

/-- Window 0's block at point `t` is rows `400 t …` of the adjacency matrix. -/
theorem iblk1_0_apply (c : Dev nD) (t : Fin cfg1.N) (r : Fin 400) (u : Fin 10000) :
    iblk1 V c 0 t (ix2 r u) = V c main_arg1 (ix2 (row1 t r) u) := by
  obtain ⟨e0, e1, -⟩ := index1 t
  show V c main_arg1 (((cfg1.win 0).blk t).view.emb (ix2 r u)) = _
  refine congrArg (V c main_arg1) ?_
  funext a; apply Fin.ext
  match a with
  | ⟨0, _⟩ => show win1_0.index t (0 : Fin 2) * 400 + 1 * r.val = t.val * 400 + r.val; omega
  | ⟨1, _⟩ => show win1_0.index t (1 : Fin 2) * 10000 + 1 * u.val = u.val; omega

/-- Window 1's block at every point is the whole first product. -/
theorem iblk1_1_apply (c : Dev nD) (t : Fin cfg1.N) (j : Fin 10000) (u : Fin 64) :
    iblk1 V c 1 t (ix2 j u) = V c main_v16 (ix2 j u) := by
  obtain ⟨e0, e1, e2, e3, e4, e5, e6, e7, -⟩ := index1 t
  show V c main_v16 (((cfg1.win 1).blk t).view.emb (ix2 j u)) = _
  refine congrArg (V c main_v16) ?_
  funext a; apply Fin.ext
  match a with
  | ⟨0, _⟩ => show win1_1.index t (0 : Fin 2) * 10000 + 1 * j.val = j.val; omega
  | ⟨1, _⟩ => show win1_1.index t (1 : Fin 2) * 64 + 1 * u.val = u.val; omega

/-- Window 2's block at every point is the whole bias row. -/
theorem iblk1_2_apply (c : Dev nD) (t : Fin cfg1.N) (j : Fin 1) (u : Fin 64) :
    iblk1 V c 2 t (ix2 j u) = V c main_v15 (ix2 j u) := by
  obtain ⟨e0, e1, e2, e3, e4, e5, e6, e7, -⟩ := index1 t
  show V c main_v15 (((cfg1.win 2).blk t).view.emb (ix2 j u)) = _
  refine congrArg (V c main_v15) ?_
  funext a; apply Fin.ext
  match a with
  | ⟨0, _⟩ => show win1_2.index t (0 : Fin 2) * 1 + 1 * j.val = j.val; omega
  | ⟨1, _⟩ => show win1_2.index t (1 : Fin 2) * 64 + 1 * u.val = u.val; omega

/-- Window 3's block at every point is the whole block weight matrix. -/
theorem iblk1_3_apply (c : Dev nD) (t : Fin cfg1.N) (j : Fin 64) (u : Fin 128) :
    iblk1 V c 3 t (ix2 j u) = V c main_v2 (ix2 j u) := by
  obtain ⟨e0, e1, e2, e3, e4, e5, e6, e7, -⟩ := index1 t
  show V c main_v2 (((cfg1.win 3).blk t).view.emb (ix2 j u)) = _
  refine congrArg (V c main_v2) ?_
  funext a; apply Fin.ext
  match a with
  | ⟨0, _⟩ => show win1_3.index t (0 : Fin 2) * 64 + 1 * j.val = j.val; omega
  | ⟨1, _⟩ => show win1_3.index t (1 : Fin 2) * 128 + 1 * u.val = u.val; omega

/-! ## Output window 4: from the blocks to the array -/

/-- Distinct points write distinct row blocks of window 4's array (decided over the grid), -/
theorem index_inj1_4 : ∀ t t' : Fin cfg1.N, win1_4.index t = win1_4.index t' → t = t' :=
  (by decide +kernel : ∀ t t' : Fin grid1.N, win1_4.index t = win1_4.index t' → t = t')

/-- so two points' blocks share no index. -/
theorem disjoint1_4 : ∀ t t' : Fin cfg1.N, (cfg1.win 4).flush t = true → (cfg1.win 4).flush t' = true → t ≠ t' →
    Disjoint ((cfg1.win 4).blk t).view.set ((cfg1.win 4).blk t').view.set :=
  fun t t' _ _ hne => (cfg1.win 4).disjoint_blk fun h => hne (index_inj1_4 t t' h)

/-- What point `t` writes back is what the body left: the window is uncut. -/
theorem flushed1_4 (c : Dev nD) (t : Fin cfg1.N) :
    (dat1 V c).flushed 4 t = out1_4 (iblk1 V c 0 t) (iblk1 V c 1 t) (iblk1 V c 2 t) (iblk1 V c 3 t) := by
  show (cfg1.win 4).cut (grid1.coords t) ((dat1 V c).after 4 t) = _
  rw [after1_4]
  rfl

/-- Block `t` of the final array, read back, is what point `t` wrote. -/
theorem blocks1_4 (c : Dev nD) (t : Fin cfg1.N) :
    ((cfg1.win 4).blk t).view.read (Elt F) ((dat1 V c).arrAt 4 cfg1.N) = out1_4 (iblk1 V c 0 t) (iblk1 V c 1 t) (iblk1 V c 2 t) (iblk1 V c 3 t) :=
  ((dat1 V c).read_blk_arrAt_eq_flushed 4 disjoint1_4 cfg1.N t t.isLt (flush1_4 t)).trans (flushed1_4 V c t)

/-- Row `400 t + r` of the final array is local row `r` of what point `t` wrote. -/
theorem arrAt1_4_at (c : Dev nD) (t : Fin cfg1.N) (r : Fin 400) (q : Fin 10000) :
    (dat1 V c).arrAt 4 cfg1.N (ix2 (row1 t r) q) = out1_4 (iblk1 V c 0 t) (iblk1 V c 1 t) (iblk1 V c 2 t) (iblk1 V c 3 t) (ix2 r q) := by
  obtain ⟨-, -, -, -, -, -, -, -, e8, e9, e10, e11⟩ := index1 t
  rw [← blocks1_4 V c t]
  show (dat1 V c).arrAt 4 cfg1.N _ = (dat1 V c).arrAt 4 cfg1.N (((cfg1.win 4).blk t).view.emb (ix2 r q))
  refine congrArg ((dat1 V c).arrAt 4 cfg1.N) ?_
  funext a; apply Fin.ext
  match a with
  | ⟨0, _⟩ => show t.val * 400 + r.val = win1_4.index t (0 : Fin 2) * 400 + 1 * r.val; omega
  | ⟨1, _⟩ => show q.val = win1_4.index t (1 : Fin 2) * 10000 + 1 * q.val; omega

/-- THE ARRAY after the region, entry by entry: row `p` is what grid point `p / 400` wrote at its local row `p % 400`. -/
theorem arrAt1_4 (c : Dev nD) (p : Fin 10000) (q : Fin 10000) :
    (dat1 V c).arrAt 4 cfg1.N (ix2 p q)
      = out1_4 (iblk1 V c 0 (pt1 p)) (iblk1 V c 1 (pt1 p)) (iblk1 V c 2 (pt1 p)) (iblk1 V c 3 (pt1 p)) (ix2 (loc1 p) q) := by
  rw [← arrAt1_4_at V c (pt1 p) (loc1 p) q]
  refine congrArg (fun p' : Fin 10000 => (dat1 V c).arrAt 4 cfg1.N (ix2 p' q)) (Fin.ext ?_)
  show p.val = (pt1 p).val * 400 + (loc1 p).val
  rw [pt1_val, loc1_val]
  omega

/-! ## Output window 5: from the blocks to the array -/

/-- Distinct points write distinct row blocks of window 5's array (decided over the grid), -/
theorem index_inj1_5 : ∀ t t' : Fin cfg1.N, win1_5.index t = win1_5.index t' → t = t' :=
  (by decide +kernel : ∀ t t' : Fin grid1.N, win1_5.index t = win1_5.index t' → t = t')

/-- so two points' blocks share no index. -/
theorem disjoint1_5 : ∀ t t' : Fin cfg1.N, (cfg1.win 5).flush t = true → (cfg1.win 5).flush t' = true → t ≠ t' →
    Disjoint ((cfg1.win 5).blk t).view.set ((cfg1.win 5).blk t').view.set :=
  fun t t' _ _ hne => (cfg1.win 5).disjoint_blk fun h => hne (index_inj1_5 t t' h)

/-- What point `t` writes back is what the body left: the window is uncut. -/
theorem flushed1_5 (c : Dev nD) (t : Fin cfg1.N) :
    (dat1 V c).flushed 5 t = out1_5 (iblk1 V c 0 t) (iblk1 V c 1 t) (iblk1 V c 2 t) (iblk1 V c 3 t) := by
  show (cfg1.win 5).cut (grid1.coords t) ((dat1 V c).after 5 t) = _
  rw [after1_5]
  rfl

/-- Block `t` of the final array, read back, is what point `t` wrote. -/
theorem blocks1_5 (c : Dev nD) (t : Fin cfg1.N) :
    ((cfg1.win 5).blk t).view.read (Elt F) ((dat1 V c).arrAt 5 cfg1.N) = out1_5 (iblk1 V c 0 t) (iblk1 V c 1 t) (iblk1 V c 2 t) (iblk1 V c 3 t) :=
  ((dat1 V c).read_blk_arrAt_eq_flushed 5 disjoint1_5 cfg1.N t t.isLt (flush1_5 t)).trans (flushed1_5 V c t)

/-- Row `400 t + r` of the final array is local row `r` of what point `t` wrote. -/
theorem arrAt1_5_at (c : Dev nD) (t : Fin cfg1.N) (r : Fin 400) (q : Fin 128) :
    (dat1 V c).arrAt 5 cfg1.N (ix2 (row1 t r) q) = out1_5 (iblk1 V c 0 t) (iblk1 V c 1 t) (iblk1 V c 2 t) (iblk1 V c 3 t) (ix2 r q) := by
  obtain ⟨-, -, -, -, -, -, -, -, e8, e9, e10, e11⟩ := index1 t
  rw [← blocks1_5 V c t]
  show (dat1 V c).arrAt 5 cfg1.N _ = (dat1 V c).arrAt 5 cfg1.N (((cfg1.win 5).blk t).view.emb (ix2 r q))
  refine congrArg ((dat1 V c).arrAt 5 cfg1.N) ?_
  funext a; apply Fin.ext
  match a with
  | ⟨0, _⟩ => show t.val * 400 + r.val = win1_5.index t (0 : Fin 2) * 400 + 1 * r.val; omega
  | ⟨1, _⟩ => show q.val = win1_5.index t (1 : Fin 2) * 128 + 1 * q.val; omega

/-- THE ARRAY after the region, entry by entry: row `p` is what grid point `p / 400` wrote at its local row `p % 400`. -/
theorem arrAt1_5 (c : Dev nD) (p : Fin 10000) (q : Fin 128) :
    (dat1 V c).arrAt 5 cfg1.N (ix2 p q)
      = out1_5 (iblk1 V c 0 (pt1 p)) (iblk1 V c 1 (pt1 p)) (iblk1 V c 2 (pt1 p)) (iblk1 V c 3 (pt1 p)) (ix2 (loc1 p) q) := by
  rw [← arrAt1_5_at V c (pt1 p) (loc1 p) q]
  refine congrArg (fun p' : Fin 10000 => (dat1 V c).arrAt 5 cfg1.N (ix2 p' q)) (Fin.ext ?_)
  show p.val = (pt1 p).val * 400 + (loc1 p).val
  rw [pt1_val, loc1_val]
  omega

end Cert.KernelIdeal.Hand

end
-- ==== Proof.Blocks2.lean ====
import proofs.«168842_g31997506355971_cont_9to1_2144_8_alg».proof.Proof.Region2
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

variable {F : FTy → Type} [FloatOps F]

-- the TensorCore's buffer contents when the region is entered
variable (V : (c : Dev nD) → (b : Ref sig .tc) → Buf (Elt F) ((c : Thread nD τ).loc b))

/-! # REGION 2, read: what each point writes, and its two output arrays row by row

The region's grid has 10 points; point `t` reads rows `1000 t … 1000 t + 999` of the rounded adjacency matrix
(window 0) and three resident operands whole (windows 1, 2, 3), and writes rows `1000 t … 1000 t + 999` of two arrays:
the hidden layer (window 4) and the hidden layer times the next weights (window 5). -/
/-- Each whole-buffer store at offset zero leaves its payload. -/
theorem out2_4_eq (x0 : Vec F S1000x10000 .bf16) (x1 : Vec F S10000x128 .bf16) (x2 : Vec F S1x128 .f32) (x3 : Vec F S128x192 .f32) :
    out2_4 x0 x1 x2 x3 = k2_pay1 x0 x1 x2 := by
  unfold out2_4
  rw [View.canon_unit_zero zeroOff2]
  simp only [View.ld_unit_zero (S := S1000x10000) zeroOff2, View.ld_unit_zero (S := S10000x128) zeroOff2,
    View.ld_unit_zero (S := S1x128) zeroOff2]

theorem out2_5_eq (x0 : Vec F S1000x10000 .bf16) (x1 : Vec F S10000x128 .bf16) (x2 : Vec F S1x128 .f32) (x3 : Vec F S128x192 .f32) :
    out2_5 x0 x1 x2 x3 = k2_pay2 x0 x1 x2 x3 := by
  unfold out2_5
  rw [View.canon_unit_zero zeroOff2]
  simp only [View.ld_unit_zero (S := S1000x10000) zeroOff2, View.ld_unit_zero (S := S10000x128) zeroOff2,
    View.ld_unit_zero (S := S1x128) zeroOff2, View.ld_unit_zero (S := S128x192) zeroOff2]

/-! ## The grid's points and rows -/

theorem gridN2 : cfg2.N = 10 := N_2
theorem point2_lt (t : Fin cfg2.N) : t.val < 10 := lt_of_lt_of_eq t.isLt gridN2

/-- The grid point that handles row `p`: `p / 1000`. -/
@[irreducible] def pt2 (p : Fin 10000) : Fin cfg2.N := ⟨p.val / 1000, by have h := p.isLt; rw [gridN2]; omega⟩
theorem pt2_val (p : Fin 10000) : (pt2 p).val = p.val / 1000 := by unfold pt2; rfl
/-- Row `p`'s place inside its block: `p % 1000`. -/
@[irreducible] def loc2 (p : Fin 10000) : Fin 1000 := ⟨p.val % 1000, Nat.mod_lt _ (by decide)⟩
theorem loc2_val (p : Fin 10000) : (loc2 p).val = p.val % 1000 := by unfold loc2; rfl
/-- The array row of local row `r` of point `t`'s block. -/
abbrev row2 (t : Fin cfg2.N) (r : Fin 1000) : Fin 10000 :=
  ⟨t.val * 1000 + r.val, by have h := point2_lt t; have h' := r.isLt; omega⟩

/-- The printed index maps, decided over the grid: the row-blocked windows are at row block `t`, the resident ones
    stay at the origin. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-! ## The input blocks, read at an entry -/

/-- Window 0's block at point `t` is rows `1000 t …` of the rounded adjacency matrix. -/
theorem iblk2_0_apply (c : Dev nD) (t : Fin cfg2.N) (r : Fin 1000) (u : Fin 10000) :
    iblk2 V c 0 t (ix2 r u) = V c main_v17_0 (ix2 (row2 t r) u) := by
  obtain ⟨e0, e1, e2, e3, e4, e5, e6, e7, e8, e9, e10, e11⟩ := index2 t
  show V c main_v17_0 (((cfg2.win 0).blk t).view.emb (ix2 r u)) = _
  refine congrArg (V c main_v17_0) ?_
  funext a; apply Fin.ext
  match a with
  | ⟨0, _⟩ => show win2_0.index t (0 : Fin 2) * 1000 + 1 * r.val = t.val * 1000 + r.val; omega
  | ⟨1, _⟩ => show win2_0.index t (1 : Fin 2) * 10000 + 1 * u.val = u.val; omega

/-- Window 1's block at every point is the whole product carried in from the pass before. -/
theorem iblk2_1_apply (c : Dev nD) (t : Fin cfg2.N) (j : Fin 10000) (u : Fin 128) :
    iblk2 V c 1 t (ix2 j u) = V c main_v17_1 (ix2 j u) := by
  obtain ⟨e0, e1, e2, e3, e4, e5, e6, e7, e8, e9, e10, e11⟩ := index2 t
  show V c main_v17_1 (((cfg2.win 1).blk t).view.emb (ix2 j u)) = _
  refine congrArg (V c main_v17_1) ?_
  funext a; apply Fin.ext
  match a with
  | ⟨0, _⟩ => show win2_1.index t (0 : Fin 2) * 10000 + 1 * j.val = j.val; omega
  | ⟨1, _⟩ => show win2_1.index t (1 : Fin 2) * 128 + 1 * u.val = u.val; omega

/-- Window 2's block at every point is the whole bias row. -/
theorem iblk2_2_apply (c : Dev nD) (t : Fin cfg2.N) (j : Fin 1) (u : Fin 128) :
    iblk2 V c 2 t (ix2 j u) = V c main_v4 (ix2 j u) := by
  obtain ⟨e0, e1, e2, e3, e4, e5, e6, e7, e8, e9, e10, e11⟩ := index2 t
  show V c main_v4 (((cfg2.win 2).blk t).view.emb (ix2 j u)) = _
  refine congrArg (V c main_v4) ?_
  funext a; apply Fin.ext
  match a with
  | ⟨0, _⟩ => show win2_2.index t (0 : Fin 2) * 1 + 1 * j.val = j.val; omega
  | ⟨1, _⟩ => show win2_2.index t (1 : Fin 2) * 128 + 1 * u.val = u.val; omega

/-- Window 3's block at every point is the whole block weight matrix. -/
theorem iblk2_3_apply (c : Dev nD) (t : Fin cfg2.N) (j : Fin 128) (u : Fin 192) :
    iblk2 V c 3 t (ix2 j u) = V c main_v7 (ix2 j u) := by
  obtain ⟨e0, e1, e2, e3, e4, e5, e6, e7, e8, e9, e10, e11⟩ := index2 t
  show V c main_v7 (((cfg2.win 3).blk t).view.emb (ix2 j u)) = _
  refine congrArg (V c main_v7) ?_
  funext a; apply Fin.ext
  match a with
  | ⟨0, _⟩ => show win2_3.index t (0 : Fin 2) * 128 + 1 * j.val = j.val; omega
  | ⟨1, _⟩ => show win2_3.index t (1 : Fin 2) * 192 + 1 * u.val = u.val; omega

/-! ## Output window 4: from the blocks to the array -/

/-- Distinct points write distinct row blocks of window 4's array (decided over the grid), -/
theorem index_inj2_4 : ∀ t t' : Fin cfg2.N, win2_4.index t = win2_4.index t' → t = t' :=
  (by decide +kernel : ∀ t t' : Fin grid2.N, win2_4.index t = win2_4.index t' → t = t')

/-- so two points' blocks share no index. -/
theorem disjoint2_4 : ∀ t t' : Fin cfg2.N, (cfg2.win 4).flush t = true → (cfg2.win 4).flush t' = true → t ≠ t' →
    Disjoint ((cfg2.win 4).blk t).view.set ((cfg2.win 4).blk t').view.set :=
  fun t t' _ _ hne => (cfg2.win 4).disjoint_blk fun h => hne (index_inj2_4 t t' h)

/-- What point `t` writes back is what the body left: the window is uncut. -/
theorem flushed2_4 (c : Dev nD) (t : Fin cfg2.N) :
    (dat2 V c).flushed 4 t = out2_4 (iblk2 V c 0 t) (iblk2 V c 1 t) (iblk2 V c 2 t) (iblk2 V c 3 t) := by
  show (cfg2.win 4).cut (grid2.coords t) ((dat2 V c).after 4 t) = _
  rw [after2_4]
  rfl

/-- Block `t` of the final array, read back, is what point `t` wrote. -/
theorem blocks2_4 (c : Dev nD) (t : Fin cfg2.N) :
    ((cfg2.win 4).blk t).view.read (Elt F) ((dat2 V c).arrAt 4 cfg2.N) = out2_4 (iblk2 V c 0 t) (iblk2 V c 1 t) (iblk2 V c 2 t) (iblk2 V c 3 t) :=
  ((dat2 V c).read_blk_arrAt_eq_flushed 4 disjoint2_4 cfg2.N t t.isLt (flush2_4 t)).trans (flushed2_4 V c t)

/-- Row `1000 t + r` of the final array is local row `r` of what point `t` wrote. -/
theorem arrAt2_4_at (c : Dev nD) (t : Fin cfg2.N) (r : Fin 1000) (q : Fin 128) :
    (dat2 V c).arrAt 4 cfg2.N (ix2 (row2 t r) q) = out2_4 (iblk2 V c 0 t) (iblk2 V c 1 t) (iblk2 V c 2 t) (iblk2 V c 3 t) (ix2 r q) := by
  obtain ⟨e0, e1, e2, e3, e4, e5, e6, e7, e8, e9, e10, e11⟩ := index2 t
  rw [← blocks2_4 V c t]
  show (dat2 V c).arrAt 4 cfg2.N _ = (dat2 V c).arrAt 4 cfg2.N (((cfg2.win 4).blk t).view.emb (ix2 r q))
  refine congrArg ((dat2 V c).arrAt 4 cfg2.N) ?_
  funext a; apply Fin.ext
  match a with
  | ⟨0, _⟩ => show t.val * 1000 + r.val = win2_4.index t (0 : Fin 2) * 1000 + 1 * r.val; omega
  | ⟨1, _⟩ => show q.val = win2_4.index t (1 : Fin 2) * 128 + 1 * q.val; omega

/-- THE ARRAY after the region, entry by entry: row `p` is what grid point `p / 1000` wrote at its local row `p % 1000`. -/
theorem arrAt2_4 (c : Dev nD) (p : Fin 10000) (q : Fin 128) :
    (dat2 V c).arrAt 4 cfg2.N (ix2 p q)
      = out2_4 (iblk2 V c 0 (pt2 p)) (iblk2 V c 1 (pt2 p)) (iblk2 V c 2 (pt2 p)) (iblk2 V c 3 (pt2 p)) (ix2 (loc2 p) q) := by
  rw [← arrAt2_4_at V c (pt2 p) (loc2 p) q]
  refine congrArg (fun p' : Fin 10000 => (dat2 V c).arrAt 4 cfg2.N (ix2 p' q)) (Fin.ext ?_)
  show p.val = (pt2 p).val * 1000 + (loc2 p).val
  rw [pt2_val, loc2_val]
  omega

/-! ## Output window 5: from the blocks to the array -/

/-- Distinct points write distinct row blocks of window 5's array (decided over the grid), -/
theorem index_inj2_5 : ∀ t t' : Fin cfg2.N, win2_5.index t = win2_5.index t' → t = t' :=
  (by decide +kernel : ∀ t t' : Fin grid2.N, win2_5.index t = win2_5.index t' → t = t')

/-- so two points' blocks share no index. -/
theorem disjoint2_5 : ∀ t t' : Fin cfg2.N, (cfg2.win 5).flush t = true → (cfg2.win 5).flush t' = true → t ≠ t' →
    Disjoint ((cfg2.win 5).blk t).view.set ((cfg2.win 5).blk t').view.set :=
  fun t t' _ _ hne => (cfg2.win 5).disjoint_blk fun h => hne (index_inj2_5 t t' h)

/-- What point `t` writes back is what the body left: the window is uncut. -/
theorem flushed2_5 (c : Dev nD) (t : Fin cfg2.N) :
    (dat2 V c).flushed 5 t = out2_5 (iblk2 V c 0 t) (iblk2 V c 1 t) (iblk2 V c 2 t) (iblk2 V c 3 t) := by
  show (cfg2.win 5).cut (grid2.coords t) ((dat2 V c).after 5 t) = _
  rw [after2_5]
  rfl

/-- Block `t` of the final array, read back, is what point `t` wrote. -/
theorem blocks2_5 (c : Dev nD) (t : Fin cfg2.N) :
    ((cfg2.win 5).blk t).view.read (Elt F) ((dat2 V c).arrAt 5 cfg2.N) = out2_5 (iblk2 V c 0 t) (iblk2 V c 1 t) (iblk2 V c 2 t) (iblk2 V c 3 t) :=
  ((dat2 V c).read_blk_arrAt_eq_flushed 5 disjoint2_5 cfg2.N t t.isLt (flush2_5 t)).trans (flushed2_5 V c t)

/-- Row `1000 t + r` of the final array is local row `r` of what point `t` wrote. -/
theorem arrAt2_5_at (c : Dev nD) (t : Fin cfg2.N) (r : Fin 1000) (q : Fin 192) :
    (dat2 V c).arrAt 5 cfg2.N (ix2 (row2 t r) q) = out2_5 (iblk2 V c 0 t) (iblk2 V c 1 t) (iblk2 V c 2 t) (iblk2 V c 3 t) (ix2 r q) := by
  obtain ⟨e0, e1, e2, e3, e4, e5, e6, e7, e8, e9, e10, e11⟩ := index2 t
  rw [← blocks2_5 V c t]
  show (dat2 V c).arrAt 5 cfg2.N _ = (dat2 V c).arrAt 5 cfg2.N (((cfg2.win 5).blk t).view.emb (ix2 r q))
  refine congrArg ((dat2 V c).arrAt 5 cfg2.N) ?_
  funext a; apply Fin.ext
  match a with
  | ⟨0, _⟩ => show t.val * 1000 + r.val = win2_5.index t (0 : Fin 2) * 1000 + 1 * r.val; omega
  | ⟨1, _⟩ => show q.val = win2_5.index t (1 : Fin 2) * 192 + 1 * q.val; omega

/-- THE ARRAY after the region, entry by entry: row `p` is what grid point `p / 1000` wrote at its local row `p % 1000`. -/
theorem arrAt2_5 (c : Dev nD) (p : Fin 10000) (q : Fin 192) :
    (dat2 V c).arrAt 5 cfg2.N (ix2 p q)
      = out2_5 (iblk2 V c 0 (pt2 p)) (iblk2 V c 1 (pt2 p)) (iblk2 V c 2 (pt2 p)) (iblk2 V c 3 (pt2 p)) (ix2 (loc2 p) q) := by
  rw [← arrAt2_5_at V c (pt2 p) (loc2 p) q]
  refine congrArg (fun p' : Fin 10000 => (dat2 V c).arrAt 5 cfg2.N (ix2 p' q)) (Fin.ext ?_)
  show p.val = (pt2 p).val * 1000 + (loc2 p).val
  rw [pt2_val, loc2_val]
  omega

end Cert.KernelIdeal.Hand

end
-- ==== Proof.Blocks3.lean ====
import proofs.«168842_g31997506355971_cont_9to1_2144_8_alg».proof.Proof.Region3
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

variable {F : FTy → Type} [FloatOps F]

-- the TensorCore's buffer contents when the region is entered
variable (V : (c : Dev nD) → (b : Ref sig .tc) → Buf (Elt F) ((c : Thread nD τ).loc b))

/-! # REGION 3, read: what each point writes, and its two output arrays row by row

The region's grid has 10 points; point `t` reads rows `1000 t … 1000 t + 999` of the rounded adjacency matrix
(window 0) and three resident operands whole (windows 1, 2, 3), and writes rows `1000 t … 1000 t + 999` of two arrays:
the hidden layer (window 4) and its leading columns times the next weights (window 5). -/
/-- Each whole-buffer store at offset zero leaves its payload. -/
theorem out3_4_eq (x0 : Vec F S1000x10000 .bf16) (x1 : Vec F S10000x192 .bf16) (x2 : Vec F S1x192 .f32) (x3 : Vec F S128x256 .f32) :
    out3_4 x0 x1 x2 x3 = k3_pay1 x0 x1 x2 := by
  unfold out3_4
  rw [View.canon_unit_zero zeroOff3]
  simp only [View.ld_unit_zero (S := S1000x10000) zeroOff3, View.ld_unit_zero (S := S10000x192) zeroOff3,
    View.ld_unit_zero (S := S1x192) zeroOff3]

theorem out3_5_eq (x0 : Vec F S1000x10000 .bf16) (x1 : Vec F S10000x192 .bf16) (x2 : Vec F S1x192 .f32) (x3 : Vec F S128x256 .f32) :
    out3_5 x0 x1 x2 x3 = k3_pay2 x0 x1 x2 x3 := by
  unfold out3_5
  rw [View.canon_unit_zero zeroOff3]
  simp only [View.ld_unit_zero (S := S1000x10000) zeroOff3, View.ld_unit_zero (S := S10000x192) zeroOff3,
    View.ld_unit_zero (S := S1x192) zeroOff3, View.ld_unit_zero (S := S128x256) zeroOff3]

/-! ## The grid's points and rows -/

theorem gridN3 : cfg3.N = 10 := N_3
theorem point3_lt (t : Fin cfg3.N) : t.val < 10 := lt_of_lt_of_eq t.isLt gridN3

/-- The grid point that handles row `p`: `p / 1000`. -/
@[irreducible] def pt3 (p : Fin 10000) : Fin cfg3.N := ⟨p.val / 1000, by have h := p.isLt; rw [gridN3]; omega⟩
theorem pt3_val (p : Fin 10000) : (pt3 p).val = p.val / 1000 := by unfold pt3; rfl
/-- Row `p`'s place inside its block: `p % 1000`. -/
@[irreducible] def loc3 (p : Fin 10000) : Fin 1000 := ⟨p.val % 1000, Nat.mod_lt _ (by decide)⟩
theorem loc3_val (p : Fin 10000) : (loc3 p).val = p.val % 1000 := by unfold loc3; rfl
/-- The array row of local row `r` of point `t`'s block. -/
abbrev row3 (t : Fin cfg3.N) (r : Fin 1000) : Fin 10000 :=
  ⟨t.val * 1000 + r.val, by have h := point3_lt t; have h' := r.isLt; omega⟩

/-- The printed index maps, decided over the grid: the row-blocked windows are at row block `t`, the resident ones
    stay at the origin. -/
theorem index3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

/-! ## The input blocks, read at an entry -/

/-- Window 0's block at point `t` is rows `1000 t …` of the rounded adjacency matrix. -/
theorem iblk3_0_apply (c : Dev nD) (t : Fin cfg3.N) (r : Fin 1000) (u : Fin 10000) :
    iblk3 V c 0 t (ix2 r u) = V c main_v17_0 (ix2 (row3 t r) u) := by
  obtain ⟨e0, e1, e2, e3, e4, e5, e6, e7, e8, e9, e10, e11⟩ := index3 t
  show V c main_v17_0 (((cfg3.win 0).blk t).view.emb (ix2 r u)) = _
  refine congrArg (V c main_v17_0) ?_
  funext a; apply Fin.ext
  match a with
  | ⟨0, _⟩ => show win3_0.index t (0 : Fin 2) * 1000 + 1 * r.val = t.val * 1000 + r.val; omega
  | ⟨1, _⟩ => show win3_0.index t (1 : Fin 2) * 10000 + 1 * u.val = u.val; omega

/-- Window 1's block at every point is the whole product carried in from the pass before. -/
theorem iblk3_1_apply (c : Dev nD) (t : Fin cfg3.N) (j : Fin 10000) (u : Fin 192) :
    iblk3 V c 1 t (ix2 j u) = V c main_v18_1 (ix2 j u) := by
  obtain ⟨e0, e1, e2, e3, e4, e5, e6, e7, e8, e9, e10, e11⟩ := index3 t
  show V c main_v18_1 (((cfg3.win 1).blk t).view.emb (ix2 j u)) = _
  refine congrArg (V c main_v18_1) ?_
  funext a; apply Fin.ext
  match a with
  | ⟨0, _⟩ => show win3_1.index t (0 : Fin 2) * 10000 + 1 * j.val = j.val; omega
  | ⟨1, _⟩ => show win3_1.index t (1 : Fin 2) * 192 + 1 * u.val = u.val; omega

/-- Window 2's block at every point is the whole bias row. -/
theorem iblk3_2_apply (c : Dev nD) (t : Fin cfg3.N) (j : Fin 1) (u : Fin 192) :
    iblk3 V c 2 t (ix2 j u) = V c main_v9 (ix2 j u) := by
  obtain ⟨e0, e1, e2, e3, e4, e5, e6, e7, e8, e9, e10, e11⟩ := index3 t
  show V c main_v9 (((cfg3.win 2).blk t).view.emb (ix2 j u)) = _
  refine congrArg (V c main_v9) ?_
  funext a; apply Fin.ext
  match a with
  | ⟨0, _⟩ => show win3_2.index t (0 : Fin 2) * 1 + 1 * j.val = j.val; omega
  | ⟨1, _⟩ => show win3_2.index t (1 : Fin 2) * 192 + 1 * u.val = u.val; omega

/-- Window 3's block at every point is the whole block weight matrix. -/
theorem iblk3_3_apply (c : Dev nD) (t : Fin cfg3.N) (j : Fin 128) (u : Fin 256) :
    iblk3 V c 3 t (ix2 j u) = V c main_v12 (ix2 j u) := by
  obtain ⟨e0, e1, e2, e3, e4, e5, e6, e7, e8, e9, e10, e11⟩ := index3 t
  show V c main_v12 (((cfg3.win 3).blk t).view.emb (ix2 j u)) = _
  refine congrArg (V c main_v12) ?_
  funext a; apply Fin.ext
  match a with
  | ⟨0, _⟩ => show win3_3.index t (0 : Fin 2) * 128 + 1 * j.val = j.val; omega
  | ⟨1, _⟩ => show win3_3.index t (1 : Fin 2) * 256 + 1 * u.val = u.val; omega

/-! ## Output window 4: from the blocks to the array -/

/-- Distinct points write distinct row blocks of window 4's array (decided over the grid), -/
theorem index_inj3_4 : ∀ t t' : Fin cfg3.N, win3_4.index t = win3_4.index t' → t = t' :=
  (by decide +kernel : ∀ t t' : Fin grid3.N, win3_4.index t = win3_4.index t' → t = t')

/-- so two points' blocks share no index. -/
theorem disjoint3_4 : ∀ t t' : Fin cfg3.N, (cfg3.win 4).flush t = true → (cfg3.win 4).flush t' = true → t ≠ t' →
    Disjoint ((cfg3.win 4).blk t).view.set ((cfg3.win 4).blk t').view.set :=
  fun t t' _ _ hne => (cfg3.win 4).disjoint_blk fun h => hne (index_inj3_4 t t' h)

/-- What point `t` writes back is what the body left: the window is uncut. -/
theorem flushed3_4 (c : Dev nD) (t : Fin cfg3.N) :
    (dat3 V c).flushed 4 t = out3_4 (iblk3 V c 0 t) (iblk3 V c 1 t) (iblk3 V c 2 t) (iblk3 V c 3 t) := by
  show (cfg3.win 4).cut (grid3.coords t) ((dat3 V c).after 4 t) = _
  rw [after3_4]
  rfl

/-- Block `t` of the final array, read back, is what point `t` wrote. -/
theorem blocks3_4 (c : Dev nD) (t : Fin cfg3.N) :
    ((cfg3.win 4).blk t).view.read (Elt F) ((dat3 V c).arrAt 4 cfg3.N) = out3_4 (iblk3 V c 0 t) (iblk3 V c 1 t) (iblk3 V c 2 t) (iblk3 V c 3 t) :=
  ((dat3 V c).read_blk_arrAt_eq_flushed 4 disjoint3_4 cfg3.N t t.isLt (flush3_4 t)).trans (flushed3_4 V c t)

/-- Row `1000 t + r` of the final array is local row `r` of what point `t` wrote. -/
theorem arrAt3_4_at (c : Dev nD) (t : Fin cfg3.N) (r : Fin 1000) (q : Fin 192) :
    (dat3 V c).arrAt 4 cfg3.N (ix2 (row3 t r) q) = out3_4 (iblk3 V c 0 t) (iblk3 V c 1 t) (iblk3 V c 2 t) (iblk3 V c 3 t) (ix2 r q) := by
  obtain ⟨e0, e1, e2, e3, e4, e5, e6, e7, e8, e9, e10, e11⟩ := index3 t
  rw [← blocks3_4 V c t]
  show (dat3 V c).arrAt 4 cfg3.N _ = (dat3 V c).arrAt 4 cfg3.N (((cfg3.win 4).blk t).view.emb (ix2 r q))
  refine congrArg ((dat3 V c).arrAt 4 cfg3.N) ?_
  funext a; apply Fin.ext
  match a with
  | ⟨0, _⟩ => show t.val * 1000 + r.val = win3_4.index t (0 : Fin 2) * 1000 + 1 * r.val; omega
  | ⟨1, _⟩ => show q.val = win3_4.index t (1 : Fin 2) * 192 + 1 * q.val; omega

/-- THE ARRAY after the region, entry by entry: row `p` is what grid point `p / 1000` wrote at its local row `p % 1000`. -/
theorem arrAt3_4 (c : Dev nD) (p : Fin 10000) (q : Fin 192) :
    (dat3 V c).arrAt 4 cfg3.N (ix2 p q)
      = out3_4 (iblk3 V c 0 (pt3 p)) (iblk3 V c 1 (pt3 p)) (iblk3 V c 2 (pt3 p)) (iblk3 V c 3 (pt3 p)) (ix2 (loc3 p) q) := by
  rw [← arrAt3_4_at V c (pt3 p) (loc3 p) q]
  refine congrArg (fun p' : Fin 10000 => (dat3 V c).arrAt 4 cfg3.N (ix2 p' q)) (Fin.ext ?_)
  show p.val = (pt3 p).val * 1000 + (loc3 p).val
  rw [pt3_val, loc3_val]
  omega

/-! ## Output window 5: from the blocks to the array -/

/-- Distinct points write distinct row blocks of window 5's array (decided over the grid), -/
theorem index_inj3_5 : ∀ t t' : Fin cfg3.N, win3_5.index t = win3_5.index t' → t = t' :=
  (by decide +kernel : ∀ t t' : Fin grid3.N, win3_5.index t = win3_5.index t' → t = t')

/-- so two points' blocks share no index. -/
theorem disjoint3_5 : ∀ t t' : Fin cfg3.N, (cfg3.win 5).flush t = true → (cfg3.win 5).flush t' = true → t ≠ t' →
    Disjoint ((cfg3.win 5).blk t).view.set ((cfg3.win 5).blk t').view.set :=
  fun t t' _ _ hne => (cfg3.win 5).disjoint_blk fun h => hne (index_inj3_5 t t' h)

/-- What point `t` writes back is what the body left: the window is uncut. -/
theorem flushed3_5 (c : Dev nD) (t : Fin cfg3.N) :
    (dat3 V c).flushed 5 t = out3_5 (iblk3 V c 0 t) (iblk3 V c 1 t) (iblk3 V c 2 t) (iblk3 V c 3 t) := by
  show (cfg3.win 5).cut (grid3.coords t) ((dat3 V c).after 5 t) = _
  rw [after3_5]
  rfl

/-- Block `t` of the final array, read back, is what point `t` wrote. -/
theorem blocks3_5 (c : Dev nD) (t : Fin cfg3.N) :
    ((cfg3.win 5).blk t).view.read (Elt F) ((dat3 V c).arrAt 5 cfg3.N) = out3_5 (iblk3 V c 0 t) (iblk3 V c 1 t) (iblk3 V c 2 t) (iblk3 V c 3 t) :=
  ((dat3 V c).read_blk_arrAt_eq_flushed 5 disjoint3_5 cfg3.N t t.isLt (flush3_5 t)).trans (flushed3_5 V c t)

/-- Row `1000 t + r` of the final array is local row `r` of what point `t` wrote. -/
theorem arrAt3_5_at (c : Dev nD) (t : Fin cfg3.N) (r : Fin 1000) (q : Fin 256) :
    (dat3 V c).arrAt 5 cfg3.N (ix2 (row3 t r) q) = out3_5 (iblk3 V c 0 t) (iblk3 V c 1 t) (iblk3 V c 2 t) (iblk3 V c 3 t) (ix2 r q) := by
  obtain ⟨e0, e1, e2, e3, e4, e5, e6, e7, e8, e9, e10, e11⟩ := index3 t
  rw [← blocks3_5 V c t]
  show (dat3 V c).arrAt 5 cfg3.N _ = (dat3 V c).arrAt 5 cfg3.N (((cfg3.win 5).blk t).view.emb (ix2 r q))
  refine congrArg ((dat3 V c).arrAt 5 cfg3.N) ?_
  funext a; apply Fin.ext
  match a with
  | ⟨0, _⟩ => show t.val * 1000 + r.val = win3_5.index t (0 : Fin 2) * 1000 + 1 * r.val; omega
  | ⟨1, _⟩ => show q.val = win3_5.index t (1 : Fin 2) * 256 + 1 * q.val; omega

/-- THE ARRAY after the region, entry by entry: row `p` is what grid point `p / 1000` wrote at its local row `p % 1000`. -/
theorem arrAt3_5 (c : Dev nD) (p : Fin 10000) (q : Fin 256) :
    (dat3 V c).arrAt 5 cfg3.N (ix2 p q)
      = out3_5 (iblk3 V c 0 (pt3 p)) (iblk3 V c 1 (pt3 p)) (iblk3 V c 2 (pt3 p)) (iblk3 V c 3 (pt3 p)) (ix2 (loc3 p) q) := by
  rw [← arrAt3_5_at V c (pt3 p) (loc3 p) q]
  refine congrArg (fun p' : Fin 10000 => (dat3 V c).arrAt 5 cfg3.N (ix2 p' q)) (Fin.ext ?_)
  show p.val = (pt3 p).val * 1000 + (loc3 p).val
  rw [pt3_val, loc3_val]
  omega

end Cert.KernelIdeal.Hand

end
-- ==== Proof.Blocks4.lean ====
import proofs.«168842_g31997506355971_cont_9to1_2144_8_alg».proof.Proof.Region4
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))

/-! # Region 4: what the pass leaves in its output array, entry by entry

Row `p` of an output array is written by the grid point `p / 1000`, at its local row `p % 1000`. -/

/-! ## A whole-buffer store leaves its value -/

theorem out4_3_eq (x0 : Vec F S1000x10000 .bf16) (x1 : Vec F S10000x256 .bf16) (x2 : Vec F S1x256 .f32) : out4_3 x0 x1 x2 = k4_pay1 x0 x1 x2 := by
  unfold out4_3
  rw [View.canon_unit_zero zeroOff4]
  simp only [View.ld_unit_zero (S := S1000x10000) zeroOff4, View.ld_unit_zero (S := S10000x256) zeroOff4, View.ld_unit_zero (S := S1x256) zeroOff4]

/-! ## The grid's points and rows -/

theorem gridN4 : cfg4.N = 10 := N_4

/-- The grid point that handles row `p`: `p / 1000`. -/
@[irreducible] def pt4 (p : Fin 10000) : Fin cfg4.N := ⟨p.val / 1000, by have h := p.isLt; rw [gridN4]; omega⟩
theorem pt4_val (p : Fin 10000) : (pt4 p).val = p.val / 1000 := by unfold pt4; rfl
theorem pt4_eq (p : Fin 10000) (h : p.val / 1000 < cfg4.N) : pt4 p = ⟨p.val / 1000, h⟩ := Fin.ext (pt4_val p)
/-- Row `p`'s place inside its block: `p % 1000`. -/
@[irreducible] def loc4 (p : Fin 10000) : Fin 1000 := ⟨p.val % 1000, Nat.mod_lt _ (by decide)⟩
theorem loc4_val (p : Fin 10000) : (loc4 p).val = p.val % 1000 := by unfold loc4; rfl
theorem loc4_eq (p : Fin 10000) (h : p.val % 1000 < 1000) : loc4 p = ⟨p.val % 1000, h⟩ := Fin.ext (loc4_val p)
/-- The array row of local row `r` of point `t`'s block. -/
abbrev row4 (t : Fin cfg4.N) (r : Fin 1000) : Fin 10000 :=
  ⟨t.val * 1000 + r.val, by have h : t.val < 10 := Nat.lt_of_lt_of_eq t.isLt gridN4; have h' := r.isLt; omega⟩

/-- The block index maps over the grid: the row-blocked windows move with the point along the rows, the resident ones
    stay at the origin. -/
theorem idxMaps4 : ∀ t : Fin cfg4.N, win4_0.index t (0 : Fin 2) = t.val
    ∧ win4_0.index t (1 : Fin 2) = 0
    ∧ win4_3.index t (0 : Fin 2) = t.val
    ∧ win4_3.index t (1 : Fin 2) = 0
    ∧ win4_1.index t (0 : Fin 2) = 0
    ∧ win4_1.index t (1 : Fin 2) = 0
    ∧ win4_2.index t (0 : Fin 2) = 0
    ∧ win4_2.index t (1 : Fin 2) = 0 :=
  (by decide +kernel : ∀ t : Fin grid4.N, _)

/-! ## The input blocks, read at an entry -/

theorem iblk4_0_apply (c : Dev nD) (t : Fin cfg4.N) (r : Fin 1000) (u : Fin 10000) :
    iblk4 V c 0 t (ix2 r u) = V c (Pipeline.arrRef spec4 0) (ix2 (row4 t r) u) := by
  obtain ⟨e0, e1, e2, e3, e4, e5, e6, e7⟩ := idxMaps4 t
  show V c (Pipeline.arrRef spec4 0) (((cfg4.win 0).blk t).view.emb (ix2 r u)) = _
  refine congrArg _ (funext fun a => Fin.ext ?_)
  match a with
  | ⟨0, _⟩ => show win4_0.index t (0 : Fin 2) * 1000 + 1 * r.val = t.val * 1000 + r.val; rw [e0]; omega
  | ⟨1, _⟩ => show win4_0.index t (1 : Fin 2) * 10000 + 1 * u.val = u.val; rw [e1]; omega

theorem iblk4_1_apply (c : Dev nD) (t : Fin cfg4.N) (r : Fin 10000) (u : Fin 256) :
    iblk4 V c 1 t (ix2 r u) = V c (Pipeline.arrRef spec4 1) (ix2 r u) := by
  obtain ⟨e0, e1, e2, e3, e4, e5, e6, e7⟩ := idxMaps4 t
  show V c (Pipeline.arrRef spec4 1) (((cfg4.win 1).blk t).view.emb (ix2 r u)) = _
  refine congrArg _ (funext fun a => Fin.ext ?_)
  match a with
  | ⟨0, _⟩ => show win4_1.index t (0 : Fin 2) * 10000 + 1 * r.val = r.val; rw [e4]; omega
  | ⟨1, _⟩ => show win4_1.index t (1 : Fin 2) * 256 + 1 * u.val = u.val; rw [e5]; omega

theorem iblk4_2_apply (c : Dev nD) (t : Fin cfg4.N) (r : Fin 1) (u : Fin 256) :
    iblk4 V c 2 t (ix2 r u) = V c (Pipeline.arrRef spec4 2) (ix2 r u) := by
  obtain ⟨e0, e1, e2, e3, e4, e5, e6, e7⟩ := idxMaps4 t
  show V c (Pipeline.arrRef spec4 2) (((cfg4.win 2).blk t).view.emb (ix2 r u)) = _
  refine congrArg _ (funext fun a => Fin.ext ?_)
  match a with
  | ⟨0, _⟩ => show win4_2.index t (0 : Fin 2) * 1 + 1 * r.val = r.val; rw [e6]; omega
  | ⟨1, _⟩ => show win4_2.index t (1 : Fin 2) * 256 + 1 * u.val = u.val; rw [e7]; omega

/-! ## From blocks to the array -/

/-- The whole array window 3 ends holding: row `p` is what point `p / 1000` leaves at its local row. -/
def whole4_3 (c : Dev nD) : S10000x256.Idx → Elt F .f32 := fun i =>
  out4_3 (iblk4 V c 0 (pt4 (i 0))) (iblk4 V c 1 (pt4 (i 0))) (iblk4 V c 2 (pt4 (i 0))) (ix2 (loc4 (i 0)) (i 1))

/-- The same output value at equal points and equal local indices. -/
theorem out4_3_congr (c : Dev nD) (t t' : Fin cfg4.N) (ht : t' = t) (j j' : S1000x256.Idx) (hj : j' = j) :
    out4_3 (iblk4 V c 0 t') (iblk4 V c 1 t') (iblk4 V c 2 t') j' = out4_3 (iblk4 V c 0 t) (iblk4 V c 1 t) (iblk4 V c 2 t) j := by
  subst ht; subst hj; rfl

/-- Where local index `j` of point `t`'s block sits in the array. -/
theorem emb4_3 (t : Fin cfg4.N) (j : S1000x256.Idx) :
    ((((cfg4.win 3).blk t).view.emb j) 0).val = t.val * 1000 + (j 0).val ∧ ((((cfg4.win 3).blk t).view.emb j) 1).val = (j 1).val := by
  obtain ⟨e0, e1, e2, e3, e4, e5, e6, e7⟩ := idxMaps4 t
  constructor
  · show win4_3.index t (0 : Fin 2) * 1000 + 1 * (j 0).val = _; rw [e2]; omega
  · show win4_3.index t (1 : Fin 2) * 256 + 1 * (j 1).val = _; rw [e3]; omega

/-- `whole4_3` at an entry whose row is local row `j 0` of point `t`'s block and whose column is `j 1`. -/
theorem whole4_3_at (c : Dev nD) (t : Fin cfg4.N) (j : S1000x256.Idx) (i : S10000x256.Idx)
    (h0 : (i 0).val = t.val * 1000 + (j 0).val) (h1 : (i 1).val = (j 1).val) :
    whole4_3 V c i = out4_3 (iblk4 V c 0 t) (iblk4 V c 1 t) (iblk4 V c 2 t) j := by
  have hj0 : (j 0).val < 1000 := (j 0).isLt
  have hN : t.val < 10 := Nat.lt_of_lt_of_eq t.isLt gridN4
  have hp : (pt4 (i 0)).val = (i 0).val / 1000 := pt4_val (i 0)
  have hl : (loc4 (i 0)).val = (i 0).val % 1000 := loc4_val (i 0)
  unfold whole4_3
  refine out4_3_congr V c t (pt4 (i 0)) (Fin.ext ?_) j (ix2 (loc4 (i 0)) (i 1)) (funext fun a => Fin.ext ?_)
  · omega
  · match a with
    | ⟨0, _⟩ => show (loc4 (i 0)).val = (j 0).val; omega
    | ⟨1, _⟩ => exact h1

/-- Reading a block of an array: the array at the block's entries. -/
theorem blkRead4_3 (t : Fin cfg4.N) (j : ((cfg4.win 3).xblock (grid4.coords t)).Idx) (G : S10000x256.Idx → Elt F .f32) :
    ((cfg4.win 3).blk t).view.read (Elt F) G j = G (((cfg4.win 3).blk t).view.emb j) := rfl

/-- What point `t` writes back is block `t` of `whole4_3`. -/
theorem flushed4_3_eq (c : Dev nD) (t : Fin cfg4.N) :
    (dat4 V c).flushed 3 t = ((cfg4.win 3).blk t).view.read (Elt F) (whole4_3 V c) := by
  show (cfg4.win 3).cut (grid4.coords t) ((dat4 V c).after 3 t) = _
  rw [after4_3]
  funext j
  obtain ⟨h0, h1⟩ := emb4_3 t j
  exact (whole4_3_at V c t j _ h0 h1).symm.trans (blkRead4_3 t j (whole4_3 V c)).symm

/-- An entry of the array is in point `t`'s block iff each coordinate is in the block's range. -/
theorem mem_blk4_3 (t : Fin cfg4.N) (i : S10000x256.Idx) :
    i ∈ ((cfg4.win 3).blk t).view.set ↔ ∀ a : Fin 2, win4_3.index t a * S1000x256.size a ≤ (i a).val ∧ (i a).val < win4_3.index t a * S1000x256.size a + S1000x256.size a := by
  show i ∈ ((View.whole main_v20).slice (win4_3.rect t)).set ↔ _
  rw [View.set_slice_whole, Rect.mem_set_unit]
  exact Iff.rfl

/-- Every entry is in the block of the point that handles its row. -/
theorem cover_arr4_3 (i : S10000x256.Idx) :
    ∃ t : Fin cfg4.N, (cfg4.win 3).flush t = true ∧ i ∈ ((cfg4.win 3).blk t).view.set := by
  refine ⟨pt4 (i 0), flush4_3 _, ?_⟩
  obtain ⟨e0, e1, e2, e3, e4, e5, e6, e7⟩ := idxMaps4 (pt4 (i 0))
  have hi0 : (i 0).val < 10000 := (i 0).isLt
  have hi1 : (i 1).val < 256 := (i 1).isLt
  have hp : (pt4 (i 0)).val = (i 0).val / 1000 := pt4_val (i 0)
  rw [mem_blk4_3]
  intro a
  match a with
  | ⟨0, _⟩ => show win4_3.index (pt4 (i 0)) (0 : Fin 2) * 1000 ≤ (i 0).val ∧ (i 0).val < win4_3.index (pt4 (i 0)) (0 : Fin 2) * 1000 + 1000; rw [e2]; omega
  | ⟨1, _⟩ => show win4_3.index (pt4 (i 0)) (1 : Fin 2) * 256 ≤ (i 1).val ∧ (i 1).val < win4_3.index (pt4 (i 0)) (1 : Fin 2) * 256 + 256; rw [e3]; omega

/-- The array after the pass. -/
theorem final4_3 (c : Dev nD) : (dat4 V c).arrAt 3 cfg4.N = whole4_3 V c :=
  (dat4 V c).arrAt_eq_of_cover 3 (whole4_3 V c) (fun t _ => flushed4_3_eq V c t) cover_arr4_3

/-- Entry `(p, q)` of the array after the pass: what point `p / 1000` leaves at local row `p % 1000`, column `q`. -/
theorem arrAt4_3 (c : Dev nD) (p : Fin 10000) (q : Fin 256) :
    (dat4 V c).arrAt 3 cfg4.N (ix2 p q) = out4_3 (iblk4 V c 0 (pt4 p)) (iblk4 V c 1 (pt4 p)) (iblk4 V c 2 (pt4 p)) (ix2 (loc4 p) q) :=
  congrFun (final4_3 V c) (ix2 p q)

end Cert.KernelIdeal.Hand

end
-- ==== Proof.Blocks5.lean ====
import proofs.«168842_g31997506355971_cont_9to1_2144_8_alg».proof.Proof.Region5
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

variable {F : FTy → Type} [FloatOps F]

-- the TensorCore's buffer contents when the region is entered
variable (V : (c : Dev nD) → (b : Ref sig .tc) → Buf (Elt F) ((c : Thread nD τ).loc b))

/-! # REGION 5, read: what each point writes, and the product array row by row

The region's grid has 25 points; point `t` reads rows `400 t … 400 t + 399` of the matrix (window 0) and the whole
matrix (window 1), and writes rows `400 t … 400 t + 399` of the product (window 2). -/

theorem zeros5 : (![0, 0] : Fin 2 → Nat) = fun _ => 0 := funext fun a => by fin_cases a <;> rfl

/-- The one whole-buffer store at offset zero leaves its payload: what the body leaves in the output block is the
    product of the block of rows with the transpose of the whole matrix. -/
theorem out5_2_eq (x0 : Vec F S400x64 .f32) (x1 : Vec F S10000x64 .f32) : out5_2 x0 x1 = k5_pay1 x0 x1 := by
  unfold out5_2
  rw [View.canon_unit_zero zeros5]
  simp only [View.ld_unit_zero (S := S400x64) zeros5, View.ld_unit_zero (S := S10000x64) zeros5]

/-- The printed index maps, decided over the grid: window 0 and window 2 are at row block `t`, window 1 stays at
    the origin. -/
theorem index5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem gridN5 : cfg5.N = 25 := N_5
theorem point5_lt (t : Fin cfg5.N) : t.val < 25 := lt_of_lt_of_eq t.isLt gridN5

/-- The grid point that handles row `p`: `p / 400`. -/
@[irreducible] def pt5 (p : Fin 10000) : Fin cfg5.N := ⟨p.val / 400, by have h := p.isLt; rw [gridN5]; omega⟩
theorem pt5_val (p : Fin 10000) : (pt5 p).val = p.val / 400 := by unfold pt5; rfl
/-- Row `p`'s place inside its block: `p % 400`. -/
@[irreducible] def loc5 (p : Fin 10000) : Fin 400 := ⟨p.val % 400, Nat.mod_lt _ (by decide)⟩
theorem loc5_val (p : Fin 10000) : (loc5 p).val = p.val % 400 := by unfold loc5; rfl
/-- The array row of local row `r` of point `t`'s block. -/
abbrev row5 (t : Fin cfg5.N) (r : Fin 400) : Fin 10000 :=
  ⟨t.val * 400 + r.val, by have h := point5_lt t; have h' := r.isLt; omega⟩

/-- Window 0's block at point `t` is rows `400 t …` of the matrix. -/
theorem iblk5_0_apply (c : Dev nD) (t : Fin cfg5.N) (r : Fin 400) (u : Fin 64) :
    iblk5 V c 0 t (ix2 r u)
      = V c main_v21 (ix2 (row5 t r) u) := by
  obtain ⟨e0, e1, -⟩ := index5 t
  show V c main_v21 (((cfg5.win 0).blk t).view.emb (ix2 r u)) = _
  refine congrArg (V c main_v21) ?_
  funext a; apply Fin.ext
  match a with
  | ⟨0, _⟩ => show win5_0.index t (0 : Fin 2) * 400 + 1 * r.val = t.val * 400 + r.val; omega
  | ⟨1, _⟩ => show win5_0.index t (1 : Fin 2) * 64 + 1 * u.val = u.val; omega

/-- Window 1's block at every point is the whole matrix. -/
theorem iblk5_1_apply (c : Dev nD) (t : Fin cfg5.N) (j : Fin 10000) (u : Fin 64) :
    iblk5 V c 1 t (ix2 j u) = V c main_v21 (ix2 j u) := by
  obtain ⟨-, -, e2, e3, -⟩ := index5 t
  show V c main_v21 (((cfg5.win 1).blk t).view.emb (ix2 j u)) = _
  refine congrArg (V c main_v21) ?_
  funext a; apply Fin.ext
  match a with
  | ⟨0, _⟩ => show win5_1.index t (0 : Fin 2) * 10000 + 1 * j.val = j.val; omega
  | ⟨1, _⟩ => show win5_1.index t (1 : Fin 2) * 64 + 1 * u.val = u.val; omega

/-! ## From the blocks to the array -/

/-- Distinct points write distinct row blocks (decided over the grid), -/
theorem index_inj5 : ∀ t t' : Fin cfg5.N, win5_2.index t = win5_2.index t' → t = t' :=
  (by decide +kernel : ∀ t t' : Fin grid5.N, win5_2.index t = win5_2.index t' → t = t')

/-- so two points' output blocks share no index. -/
theorem disjoint5 : ∀ t t' : Fin cfg5.N, (cfg5.win 2).flush t = true → (cfg5.win 2).flush t' = true → t ≠ t' →
    Disjoint ((cfg5.win 2).blk t).view.set ((cfg5.win 2).blk t').view.set :=
  fun t t' _ _ hne => (cfg5.win 2).disjoint_blk fun h => hne (index_inj5 t t' h)

/-- What point `t` writes back is what the body left: the window is uncut. -/
theorem flushed5_2 (c : Dev nD) (t : Fin cfg5.N) :
    (dat5 V c).flushed 2 t = out5_2 (iblk5 V c 0 t) (iblk5 V c 1 t) := by
  show (cfg5.win 2).cut (grid5.coords t) ((dat5 V c).after 2 t) = _
  rw [after5_2]
  rfl

/-- Block `t` of the final product array, read back, is what point `t` wrote. -/
theorem blocks5_2 (c : Dev nD) (t : Fin cfg5.N) :
    ((cfg5.win 2).blk t).view.read (Elt F) ((dat5 V c).arrAt 2 cfg5.N) = out5_2 (iblk5 V c 0 t) (iblk5 V c 1 t) :=
  ((dat5 V c).read_blk_arrAt_eq_flushed 2 disjoint5 cfg5.N t t.isLt (flush5_2 t)).trans (flushed5_2 V c t)

/-- Row `400 t + r` of the final product array is local row `r` of what point `t` wrote. -/
theorem arrAt5_2_at (c : Dev nD) (t : Fin cfg5.N) (r : Fin 400) (q : Fin 10000) :
    (dat5 V c).arrAt 2 cfg5.N (ix2 (row5 t r) q)
      = out5_2 (iblk5 V c 0 t) (iblk5 V c 1 t) (ix2 r q) := by
  obtain ⟨-, -, -, -, e4, e5⟩ := index5 t
  rw [← blocks5_2 V c t]
  show (dat5 V c).arrAt 2 cfg5.N _ = (dat5 V c).arrAt 2 cfg5.N (((cfg5.win 2).blk t).view.emb (ix2 r q))
  refine congrArg ((dat5 V c).arrAt 2 cfg5.N) ?_
  funext a; apply Fin.ext
  match a with
  | ⟨0, _⟩ => show t.val * 400 + r.val = win5_2.index t (0 : Fin 2) * 400 + 1 * r.val; omega
  | ⟨1, _⟩ => show q.val = win5_2.index t (1 : Fin 2) * 10000 + 1 * q.val; omega

/-- THE PRODUCT ARRAY after the region, entry by entry: row `p` is what grid point `p / 400` wrote at its local row
    `p % 400`. -/
theorem arrAt5_2 (c : Dev nD) (p q : Fin 10000) :
    (dat5 V c).arrAt 2 cfg5.N (ix2 p q)
      = out5_2 (iblk5 V c 0 (pt5 p)) (iblk5 V c 1 (pt5 p)) (ix2 (loc5 p) q) := by
  rw [← arrAt5_2_at V c (pt5 p) (loc5 p) q]
  refine congrArg (fun p' : Fin 10000 => (dat5 V c).arrAt 2 cfg5.N (ix2 p' q)) (Fin.ext ?_)
  show p.val = (pt5 p).val * 400 + (loc5 p).val
  rw [pt5_val, loc5_val]
  omega

end Cert.KernelIdeal.Hand

end
-- ==== Proof.LibRowOps.lean ====
/-
  Matrices read at an entry, for any extents: a column [a, 1] laid along every column of [a, b] (a kernel's broadcast);
  a vector [a] stood up as a column [a, 1]; and the product of an [M, K] matrix by a [K, N] matrix, as a kernel computes
  it into a zero accumulator and as a host program computes it, read at entry (a, b) as the sum over the contracted
  coordinate of the products of the entries. The products are stated for any dimension record that is the plain one
  (left operand contracted on its columns, right operand on its rows, no batch axis).
-/
import Idealize.ShloMosaic.Lib.Pipeline.Value
import Idealize.ShloMosaic.Lib.ValueIdx
import Idealize.ShloMosaic.Lib.StackMember
import Idealize.ShloMosaic.Lib.KernelVsHost
import Idealize.ShloMosaic.PureOps.Ideal.Laws

noncomputable section

open scoped BigOperators

namespace RowOps

open Idealize.ShloMosaic Idealize.ShloMosaic.ValueIdx

variable {α : Type}

/-- A column [a, 1] laid along every column of [a, b]: entry (p, q) is entry (p, 0). -/
theorem col_to_apply {a b : Nat} (h : (⟨2, ![a, 1]⟩ : Shape).Broadcasts ⟨2, ![a, b]⟩)
    (v : (⟨2, ![a, 1]⟩ : Shape).Idx → α) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector [a] stood up as a column [a, 1]: entry (p, 0) is entry p. -/
theorem vec_col_apply {a : Nat} (h : (⟨1, ![a]⟩ : Shape).BroadcastsInDim ⟨2, ![a, 1]⟩ (![0] : Fin 1 → Fin 2))
    (v : (⟨1, ![a]⟩ : Shape).Idx → α) (p : Fin a) (z : Fin 1) :
    broadcastInDim ⟨2, ![a, 1]⟩ ![0] h v (ix2 p z) = v (ix1 p) :=
  broadcastInDim_apply _ h v (ix2 p z) (ix1 p) (fun ax => match ax with
    | ⟨0, _⟩ => by
      show p.val = if a = 1 then 0 else p.val
      split
      · have := p.isLt; omega
      · rfl)

/-- The host's product of an [M, K] by a [K, N] matrix at entry (a, b): the sum over c of A(a, c) · B(c, b). -/
theorem dotGeneral_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product into a zero accumulator at entry (a, b): the same sum. -/
theorem matmul_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant ⟨2, ![M, N]⟩ .f32 0x00000000#32) (ix2 a b) = ∑ c : Fin K, A (ix2 a c) * B (ix2 c b) := by
  rw [matmul_zero_eq_dotGeneral]
  exact dotGeneral_apply D hD prec A B a b

end RowOps

end
-- ==== Proof.LibTransProduct.lean ====
/-
  The product of an [M, K] matrix by the transpose of an [N, K] matrix — both operands contracted on their columns, no
  batch axis — read at entry (a, b) as the sum over the contracted coordinate c of A(a, c) · B(b, c): as a host program
  computes it, and as a kernel computes it into a zero accumulator. For any extents, at the ideal values.
-/
import Idealize.ShloMosaic.Lib.Pipeline.Value
import Idealize.ShloMosaic.Lib.ValueIdx
import Idealize.ShloMosaic.Lib.KernelVsHost
import Idealize.ShloMosaic.PureOps.Ideal.Laws

noncomputable section

open scoped BigOperators

namespace TransProduct

open Idealize.ShloMosaic Idealize.ShloMosaic.ValueIdx

/-- The host's product A · Bᵀ at entry (a, b): the sum over c of A(a, c) · B(b, c). -/
theorem dotGeneral_transposedRhs_apply {m k n : Nat} {φ₁ φ₂ : FTy} (prec : Option ContractPrecision)
    (A : FVec Ideal ⟨2, ![m, k]⟩ φ₁) (B : FVec Ideal ⟨2, ![n, k]⟩ φ₂) (a : Fin m) (b : Fin n) :
    Host.dotGeneral (DotDims.transposedRhs m k n) prec A B (ix2 a b) = ∑ c : Fin k, A (ix2 a c) * B (ix2 b c) := by
  show FloatOps.dotGeneral _ prec _ A B (ix2 a b) = _
  rw [Ideal.dotGeneral_apply, ← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The same for any dimension record that is that one. -/
theorem dotGeneral_apply {M K N : Nat} {φ₁ φ₂ : FTy} (D : DotDims ⟨2, ![M, K]⟩ ⟨2, ![N, K]⟩ ⟨2, ![M, N]⟩)
    (hD : D = DotDims.transposedRhs M K N) (prec : Option ContractPrecision)
    (A : FVec Ideal ⟨2, ![M, K]⟩ φ₁) (B : FVec Ideal ⟨2, ![N, K]⟩ φ₂) (a : Fin M) (b : Fin N) :
    Host.dotGeneral D prec A B (ix2 a b) = ∑ c : Fin K, A (ix2 a c) * B (ix2 b c) := by
  subst hD
  exact dotGeneral_transposedRhs_apply prec A B a b

/-- A kernel's product A · Bᵀ into a zero accumulator at entry (a, b): the same sum. -/
theorem matmul_apply {M K N : Nat} {φ₁ φ₂ : FTy} (D : DotDims ⟨2, ![M, K]⟩ ⟨2, ![N, K]⟩ ⟨2, ![M, N]⟩)
    (hD : D = DotDims.transposedRhs M K N) (prec : Option ContractPrecision)
    (A : FVec Ideal ⟨2, ![M, K]⟩ φ₁) (B : FVec Ideal ⟨2, ![N, K]⟩ φ₂) (a : Fin M) (b : Fin N) :
    matmul D prec A B (constant ⟨2, ![M, N]⟩ .f32 0x00000000#32) (ix2 a b) = ∑ c : Fin K, A (ix2 a c) * B (ix2 b c) := by
  rw [matmul_zero_eq_dotGeneral]
  exact dotGeneral_apply D hD prec A B a b

end TransProduct

end
-- ==== Proof.LibSoftLayout.lean ====
/-
  Matrices and vectors read at an entry, for any extents: a block of consecutive rows of a matrix; a transposed
  matrix; a row [1, b] laid along every row of [a, b]; a vector stood up as a row [1, b] or as a column [a, 1] by a
  change of shape; a matrix [a, b] read as [1, a, b] and back; the sum of a matrix's rows' entries (along the columns)
  and of its columns' entries (along the rows), and a row's maximum, each as a sum or a fold over one coordinate.
-/
import Idealize.ShloMosaic.Lib.Pipeline.Value
import Idealize.ShloMosaic.Lib.ValueIdx
import Idealize.ShloMosaic.PureOps.Ideal.Laws

noncomputable section

open scoped BigOperators

namespace SoftLayout

open Idealize.ShloMosaic Idealize.ShloMosaic.ValueIdx

variable {α : Type}

/-- Rows `off`, `off + 1`, … of a matrix: entry (r, q) of the piece is entry (off + r, q). -/
theorem rows_apply {n m c off : Nat} (h : (⟨2, ![n, c]⟩ : Shape).Slices ![off, 0] ⟨2, ![m, c]⟩)
    (v : (⟨2, ![n, c]⟩ : Shape).Idx → α) (r : Fin m) (q : Fin c) (hr : off + r.val < n) :
    extractStridedSlice ⟨2, ![m, c]⟩ ![off, 0] v h (ix2 r q) = v (ix2 ⟨off + r.val, hr⟩ q) :=
  extractStridedSlice_apply ![off, 0] v h (ix2 r q) (ix2 ⟨off + r.val, hr⟩ q) (fun a => match a with
    | ⟨0, _⟩ => rfl
    | ⟨1, _⟩ => (Nat.zero_add _).symm)

/-- A transposed matrix: entry (q, p) is entry (p, q). -/
theorem transpose_apply {a b : Nat} (h : (⟨2, ![a, b]⟩ : Shape).Transposes [1, 0] ⟨2, ![b, a]⟩)
    (v : (⟨2, ![a, b]⟩ : Shape).Idx → α) (q : Fin b) (p : Fin a) :
    transpose ⟨2, ![b, a]⟩ [1, 0] v h (ix2 q p) = v (ix2 p q) :=
  Idealize.ShloMosaic.transpose_apply [1, 0] v h (ix2 q p) (ix2 p q) (fun c => match c with
    | ⟨0, _⟩ => rfl
    | ⟨1, _⟩ => rfl)

/-- A row [1, b] laid along every row of [a, b]: entry (p, q) is entry (0, q). -/
theorem row_to_apply {a b : Nat} (h : (⟨2, ![1, b]⟩ : Shape).Broadcasts ⟨2, ![a, b]⟩)
    (v : (⟨2, ![1, b]⟩ : Shape).Idx → α) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- A vector [b] stood up as a row [1, b] by a change of shape: entry (0, q) is entry q. -/
theorem vec_row_cast_apply {b : Nat} (h : (⟨1, ![b]⟩ : Shape).ShapeCasts ⟨2, ![1, b]⟩)
    (v : (⟨1, ![b]⟩ : Shape).Idx → α) (z : Fin 1) (q : Fin b) :
    shapeCast ⟨2, ![1, b]⟩ v h (ix2 z q) = v (ix1 q) := by
  refine shapeCast_apply v h (ix2 z q) (ix1 q) ?_
  rw [Shape.rowMajor_val_one, Shape.rowMajor_val_two]
  show q.val = z.val * b + q.val
  have := z.isLt
  have hz : z.val = 0 := by omega
  rw [hz]; omega

/-- A vector [a] stood up as a column [a, 1] by a change of shape: entry (p, 0) is entry p. -/
theorem vec_col_cast_apply {a : Nat} (h : (⟨1, ![a]⟩ : Shape).ShapeCasts ⟨2, ![a, 1]⟩)
    (v : (⟨1, ![a]⟩ : Shape).Idx → α) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt
  omega

/-- [1, a, b] read as the matrix [a, b]: entry (p, q) is entry (0, p, q). -/
theorem drop_lead_apply {a b : Nat} (h : (⟨3, ![1, a, b]⟩ : Shape).ShapeCasts ⟨2, ![a, b]⟩)
    (v : (⟨3, ![1, a, b]⟩ : Shape).Idx → α) (p : Fin a) (q : Fin b) :
    shapeCast ⟨2, ![a, b]⟩ v h (ix2 p q) = v (ix3 (0 : Fin 1) p q) := by
  refine shapeCast_apply v h (ix2 p q) (ix3 (0 : Fin 1) p q) ?_
  rw [Shape.rowMajor_val_two, Shape.rowMajor_val_three]
  show (0 * a + p.val) * b + q.val = p.val * b + q.val
  rw [Nat.zero_mul, Nat.zero_add]

/-- The matrix [a, b] read as [1, a, b]: entry (0, p, q) is entry (p, q). -/
theorem add_lead_apply {a b : Nat} (h : (⟨2, ![a, b]⟩ : Shape).ShapeCasts ⟨3, ![1, a, b]⟩)
    (v : (⟨2, ![a, b]⟩ : Shape).Idx → α) (z : Fin 1) (p : Fin a) (q : Fin b) :
    shapeCast ⟨3, ![1, a, b]⟩ v h (ix3 z p q) = v (ix2 p q) := by
  refine shapeCast_apply v h (ix3 z p q) (ix2 p q) ?_
  rw [Shape.rowMajor_val_two, Shape.rowMajor_val_three]
  show p.val * b + q.val = (z.val * a + p.val) * b + q.val
  have := z.isLt
  have hz : z.val = 0 := by omega
  rw [hz, Nat.zero_mul, Nat.zero_add]

/-- The index over row `p` with column coordinate `q` inserted. -/
theorem lift_row {a b : Nat} (h : (⟨2, ![a, b]⟩ : Shape).Reduces [1] ⟨1, ![a]⟩) (p : Fin a) (q : Fin b) :
    h.lift (ix1 p) q = ix2 p q :=
  funext fun c => match c with
    | ⟨0, _⟩ => Fin.ext rfl
    | ⟨1, _⟩ => Fin.ext rfl

/-- The index over column `q` with row coordinate `p` inserted. -/
theorem lift_col {a b : Nat} (h : (⟨2, ![a, b]⟩ : Shape).Reduces [0] ⟨1, ![b]⟩) (q : Fin b) (p : Fin a) :
    h.lift (ix1 q) p = ix2 p q :=
  funext fun c => match c with
    | ⟨0, _⟩ => Fin.ext rfl
    | ⟨1, _⟩ => Fin.ext rfl

/-- The sums of a matrix's rows: entry p is the sum over q of entry (p, q). -/
theorem rowsum_apply {a b : Nat} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ v 0x00000000#32 h hφ hacc (ix1 p) = ∑ q : Fin b, v (ix2 p q) := by
  refine (Ideal.multiReduction_add_single v 0x00000000#32 h hφ hacc (ix1 p)).trans ?_
  exact Finset.sum_congr rfl fun q _ => congrArg v (lift_row h p q)

/-- The sums of a matrix's columns: entry q is the sum over p of entry (p, q). -/
theorem colsum_apply {a b : Nat} (v : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ v 0x00000000#32 h hφ hacc (ix1 q) = ∑ p : Fin a, v (ix2 p q) := by
  refine (Ideal.multiReduction_add_single v 0x00000000#32 h hφ hacc (ix1 q)).trans ?_
  exact Finset.sum_congr rfl fun p _ => congrArg v (lift_col h q p)

/-- The maxima of a matrix's rows, from -∞: entry p is the fold of `max` over q of entry (p, q). -/
theorem rowmax_apply {a b : Nat} (v : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ v 0xFF800000#32 h hφ hacc (ix1 p)
      = (Finset.univ : Finset (Fin b)).fold max (Ideal.ofBits .f32 0xFF800000#32) (fun q => v (ix2 p q)) := by
  refine (Ideal.multiReduction_maximumf_single v 0xFF800000#32 h hφ hacc (ix1 p)).trans ?_
  exact congrArg (fun f => (Finset.univ : Finset (Fin b)).fold max (Ideal.ofBits .f32 0xFF800000#32) f)
    (funext fun q => congrArg v (lift_row h p q))

end SoftLayout

end
-- ==== Proof.Payloads.lean ====
/-
  What each kernel body stores, read one entry at a time on the extended reals.

  A matrix product into a zero accumulator is, at entry (r, q), the sum over the contracted coordinate of the
  products of the entries; a bias row laid along the rows contributes its entry q; a maximum with a zero splat
  clamps at 0; a change of float format is the identity; a shape cast to the same shape is the identity. So the
  bodies store, entry by entry,

    the projection           x · W                                  (body 0)
    a copy of the adjacency                                         (body 1, first store)
    relu(adj · S + b)                                               (bodies 2, 3, 4, first store)
    relu(adj · S + b) · Wnext                                       (bodies 1, 2, second store)
    (the first 128 columns of relu(adj · S + b)) · Wnext            (body 3, second store)
    h · hᵀ for a block of rows of h against all of h                (body 5).
-/
import proofs.«168842_g31997506355971_cont_9to1_2144_8_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout
import proofs.«168842_g31997506355971_cont_9to1_2144_8_alg».proof.Proof.LibRowOps
import proofs.«168842_g31997506355971_cont_9to1_2144_8_alg».proof.Proof.LibTransProduct
import proofs.«168842_g31997506355971_cont_9to1_2144_8_alg».proof.Proof.LibSoftLayout

noncomputable section

open scoped BigOperators

namespace Cert.KernelIdeal.PayValue

open Cert.KernelIdeal Cert.KernelIdeal.Gen Idealize.ShloMosaic Idealize.ShloMosaic.ValueIdx

/-! ## The two shapes every body is made of, for any extents -/

/-- relu(A · S + b) at entry (r, q), with b a row laid along every row: the product is the sum over the contracted
    coordinate, the row contributes its entry q, and the zero word is 0. -/
theorem relu_agg_apply {M N J : ℕ} {φ₁ φ₂ : FTy} (D : DotDims ⟨2, ![M, N]⟩ ⟨2, ![N, J]⟩ ⟨2, ![M, J]⟩)
    (hD : D = DotDims.plain M N J) (hb : (⟨2, ![1, J]⟩ : Shape).Broadcasts ⟨2, ![M, J]⟩)
    (A : FVec Ideal ⟨2, ![M, N]⟩ φ₁) (S : FVec Ideal ⟨2, ![N, J]⟩ φ₂) (b : FVec Ideal ⟨2, ![1, J]⟩ .f32)
    (r : Fin M) (q : Fin J) :
    maximumf (addf (matmul D none A S (constant ⟨2, ![M, J]⟩ .f32 0x00000000#32)) (broadcastTo ⟨2, ![M, J]⟩ b hb))
        (broadcast ⟨2, ![M, J]⟩ (Scalar.ofBits (F := Ideal) .f32 0x00000000#32)) (ix2 r q)
      = max (∑ u : Fin N, A (ix2 r u) * S (ix2 u q) + b (ix2 (0 : Fin 1) q)) 0 := by
  show max (matmul D none A S (constant ⟨2, ![M, J]⟩ .f32 0x00000000#32) (ix2 r q)
      + broadcastTo ⟨2, ![M, J]⟩ b hb (ix2 r q)) (Ideal.ofBits .f32 0x00000000#32) = _
  rw [RowOps.matmul_apply D hD none A S r q, SoftLayout.row_to_apply hb b r q, Ideal.ofBits_zero_f32]

/-- The first c' columns of a matrix: entry (r, k) of the piece is entry (r, k). -/
theorem head_cols_apply {α : Type} {n c c' : ℕ} (hc : c' ≤ c) (h : (⟨2, ![n, c]⟩ : Shape).Slices ![0, 0] ⟨2, ![n, c']⟩)
    (v : (⟨2, ![n, c]⟩ : Shape).Idx → α) (r : Fin n) (k : Fin c') :
    extractStridedSlice ⟨2, ![n, c']⟩ ![0, 0] v h (ix2 r k) = v (ix2 r (Fin.castLE hc k)) :=
  extractStridedSlice_apply ![0, 0] v h (ix2 r k) (ix2 r (Fin.castLE hc k)) (fun a => match a with
    | ⟨0, _⟩ => (Nat.zero_add _).symm
    | ⟨1, _⟩ => (Nat.zero_add _).symm)

/-! ## Body 0: the projection x · W -/

theorem k0_pay1_apply (x0 : Vec Ideal S2000x128 .f32) (x1 : Vec Ideal S128x64 .f32) (r : Fin 2000) (q : Fin 64) :
    k0_pay1 (F := Ideal) x0 x1 (ix2 r q) = ∑ k : Fin 128, x0 (ix2 r k) * x1 (ix2 k q) := by
  unfold k0_pay1
  exact RowOps.matmul_apply _ rfl none x0 x1 r q

/-! ## Body 1: a copy of the adjacency block, and relu(adj · S + b) · Wnext -/

theorem k1_pay1_apply (x0 : Vec Ideal S400x10000 .f32) (r : Fin 400) (u : Fin 10000) :
    k1_pay1 (F := Ideal) x0 (ix2 r u) = x0 (ix2 r u) := rfl

theorem k1_pay2_apply (x0 : Vec Ideal S400x10000 .f32) (x3 : Vec Ideal S10000x64 .f32) (x6 : Vec Ideal S1x64 .f32)
    (x12 : Vec Ideal S64x128 .f32) (r : Fin 400) (q : Fin 128) :
    k1_pay2 (F := Ideal) x0 x3 x6 x12 (ix2 r q)
      = ∑ k : Fin 64, max (∑ u : Fin 10000, x0 (ix2 r u) * x3 (ix2 u k) + x6 (ix2 (0 : Fin 1) k)) 0 * x12 (ix2 k q) := by
  simp only [k1_pay2, shapeCast_self]
  refine (truncf_apply (φ := .f32) (ψ := .bf16) _ bitsLt_bf16_f32 (ix2 r q)).trans ?_
  refine (RowOps.matmul_apply _ rfl none _ x12 r q).trans ?_
  exact Finset.sum_congr rfl fun k _ =>
    congrArg (fun t => t * x12 (ix2 k q)) (relu_agg_apply _ rfl _ x0 x3 x6 r k)

/-! ## Body 2: relu(adj · S + b), 128 columns, and its product with the next weight -/

theorem k2_pay1_apply (x0 : Vec Ideal S1000x10000 .bf16) (x2 : Vec Ideal S10000x128 .bf16) (x5 : Vec Ideal S1x128 .f32)
    (r : Fin 1000) (q : Fin 128) :
    k2_pay1 (F := Ideal) x0 x2 x5 (ix2 r q)
      = max (∑ u : Fin 10000, x0 (ix2 r u) * x2 (ix2 u q) + x5 (ix2 (0 : Fin 1) q)) 0 := by
  simp only [k2_pay1, shapeCast_self]
  exact relu_agg_apply _ rfl _ x0 x2 x5 r q

theorem k2_pay2_apply (x0 : Vec Ideal S1000x10000 .bf16) (x2 : Vec Ideal S10000x128 .bf16) (x5 : Vec Ideal S1x128 .f32)
    (x12 : Vec Ideal S128x192 .f32) (r : Fin 1000) (q : Fin 192) :
    k2_pay2 (F := Ideal) x0 x2 x5 x12 (ix2 r q)
      = ∑ k : Fin 128, k2_pay1 (F := Ideal) x0 x2 x5 (ix2 r k) * x12 (ix2 k q) := by
  unfold k2_pay2
  rw [shapeCast_self x12]
  refine (truncf_apply (φ := .f32) (ψ := .bf16) _ bitsLt_bf16_f32 (ix2 r q)).trans ?_
  exact RowOps.matmul_apply _ rfl none (k2_pay1 (F := Ideal) x0 x2 x5) x12 r q

/-! ## Body 3: relu(adj · S + b), 192 columns, and the product of its first 128 columns with the next weight -/

theorem k3_pay1_apply (x0 : Vec Ideal S1000x10000 .bf16) (x2 : Vec Ideal S10000x192 .bf16) (x5 : Vec Ideal S1x192 .f32)
    (r : Fin 1000) (q : Fin 192) :
    k3_pay1 (F := Ideal) x0 x2 x5 (ix2 r q)
      = max (∑ u : Fin 10000, x0 (ix2 r u) * x2 (ix2 u q) + x5 (ix2 (0 : Fin 1) q)) 0 := by
  simp only [k3_pay1, shapeCast_self]
  exact relu_agg_apply _ rfl _ x0 x2 x5 r q

theorem k3_pay2_apply (x0 : Vec Ideal S1000x10000 .bf16) (x2 : Vec Ideal S10000x192 .bf16) (x5 : Vec Ideal S1x192 .f32)
    (x13 : Vec Ideal S128x256 .f32) (r : Fin 1000) (q : Fin 256) :
    k3_pay2 (F := Ideal) x0 x2 x5 x13 (ix2 r q)
      = ∑ k : Fin 128, k3_pay1 (F := Ideal) x0 x2 x5 (ix2 r (Fin.castLE (by norm_num : 128 ≤ 192) k)) * x13 (ix2 k q) := by
  unfold k3_pay2
  rw [shapeCast_self x13]
  refine (truncf_apply (φ := .f32) (ψ := .bf16) _ bitsLt_bf16_f32 (ix2 r q)).trans ?_
  refine (RowOps.matmul_apply _ rfl none _ x13 r q).trans ?_
  exact Finset.sum_congr rfl fun k _ =>
    congrArg (fun t => t * x13 (ix2 k q))
      (head_cols_apply (by norm_num : 128 ≤ 192) _ (k3_pay1 (F := Ideal) x0 x2 x5) r k)

/-! ## Body 4: relu(adj · S + b), 256 columns -/

theorem k4_pay1_apply (x0 : Vec Ideal S1000x10000 .bf16) (x2 : Vec Ideal S10000x256 .bf16) (x5 : Vec Ideal S1x256 .f32)
    (r : Fin 1000) (q : Fin 256) :
    k4_pay1 (F := Ideal) x0 x2 x5 (ix2 r q)
      = max (∑ u : Fin 10000, x0 (ix2 r u) * x2 (ix2 u q) + x5 (ix2 (0 : Fin 1) q)) 0 := by
  simp only [k4_pay1, shapeCast_self]
  exact relu_agg_apply _ rfl _ x0 x2 x5 r q

/-! ## Body 5: a block of rows of h against all of h, contracted on the columns of both -/

theorem k5_pay1_apply (x0 : Vec Ideal S400x64 .f32) (x2 : Vec Ideal S10000x64 .f32) (r : Fin 400) (j : Fin 10000) :
    k5_pay1 (F := Ideal) x0 x2 (ix2 r j) = ∑ p : Fin 64, x0 (ix2 r p) * x2 (ix2 j p) := by
  simp only [k5_pay1, shapeCast_self]
  exact TransProduct.matmul_apply _ rfl none x0 x2 r j

end Cert.KernelIdeal.PayValue

end
-- ==== Proof.Spec.lean ====
/-
  The mathematics of a graph-convolution autoencoder over a dense adjacency, on the extended reals.

  A matrix is a function of two coordinates, a vector a function of one. One graph-convolution layer is
  relu(adj · (h · W) + b); the autoencoder stacks eight of them and ends with a Gram matrix h · hᵀ.

  Two observations let several layers that share their input run as ONE layer over wider arrays:

  * a layer's column q reads only column q of its weight and entry q of its bias, so layers with the same input
    and weights laid side by side are one layer whose columns are the separate layers' columns;
  * if, in column q, the weight vanishes outside a band of rows, the inner product over all rows is the inner
    product over the band, so a block-diagonal weight applied to inputs laid side by side computes each block's
    layer from that block's input alone.

  Both hold for every extended real, finite or not: they use only x * 0 = 0, a + 0 = a (inside a finite sum) and
  re-indexing of a sum along an injection.
-/
import Idealize.ShloMosaic.PureOps.Ideal
import Idealize.ShloMosaic.Lib.ValueIdx
import Mathlib.Algebra.BigOperators.Fin

noncomputable section

open scoped BigOperators

namespace Cert.Spec

/-- The matrix product A · B. -/
def mm {a b c : ℕ} (A : Fin a → Fin b → EReal) (B : Fin b → Fin c → EReal) : Fin a → Fin c → EReal :=
  fun i j => ∑ k, A i k * B k j

/-- relu(adj · S + b): the aggregation over the graph of an already projected feature matrix S. -/
def agg {n j : ℕ} (adj : Fin n → Fin n → EReal) (S : Fin n → Fin j → EReal) (b : Fin j → EReal) :
    Fin n → Fin j → EReal :=
  fun i q => max (∑ u, adj i u * S u q + b q) 0

/-- One graph-convolution layer relu(adj · (h · W) + b). -/
def layer {n k j : ℕ} (adj : Fin n → Fin n → EReal) (h : Fin n → Fin k → EReal) (W : Fin k → Fin j → EReal)
    (b : Fin j → EReal) : Fin n → Fin j → EReal :=
  fun i q => max (∑ u, adj i u * (∑ p, h u p * W p q) + b q) 0

/-- The Gram matrix h · hᵀ. -/
def gram {n d : ℕ} (h : Fin n → Fin d → EReal) : Fin n → Fin n → EReal :=
  fun i j => ∑ p, h i p * h j p

/-- A rank-2 array of extended reals read as a matrix: its entry at row p, column q. -/
abbrev mat {a b : ℕ} (X : (⟨2, ![a, b]⟩ : Idealize.ShloMosaic.Shape).Idx → EReal) : Fin a → Fin b → EReal :=
  fun p q => X (Idealize.ShloMosaic.ValueIdx.ix2 p q)

/-- A rank-1 array of extended reals read as a vector. -/
abbrev vec {a : ℕ} (X : (⟨1, ![a]⟩ : Idealize.ShloMosaic.Shape).Idx → EReal) : Fin a → EReal :=
  fun p => X (Idealize.ShloMosaic.ValueIdx.ix1 p)

/-- The rank-2 array whose entry at row p, column q is f p q. -/
def unmat {a b : ℕ} (f : Fin a → Fin b → EReal) : (⟨2, ![a, b]⟩ : Idealize.ShloMosaic.Shape).Idx → EReal :=
  fun i => f (i 0) (i 1)

theorem unmat_ix2 {a b : ℕ} (f : Fin a → Fin b → EReal) (p : Fin a) (q : Fin b) :
    unmat f (Idealize.ShloMosaic.ValueIdx.ix2 p q) = f p q := rfl

/-- An array is the array of its entries. -/
theorem unmat_mat {a b : ℕ} (X : (⟨2, ![a, b]⟩ : Idealize.ShloMosaic.Shape).Idx → EReal) : unmat (mat X) = X :=
  funext fun i => congrArg X (Idealize.ShloMosaic.ValueIdx.eq_ix2 i).symm

/-- Two rank-2 arrays with the same entries are equal. -/
theorem eq_unmat {a b : ℕ} (X : (⟨2, ![a, b]⟩ : Idealize.ShloMosaic.Shape).Idx → EReal) (f : Fin a → Fin b → EReal)
    (h : ∀ p q, X (Idealize.ShloMosaic.ValueIdx.ix2 p q) = f p q) : X = unmat f :=
  funext fun i => by rw [Idealize.ShloMosaic.ValueIdx.eq_ix2 i]; exact h (i 0) (i 1)

/-- A layer is the aggregation of the projected features. -/
theorem layer_eq_agg {n k j : ℕ} (adj : Fin n → Fin n → EReal) (h : Fin n → Fin k → EReal)
    (W : Fin k → Fin j → EReal) (b : Fin j → EReal) : layer adj h W b = agg adj (mm h W) b := rfl

/-- Row lo + p of a k-row array, for p among k1 rows that fit: lo + k1 ≤ k. -/
def band (lo : ℕ) {k1 k : ℕ} (hlo : lo + k1 ≤ k) (p : Fin k1) : Fin k :=
  ⟨lo + p.val, by have := p.isLt; omega⟩

theorem band_val (lo : ℕ) {k1 k : ℕ} (hlo : lo + k1 ≤ k) (p : Fin k1) : (band lo hlo p).val = lo + p.val := rfl

theorem band_injective (lo : ℕ) {k1 k : ℕ} (hlo : lo + k1 ≤ k) : Function.Injective (band lo hlo) := by
  intro p p' e
  have := congrArg Fin.val e
  simp only [band_val] at this
  exact Fin.ext (by omega)

/-- A row outside the band lies below it or at or past its end. -/
theorem not_mem_range_band (lo : ℕ) {k1 k : ℕ} (hlo : lo + k1 ≤ k) (p : Fin k)
    (hp : p ∉ Set.range (band lo hlo)) : p.val < lo ∨ lo + k1 ≤ p.val := by
  by_contra hc
  have h1 : lo ≤ p.val := by omega
  have h2 : p.val - lo < k1 := by omega
  exact hp ⟨⟨p.val - lo, h2⟩, Fin.ext (by simp only [band_val]; omega)⟩

section Laws
variable {n k j : ℕ}

/-- Two aggregations agree at an entry when the projected features agree down that column and the biases agree
    there. -/
theorem agg_congr {j' : ℕ} (adj : Fin n → Fin n → EReal) (S : Fin n → Fin j → EReal) (b : Fin j → EReal)
    (S' : Fin n → Fin j' → EReal) (b' : Fin j' → EReal) (q : Fin j) (q' : Fin j')
    (hS : ∀ u, S u q = S' u q') (hb : b q = b' q') (i : Fin n) : agg adj S b i q = agg adj S' b' i q' := by
  unfold agg
  rw [hb]
  exact congrArg (fun t => max (t + b' q') 0) (Finset.sum_congr rfl fun u _ => by rw [hS u])

/-- COLUMNS SIDE BY SIDE. A layer's entry in column q reads only column q of the weight and entry q of the bias:
    if those are column q' of another weight and entry q' of another bias, the two layers agree there. -/
theorem layer_col {j' : ℕ} (adj : Fin n → Fin n → EReal) (h : Fin n → Fin k → EReal) (W : Fin k → Fin j → EReal)
    (b : Fin j → EReal) (W' : Fin k → Fin j' → EReal) (b' : Fin j' → EReal) (q : Fin j) (q' : Fin j')
    (hW : ∀ p, W p q = W' p q') (hb : b q = b' q') (i : Fin n) :
    layer adj h W b i q = layer adj h W' b' i q' := by
  unfold layer
  rw [hb]
  refine congrArg (fun t => max (t + b' q') 0) (Finset.sum_congr rfl fun u _ => ?_)
  exact congrArg (fun t => adj i u * t) (Finset.sum_congr rfl fun p _ => by rw [hW p])

/-- An inner product against a weight column that vanishes outside a band of rows is the inner product over the
    band. Only x * 0 = 0 is used: no entry need be finite. -/
theorem sum_band {k1 : ℕ} (lo : ℕ) (hlo : lo + k1 ≤ k) (f : Fin k → EReal) (w : Fin k → EReal)
    (hZ : ∀ p : Fin k, (p.val < lo ∨ lo + k1 ≤ p.val) → w p = 0) :
    ∑ p, f p * w p = ∑ p : Fin k1, f (band lo hlo p) * w (band lo hlo p) :=
  (Fintype.sum_of_injective (band lo hlo) (band_injective lo hlo) _ (fun p => f p * w p)
    (fun p hp => by rw [hZ p (not_mem_range_band lo hlo p hp), mul_zero]) (fun _ => rfl)).symm

/-- BLOCK WEIGHTS. Suppose that in column q the weight W vanishes outside the band of rows lo ≤ p < lo + k1, that on
    the band it is column q1 of W1, that the input h restricted to the band's columns is h1, and that the biases
    agree. Then the wide layer's entry in column q is the narrow layer's entry in column q1. -/
theorem layer_band {k1 j1 : ℕ} (adj : Fin n → Fin n → EReal) (h : Fin n → Fin k → EReal)
    (W : Fin k → Fin j → EReal) (b : Fin j → EReal) (h1 : Fin n → Fin k1 → EReal) (W1 : Fin k1 → Fin j1 → EReal)
    (b1 : Fin j1 → EReal) (lo : ℕ) (hlo : lo + k1 ≤ k) (q : Fin j) (q1 : Fin j1)
    (hh : ∀ u (p : Fin k1), h u (band lo hlo p) = h1 u p)
    (hW : ∀ p : Fin k1, W (band lo hlo p) q = W1 p q1)
    (hZ : ∀ p : Fin k, (p.val < lo ∨ lo + k1 ≤ p.val) → W p q = 0)
    (hb : b q = b1 q1) (i : Fin n) :
    layer adj h W b i q = layer adj h1 W1 b1 i q1 := by
  unfold layer
  rw [hb]
  refine congrArg (fun t => max (t + b1 q1) 0) (Finset.sum_congr rfl fun u _ => ?_)
  refine congrArg (fun t => adj i u * t) ?_
  rw [sum_band lo hlo (h u) (fun p => W p q) hZ]
  exact Finset.sum_congr rfl fun p _ => by rw [hh u p, hW p]

/-- Gram matrices of arrays that agree entry by entry agree; the arrays may have different widths as long as the
    second is the first read through a re-indexing of its columns. -/
theorem gram_congr {d d' : ℕ} (h : Fin n → Fin d → EReal) (h' : Fin n → Fin d' → EReal) (e : Fin d → Fin d')
    (he : Function.Bijective e) (hh : ∀ u p, h u p = h' u (e p)) (i i' : Fin n) :
    gram h i i' = gram h' i i' := by
  unfold gram
  rw [← (Equiv.ofBijective e he).sum_comp (fun p => h' i p * h' i' p)]
  exact Finset.sum_congr rfl fun p _ => by rw [hh i p, hh i' p]; rfl

end Laws

/-! ## The autoencoder, layer by layer

Ten thousand nodes, 128 input features, hidden width 64. The encoder's first layer feeds two second layers (a
"sensitive" and a "non-sensitive" code); each code is decoded by two layers back to 128 features; the non-sensitive
code also feeds the structure decoder, one layer whose Gram matrix reconstructs the adjacency. -/

section Network
variable (x : Fin 10000 → Fin 128 → EReal) (adj : Fin 10000 → Fin 10000 → EReal)
  (enc_W1 : Fin 128 → Fin 64 → EReal) (enc_b1 : Fin 64 → EReal)
  (enc_W2s : Fin 64 → Fin 64 → EReal) (enc_b2s : Fin 64 → EReal)
  (enc_W2ns : Fin 64 → Fin 64 → EReal) (enc_b2ns : Fin 64 → EReal)
  (ds_W1 : Fin 64 → Fin 64 → EReal) (ds_b1 : Fin 64 → EReal)
  (ds_W2 : Fin 64 → Fin 128 → EReal) (ds_b2 : Fin 128 → EReal)
  (dns_W1 : Fin 64 → Fin 64 → EReal) (dns_b1 : Fin 64 → EReal)
  (dns_W2 : Fin 64 → Fin 128 → EReal) (dns_b2 : Fin 128 → EReal)
  (sd_W1 : Fin 64 → Fin 64 → EReal) (sd_b1 : Fin 64 → EReal)

/-- The encoder's hidden layer. -/
def hEnc : Fin 10000 → Fin 64 → EReal := layer adj x enc_W1 enc_b1
/-- The sensitive code. -/
def zS : Fin 10000 → Fin 64 → EReal := layer adj (hEnc x adj enc_W1 enc_b1) enc_W2s enc_b2s
/-- The non-sensitive code. -/
def zNS : Fin 10000 → Fin 64 → EReal := layer adj (hEnc x adj enc_W1 enc_b1) enc_W2ns enc_b2ns
/-- The sensitive decoder's hidden layer. -/
def hS : Fin 10000 → Fin 64 → EReal := layer adj (zS x adj enc_W1 enc_b1 enc_W2s enc_b2s) ds_W1 ds_b1
/-- The features reconstructed from the sensitive code. -/
def xS : Fin 10000 → Fin 128 → EReal :=
  layer adj (hS x adj enc_W1 enc_b1 enc_W2s enc_b2s ds_W1 ds_b1) ds_W2 ds_b2
/-- The non-sensitive decoder's hidden layer. -/
def hNS : Fin 10000 → Fin 64 → EReal := layer adj (zNS x adj enc_W1 enc_b1 enc_W2ns enc_b2ns) dns_W1 dns_b1
/-- The features reconstructed from the non-sensitive code. -/
def xNS : Fin 10000 → Fin 128 → EReal :=
  layer adj (hNS x adj enc_W1 enc_b1 enc_W2ns enc_b2ns dns_W1 dns_b1) dns_W2 dns_b2
/-- The structure decoder's layer. -/
def hST : Fin 10000 → Fin 64 → EReal := layer adj (zNS x adj enc_W1 enc_b1 enc_W2ns enc_b2ns) sd_W1 sd_b1
/-- The reconstructed structure. -/
def struct : Fin 10000 → Fin 10000 → EReal := gram (hST x adj enc_W1 enc_b1 enc_W2ns enc_b2ns sd_W1 sd_b1)

end Network

end Cert.Spec

end
-- ==== Proof.KernelValue.lean ====
/-
  What each pass leaves in its output arrays, at the ideal instance, entry by entry.

  A pass with row blocks of bm rows writes row p of an output at grid point p / bm, local row p % bm; there the
  body's payload is a sum over the contracted coordinate of the adjacency block's row against the resident
  operand, plus the bias row, clipped below at zero — one aggregation `agg A S b` of Spec — and, where the body
  goes on, that aggregation's product with the next weight.  Each stage is stated from what its input arrays hold.
-/
import proofs.«168842_g31997506355971_cont_9to1_2144_8_alg».proof.Proof.Run
import proofs.«168842_g31997506355971_cont_9to1_2144_8_alg».proof.Proof.Blocks0
import proofs.«168842_g31997506355971_cont_9to1_2144_8_alg».proof.Proof.Blocks1
import proofs.«168842_g31997506355971_cont_9to1_2144_8_alg».proof.Proof.Blocks2
import proofs.«168842_g31997506355971_cont_9to1_2144_8_alg».proof.Proof.Blocks3
import proofs.«168842_g31997506355971_cont_9to1_2144_8_alg».proof.Proof.Blocks4
import proofs.«168842_g31997506355971_cont_9to1_2144_8_alg».proof.Proof.Blocks5
import proofs.«168842_g31997506355971_cont_9to1_2144_8_alg».proof.Proof.Payloads
import proofs.«168842_g31997506355971_cont_9to1_2144_8_alg».proof.Proof.Spec

set_option maxRecDepth 16384

noncomputable section

open scoped BigOperators

namespace Cert.KernelIdeal.KValue

open Idealize.ShloMosaic Idealize.ShloMosaic.TcCoe Idealize.SL.Sem Idealize.ShloMosaic.ValueIdx
open Cert.KernelIdeal Cert.KernelIdeal.Gen Cert.KernelIdeal.Hand Cert.KernelIdeal.PayValue

variable (m : (ℓ : Loc nD τ sig) → Buf (Elt Ideal) ℓ) (ρ : Dev nD → PrngReg) (c : Dev nD)

theorem row_pt_loc0 (p : Fin 10000) : row0 (pt0 p) (loc0 p) = p :=
  Fin.ext (by show (pt0 p).val * 2000 + (loc0 p).val = p.val; rw [pt0_val, loc0_val]; exact Nat.div_add_mod' p.val 2000)

/-- Pass 0: the product of the input with the first weight. -/
theorem stage0 (X : Fin 10000 → Fin 128 → EReal) (W : Fin 128 → Fin 64 → EReal)
    (hX : ∀ p u, (T1 m ρ c main_arg0 : S10000x128.Idx → EReal) (ix2 p u) = X p u)
    (hW : ∀ k q, (T1 m ρ c main_arg2 : S128x64.Idx → EReal) (ix2 k q) = W k q) (p : Fin 10000) (q : Fin 64) :
    (B2 m ρ c main_v16 : S10000x64.Idx → EReal) (ix2 p q) = Cert.Spec.mm X W p q := by
  refine (congrFun (B2_arr m ρ c 2) (ix2 p q)).trans ?_
  refine (arrAt0_2 (T1 m ρ) c p q).trans ?_
  rw [out0_2_eq]
  refine (k0_pay1_apply _ _ (loc0 p) q).trans ?_
  unfold Cert.Spec.mm
  refine Finset.sum_congr rfl fun k _ => congrArg₂ (· * ·) ?_ ?_
  · refine (iblk0_0_apply (T1 m ρ) c (pt0 p) (loc0 p) k).trans ?_
    rw [row_pt_loc0]; exact hX p k
  · exact (iblk0_1_apply (T1 m ρ) c (pt0 p) k q).trans (hW k q)

theorem row_pt_loc1 (p : Fin 10000) : row1 (pt1 p) (loc1 p) = p :=
  Fin.ext (by show (pt1 p).val * 400 + (loc1 p).val = p.val; rw [pt1_val, loc1_val]; exact Nat.div_add_mod' p.val 400)

/-- Pass 1, first output: a copy of the adjacency in the shorter format (the same extended reals). -/
theorem stage1_copy (A : Fin 10000 → Fin 10000 → EReal)
    (hA : ∀ p u, (T2 m ρ c main_arg1 : S10000x10000.Idx → EReal) (ix2 p u) = A p u) (p u : Fin 10000) :
    (B3 m ρ c main_v17_0 : S10000x10000.Idx → EReal) (ix2 p u) = A p u := by
  refine (congrFun (B3_arr m ρ c 4) (ix2 p u)).trans ?_
  refine (arrAt1_4 (T2 m ρ) c p u).trans ?_
  rw [out1_4_eq]
  refine (k1_pay1_apply _ (loc1 p) u).trans ?_
  refine (iblk1_0_apply (T2 m ρ) c (pt1 p) (loc1 p) u).trans ?_
  rw [row_pt_loc1]; exact hA p u

/-- Pass 1, second output: the aggregation of the resident operand, times the next weight. -/
theorem stage1 (A : Fin 10000 → Fin 10000 → EReal) (S : Fin 10000 → Fin 64 → EReal) (b : Fin 64 → EReal)
    (W : Fin 64 → Fin 128 → EReal)
    (hA : ∀ p u, (T2 m ρ c main_arg1 : S10000x10000.Idx → EReal) (ix2 p u) = A p u)
    (hS : ∀ u k, (T2 m ρ c main_v16 : S10000x64.Idx → EReal) (ix2 u k) = S u k)
    (hb : ∀ k, (T2 m ρ c main_v15 : S1x64.Idx → EReal) (ix2 (0 : Fin 1) k) = b k)
    (hW : ∀ k q, (T2 m ρ c main_v2 : S64x128.Idx → EReal) (ix2 k q) = W k q) (p : Fin 10000) (q : Fin 128) :
    (B3 m ρ c main_v17_1 : S10000x128.Idx → EReal) (ix2 p q) = Cert.Spec.mm (Cert.Spec.agg A S b) W p q := by
  refine (congrFun (B3_arr m ρ c 5) (ix2 p q)).trans ?_
  refine (arrAt1_5 (T2 m ρ) c p q).trans ?_
  rw [out1_5_eq]
  refine (k1_pay2_apply _ _ _ _ (loc1 p) q).trans ?_
  unfold Cert.Spec.mm Cert.Spec.agg
  refine Finset.sum_congr rfl fun k _ => congrArg₂ (· * ·) ?_ ?_
  · refine congrArg (fun t => max t 0) (congrArg₂ (· + ·) (Finset.sum_congr rfl fun u _ => congrArg₂ (· * ·) ?_ ?_) ?_)
    · refine (iblk1_0_apply (T2 m ρ) c (pt1 p) (loc1 p) u).trans ?_
      rw [row_pt_loc1]; exact hA p u
    · exact (iblk1_1_apply (T2 m ρ) c (pt1 p) u k).trans (hS u k)
    · exact (iblk1_2_apply (T2 m ρ) c (pt1 p) 0 k).trans (hb k)
  · exact (iblk1_3_apply (T2 m ρ) c (pt1 p) k q).trans (hW k q)

theorem row_pt_loc2 (p : Fin 10000) : row2 (pt2 p) (loc2 p) = p :=
  Fin.ext (by show (pt2 p).val * 1000 + (loc2 p).val = p.val; rw [pt2_val, loc2_val]; exact Nat.div_add_mod' p.val 1000)

/-- Pass 2, first output: the aggregation of the resident operand, 128 columns. -/
theorem stage2_h (A : Fin 10000 → Fin 10000 → EReal) (S : Fin 10000 → Fin 128 → EReal) (b : Fin 128 → EReal)
    (hA : ∀ p u, (T3 m ρ c main_v17_0 : S10000x10000.Idx → EReal) (ix2 p u) = A p u)
    (hS : ∀ u k, (T3 m ρ c main_v17_1 : S10000x128.Idx → EReal) (ix2 u k) = S u k)
    (hb : ∀ k, (T3 m ρ c main_v4 : S1x128.Idx → EReal) (ix2 (0 : Fin 1) k) = b k) (p : Fin 10000) (q : Fin 128) :
    (B4 m ρ c main_v18_0 : S10000x128.Idx → EReal) (ix2 p q) = Cert.Spec.agg A S b p q := by
  refine (congrFun (B4_arr m ρ c 4) (ix2 p q)).trans ?_
  refine (arrAt2_4 (T3 m ρ) c p q).trans ?_
  rw [out2_4_eq]
  refine (k2_pay1_apply _ _ _ (loc2 p) q).trans ?_
  unfold Cert.Spec.agg
  refine congrArg (fun t => max t 0) (congrArg₂ (· + ·) (Finset.sum_congr rfl fun u _ => congrArg₂ (· * ·) ?_ ?_) ?_)
  · refine (iblk2_0_apply (T3 m ρ) c (pt2 p) (loc2 p) u).trans ?_
    rw [row_pt_loc2]; exact hA p u
  · exact (iblk2_1_apply (T3 m ρ) c (pt2 p) u q).trans (hS u q)
  · exact (iblk2_2_apply (T3 m ρ) c (pt2 p) 0 q).trans (hb q)

/-- Pass 2, second output: that aggregation, times the next weight. -/
theorem stage2_s (A : Fin 10000 → Fin 10000 → EReal) (S : Fin 10000 → Fin 128 → EReal) (b : Fin 128 → EReal)
    (W : Fin 128 → Fin 192 → EReal)
    (hA : ∀ p u, (T3 m ρ c main_v17_0 : S10000x10000.Idx → EReal) (ix2 p u) = A p u)
    (hS : ∀ u k, (T3 m ρ c main_v17_1 : S10000x128.Idx → EReal) (ix2 u k) = S u k)
    (hb : ∀ k, (T3 m ρ c main_v4 : S1x128.Idx → EReal) (ix2 (0 : Fin 1) k) = b k)
    (hW : ∀ k q, (T3 m ρ c main_v7 : S128x192.Idx → EReal) (ix2 k q) = W k q) (p : Fin 10000) (q : Fin 192) :
    (B4 m ρ c main_v18_1 : S10000x192.Idx → EReal) (ix2 p q)
      = ∑ k : Fin 128, Cert.Spec.agg A S b p k * W k q := by
  refine (congrFun (B4_arr m ρ c 5) (ix2 p q)).trans ?_
  refine (arrAt2_5 (T3 m ρ) c p q).trans ?_
  rw [out2_5_eq]
  refine (k2_pay2_apply _ _ _ _ (loc2 p) q).trans ?_
  refine Finset.sum_congr rfl fun k _ => congrArg₂ (· * ·) ?_ ?_
  · refine (k2_pay1_apply _ _ _ (loc2 p) _).trans ?_
    unfold Cert.Spec.agg
    refine congrArg (fun t => max t 0) (congrArg₂ (· + ·) (Finset.sum_congr rfl fun u _ => congrArg₂ (· * ·) ?_ ?_) ?_)
    · refine (iblk2_0_apply (T3 m ρ) c (pt2 p) (loc2 p) u).trans ?_
      rw [row_pt_loc2]; exact hA p u
    · exact (iblk2_1_apply (T3 m ρ) c (pt2 p) u _).trans (hS u _)
    · exact (iblk2_2_apply (T3 m ρ) c (pt2 p) 0 _).trans (hb _)
  · exact (iblk2_3_apply (T3 m ρ) c (pt2 p) k q).trans (hW k q)

theorem row_pt_loc3 (p : Fin 10000) : row3 (pt3 p) (loc3 p) = p :=
  Fin.ext (by show (pt3 p).val * 1000 + (loc3 p).val = p.val; rw [pt3_val, loc3_val]; exact Nat.div_add_mod' p.val 1000)

/-- Pass 3, first output: the aggregation of the resident operand, 192 columns. -/
theorem stage3_h (A : Fin 10000 → Fin 10000 → EReal) (S : Fin 10000 → Fin 192 → EReal) (b : Fin 192 → EReal)
    (hA : ∀ p u, (T4 m ρ c main_v17_0 : S10000x10000.Idx → EReal) (ix2 p u) = A p u)
    (hS : ∀ u k, (T4 m ρ c main_v18_1 : S10000x192.Idx → EReal) (ix2 u k) = S u k)
    (hb : ∀ k, (T4 m ρ c main_v9 : S1x192.Idx → EReal) (ix2 (0 : Fin 1) k) = b k) (p : Fin 10000) (q : Fin 192) :
    (B5 m ρ c main_v19_0 : S10000x192.Idx → EReal) (ix2 p q) = Cert.Spec.agg A S b p q := by
  refine (congrFun (B5_arr m ρ c 4) (ix2 p q)).trans ?_
  refine (arrAt3_4 (T4 m ρ) c p q).trans ?_
  rw [out3_4_eq]
  refine (k3_pay1_apply _ _ _ (loc3 p) q).trans ?_
  unfold Cert.Spec.agg
  refine congrArg (fun t => max t 0) (congrArg₂ (· + ·) (Finset.sum_congr rfl fun u _ => congrArg₂ (· * ·) ?_ ?_) ?_)
  · refine (iblk3_0_apply (T4 m ρ) c (pt3 p) (loc3 p) u).trans ?_
    rw [row_pt_loc3]; exact hA p u
  · exact (iblk3_1_apply (T4 m ρ) c (pt3 p) u q).trans (hS u q)
  · exact (iblk3_2_apply (T4 m ρ) c (pt3 p) 0 q).trans (hb q)

/-- Pass 3, second output: that aggregation's first 128 columns, times the next weight. -/
theorem stage3_s (A : Fin 10000 → Fin 10000 → EReal) (S : Fin 10000 → Fin 192 → EReal) (b : Fin 192 → EReal)
    (W : Fin 128 → Fin 256 → EReal)
    (hA : ∀ p u, (T4 m ρ c main_v17_0 : S10000x10000.Idx → EReal) (ix2 p u) = A p u)
    (hS : ∀ u k, (T4 m ρ c main_v18_1 : S10000x192.Idx → EReal) (ix2 u k) = S u k)
    (hb : ∀ k, (T4 m ρ c main_v9 : S1x192.Idx → EReal) (ix2 (0 : Fin 1) k) = b k)
    (hW : ∀ k q, (T4 m ρ c main_v12 : S128x256.Idx → EReal) (ix2 k q) = W k q) (p : Fin 10000) (q : Fin 256) :
    (B5 m ρ c main_v19_1 : S10000x256.Idx → EReal) (ix2 p q)
      = ∑ k : Fin 128, Cert.Spec.agg A S b p (Fin.castLE (by norm_num : 128 ≤ 192) k) * W k q := by
  refine (congrFun (B5_arr m ρ c 5) (ix2 p q)).trans ?_
  refine (arrAt3_5 (T4 m ρ) c p q).trans ?_
  rw [out3_5_eq]
  refine (k3_pay2_apply _ _ _ _ (loc3 p) q).trans ?_
  refine Finset.sum_congr rfl fun k _ => congrArg₂ (· * ·) ?_ ?_
  · refine (k3_pay1_apply _ _ _ (loc3 p) _).trans ?_
    unfold Cert.Spec.agg
    refine congrArg (fun t => max t 0) (congrArg₂ (· + ·) (Finset.sum_congr rfl fun u _ => congrArg₂ (· * ·) ?_ ?_) ?_)
    · refine (iblk3_0_apply (T4 m ρ) c (pt3 p) (loc3 p) u).trans ?_
      rw [row_pt_loc3]; exact hA p u
    · exact (iblk3_1_apply (T4 m ρ) c (pt3 p) u _).trans (hS u _)
    · exact (iblk3_2_apply (T4 m ρ) c (pt3 p) 0 _).trans (hb _)
  · exact (iblk3_3_apply (T4 m ρ) c (pt3 p) k q).trans (hW k q)

theorem row_pt_loc4 (p : Fin 10000) : row4 (pt4 p) (loc4 p) = p :=
  Fin.ext (by show (pt4 p).val * 1000 + (loc4 p).val = p.val; rw [pt4_val, loc4_val]; exact Nat.div_add_mod' p.val 1000)

/-- Pass 4: the aggregation of the resident operand, 256 columns. -/
theorem stage4 (A : Fin 10000 → Fin 10000 → EReal) (S : Fin 10000 → Fin 256 → EReal) (b : Fin 256 → EReal)
    (hA : ∀ p u, (T5 m ρ c main_v17_0 : S10000x10000.Idx → EReal) (ix2 p u) = A p u)
    (hS : ∀ u q, (T5 m ρ c main_v19_1 : S10000x256.Idx → EReal) (ix2 u q) = S u q)
    (hb : ∀ q, (T5 m ρ c main_v14 : S1x256.Idx → EReal) (ix2 (0 : Fin 1) q) = b q) (p : Fin 10000) (q : Fin 256) :
    (B6 m ρ c main_v20 : S10000x256.Idx → EReal) (ix2 p q) = Cert.Spec.agg A S b p q := by
  refine (congrFun (B6_arr m ρ c 3) (ix2 p q)).trans ?_
  refine (arrAt4_3 (T5 m ρ) c p q).trans ?_
  rw [out4_3_eq]
  refine (k4_pay1_apply _ _ _ (loc4 p) q).trans ?_
  unfold Cert.Spec.agg
  refine congrArg (fun t => max t 0) ?_
  refine congrArg₂ (· + ·) (Finset.sum_congr rfl fun u _ => ?_) ?_
  · refine congrArg₂ (· * ·) ?_ ?_
    · refine (iblk4_0_apply (T5 m ρ) c (pt4 p) (loc4 p) u).trans ?_
      rw [row_pt_loc4]; exact hA p u
    · exact (iblk4_1_apply (T5 m ρ) c (pt4 p) u q).trans (hS u q)
  · exact (iblk4_2_apply (T5 m ρ) c (pt4 p) 0 q).trans (hb q)

theorem row_pt_loc5 (p : Fin 10000) : row5 (pt5 p) (loc5 p) = p :=
  Fin.ext (by show (pt5 p).val * 400 + (loc5 p).val = p.val; rw [pt5_val, loc5_val]; exact Nat.div_add_mod' p.val 400)

/-- Pass 5: the Gram matrix of the rows of its one input array. -/
theorem stage5 (H : Fin 10000 → Fin 64 → EReal)
    (hH : ∀ p u, (T7 m ρ c main_v21 : S10000x64.Idx → EReal) (ix2 p u) = H p u) (p j : Fin 10000) :
    (B8 m ρ c main_v22 : S10000x10000.Idx → EReal) (ix2 p j) = Cert.Spec.gram H p j := by
  refine (congrFun (B8_out m ρ c) (ix2 p j)).trans ?_
  refine (arrAt5_2 (T7 m ρ) c p j).trans ?_
  rw [out5_2_eq]
  refine (k5_pay1_apply _ _ (loc5 p) j).trans ?_
  unfold Cert.Spec.gram
  refine Finset.sum_congr rfl fun u _ => ?_
  refine congrArg₂ (· * ·) ?_ ?_
  · refine (iblk5_0_apply (T7 m ρ) c (pt5 p) (loc5 p) u).trans ?_
    rw [row_pt_loc5]; exact hH p u
  · exact (iblk5_1_apply (T7 m ρ) c (pt5 p) j u).trans (hH j u)

end Cert.KernelIdeal.KValue

end
-- ==== Proof.Fused.lean ====
/-
  Four wide passes over the adjacency compute the autoencoder's eight layers.

  Layers that read the same input are run as one layer over weights laid side by side, and layers that read
  different inputs as one layer over inputs laid side by side against a block-diagonal weight:

    pass 2   [ zS | zNS ]        = layer adj hEnc [ W2s | W2ns ]
    pass 3   [ hS | hNS | hST ]  = layer adj [ zS | zNS ] [[ ds_W1, 0, 0 ], [ 0, dns_W1, sd_W1 ]]
    pass 4   [ xS | xNS ]        = layer adj [ hS | hNS ] [[ ds_W2, 0 ], [ 0, dns_W2 ]]

  where pass 4 reads only the first 128 of pass 3's 192 columns, and the structure output is the Gram matrix of
  the last 64. The wide weights are described by what they hold in each block (a structure of equations), not by
  how they were put together, so the statement does not depend on the spelling of a concatenation. Every column
  of a wide pass is the corresponding column of one of the eight layers: the column law and the band law of the
  specification, with no finiteness assumed (a zero block contributes x * 0 = 0 to a sum).
-/
import proofs.«168842_g31997506355971_cont_9to1_2144_8_alg».proof.Proof.Spec

noncomputable section

open scoped BigOperators

namespace Cert.Spec

/-- A band of a band is a band. -/
theorem band_band (lo lo' : ℕ) {k1 k2 k : ℕ} (h' : lo' + k1 ≤ k2) (h : lo + k2 ≤ k) (h'' : lo + lo' + k1 ≤ k)
    (p : Fin k1) : band lo h (band lo' h' p) = band (lo + lo') h'' p :=
  Fin.ext (by simp only [band_val]; omega)

section Passes
variable (x : Fin 10000 → Fin 128 → EReal) (adj : Fin 10000 → Fin 10000 → EReal)
  (enc_W1 : Fin 128 → Fin 64 → EReal) (enc_b1 : Fin 64 → EReal)
  (enc_W2s : Fin 64 → Fin 64 → EReal) (enc_b2s : Fin 64 → EReal)
  (enc_W2ns : Fin 64 → Fin 64 → EReal) (enc_b2ns : Fin 64 → EReal)
  (ds_W1 : Fin 64 → Fin 64 → EReal) (ds_b1 : Fin 64 → EReal)
  (ds_W2 : Fin 64 → Fin 128 → EReal) (ds_b2 : Fin 128 → EReal)
  (dns_W1 : Fin 64 → Fin 64 → EReal) (dns_b1 : Fin 64 → EReal)
  (dns_W2 : Fin 64 → Fin 128 → EReal) (dns_b2 : Fin 128 → EReal)
  (sd_W1 : Fin 64 → Fin 64 → EReal) (sd_b1 : Fin 64 → EReal)
  (w2 : Fin 64 → Fin 128 → EReal) (b2 : Fin 128 → EReal)
  (w3 : Fin 128 → Fin 192 → EReal) (b3 : Fin 192 → EReal)
  (w4 : Fin 128 → Fin 256 → EReal) (b4 : Fin 256 → EReal)

/-- The first pass: the encoder's hidden layer, as the aggregation of x · W1. -/
def pass1 : Fin 10000 → Fin 64 → EReal := agg adj (mm x enc_W1) enc_b1
/-- The second pass, 128 columns wide: the aggregation of (pass 1) · w2. -/
def pass2 : Fin 10000 → Fin 128 → EReal := agg adj (mm (pass1 x adj enc_W1 enc_b1) w2) b2
/-- The third pass, 192 columns wide: the aggregation of (pass 2) · w3. -/
def pass3 : Fin 10000 → Fin 192 → EReal := agg adj (mm (pass2 x adj enc_W1 enc_b1 w2 b2) w3) b3
/-- The first 128 columns of the third pass. -/
def pass3Head : Fin 10000 → Fin 128 → EReal :=
  fun u p => pass3 x adj enc_W1 enc_b1 w2 b2 w3 b3 u (band 0 (by norm_num : 0 + 128 ≤ 192) p)
/-- The last 64 columns of the third pass. -/
def pass3Tail : Fin 10000 → Fin 64 → EReal :=
  fun u p => pass3 x adj enc_W1 enc_b1 w2 b2 w3 b3 u (band 128 (by norm_num : 128 + 64 ≤ 192) p)
/-- The fourth pass, 256 columns wide: the aggregation of (the third pass's first 128 columns) · w4. -/
def pass4 : Fin 10000 → Fin 256 → EReal :=
  agg adj (mm (pass3Head x adj enc_W1 enc_b1 w2 b2 w3 b3) w4) b4

/-- What the wide weights and biases hold, block by block. -/
structure Blocks : Prop where
  /-- [ W2s | W2ns ] -/
  w2_l : ∀ (p q : Fin 64), w2 p (band 0 (by norm_num : 0 + 64 ≤ 128) q) = enc_W2s p q
  w2_r : ∀ (p q : Fin 64), w2 p (band 64 (by norm_num : 64 + 64 ≤ 128) q) = enc_W2ns p q
  b2_l : ∀ q : Fin 64, b2 (band 0 (by norm_num : 0 + 64 ≤ 128) q) = enc_b2s q
  b2_r : ∀ q : Fin 64, b2 (band 64 (by norm_num : 64 + 64 ≤ 128) q) = enc_b2ns q
  /-- [[ ds_W1, 0, 0 ], [ 0, dns_W1, sd_W1 ]] -/
  w3_a : ∀ (p q : Fin 64), w3 (band 0 (by norm_num : 0 + 64 ≤ 128) p) (band 0 (by norm_num : 0 + 64 ≤ 192) q) = ds_W1 p q
  w3_a0 : ∀ (p : Fin 128) (q : Fin 64), 64 ≤ p.val → w3 p (band 0 (by norm_num : 0 + 64 ≤ 192) q) = 0
  w3_b : ∀ (p q : Fin 64), w3 (band 64 (by norm_num : 64 + 64 ≤ 128) p) (band 64 (by norm_num : 64 + 64 ≤ 192) q) = dns_W1 p q
  w3_b0 : ∀ (p : Fin 128) (q : Fin 64), p.val < 64 → w3 p (band 64 (by norm_num : 64 + 64 ≤ 192) q) = 0
  w3_c : ∀ (p q : Fin 64), w3 (band 64 (by norm_num : 64 + 64 ≤ 128) p) (band 128 (by norm_num : 128 + 64 ≤ 192) q) = sd_W1 p q
  w3_c0 : ∀ (p : Fin 128) (q : Fin 64), p.val < 64 → w3 p (band 128 (by norm_num : 128 + 64 ≤ 192) q) = 0
  b3_a : ∀ q : Fin 64, b3 (band 0 (by norm_num : 0 + 64 ≤ 192) q) = ds_b1 q
  b3_b : ∀ q : Fin 64, b3 (band 64 (by norm_num : 64 + 64 ≤ 192) q) = dns_b1 q
  b3_c : ∀ q : Fin 64, b3 (band 128 (by norm_num : 128 + 64 ≤ 192) q) = sd_b1 q
  /-- [[ ds_W2, 0 ], [ 0, dns_W2 ]] -/
  w4_a : ∀ (p : Fin 64) (q : Fin 128), w4 (band 0 (by norm_num : 0 + 64 ≤ 128) p) (band 0 (by norm_num : 0 + 128 ≤ 256) q) = ds_W2 p q
  w4_a0 : ∀ (p : Fin 128) (q : Fin 128), 64 ≤ p.val → w4 p (band 0 (by norm_num : 0 + 128 ≤ 256) q) = 0
  w4_b : ∀ (p : Fin 64) (q : Fin 128), w4 (band 64 (by norm_num : 64 + 64 ≤ 128) p) (band 128 (by norm_num : 128 + 128 ≤ 256) q) = dns_W2 p q
  w4_b0 : ∀ (p : Fin 128) (q : Fin 128), p.val < 64 → w4 p (band 128 (by norm_num : 128 + 128 ≤ 256) q) = 0
  b4_a : ∀ q : Fin 128, b4 (band 0 (by norm_num : 0 + 128 ≤ 256) q) = ds_b2 q
  b4_b : ∀ q : Fin 128, b4 (band 128 (by norm_num : 128 + 128 ≤ 256) q) = dns_b2 q

/-- The first pass is the encoder's hidden layer. -/
theorem pass1_eq : pass1 x adj enc_W1 enc_b1 = hEnc x adj enc_W1 enc_b1 := rfl

variable {enc_W2s enc_b2s enc_W2ns enc_b2ns ds_W1 ds_b1 ds_W2 ds_b2 dns_W1 dns_b1 dns_W2 dns_b2 sd_W1 sd_b1
  w2 b2 w3 b3 w4 b4}
variable (B : Blocks enc_W2s enc_b2s enc_W2ns enc_b2ns ds_W1 ds_b1 ds_W2 ds_b2 dns_W1 dns_b1 dns_W2 dns_b2 sd_W1 sd_b1
  w2 b2 w3 b3 w4 b4)
include B

/-- The second pass's first 64 columns are the sensitive code. -/
theorem pass2_left (u : Fin 10000) (q : Fin 64) :
    pass2 x adj enc_W1 enc_b1 w2 b2 u (band 0 (by norm_num : 0 + 64 ≤ 128) q)
      = zS x adj enc_W1 enc_b1 enc_W2s enc_b2s u q :=
  layer_col adj (hEnc x adj enc_W1 enc_b1) w2 b2 enc_W2s enc_b2s _ q (fun p => B.w2_l p q) (B.b2_l q) u

/-- The second pass's last 64 columns are the non-sensitive code. -/
theorem pass2_right (u : Fin 10000) (q : Fin 64) :
    pass2 x adj enc_W1 enc_b1 w2 b2 u (band 64 (by norm_num : 64 + 64 ≤ 128) q)
      = zNS x adj enc_W1 enc_b1 enc_W2ns enc_b2ns u q :=
  layer_col adj (hEnc x adj enc_W1 enc_b1) w2 b2 enc_W2ns enc_b2ns _ q (fun p => B.w2_r p q) (B.b2_r q) u

/-- The third pass's columns 0 … 63 are the sensitive decoder's hidden layer: in those columns the weight holds
    ds_W1 on rows 0 … 63, which meet the sensitive code, and zero below. -/
theorem pass3_a (u : Fin 10000) (q : Fin 64) :
    pass3 x adj enc_W1 enc_b1 w2 b2 w3 b3 u (band 0 (by norm_num : 0 + 64 ≤ 192) q)
      = hS x adj enc_W1 enc_b1 enc_W2s enc_b2s ds_W1 ds_b1 u q :=
  layer_band adj (pass2 x adj enc_W1 enc_b1 w2 b2) w3 b3 (zS x adj enc_W1 enc_b1 enc_W2s enc_b2s) ds_W1 ds_b1
    0 (by norm_num : 0 + 64 ≤ 128) _ q (fun v p => pass2_left x adj enc_W1 enc_b1 B v p) (fun p => B.w3_a p q)
    (fun p hp => B.w3_a0 p q (by omega)) (B.b3_a q) u

/-- The third pass's columns 64 … 127 are the non-sensitive decoder's hidden layer. -/
theorem pass3_b (u : Fin 10000) (q : Fin 64) :
    pass3 x adj enc_W1 enc_b1 w2 b2 w3 b3 u (band 64 (by norm_num : 64 + 64 ≤ 192) q)
      = hNS x adj enc_W1 enc_b1 enc_W2ns enc_b2ns dns_W1 dns_b1 u q :=
  layer_band adj (pass2 x adj enc_W1 enc_b1 w2 b2) w3 b3 (zNS x adj enc_W1 enc_b1 enc_W2ns enc_b2ns) dns_W1 dns_b1
    64 (by norm_num : 64 + 64 ≤ 128) _ q (fun v p => pass2_right x adj enc_W1 enc_b1 B v p) (fun p => B.w3_b p q)
    (fun p hp => B.w3_b0 p q (by have := p.isLt; omega)) (B.b3_b q) u

/-- The third pass's columns 128 … 191 are the structure decoder's layer. -/
theorem pass3_c (u : Fin 10000) (q : Fin 64) :
    pass3 x adj enc_W1 enc_b1 w2 b2 w3 b3 u (band 128 (by norm_num : 128 + 64 ≤ 192) q)
      = hST x adj enc_W1 enc_b1 enc_W2ns enc_b2ns sd_W1 sd_b1 u q :=
  layer_band adj (pass2 x adj enc_W1 enc_b1 w2 b2) w3 b3 (zNS x adj enc_W1 enc_b1 enc_W2ns enc_b2ns) sd_W1 sd_b1
    64 (by norm_num : 64 + 64 ≤ 128) _ q (fun v p => pass2_right x adj enc_W1 enc_b1 B v p) (fun p => B.w3_c p q)
    (fun p hp => B.w3_c0 p q (by have := p.isLt; omega)) (B.b3_c q) u

/-- The fourth pass's first 128 columns are the features reconstructed from the sensitive code. -/
theorem pass4_left (u : Fin 10000) (q : Fin 128) :
    pass4 x adj enc_W1 enc_b1 w2 b2 w3 b3 w4 b4 u (band 0 (by norm_num : 0 + 128 ≤ 256) q)
      = xS x adj enc_W1 enc_b1 enc_W2s enc_b2s ds_W1 ds_b1 ds_W2 ds_b2 u q :=
  layer_band adj (pass3Head x adj enc_W1 enc_b1 w2 b2 w3 b3) w4 b4
    (hS x adj enc_W1 enc_b1 enc_W2s enc_b2s ds_W1 ds_b1) ds_W2 ds_b2
    0 (by norm_num : 0 + 64 ≤ 128) _ q
    (fun v p => (congrArg (pass3 x adj enc_W1 enc_b1 w2 b2 w3 b3 v)
      (band_band 0 0 (by norm_num : 0 + 64 ≤ 128) (by norm_num : 0 + 128 ≤ 192) (by norm_num : 0 + 0 + 64 ≤ 192) p)).trans
      (pass3_a x adj enc_W1 enc_b1 B v p))
    (fun p => B.w4_a p q) (fun p hp => B.w4_a0 p q (by omega)) (B.b4_a q) u

/-- The fourth pass's last 128 columns are the features reconstructed from the non-sensitive code. -/
theorem pass4_right (u : Fin 10000) (q : Fin 128) :
    pass4 x adj enc_W1 enc_b1 w2 b2 w3 b3 w4 b4 u (band 128 (by norm_num : 128 + 128 ≤ 256) q)
      = xNS x adj enc_W1 enc_b1 enc_W2ns enc_b2ns dns_W1 dns_b1 dns_W2 dns_b2 u q :=
  layer_band adj (pass3Head x adj enc_W1 enc_b1 w2 b2 w3 b3) w4 b4
    (hNS x adj enc_W1 enc_b1 enc_W2ns enc_b2ns dns_W1 dns_b1) dns_W2 dns_b2
    64 (by norm_num : 64 + 64 ≤ 128) _ q
    (fun v p => (congrArg (pass3 x adj enc_W1 enc_b1 w2 b2 w3 b3 v)
      (band_band 0 64 (by norm_num : 64 + 64 ≤ 128) (by norm_num : 0 + 128 ≤ 192) (by norm_num : 0 + 64 + 64 ≤ 192) p)).trans
      (pass3_b x adj enc_W1 enc_b1 B v p))
    (fun p => B.w4_b p q) (fun p hp => B.w4_b0 p q (by have := p.isLt; omega)) (B.b4_b q) u

/-- The Gram matrix of the third pass's last 64 columns is the reconstructed structure. -/
theorem gram_pass3Tail (i j : Fin 10000) :
    gram (pass3Tail x adj enc_W1 enc_b1 w2 b2 w3 b3) i j
      = struct x adj enc_W1 enc_b1 enc_W2ns enc_b2ns sd_W1 sd_b1 i j :=
  gram_congr _ (hST x adj enc_W1 enc_b1 enc_W2ns enc_b2ns sd_W1 sd_b1) id Function.bijective_id
    (fun v p => pass3_c x adj enc_W1 enc_b1 B v p) i j

end Passes

end Cert.Spec

end
-- ==== Proof.HostReads.lean ====
/-
  The host operations around the kernels, read one entry at a time.

  Before the first kernel the host builds the wide weights and biases by laying arrays side by side and one above
  the other, with zero blocks where a wide layer must ignore an input; after the kernels it cuts the wide results
  back into the separate outputs. A concatenation read at an entry is the piece whose span holds the coordinate,
  read at the coordinate less the extents before it; a slice read at an entry is the array at the coordinate plus
  the offset; a vector laid out as a row reads its entry. The coordinate lo + q of a band of columns or rows is
  written Spec.band lo _ q.
-/
import proofs.«168842_g31997506355971_cont_9to1_2144_8_alg».proof.Proof.Gen.KernelIdeal.Launch
import proofs.«168842_g31997506355971_cont_9to1_2144_8_alg».proof.Proof.Spec
import proofs.«168842_g31997506355971_cont_9to1_2144_8_alg».proof.Proof.Fused
import Idealize.ShloMosaic.PureOps.Ideal.Laws
import Idealize.ShloMosaic.Lib.ValueIdx
import Idealize.ShloMosaic.Lib.Pipeline.Value
import Idealize.ShloMosaic.Lib.StableHlo.Run

noncomputable section

open scoped BigOperators

namespace Cert.KernelIdeal.HostValue

open Cert.KernelIdeal Cert.KernelIdeal.Gen Idealize.ShloMosaic Idealize.ShloMosaic.TcCoe Idealize.ShloMosaic.StableHlo
  Idealize.ShloMosaic.ValueIdx Cert.Spec

variable {F : FTy → Type} [FloatOps F]

/-! ## Layout operations at an entry, for any extents -/

section Layout
variable {α : Type}

/-- Columns off, off + 1, … of a matrix: entry (r, q) of the piece is entry (r, off + q). -/
theorem cols_apply {n c c' off : ℕ} (hlo : off + c' ≤ c) (h : (⟨2, ![n, c]⟩ : Shape).Slices ![0, off] ⟨2, ![n, c']⟩)
    (v : (⟨2, ![n, c]⟩ : Shape).Idx → α) (r : Fin n) (q : Fin c') :
    extractStridedSlice ⟨2, ![n, c']⟩ ![0, off] v h (ix2 r q) = v (ix2 r (band off hlo q)) :=
  extractStridedSlice_apply ![0, off] v h (ix2 r q) (ix2 r (band off hlo q)) (fun a => match a with
    | ⟨0, _⟩ => (Nat.zero_add _).symm
    | ⟨1, _⟩ => rfl)

/-- Two matrices side by side, read in the first. -/
theorem cat2_cols_left {n c1 c2 c : ℕ} (hlo : 0 + c1 ≤ c)
    (h : Shape.Concatenates [(⟨2, ![n, c1]⟩ : Shape), ⟨2, ![n, c2]⟩] ⟨2, ![n, c]⟩ 1)
    (x1 : (⟨2, ![n, c1]⟩ : Shape).Idx → α) (x2 : (⟨2, ![n, c2]⟩ : Shape).Idx → α) (p : Fin n) (q : Fin c1) :
    concatenate ⟨2, ![n, c]⟩ 1 [⟨⟨2, ![n, c1]⟩, x1⟩, ⟨⟨2, ![n, c2]⟩, x2⟩] h (ix2 p (band 0 hlo q)) = x1 (ix2 p q) :=
  concatenate_pair_apply_left 1 x1 x2 h _ rfl (ix2 p q) (fun b => match b with
    | ⟨0, _⟩ => rfl
    | ⟨1, _⟩ => (Nat.zero_add _).symm)

/-- Two matrices side by side, read in the second. -/
theorem cat2_cols_right {n c1 c2 c : ℕ} (hlo : c1 + c2 ≤ c)
    (h : Shape.Concatenates [(⟨2, ![n, c1]⟩ : Shape), ⟨2, ![n, c2]⟩] ⟨2, ![n, c]⟩ 1)
    (x1 : (⟨2, ![n, c1]⟩ : Shape).Idx → α) (x2 : (⟨2, ![n, c2]⟩ : Shape).Idx → α) (p : Fin n) (q : Fin c2) :
    concatenate ⟨2, ![n, c]⟩ 1 [⟨⟨2, ![n, c1]⟩, x1⟩, ⟨⟨2, ![n, c2]⟩, x2⟩] h (ix2 p (band c1 hlo q)) = x2 (ix2 p q) :=
  concatenate_pair_apply_right 1 x1 x2 h _ rfl rfl (ix2 p q)
    (fun b hb => match b, hb with
      | ⟨0, _⟩, _ => rfl
      | ⟨1, _⟩, hb => absurd rfl hb)
    (Nat.add_comm _ _)

/-- One matrix above another, read in the upper. -/
theorem cat2_rows_top {r1 r2 r c : ℕ} (hlo : 0 + r1 ≤ r)
    (h : Shape.Concatenates [(⟨2, ![r1, c]⟩ : Shape), ⟨2, ![r2, c]⟩] ⟨2, ![r, c]⟩ 0)
    (x1 : (⟨2, ![r1, c]⟩ : Shape).Idx → α) (x2 : (⟨2, ![r2, c]⟩ : Shape).Idx → α) (p : Fin r1) (q : Fin c) :
    concatenate ⟨2, ![r, c]⟩ 0 [⟨⟨2, ![r1, c]⟩, x1⟩, ⟨⟨2, ![r2, c]⟩, x2⟩] h (ix2 (band 0 hlo p) q) = x1 (ix2 p q) :=
  concatenate_pair_apply_left 0 x1 x2 h _ rfl (ix2 p q) (fun b => match b with
    | ⟨0, _⟩ => (Nat.zero_add _).symm
    | ⟨1, _⟩ => rfl)

/-- One matrix above another, read in the lower. -/
theorem cat2_rows_bottom {r1 r2 r c : ℕ} (hlo : r1 + r2 ≤ r)
    (h : Shape.Concatenates [(⟨2, ![r1, c]⟩ : Shape), ⟨2, ![r2, c]⟩] ⟨2, ![r, c]⟩ 0)
    (x1 : (⟨2, ![r1, c]⟩ : Shape).Idx → α) (x2 : (⟨2, ![r2, c]⟩ : Shape).Idx → α) (p : Fin r2) (q : Fin c) :
    concatenate ⟨2, ![r, c]⟩ 0 [⟨⟨2, ![r1, c]⟩, x1⟩, ⟨⟨2, ![r2, c]⟩, x2⟩] h (ix2 (band r1 hlo p) q) = x2 (ix2 p q) :=
  concatenate_pair_apply_right 0 x1 x2 h _ rfl rfl (ix2 p q)
    (fun b hb => match b, hb with
      | ⟨0, _⟩, hb => absurd rfl hb
      | ⟨1, _⟩, _ => rfl)
    (Nat.add_comm _ _)

/-- Two vectors end to end, read in the first. -/
theorem cat2_vec_left {c1 c2 c : ℕ} (hlo : 0 + c1 ≤ c)
    (h : Shape.Concatenates [(⟨1, ![c1]⟩ : Shape), ⟨1, ![c2]⟩] ⟨1, ![c]⟩ 0)
    (x1 : (⟨1, ![c1]⟩ : Shape).Idx → α) (x2 : (⟨1, ![c2]⟩ : Shape).Idx → α) (q : Fin c1) :
    concatenate ⟨1, ![c]⟩ 0 [⟨⟨1, ![c1]⟩, x1⟩, ⟨⟨1, ![c2]⟩, x2⟩] h (ix1 (band 0 hlo q)) = x1 (ix1 q) :=
  concatenate_pair_apply_left 0 x1 x2 h _ rfl (ix1 q) (fun b => match b with
    | ⟨0, _⟩ => (Nat.zero_add _).symm)

/-- Two vectors end to end, read in the second. -/
theorem cat2_vec_right {c1 c2 c : ℕ} (hlo : c1 + c2 ≤ c)
    (h : Shape.Concatenates [(⟨1, ![c1]⟩ : Shape), ⟨1, ![c2]⟩] ⟨1, ![c]⟩ 0)
    (x1 : (⟨1, ![c1]⟩ : Shape).Idx → α) (x2 : (⟨1, ![c2]⟩ : Shape).Idx → α) (q : Fin c2) :
    concatenate ⟨1, ![c]⟩ 0 [⟨⟨1, ![c1]⟩, x1⟩, ⟨⟨1, ![c2]⟩, x2⟩] h (ix1 (band c1 hlo q)) = x2 (ix1 q) :=
  concatenate_pair_apply_right 0 x1 x2 h _ rfl rfl (ix1 q)
    (fun b hb => match b, hb with
      | ⟨0, _⟩, hb => absurd rfl hb)
    (Nat.add_comm _ _)

/-- Three matrices side by side, read in piece k, whose columns start at pre. -/
theorem cat3_cols {n c0 c1 c2 c : ℕ}
    (h : Shape.Concatenates [(⟨2, ![n, c0]⟩ : Shape), ⟨2, ![n, c1]⟩, ⟨2, ![n, c2]⟩] ⟨2, ![n, c]⟩ 1)
    (x0 : (⟨2, ![n, c0]⟩ : Shape).Idx → α) (x1 : (⟨2, ![n, c1]⟩ : Shape).Idx → α)
    (x2 : (⟨2, ![n, c2]⟩ : Shape).Idx → α) (p : Fin n) :
    (∀ (hlo : 0 + c0 ≤ c) (q : Fin c0),
      concatenate ⟨2, ![n, c]⟩ 1 [⟨⟨2, ![n, c0]⟩, x0⟩, ⟨⟨2, ![n, c1]⟩, x1⟩, ⟨⟨2, ![n, c2]⟩, x2⟩] h (ix2 p (band 0 hlo q))
        = x0 (ix2 p q))
    ∧ (∀ (hlo : c0 + c1 ≤ c) (q : Fin c1),
      concatenate ⟨2, ![n, c]⟩ 1 [⟨⟨2, ![n, c0]⟩, x0⟩, ⟨⟨2, ![n, c1]⟩, x1⟩, ⟨⟨2, ![n, c2]⟩, x2⟩] h (ix2 p (band c0 hlo q))
        = x1 (ix2 p q))
    ∧ (∀ (pre : ℕ) (hpre : pre = c0 + c1) (hlo : pre + c2 ≤ c) (q : Fin c2),
      concatenate ⟨2, ![n, c]⟩ 1 [⟨⟨2, ![n, c0]⟩, x0⟩, ⟨⟨2, ![n, c1]⟩, x1⟩, ⟨⟨2, ![n, c2]⟩, x2⟩] h (ix2 p (band pre hlo q))
        = x2 (ix2 p q)) := by
  refine ⟨fun hlo q => ?_, fun hlo q => ?_, fun pre hpre hlo q => ?_⟩
  · exact concatenate_apply_piece (t := ⟨2, ![n, c]⟩) 1 [⟨⟨2, ![n, c0]⟩, x0⟩, ⟨⟨2, ![n, c1]⟩, x1⟩, ⟨⟨2, ![n, c2]⟩, x2⟩] h (ix2 p (band 0 hlo q)) 0 (by show (0 : ℕ) < 3; decide) _ x0 rfl rfl 0 rfl (ix2 p q)
      (fun b hb => match b, hb with
        | ⟨0, _⟩, _ => rfl
        | ⟨1, _⟩, hb => absurd rfl hb) rfl
  · exact concatenate_apply_piece (t := ⟨2, ![n, c]⟩) 1 [⟨⟨2, ![n, c0]⟩, x0⟩, ⟨⟨2, ![n, c1]⟩, x1⟩, ⟨⟨2, ![n, c2]⟩, x2⟩] h (ix2 p (band c0 hlo q)) 1 (by show (1 : ℕ) < 3; decide) _ x1 rfl rfl c0 rfl (ix2 p q)
      (fun b hb => match b, hb with
        | ⟨0, _⟩, _ => rfl
        | ⟨1, _⟩, hb => absurd rfl hb) rfl
  · subst hpre
    exact concatenate_apply_piece (t := ⟨2, ![n, c]⟩) 1 [⟨⟨2, ![n, c0]⟩, x0⟩, ⟨⟨2, ![n, c1]⟩, x1⟩, ⟨⟨2, ![n, c2]⟩, x2⟩] h (ix2 p (band (c0 + c1) hlo q)) 2 (by show (2 : ℕ) < 3; decide) _ x2 rfl rfl (c0 + c1) rfl (ix2 p q)
      (fun b hb => match b, hb with
        | ⟨0, _⟩, _ => rfl
        | ⟨1, _⟩, hb => absurd rfl hb) rfl

/-- Three vectors end to end, read in each piece. -/
theorem cat3_vec {c0 c1 c2 c : ℕ}
    (h : Shape.Concatenates [(⟨1, ![c0]⟩ : Shape), ⟨1, ![c1]⟩, ⟨1, ![c2]⟩] ⟨1, ![c]⟩ 0)
    (x0 : (⟨1, ![c0]⟩ : Shape).Idx → α) (x1 : (⟨1, ![c1]⟩ : Shape).Idx → α) (x2 : (⟨1, ![c2]⟩ : Shape).Idx → α) :
    (∀ (hlo : 0 + c0 ≤ c) (q : Fin c0),
      concatenate ⟨1, ![c]⟩ 0 [⟨⟨1, ![c0]⟩, x0⟩, ⟨⟨1, ![c1]⟩, x1⟩, ⟨⟨1, ![c2]⟩, x2⟩] h (ix1 (band 0 hlo q)) = x0 (ix1 q))
    ∧ (∀ (hlo : c0 + c1 ≤ c) (q : Fin c1),
      concatenate ⟨1, ![c]⟩ 0 [⟨⟨1, ![c0]⟩, x0⟩, ⟨⟨1, ![c1]⟩, x1⟩, ⟨⟨1, ![c2]⟩, x2⟩] h (ix1 (band c0 hlo q)) = x1 (ix1 q))
    ∧ (∀ (pre : ℕ) (hpre : pre = c0 + c1) (hlo : pre + c2 ≤ c) (q : Fin c2),
      concatenate ⟨1, ![c]⟩ 0 [⟨⟨1, ![c0]⟩, x0⟩, ⟨⟨1, ![c1]⟩, x1⟩, ⟨⟨1, ![c2]⟩, x2⟩] h (ix1 (band pre hlo q)) = x2 (ix1 q)) := by
  refine ⟨fun hlo q => ?_, fun hlo q => ?_, fun pre hpre hlo q => ?_⟩
  · exact concatenate_apply_piece (t := ⟨1, ![c]⟩) 0 [⟨⟨1, ![c0]⟩, x0⟩, ⟨⟨1, ![c1]⟩, x1⟩, ⟨⟨1, ![c2]⟩, x2⟩] h (ix1 (band 0 hlo q)) 0 (by show (0 : ℕ) < 3; decide) _ x0 rfl rfl 0 rfl (ix1 q)
      (fun b hb => match b, hb with
        | ⟨0, _⟩, hb => absurd rfl hb) rfl
  · exact concatenate_apply_piece (t := ⟨1, ![c]⟩) 0 [⟨⟨1, ![c0]⟩, x0⟩, ⟨⟨1, ![c1]⟩, x1⟩, ⟨⟨1, ![c2]⟩, x2⟩] h (ix1 (band c0 hlo q)) 1 (by show (1 : ℕ) < 3; decide) _ x1 rfl rfl c0 rfl (ix1 q)
      (fun b hb => match b, hb with
        | ⟨0, _⟩, hb => absurd rfl hb) rfl
  · subst hpre
    exact concatenate_apply_piece (t := ⟨1, ![c]⟩) 0 [⟨⟨1, ![c0]⟩, x0⟩, ⟨⟨1, ![c1]⟩, x1⟩, ⟨⟨1, ![c2]⟩, x2⟩] h (ix1 (band (c0 + c1) hlo q)) 2 (by show (2 : ℕ) < 3; decide) _ x2 rfl rfl (c0 + c1) rfl (ix1 q)
      (fun b hb => match b, hb with
        | ⟨0, _⟩, hb => absurd rfl hb) rfl

/-- A vector laid out as a row: entry (0, q) is entry q. -/
theorem vec_row_apply {b : ℕ} (h : (⟨1, ![b]⟩ : Shape).BroadcastsInDim ⟨2, ![1, b]⟩ (![1] : Fin 1 → Fin 2))
    (v : (⟨1, ![b]⟩ : Shape).Idx → α) (z : Fin 1) (q : Fin b) :
    broadcastInDim ⟨2, ![1, b]⟩ ![1] h v (ix2 z q) = v (ix1 q) :=
  broadcastInDim_apply _ h v (ix2 z q) (ix1 q) (fun ax => match ax with
    | ⟨0, _⟩ => by
      show q.val = if b = 1 then 0 else q.val
      split
      · have := q.isLt; omega
      · rfl)

/-- A scalar repeated over a shape reads the scalar everywhere. -/
theorem splat_apply {t : Shape} (h : (⟨0, ![]⟩ : Shape).BroadcastsInDim t (![] : Fin 0 → Fin t.rank))
    (v : (⟨0, ![]⟩ : Shape).Idx → α) (j : t.Idx) :
    broadcastInDim t ![] h v j = v ix0 :=
  broadcastInDim_apply _ h v j ix0 (fun a => a.elim0)

end Layout

/-! ## After the kernels: the wide results cut into the outputs -/

theorem hostOps5_v21 (W : Valuation τ sig (Elt F)) (p : Fin 10000) (q : Fin 64) :
    (StableHlo.after (hostOps5 (F := F)) W main_v21 : S10000x64.Idx → F .f32) (ix2 p q)
      = (W main_v19_0 : S10000x192.Idx → F .f32) (ix2 p (band 128 (by norm_num : 128 + 64 ≤ 192) q)) := by
  have e : (StableHlo.after (hostOps5 (F := F)) W main_v21 : S10000x64.Idx → F .f32)
      = extractStridedSlice S10000x64 ![0, 128] (W main_v19_0 : S10000x192.Idx → F .f32) slices_S10000x192_S10000x64_0_128 := by
    after_results
  rw [e]
  exact cols_apply _ _ _ p q

theorem hostOps6_v23 (W : Valuation τ sig (Elt F)) (p : Fin 10000) (q : Fin 64) :
    (StableHlo.after (hostOps6 (F := F)) W main_v23 : S10000x64.Idx → F .f32) (ix2 p q)
      = (W main_v18_0 : S10000x128.Idx → F .f32) (ix2 p (band 0 (by norm_num : 0 + 64 ≤ 128) q)) := by
  have e : (StableHlo.after (hostOps6 (F := F)) W main_v23 : S10000x64.Idx → F .f32)
      = extractStridedSlice S10000x64 ![0, 0] (W main_v18_0 : S10000x128.Idx → F .f32) slices_S10000x128_S10000x64_0_0 := by
    after_results
  rw [e]
  exact cols_apply _ _ _ p q

theorem hostOps6_v24 (W : Valuation τ sig (Elt F)) (p : Fin 10000) (q : Fin 64) :
    (StableHlo.after (hostOps6 (F := F)) W main_v24 : S10000x64.Idx → F .f32) (ix2 p q)
      = (W main_v18_0 : S10000x128.Idx → F .f32) (ix2 p (band 64 (by norm_num : 64 + 64 ≤ 128) q)) := by
  have e : (StableHlo.after (hostOps6 (F := F)) W main_v24 : S10000x64.Idx → F .f32)
      = extractStridedSlice S10000x64 ![0, 64] (W main_v18_0 : S10000x128.Idx → F .f32) slices_S10000x128_S10000x64_0_64 := by
    after_results
  rw [e]
  exact cols_apply _ _ _ p q

theorem hostOps6_v25 (W : Valuation τ sig (Elt F)) (p : Fin 10000) (q : Fin 128) :
    (StableHlo.after (hostOps6 (F := F)) W main_v25 : S10000x128.Idx → F .f32) (ix2 p q)
      = (W main_v20 : S10000x256.Idx → F .f32) (ix2 p (band 0 (by norm_num : 0 + 128 ≤ 256) q)) := by
  have e : (StableHlo.after (hostOps6 (F := F)) W main_v25 : S10000x128.Idx → F .f32)
      = extractStridedSlice S10000x128 ![0, 0] (W main_v20 : S10000x256.Idx → F .f32) slices_S10000x256_S10000x128_0_0 := by
    after_results
  rw [e]
  exact cols_apply _ _ _ p q

theorem hostOps6_v26 (W : Valuation τ sig (Elt F)) (p : Fin 10000) (q : Fin 128) :
    (StableHlo.after (hostOps6 (F := F)) W main_v26 : S10000x128.Idx → F .f32) (ix2 p q)
      = (W main_v20 : S10000x256.Idx → F .f32) (ix2 p (band 128 (by norm_num : 128 + 128 ≤ 256) q)) := by
  have e : (StableHlo.after (hostOps6 (F := F)) W main_v26 : S10000x128.Idx → F .f32)
      = extractStridedSlice S10000x128 ![0, 128] (W main_v20 : S10000x256.Idx → F .f32) slices_S10000x256_S10000x128_0_128 := by
    after_results
  rw [e]
  exact cols_apply _ _ _ p q

/-! ## Before the kernels: the wide weights and biases

The eighteen host operations write a zero block of each of two sizes, then the side-by-side encoder weight and bias,
the block weight and bias of the third pass, the block weight and bias of the fourth pass, and the first bias as a row. -/

/-- A three-operand host operation's result, for a function given on the three operands' contents. -/
theorem nary3_of {Val : EltTy → Type} {x a b y : Ref sig .tc}
    (g : x.ty.Contents Val → a.ty.Contents Val → b.ty.Contents Val → y.ty.Contents Val) (hxs hy)
    (V : Valuation τ sig Val) :
    (StableHlo.nary (τ := τ) ![x, a, b] y (fun u => g (u 0) (u 1) (u 2)) hxs hy).result V (Proc.devRef .tc y)
      = g (V (Proc.devRef .tc x)) (V (Proc.devRef .tc a)) (V (Proc.devRef .tc b)) :=
  nary_result _ _ _ _ _ _

/-- Unfolds the host operations' fold at one reference: each operation's result at its own reference is its function's
    value, and at any other reference what was there. -/
macro "host_results" : tactic =>
  `(tactic| (simp only [after_cons, after_nil]
             repeat (first
               | rw [nullary_result] | rw [unary_result] | rw [binary_result]
               | (rw [nullary_result_ne]; rotate_left; decide)
               | (rw [unary_result_ne]; rotate_left; decide)
               | (rw [binary_result_ne]; rotate_left; decide)
               | (rw [nary_result_ne]; rotate_left; decide))))

section Wide
variable (W : Valuation τ sig (Elt F))

/-- [ W2s | W2ns ] -/
theorem v2_eq : (StableHlo.after (hostOps0 (F := F)) W main_v2 : S64x128.Idx → F .f32) = (concatenate S64x128 1 [⟨S64x64, (W main_arg4 : S64x64.Idx → F .f32)⟩, ⟨S64x64, (W main_arg6 : S64x64.Idx → F .f32)⟩] concatenates_S64x64_S64x64_S64x128_d1) := by
  host_results <;> rfl

/-- [ b2s | b2ns ] as a row -/
theorem v4_eq : (StableHlo.after (hostOps0 (F := F)) W main_v4 : S1x128.Idx → F .f32) = broadcastInDim S1x128 ![1] bcast_S128_S1x128_1 (concatenate S128 0 [⟨S64, (W main_arg5 : S64.Idx → F .f32)⟩, ⟨S64, (W main_arg7 : S64.Idx → F .f32)⟩] concatenates_S64_S64_S128_d0) := by
  host_results <;> rfl

/-- [[ ds_W1, 0, 0 ], [ 0, dns_W1, sd_W1 ]] -/
theorem v7_eq : (StableHlo.after (hostOps0 (F := F)) W main_v7 : S128x192.Idx → F .f32) = (concatenate S128x192 0 [⟨S64x192, (concatenate S64x192 1 [⟨S64x64, (W main_arg8 : S64x64.Idx → F .f32)⟩, ⟨S64x64, (broadcastInDim S64x64 ![] bcast_S_S64x64 (constant (F := F) S_ .f32 0x00000000#32))⟩, ⟨S64x64, (broadcastInDim S64x64 ![] bcast_S_S64x64 (constant (F := F) S_ .f32 0x00000000#32))⟩] concatenates_S64x64_S64x64_S64x64_S64x192_d1)⟩, ⟨S64x192, (concatenate S64x192 1 [⟨S64x64, (broadcastInDim S64x64 ![] bcast_S_S64x64 (constant (F := F) S_ .f32 0x00000000#32))⟩, ⟨S64x64, (W main_arg12 : S64x64.Idx → F .f32)⟩, ⟨S64x64, (W main_arg16 : S64x64.Idx → F .f32)⟩] concatenates_S64x64_S64x64_S64x64_S64x192_d1)⟩] concatenates_S64x192_S64x192_S128x192_d0) := by
  simp only [after_cons, after_nil]
  repeat (first
    | rw [nullary_result] | rw [unary_result] | rw [binary_result]
    | rw [nary3_of (Val := Elt F) (x := main_arg8) (a := main_v0) (b := main_v0) (y := main_v5) (g := fun a b c => concatenate S64x192 1 [⟨S64x64, a⟩, ⟨S64x64, b⟩, ⟨S64x64, c⟩] concatenates_S64x64_S64x64_S64x64_S64x192_d1)]
    | rw [nary3_of (Val := Elt F) (x := main_v0) (a := main_arg12) (b := main_arg16) (y := main_v6) (g := fun a b c => concatenate S64x192 1 [⟨S64x64, a⟩, ⟨S64x64, b⟩, ⟨S64x64, c⟩] concatenates_S64x64_S64x64_S64x64_S64x192_d1)]
    | (rw [nullary_result_ne]; rotate_left; decide)
    | (rw [unary_result_ne]; rotate_left; decide)
    | (rw [binary_result_ne]; rotate_left; decide)
    | (rw [nary_result_ne]; rotate_left; decide))

/-- [ ds_b1 | dns_b1 | sd_b1 ] as a row -/
theorem v9_eq : (StableHlo.after (hostOps0 (F := F)) W main_v9 : S1x192.Idx → F .f32) = broadcastInDim S1x192 ![1] bcast_S192_S1x192_1 (concatenate S192 0 [⟨S64, (W main_arg9 : S64.Idx → F .f32)⟩, ⟨S64, (W main_arg13 : S64.Idx → F .f32)⟩, ⟨S64, (W main_arg17 : S64.Idx → F .f32)⟩] concatenates_S64_S64_S64_S192_d0) := by
  simp only [after_cons, after_nil]
  repeat (first
    | rw [nullary_result] | rw [unary_result] | rw [binary_result]
    | rw [nary3_of (Val := Elt F) (x := main_arg9) (a := main_arg13) (b := main_arg17) (y := main_v8) (g := fun a b c => concatenate S192 0 [⟨S64, a⟩, ⟨S64, b⟩, ⟨S64, c⟩] concatenates_S64_S64_S64_S192_d0)]
    | (rw [nullary_result_ne]; rotate_left; decide)
    | (rw [unary_result_ne]; rotate_left; decide)
    | (rw [binary_result_ne]; rotate_left; decide)
    | (rw [nary_result_ne]; rotate_left; decide))

/-- [[ ds_W2, 0 ], [ 0, dns_W2 ]] -/
theorem v12_eq : (StableHlo.after (hostOps0 (F := F)) W main_v12 : S128x256.Idx → F .f32) = (concatenate S128x256 0 [⟨S64x256, (concatenate S64x256 1 [⟨S64x128, (W main_arg10 : S64x128.Idx → F .f32)⟩, ⟨S64x128, (broadcastInDim S64x128 ![] bcast_S_S64x128 (constant (F := F) S_ .f32 0x00000000#32))⟩] concatenates_S64x128_S64x128_S64x256_d1)⟩, ⟨S64x256, (concatenate S64x256 1 [⟨S64x128, (broadcastInDim S64x128 ![] bcast_S_S64x128 (constant (F := F) S_ .f32 0x00000000#32))⟩, ⟨S64x128, (W main_arg14 : S64x128.Idx → F .f32)⟩] concatenates_S64x128_S64x128_S64x256_d1)⟩] concatenates_S64x256_S64x256_S128x256_d0) := by
  host_results <;> rfl

/-- [ ds_b2 | dns_b2 ] as a row -/
theorem v14_eq : (StableHlo.after (hostOps0 (F := F)) W main_v14 : S1x256.Idx → F .f32) = broadcastInDim S1x256 ![1] bcast_S256_S1x256_1 (concatenate S256 0 [⟨S128, (W main_arg11 : S128.Idx → F .f32)⟩, ⟨S128, (W main_arg15 : S128.Idx → F .f32)⟩] concatenates_S128_S128_S256_d0) := by
  host_results <;> rfl

/-- The first bias as a row. -/
theorem v15_eq : (StableHlo.after (hostOps0 (F := F)) W main_v15 : S1x64.Idx → F .f32) = broadcastInDim S1x64 ![1] bcast_S64_S1x64_1 (W main_arg3 : S64.Idx → F .f32) := by
  host_results <;> rfl

/-- A zero block reads the zero word everywhere. -/
theorem zero64_apply (i : S64x64.Idx) : (broadcastInDim S64x64 ![] bcast_S_S64x64 (constant (F := F) S_ .f32 0x00000000#32)) i = FloatOps.ofBits (F := F) .f32 0x00000000#32 := splat_apply _ _ i
theorem zero128_apply (i : S64x128.Idx) : (broadcastInDim S64x128 ![] bcast_S_S64x128 (constant (F := F) S_ .f32 0x00000000#32)) i = FloatOps.ofBits (F := F) .f32 0x00000000#32 := splat_apply _ _ i

/-! ### The second pass's weight and bias -/

theorem w2_left (p q : Fin 64) : (StableHlo.after (hostOps0 (F := F)) W main_v2 : S64x128.Idx → F .f32) (ix2 p (band 0 (by norm_num : 0 + 64 ≤ 128) q)) = (W main_arg4 : S64x64.Idx → F .f32) (ix2 p q) := by
  rw [v2_eq]; exact cat2_cols_left _ _ _ _ p q
theorem w2_right (p q : Fin 64) : (StableHlo.after (hostOps0 (F := F)) W main_v2 : S64x128.Idx → F .f32) (ix2 p (band 64 (by norm_num : 64 + 64 ≤ 128) q)) = (W main_arg6 : S64x64.Idx → F .f32) (ix2 p q) := by
  rw [v2_eq]; exact cat2_cols_right _ _ _ _ p q
theorem b2_left (z : Fin 1) (q : Fin 64) : (StableHlo.after (hostOps0 (F := F)) W main_v4 : S1x128.Idx → F .f32) (ix2 z (band 0 (by norm_num : 0 + 64 ≤ 128) q)) = (W main_arg5 : S64.Idx → F .f32) (ix1 q) := by
  rw [v4_eq, vec_row_apply]; exact cat2_vec_left _ _ _ _ q
theorem b2_right (z : Fin 1) (q : Fin 64) : (StableHlo.after (hostOps0 (F := F)) W main_v4 : S1x128.Idx → F .f32) (ix2 z (band 64 (by norm_num : 64 + 64 ≤ 128) q)) = (W main_arg7 : S64.Idx → F .f32) (ix1 q) := by
  rw [v4_eq, vec_row_apply]; exact cat2_vec_right _ _ _ _ q

/-! ### The third pass's weight and bias: six blocks, three of them zero -/

theorem w3_tl (p q : Fin 64) : (StableHlo.after (hostOps0 (F := F)) W main_v7 : S128x192.Idx → F .f32) (ix2 (band 0 (by norm_num : 0 + 64 ≤ 128) p) (band 0 (by norm_num : 0 + 64 ≤ 192) q)) = (W main_arg8 : S64x64.Idx → F .f32) (ix2 p q) := by
  rw [v7_eq, cat2_rows_top]; exact (cat3_cols _ _ _ _ p).1 _ q
theorem w3_tm (p q : Fin 64) : (StableHlo.after (hostOps0 (F := F)) W main_v7 : S128x192.Idx → F .f32) (ix2 (band 0 (by norm_num : 0 + 64 ≤ 128) p) (band 64 (by norm_num : 64 + 64 ≤ 192) q)) = FloatOps.ofBits (F := F) .f32 0x00000000#32 := by
  rw [v7_eq, cat2_rows_top]; exact ((cat3_cols _ _ _ _ p).2.1 _ q).trans (zero64_apply _)
theorem w3_tr (p q : Fin 64) : (StableHlo.after (hostOps0 (F := F)) W main_v7 : S128x192.Idx → F .f32) (ix2 (band 0 (by norm_num : 0 + 64 ≤ 128) p) (band 128 (by norm_num : 128 + 64 ≤ 192) q)) = FloatOps.ofBits (F := F) .f32 0x00000000#32 := by
  rw [v7_eq, cat2_rows_top]; exact ((cat3_cols _ _ _ _ p).2.2 128 rfl _ q).trans (zero64_apply _)
theorem w3_bl (p q : Fin 64) : (StableHlo.after (hostOps0 (F := F)) W main_v7 : S128x192.Idx → F .f32) (ix2 (band 64 (by norm_num : 64 + 64 ≤ 128) p) (band 0 (by norm_num : 0 + 64 ≤ 192) q)) = FloatOps.ofBits (F := F) .f32 0x00000000#32 := by
  rw [v7_eq, cat2_rows_bottom]; exact ((cat3_cols _ _ _ _ p).1 _ q).trans (zero64_apply _)
theorem w3_bm (p q : Fin 64) : (StableHlo.after (hostOps0 (F := F)) W main_v7 : S128x192.Idx → F .f32) (ix2 (band 64 (by norm_num : 64 + 64 ≤ 128) p) (band 64 (by norm_num : 64 + 64 ≤ 192) q)) = (W main_arg12 : S64x64.Idx → F .f32) (ix2 p q) := by
  rw [v7_eq, cat2_rows_bottom]; exact (cat3_cols _ _ _ _ p).2.1 _ q
theorem w3_br (p q : Fin 64) : (StableHlo.after (hostOps0 (F := F)) W main_v7 : S128x192.Idx → F .f32) (ix2 (band 64 (by norm_num : 64 + 64 ≤ 128) p) (band 128 (by norm_num : 128 + 64 ≤ 192) q)) = (W main_arg16 : S64x64.Idx → F .f32) (ix2 p q) := by
  rw [v7_eq, cat2_rows_bottom]; exact (cat3_cols _ _ _ _ p).2.2 128 rfl _ q
theorem b3_a (z : Fin 1) (q : Fin 64) : (StableHlo.after (hostOps0 (F := F)) W main_v9 : S1x192.Idx → F .f32) (ix2 z (band 0 (by norm_num : 0 + 64 ≤ 192) q)) = (W main_arg9 : S64.Idx → F .f32) (ix1 q) := by
  rw [v9_eq, vec_row_apply]; exact (cat3_vec _ _ _ _).1 _ q
theorem b3_b (z : Fin 1) (q : Fin 64) : (StableHlo.after (hostOps0 (F := F)) W main_v9 : S1x192.Idx → F .f32) (ix2 z (band 64 (by norm_num : 64 + 64 ≤ 192) q)) = (W main_arg13 : S64.Idx → F .f32) (ix1 q) := by
  rw [v9_eq, vec_row_apply]; exact (cat3_vec _ _ _ _).2.1 _ q
theorem b3_c (z : Fin 1) (q : Fin 64) : (StableHlo.after (hostOps0 (F := F)) W main_v9 : S1x192.Idx → F .f32) (ix2 z (band 128 (by norm_num : 128 + 64 ≤ 192) q)) = (W main_arg17 : S64.Idx → F .f32) (ix1 q) := by
  rw [v9_eq, vec_row_apply]; exact (cat3_vec _ _ _ _).2.2 128 rfl _ q

/-! ### The fourth pass's weight and bias: four blocks, two of them zero -/

theorem w4_tl (p : Fin 64) (q : Fin 128) : (StableHlo.after (hostOps0 (F := F)) W main_v12 : S128x256.Idx → F .f32) (ix2 (band 0 (by norm_num : 0 + 64 ≤ 128) p) (band 0 (by norm_num : 0 + 128 ≤ 256) q)) = (W main_arg10 : S64x128.Idx → F .f32) (ix2 p q) := by
  rw [v12_eq, cat2_rows_top]; exact cat2_cols_left _ _ _ _ p q
theorem w4_tr (p : Fin 64) (q : Fin 128) : (StableHlo.after (hostOps0 (F := F)) W main_v12 : S128x256.Idx → F .f32) (ix2 (band 0 (by norm_num : 0 + 64 ≤ 128) p) (band 128 (by norm_num : 128 + 128 ≤ 256) q)) = FloatOps.ofBits (F := F) .f32 0x00000000#32 := by
  rw [v12_eq, cat2_rows_top]; exact (cat2_cols_right _ _ _ _ p q).trans (zero128_apply _)
theorem w4_bl (p : Fin 64) (q : Fin 128) : (StableHlo.after (hostOps0 (F := F)) W main_v12 : S128x256.Idx → F .f32) (ix2 (band 64 (by norm_num : 64 + 64 ≤ 128) p) (band 0 (by norm_num : 0 + 128 ≤ 256) q)) = FloatOps.ofBits (F := F) .f32 0x00000000#32 := by
  rw [v12_eq, cat2_rows_bottom]; exact (cat2_cols_left _ _ _ _ p q).trans (zero128_apply _)
theorem w4_br (p : Fin 64) (q : Fin 128) : (StableHlo.after (hostOps0 (F := F)) W main_v12 : S128x256.Idx → F .f32) (ix2 (band 64 (by norm_num : 64 + 64 ≤ 128) p) (band 128 (by norm_num : 128 + 128 ≤ 256) q)) = (W main_arg14 : S64x128.Idx → F .f32) (ix2 p q) := by
  rw [v12_eq, cat2_rows_bottom]; exact cat2_cols_right _ _ _ _ p q
theorem b4_a (z : Fin 1) (q : Fin 128) : (StableHlo.after (hostOps0 (F := F)) W main_v14 : S1x256.Idx → F .f32) (ix2 z (band 0 (by norm_num : 0 + 128 ≤ 256) q)) = (W main_arg11 : S128.Idx → F .f32) (ix1 q) := by
  rw [v14_eq, vec_row_apply]; exact cat2_vec_left _ _ _ _ q
theorem b4_b (z : Fin 1) (q : Fin 128) : (StableHlo.after (hostOps0 (F := F)) W main_v14 : S1x256.Idx → F .f32) (ix2 z (band 128 (by norm_num : 128 + 128 ≤ 256) q)) = (W main_arg15 : S128.Idx → F .f32) (ix1 q) := by
  rw [v14_eq, vec_row_apply]; exact cat2_vec_right _ _ _ _ q

/-- The first pass's bias row. -/
theorem b1_row (z : Fin 1) (q : Fin 64) : (StableHlo.after (hostOps0 (F := F)) W main_v15 : S1x64.Idx → F .f32) (ix2 z q) = (W main_arg3 : S64.Idx → F .f32) (ix1 q) := by
  rw [v15_eq, vec_row_apply]

end Wide

/-! ## The wide weights are the block weights of the specification -/

/-- A rank-2 array with one row, read as a vector. -/
abbrev _root_.Cert.Spec.row {b : ℕ} (X : (⟨2, ![1, b]⟩ : Shape).Idx → EReal) : Fin b → EReal :=
  fun q => X (ix2 (0 : Fin 1) q)

/-- A row at or past 64 of a 128-row array lies in the lower band. -/
theorem exists_band_hi (p : Fin 128) (hp : 64 ≤ p.val) :
    ∃ p' : Fin 64, p = band 64 (by norm_num : 64 + 64 ≤ 128) p' :=
  ⟨⟨p.val - 64, by have := p.isLt; omega⟩, Fin.ext (by simp only [band_val]; omega)⟩

/-- A row below 64 of a 128-row array lies in the upper band. -/
theorem exists_band_lo (p : Fin 128) (hp : p.val < 64) :
    ∃ p' : Fin 64, p = band 0 (by norm_num : 0 + 64 ≤ 128) p' :=
  ⟨⟨p.val, hp⟩, Fin.ext (by simp only [band_val]; omega)⟩

/-- On the extended reals, whatever the buffers hold when the host operations start, the arrays they write are the
    side-by-side and block-diagonal weights the four wide passes need: each block holds the named argument, and the
    remaining blocks hold the zero word, which is 0. -/
theorem blocks_of_hostOps0 (W : Valuation τ sig (Elt Ideal)) :
    Spec.Blocks
      (mat (W main_arg4 : S64x64.Idx → EReal)) (vec (W main_arg5 : S64.Idx → EReal)) (mat (W main_arg6 : S64x64.Idx → EReal)) (vec (W main_arg7 : S64.Idx → EReal))
      (mat (W main_arg8 : S64x64.Idx → EReal)) (vec (W main_arg9 : S64.Idx → EReal)) (mat (W main_arg10 : S64x128.Idx → EReal)) (vec (W main_arg11 : S128.Idx → EReal))
      (mat (W main_arg12 : S64x64.Idx → EReal)) (vec (W main_arg13 : S64.Idx → EReal)) (mat (W main_arg14 : S64x128.Idx → EReal)) (vec (W main_arg15 : S128.Idx → EReal))
      (mat (W main_arg16 : S64x64.Idx → EReal)) (vec (W main_arg17 : S64.Idx → EReal))
      (mat (StableHlo.after (hostOps0 (F := Ideal)) W main_v2 : S64x128.Idx → EReal)) (row (StableHlo.after (hostOps0 (F := Ideal)) W main_v4 : S1x128.Idx → EReal))
      (mat (StableHlo.after (hostOps0 (F := Ideal)) W main_v7 : S128x192.Idx → EReal)) (row (StableHlo.after (hostOps0 (F := Ideal)) W main_v9 : S1x192.Idx → EReal))
      (mat (StableHlo.after (hostOps0 (F := Ideal)) W main_v12 : S128x256.Idx → EReal)) (row (StableHlo.after (hostOps0 (F := Ideal)) W main_v14 : S1x256.Idx → EReal)) where
  w2_l := fun p q => w2_left W p q
  w2_r := fun p q => w2_right W p q
  b2_l := fun q => b2_left W 0 q
  b2_r := fun q => b2_right W 0 q
  w3_a := fun p q => w3_tl W p q
  w3_a0 := fun p q hp => by
    obtain ⟨p', rfl⟩ := exists_band_hi p hp
    exact (w3_bl W p' q).trans Ideal.ofBits_zero_f32
  w3_b := fun p q => w3_bm W p q
  w3_b0 := fun p q hp => by
    obtain ⟨p', rfl⟩ := exists_band_lo p hp
    exact (w3_tm W p' q).trans Ideal.ofBits_zero_f32
  w3_c := fun p q => w3_br W p q
  w3_c0 := fun p q hp => by
    obtain ⟨p', rfl⟩ := exists_band_lo p hp
    exact (w3_tr W p' q).trans Ideal.ofBits_zero_f32
  b3_a := fun q => b3_a W 0 q
  b3_b := fun q => b3_b W 0 q
  b3_c := fun q => b3_c W 0 q
  w4_a := fun p q => w4_tl W p q
  w4_a0 := fun p q hp => by
    obtain ⟨p', rfl⟩ := exists_band_hi p hp
    exact (w4_bl W p' q).trans Ideal.ofBits_zero_f32
  w4_b := fun p q => w4_br W p q
  w4_b0 := fun p q hp => by
    obtain ⟨p', rfl⟩ := exists_band_lo p hp
    exact (w4_tr W p' q).trans Ideal.ofBits_zero_f32
  b4_a := fun q => b4_a W 0 q
  b4_b := fun q => b4_b W 0 q

end Cert.KernelIdeal.HostValue

end
-- ==== Proof.KernelResults.lean ====
/-
  The kernel's five results, at the ideal instance, are the specification's.

  The wide weights the first host stretch builds put the narrow weights side by side or on a block diagonal with zero
  blocks; a product with a zero entry is zero on all extended reals, so each column block of a wide pass is the
  narrow layer on the matching input columns.  Pass by pass: x·W1; the hidden layer times [W2s | W2ns]; the 128-column
  code layer and its product with the block weight; the 192-column decoder layer (its first 128 columns feed pass 4,
  its last 64 the Gram matrix); the 256-column reconstruction.  The result slices pick the column blocks.
-/
import proofs.«168842_g31997506355971_cont_9to1_2144_8_alg».proof.Proof.KernelValue
import proofs.«168842_g31997506355971_cont_9to1_2144_8_alg».proof.Proof.HostReads
import proofs.«168842_g31997506355971_cont_9to1_2144_8_alg».proof.Proof.Fused

set_option maxRecDepth 16384

noncomputable section

open scoped BigOperators

namespace Cert.KernelIdeal.KValue

open Idealize.ShloMosaic Idealize.ShloMosaic.TcCoe Idealize.SL.Sem Idealize.ShloMosaic.ValueIdx
open Cert.KernelIdeal Cert.KernelIdeal.Gen Cert.KernelIdeal.Hand Cert.KernelIdeal.HostValue Cert.Spec

variable (m : (ℓ : Loc nD τ sig) → Buf (Elt Ideal) ℓ) (ρ : Dev nD → PrngReg) (c : Dev nD)

/-! ## The arguments, and the wide weights the first host stretch builds, as functions of coordinates -/

abbrev a0 := Cert.Spec.mat (B0 m ρ c main_arg0 : S10000x128.Idx → EReal)   -- x
abbrev a1 := Cert.Spec.mat (B0 m ρ c main_arg1 : S10000x10000.Idx → EReal)   -- adj
abbrev a2 := Cert.Spec.mat (B0 m ρ c main_arg2 : S128x64.Idx → EReal)   -- enc_W1
abbrev a3 := Cert.Spec.vec (B0 m ρ c main_arg3 : S64.Idx → EReal)   -- enc_b1
abbrev a4 := Cert.Spec.mat (B0 m ρ c main_arg4 : S64x64.Idx → EReal)   -- enc_W2s
abbrev a5 := Cert.Spec.vec (B0 m ρ c main_arg5 : S64.Idx → EReal)   -- enc_b2s
abbrev a6 := Cert.Spec.mat (B0 m ρ c main_arg6 : S64x64.Idx → EReal)   -- enc_W2ns
abbrev a7 := Cert.Spec.vec (B0 m ρ c main_arg7 : S64.Idx → EReal)   -- enc_b2ns
abbrev a8 := Cert.Spec.mat (B0 m ρ c main_arg8 : S64x64.Idx → EReal)   -- ds_W1
abbrev a9 := Cert.Spec.vec (B0 m ρ c main_arg9 : S64.Idx → EReal)   -- ds_b1
abbrev a10 := Cert.Spec.mat (B0 m ρ c main_arg10 : S64x128.Idx → EReal)   -- ds_W2
abbrev a11 := Cert.Spec.vec (B0 m ρ c main_arg11 : S128.Idx → EReal)   -- ds_b2
abbrev a12 := Cert.Spec.mat (B0 m ρ c main_arg12 : S64x64.Idx → EReal)   -- dns_W1
abbrev a13 := Cert.Spec.vec (B0 m ρ c main_arg13 : S64.Idx → EReal)   -- dns_b1
abbrev a14 := Cert.Spec.mat (B0 m ρ c main_arg14 : S64x128.Idx → EReal)   -- dns_W2
abbrev a15 := Cert.Spec.vec (B0 m ρ c main_arg15 : S128.Idx → EReal)   -- dns_b2
abbrev a16 := Cert.Spec.mat (B0 m ρ c main_arg16 : S64x64.Idx → EReal)   -- sd_W1
abbrev a17 := Cert.Spec.vec (B0 m ρ c main_arg17 : S64.Idx → EReal)   -- sd_b1

abbrev w2 := Cert.Spec.mat (B1 m ρ c main_v2 : S64x128.Idx → EReal)
abbrev b2 := Cert.Spec.row (B1 m ρ c main_v4 : S1x128.Idx → EReal)
abbrev w3 := Cert.Spec.mat (B1 m ρ c main_v7 : S128x192.Idx → EReal)
abbrev b3 := Cert.Spec.row (B1 m ρ c main_v9 : S1x192.Idx → EReal)
abbrev w4 := Cert.Spec.mat (B1 m ρ c main_v12 : S128x256.Idx → EReal)
abbrev b4 := Cert.Spec.row (B1 m ρ c main_v14 : S1x256.Idx → EReal)

/-- A pass's output windows only: what `B?_keep` asks of a buffer it carries across the pass. -/
local macro "not_out" : tactic =>
  `(tactic| (intro w hw; fin_cases w <;> first | exact absurd hw (by decide) | decide))

/-! ## Buffers carried unchanged to where they are read -/

theorem at1_arg (r : Ref sig .tc) (h : r ∉ hostOps0_W) : B1 m ρ c (Proc.devRef .tc r) = B0 m ρ c (Proc.devRef .tc r) :=
  StableHlo.after_of_writes_sub hostOps0 _ hostOps0_writes h
theorem at2_arg1 : B2 m ρ c (Proc.devRef .tc main_arg1) = B0 m ρ c (Proc.devRef .tc main_arg1) :=
  (B2_keep m ρ c main_arg1 (by not_out)).trans (at1_arg m ρ c main_arg1 (by decide))
theorem at2_of1 (r : Ref sig .tc) (h : r ≠ main_v16) : B2 m ρ c (Proc.devRef .tc r) = B1 m ρ c (Proc.devRef .tc r) :=
  B2_keep m ρ c r (by intro w hw; fin_cases w <;> first | exact absurd hw (by decide) | exact Ne.symm h)
theorem at3_of2 (r : Ref sig .tc) (h0 : r ≠ main_v17_0) (h1 : r ≠ main_v17_1) : B3 m ρ c (Proc.devRef .tc r) = B2 m ρ c (Proc.devRef .tc r) :=
  B3_keep m ρ c r (by intro w hw; fin_cases w <;> first | exact absurd hw (by decide) | exact Ne.symm h0 | exact Ne.symm h1)
theorem at4_of3 (r : Ref sig .tc) (h0 : r ≠ main_v18_0) (h1 : r ≠ main_v18_1) : B4 m ρ c (Proc.devRef .tc r) = B3 m ρ c (Proc.devRef .tc r) :=
  B4_keep m ρ c r (by intro w hw; fin_cases w <;> first | exact absurd hw (by decide) | exact Ne.symm h0 | exact Ne.symm h1)
theorem at5_of4 (r : Ref sig .tc) (h0 : r ≠ main_v19_0) (h1 : r ≠ main_v19_1) : B5 m ρ c (Proc.devRef .tc r) = B4 m ρ c (Proc.devRef .tc r) :=
  B5_keep m ρ c r (by intro w hw; fin_cases w <;> first | exact absurd hw (by decide) | exact Ne.symm h0 | exact Ne.symm h1)
theorem at6_of5 (r : Ref sig .tc) (h : r ≠ main_v20) : B6 m ρ c (Proc.devRef .tc r) = B5 m ρ c (Proc.devRef .tc r) :=
  B6_keep m ρ c r (by intro w hw; fin_cases w <;> first | exact absurd hw (by decide) | exact Ne.symm h)
theorem at7_of6 (r : Ref sig .tc) (h : r ∉ hostOps5_W) : B7 m ρ c (Proc.devRef .tc r) = B6 m ρ c (Proc.devRef .tc r) :=
  StableHlo.after_of_writes_sub hostOps5 _ hostOps5_writes h
theorem at9_of8 (r : Ref sig .tc) (h : r ∉ hostOps6_W) : B9 m ρ c (Proc.devRef .tc r) = B8 m ρ c (Proc.devRef .tc r) :=
  StableHlo.after_of_writes_sub hostOps6 _ hostOps6_writes h

/-- The first host stretch's arrays are the block weights of the specification. -/
theorem blocks : Blocks (a4 m ρ c) (a5 m ρ c) (a6 m ρ c) (a7 m ρ c) (a8 m ρ c) (a9 m ρ c) (a10 m ρ c) (a11 m ρ c) (a12 m ρ c) (a13 m ρ c) (a14 m ρ c) (a15 m ρ c) (a16 m ρ c) (a17 m ρ c)
    (w2 m ρ c) (b2 m ρ c) (w3 m ρ c) (b3 m ρ c) (w4 m ρ c) (b4 m ρ c) :=
  blocks_of_hostOps0 (B0 m ρ c)

/-! ## Pass by pass -/

theorem v16_at (p : Fin 10000) (q : Fin 64) :
    (B2 m ρ c main_v16 : S10000x64.Idx → EReal) (ix2 p q) = mm (a0 m ρ c) (a2 m ρ c) p q :=
  stage0 m ρ c _ _ (fun p u => congrFun (at1_arg m ρ c main_arg0 (by decide)) (ix2 p u))
    (fun k q => congrFun (at1_arg m ρ c main_arg2 (by decide)) (ix2 k q)) p q

theorem adj_at (p u : Fin 10000) :
    (B3 m ρ c main_v17_0 : S10000x10000.Idx → EReal) (ix2 p u) = (a1 m ρ c) p u :=
  stage1_copy m ρ c _ (fun p u => congrFun (at2_arg1 m ρ c) (ix2 p u)) p u

theorem v17_1_at (p : Fin 10000) (q : Fin 128) :
    (B3 m ρ c main_v17_1 : S10000x128.Idx → EReal) (ix2 p q) = mm (pass1 (a0 m ρ c) (a1 m ρ c) (a2 m ρ c) (a3 m ρ c)) (w2 m ρ c) p q :=
  stage1 m ρ c _ _ _ _ (fun p u => congrFun (at2_arg1 m ρ c) (ix2 p u)) (fun u k => v16_at m ρ c u k)
    (fun k => (congrFun (at2_of1 m ρ c main_v15 (by decide)) (ix2 (0 : Fin 1) k)).trans (b1_row (B0 m ρ c) 0 k))
    (fun k q => congrFun (at2_of1 m ρ c main_v2 (by decide)) (ix2 k q)) p q

theorem v18_0_at (p : Fin 10000) (q : Fin 128) :
    (B4 m ρ c main_v18_0 : S10000x128.Idx → EReal) (ix2 p q) = (pass2 (a0 m ρ c) (a1 m ρ c) (a2 m ρ c) (a3 m ρ c) (w2 m ρ c) (b2 m ρ c)) p q :=
  stage2_h m ρ c _ _ _ (fun p u => adj_at m ρ c p u) (fun u k => v17_1_at m ρ c u k)
    (fun k => congrFun ((at3_of2 m ρ c main_v4 (by decide) (by decide)).trans (at2_of1 m ρ c main_v4 (by decide))) (ix2 (0 : Fin 1) k)) p q

theorem v18_1_at (p : Fin 10000) (q : Fin 192) :
    (B4 m ρ c main_v18_1 : S10000x192.Idx → EReal) (ix2 p q) = mm (pass2 (a0 m ρ c) (a1 m ρ c) (a2 m ρ c) (a3 m ρ c) (w2 m ρ c) (b2 m ρ c)) (w3 m ρ c) p q :=
  stage2_s m ρ c _ _ _ _ (fun p u => adj_at m ρ c p u) (fun u k => v17_1_at m ρ c u k)
    (fun k => congrFun ((at3_of2 m ρ c main_v4 (by decide) (by decide)).trans (at2_of1 m ρ c main_v4 (by decide))) (ix2 (0 : Fin 1) k))
    (fun k q => congrFun ((at3_of2 m ρ c main_v7 (by decide) (by decide)).trans (at2_of1 m ρ c main_v7 (by decide))) (ix2 k q)) p q

theorem adj_at4 (p u : Fin 10000) :
    (B4 m ρ c main_v17_0 : S10000x10000.Idx → EReal) (ix2 p u) = (a1 m ρ c) p u :=
  (congrFun (at4_of3 m ρ c main_v17_0 (by decide) (by decide)) (ix2 p u)).trans (adj_at m ρ c p u)

theorem v19_0_at (p : Fin 10000) (q : Fin 192) :
    (B5 m ρ c main_v19_0 : S10000x192.Idx → EReal) (ix2 p q) = (pass3 (a0 m ρ c) (a1 m ρ c) (a2 m ρ c) (a3 m ρ c) (w2 m ρ c) (b2 m ρ c) (w3 m ρ c) (b3 m ρ c)) p q :=
  stage3_h m ρ c _ _ _ (fun p u => adj_at4 m ρ c p u) (fun u k => v18_1_at m ρ c u k)
    (fun k => congrFun ((at4_of3 m ρ c main_v9 (by decide) (by decide)).trans ((at3_of2 m ρ c main_v9 (by decide) (by decide)).trans (at2_of1 m ρ c main_v9 (by decide)))) (ix2 (0 : Fin 1) k)) p q

theorem v19_1_at (p : Fin 10000) (q : Fin 256) :
    (B5 m ρ c main_v19_1 : S10000x256.Idx → EReal) (ix2 p q) = mm (pass3Head (a0 m ρ c) (a1 m ρ c) (a2 m ρ c) (a3 m ρ c) (w2 m ρ c) (b2 m ρ c) (w3 m ρ c) (b3 m ρ c)) (w4 m ρ c) p q := by
  have key : (∑ k : Fin 128, (pass3 (a0 m ρ c) (a1 m ρ c) (a2 m ρ c) (a3 m ρ c) (w2 m ρ c) (b2 m ρ c) (w3 m ρ c) (b3 m ρ c)) p (Fin.castLE (by norm_num : 128 ≤ 192) k) * w4 m ρ c k q : EReal)
      = mm (pass3Head (a0 m ρ c) (a1 m ρ c) (a2 m ρ c) (a3 m ρ c) (w2 m ρ c) (b2 m ρ c) (w3 m ρ c) (b3 m ρ c)) (w4 m ρ c) p q := by
    unfold mm pass3Head
    exact Finset.sum_congr rfl fun k _ => congrArg (fun t => t * w4 m ρ c k q)
      (congrArg ((pass3 (a0 m ρ c) (a1 m ρ c) (a2 m ρ c) (a3 m ρ c) (w2 m ρ c) (b2 m ρ c) (w3 m ρ c) (b3 m ρ c)) p) (Fin.ext (Nat.zero_add _).symm))
  exact (stage3_s m ρ c _ _ _ _ (fun p u => adj_at4 m ρ c p u) (fun u k => v18_1_at m ρ c u k)
    (fun k => congrFun ((at4_of3 m ρ c main_v9 (by decide) (by decide)).trans ((at3_of2 m ρ c main_v9 (by decide) (by decide)).trans (at2_of1 m ρ c main_v9 (by decide)))) (ix2 (0 : Fin 1) k))
    (fun k q => congrFun ((at4_of3 m ρ c main_v12 (by decide) (by decide)).trans ((at3_of2 m ρ c main_v12 (by decide) (by decide)).trans (at2_of1 m ρ c main_v12 (by decide)))) (ix2 k q)) p q).trans key

theorem adj_at5 (p u : Fin 10000) :
    (B5 m ρ c main_v17_0 : S10000x10000.Idx → EReal) (ix2 p u) = (a1 m ρ c) p u :=
  (congrFun (at5_of4 m ρ c main_v17_0 (by decide) (by decide)) (ix2 p u)).trans (adj_at4 m ρ c p u)

theorem v20_at (p : Fin 10000) (q : Fin 256) :
    (B6 m ρ c main_v20 : S10000x256.Idx → EReal) (ix2 p q) = (pass4 (a0 m ρ c) (a1 m ρ c) (a2 m ρ c) (a3 m ρ c) (w2 m ρ c) (b2 m ρ c) (w3 m ρ c) (b3 m ρ c) (w4 m ρ c) (b4 m ρ c)) p q :=
  stage4 m ρ c _ _ _ (fun p u => adj_at5 m ρ c p u) (fun u k => v19_1_at m ρ c u k)
    (fun k => congrFun ((at5_of4 m ρ c main_v14 (by decide) (by decide)).trans ((at4_of3 m ρ c main_v14 (by decide) (by decide)).trans
      ((at3_of2 m ρ c main_v14 (by decide) (by decide)).trans (at2_of1 m ρ c main_v14 (by decide))))) (ix2 (0 : Fin 1) k)) p q

theorem v21_at (p : Fin 10000) (q : Fin 64) :
    (B7 m ρ c main_v21 : S10000x64.Idx → EReal) (ix2 p q) = (pass3Tail (a0 m ρ c) (a1 m ρ c) (a2 m ρ c) (a3 m ρ c) (w2 m ρ c) (b2 m ρ c) (w3 m ρ c) (b3 m ρ c)) p q :=
  (hostOps5_v21 (B6 m ρ c) p q).trans
    ((congrFun (at6_of5 m ρ c main_v19_0 (by decide)) (ix2 p _)).trans (v19_0_at m ρ c p _))

theorem v22_at (p j : Fin 10000) :
    (B8 m ρ c main_v22 : S10000x10000.Idx → EReal) (ix2 p j) = gram (pass3Tail (a0 m ρ c) (a1 m ρ c) (a2 m ρ c) (a3 m ρ c) (w2 m ρ c) (b2 m ρ c) (w3 m ρ c) (b3 m ρ c)) p j :=
  stage5 m ρ c _ (fun p u => v21_at m ρ c p u) p j

/-! ## The five results -/

theorem carry_v18_0 : B8 m ρ c (Proc.devRef .tc main_v18_0) = B4 m ρ c (Proc.devRef .tc main_v18_0) :=
  (B8_off m ρ c main_v18_0 (by decide)).trans ((at7_of6 m ρ c main_v18_0 (by decide)).trans
    ((at6_of5 m ρ c main_v18_0 (by decide)).trans (at5_of4 m ρ c main_v18_0 (by decide) (by decide))))
theorem carry_v20 : B8 m ρ c (Proc.devRef .tc main_v20) = B6 m ρ c (Proc.devRef .tc main_v20) :=
  (B8_off m ρ c main_v20 (by decide)).trans (at7_of6 m ρ c main_v20 (by decide))

/-- The structure reconstruction. -/
theorem res_struct : (B9 m ρ c main_v22 : S10000x10000.Idx → EReal)
    = unmat (struct (a0 m ρ c) (a1 m ρ c) (a2 m ρ c) (a3 m ρ c) (a6 m ρ c) (a7 m ρ c) (a16 m ρ c) (a17 m ρ c)) :=
  eq_unmat _ _ fun p j => (congrFun (at9_of8 m ρ c main_v22 (by decide)) (ix2 p j)).trans
    ((v22_at m ρ c p j).trans (gram_pass3Tail _ _ _ _ (blocks m ρ c) p j))

/-- The sensitive branch's reconstruction. -/
theorem res_xS : (B9 m ρ c main_v25 : S10000x128.Idx → EReal)
    = unmat (xS (a0 m ρ c) (a1 m ρ c) (a2 m ρ c) (a3 m ρ c) (a4 m ρ c) (a5 m ρ c) (a8 m ρ c) (a9 m ρ c) (a10 m ρ c) (a11 m ρ c)) :=
  eq_unmat _ _ fun p q => (hostOps6_v25 (B8 m ρ c) p q).trans
    ((congrFun (carry_v20 m ρ c) (ix2 p _)).trans ((v20_at m ρ c p _).trans (pass4_left _ _ _ _ (blocks m ρ c) p q)))

/-- The non-sensitive branch's reconstruction. -/
theorem res_xNS : (B9 m ρ c main_v26 : S10000x128.Idx → EReal)
    = unmat (xNS (a0 m ρ c) (a1 m ρ c) (a2 m ρ c) (a3 m ρ c) (a6 m ρ c) (a7 m ρ c) (a12 m ρ c) (a13 m ρ c) (a14 m ρ c) (a15 m ρ c)) :=
  eq_unmat _ _ fun p q => (hostOps6_v26 (B8 m ρ c) p q).trans
    ((congrFun (carry_v20 m ρ c) (ix2 p _)).trans ((v20_at m ρ c p _).trans (pass4_right _ _ _ _ (blocks m ρ c) p q)))

/-- The sensitive code. -/
theorem res_zS : (B9 m ρ c main_v23 : S10000x64.Idx → EReal)
    = unmat (zS (a0 m ρ c) (a1 m ρ c) (a2 m ρ c) (a3 m ρ c) (a4 m ρ c) (a5 m ρ c)) :=
  eq_unmat _ _ fun p q => (hostOps6_v23 (B8 m ρ c) p q).trans
    ((congrFun (carry_v18_0 m ρ c) (ix2 p _)).trans ((v18_0_at m ρ c p _).trans (pass2_left _ _ _ _ (blocks m ρ c) p q)))

/-- The non-sensitive code. -/
theorem res_zNS : (B9 m ρ c main_v24 : S10000x64.Idx → EReal)
    = unmat (zNS (a0 m ρ c) (a1 m ρ c) (a2 m ρ c) (a3 m ρ c) (a6 m ρ c) (a7 m ρ c)) :=
  eq_unmat _ _ fun p q => (hostOps6_v24 (B8 m ρ c) p q).trans
    ((congrFun (carry_v18_0 m ρ c) (ix2 p _)).trans ((v18_0_at m ρ c p _).trans (pass2_right _ _ _ _ (blocks m ρ c) p q)))

end Cert.KernelIdeal.KValue

end
-- ==== Proof.RefIsSpec.lean ====
/-
  The reference program's five results are the autoencoder of the specification.

  The reference computes each graph-convolution layer in six steps: the product h · W, the product adj · (h · W),
  the bias laid out as a row and repeated down the rows, their sum, and the maximum with a zero array. Read at
  row p and column q, the two products are sums over the contracted coordinate, the repeated bias is its entry q,
  and the zero array is 0: together the layer relu(adj · (h · W) + b) at (p, q). Each layer is read given the
  same fact for the layer that feeds it, so the eight layers are read one at a time. The structure output is the
  product of the last layer with its own transpose: entry (p, q) is the inner product of rows p and q.
-/
import proofs.«168842_g31997506355971_cont_9to1_2144_8_alg».proof.Proof.Gen.ReferenceIdeal.Read
import proofs.«168842_g31997506355971_cont_9to1_2144_8_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The encoder's hidden layer, read at row p and column q: the reference computes h · W, then adj · (h · W), adds the bias row and
    clamps at zero, which is the layer of the specification over the arrays read as matrices. -/
theorem hEnc_read (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal))
    (p : Fin 10000) (q : Fin 64) :
    val_main_v5 (F := Ideal) x0 x1 x2 x3 (ix2 p q) = Spec.hEnc (Spec.mat x0) (Spec.mat x1) (Spec.mat x2) (Spec.vec x3) p q := by
  have lB : ∀ u : Fin 10000, lidx_main_v1 (ix2 p q) u = ix2 p u := fun u => funext fun a => by
    match a with | ⟨0, _⟩ => rfl | ⟨1, _⟩ => rfl
  have rB : ∀ u : Fin 10000, ridx_main_v1 (ix2 p q) u = ix2 u q := fun u => funext fun a => by
    match a with | ⟨0, _⟩ => rfl | ⟨1, _⟩ => rfl
  have lA : ∀ (u : Fin 10000) (k : Fin 128), lidx_main_v0 (ix2 u q) k = ix2 u k := fun u k => funext fun a => by
    match a with | ⟨0, _⟩ => rfl | ⟨1, _⟩ => rfl
  have rA : ∀ (u : Fin 10000) (k : Fin 128), ridx_main_v0 (ix2 u q) k = ix2 k q := fun u k => funext fun a => by
    match a with | ⟨0, _⟩ => rfl | ⟨1, _⟩ => rfl
  have bI : idx_main_v2 (idx_main_v3 (ix2 p q)) = ix1 q := funext fun a => by
    match a with | ⟨0, _⟩ => rfl
  have inner : ∀ u : Fin 10000,
      x1 (lidx_main_v1 (ix2 p q) u) * val_main_v0 (F := Ideal) x0 x2 (ridx_main_v1 (ix2 p q) u)
        = Spec.mat x1 p u * ∑ k : Fin 128, (Spec.mat x0) u k * Spec.mat x2 k q := by
    intro u
    rw [lB u, rB u, val_main_v0_apply]
    refine congrArg (fun t => x1 (ix2 p u) * t) (Finset.sum_congr rfl fun k _ => ?_)
    rw [lA u k, rA u k]
  rw [val_main_v5_apply, val_main_v4_apply, val_main_v1_apply, val_main_v3_apply, val_main_v2_apply,
    val_main_call0_v0_apply, val_main_call0_cst_apply, Finset.sum_congr rfl fun u _ => inner u, bI]
  simp only [Ideal.maximumf_def, Ideal.addf_def, Ideal.ofBits_def, Ideal.ofBits_zero_f32]
  rfl

/-- The sensitive code, read at row p and column q: the reference computes h · W, then adj · (h · W), adds the bias row and
    clamps at zero, which is the layer of the specification over the arrays read as matrices. -/
theorem zS_read (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal))
    (p : Fin 10000) (q : Fin 64) :
    val_main_v11 (F := Ideal) x0 x1 x2 x3 x4 x5 (ix2 p q) = Spec.zS (Spec.mat x0) (Spec.mat x1) (Spec.mat x2) (Spec.vec x3) (Spec.mat x4) (Spec.vec x5) p q := by
  have lB : ∀ u : Fin 10000, lidx_main_v7 (ix2 p q) u = ix2 p u := fun u => funext fun a => by
    match a with | ⟨0, _⟩ => rfl | ⟨1, _⟩ => rfl
  have rB : ∀ u : Fin 10000, ridx_main_v7 (ix2 p q) u = ix2 u q := fun u => funext fun a => by
    match a with | ⟨0, _⟩ => rfl | ⟨1, _⟩ => rfl
  have lA : ∀ (u : Fin 10000) (k : Fin 64), lidx_main_v6 (ix2 u q) k = ix2 u k := fun u k => funext fun a => by
    match a with | ⟨0, _⟩ => rfl | ⟨1, _⟩ => rfl
  have rA : ∀ (u : Fin 10000) (k : Fin 64), ridx_main_v6 (ix2 u q) k = ix2 k q := fun u k => funext fun a => by
    match a with | ⟨0, _⟩ => rfl | ⟨1, _⟩ => rfl
  have bI : idx_main_v8 (idx_main_v9 (ix2 p q)) = ix1 q := funext fun a => by
    match a with | ⟨0, _⟩ => rfl
  have inner : ∀ u : Fin 10000,
      x1 (lidx_main_v7 (ix2 p q) u) * val_main_v6 (F := Ideal) x0 x1 x2 x3 x4 (ridx_main_v7 (ix2 p q) u)
        = Spec.mat x1 p u * ∑ k : Fin 64, (Spec.hEnc (Spec.mat x0) (Spec.mat x1) (Spec.mat x2) (Spec.vec x3)) u k * Spec.mat x4 k q := by
    intro u
    rw [lB u, rB u, val_main_v6_apply]
    refine congrArg (fun t => x1 (ix2 p u) * t) (Finset.sum_congr rfl fun k _ => ?_)
    rw [lA u k, rA u k, hEnc_read]
  rw [val_main_v11_apply, val_main_v10_apply, val_main_v7_apply, val_main_v9_apply, val_main_v8_apply,
    val_main_call1_v0_apply, val_main_call1_cst_apply, Finset.sum_congr rfl fun u _ => inner u, bI]
  simp only [Ideal.maximumf_def, Ideal.addf_def, Ideal.ofBits_def, Ideal.ofBits_zero_f32]
  rfl

/-- The non-sensitive code, read at row p and column q: the reference computes h · W, then adj · (h · W), adds the bias row and
    clamps at zero, which is the layer of the specification over the arrays read as matrices. -/
theorem zNS_read (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) (x6 : (⟨S64x64, .f32⟩ : BufTy).Contents (Elt Ideal)) (x7 : (⟨S64, .f32⟩ : BufTy).Contents (Elt Ideal))
    (p : Fin 10000) (q : Fin 64) :
    val_main_v17 (F := Ideal) x0 x1 x2 x3 x6 x7 (ix2 p q) = Spec.zNS (Spec.mat x0) (Spec.mat x1) (Spec.mat x2) (Spec.vec x3) (Spec.mat x6) (Spec.vec x7) p q := by
  have lB : ∀ u : Fin 10000, lidx_main_v13 (ix2 p q) u = ix2 p u := fun u => funext fun a => by
    match a with | ⟨0, _⟩ => rfl | ⟨1, _⟩ => rfl
  have rB : ∀ u : Fin 10000, ridx_main_v13 (ix2 p q) u = ix2 u q := fun u => funext fun a => by
    match a with | ⟨0, _⟩ => rfl | ⟨1, _⟩ => rfl
  have lA : ∀ (u : Fin 10000) (k : Fin 64), lidx_main_v12 (ix2 u q) k = ix2 u k := fun u k => funext fun a => by
    match a with | ⟨0, _⟩ => rfl | ⟨1, _⟩ => rfl
  have rA : ∀ (u : Fin 10000) (k : Fin 64), ridx_main_v12 (ix2 u q) k = ix2 k q := fun u k => funext fun a => by
    match a with | ⟨0, _⟩ => rfl | ⟨1, _⟩ => rfl
  have bI : idx_main_v14 (idx_main_v15 (ix2 p q)) = ix1 q := funext fun a => by
    match a with | ⟨0, _⟩ => rfl
  have inner : ∀ u : Fin 10000,
      x1 (lidx_main_v13 (ix2 p q) u) * val_main_v12 (F := Ideal) x0 x1 x2 x3 x6 (ridx_main_v13 (ix2 p q) u)
        = Spec.mat x1 p u * ∑ k : Fin 64, (Spec.hEnc (Spec.mat x0) (Spec.mat x1) (Spec.mat x2) (Spec.vec x3)) u k * Spec.mat x6 k q := by
    intro u
    rw [lB u, rB u, val_main_v12_apply]
    refine congrArg (fun t => x1 (ix2 p u) * t) (Finset.sum_congr rfl fun k _ => ?_)
    rw [lA u k, rA u k, hEnc_read]
  rw [val_main_v17_apply, val_main_v16_apply, val_main_v13_apply, val_main_v15_apply, val_main_v14_apply,
    val_main_call2_v0_apply, val_main_call2_cst_apply, Finset.sum_congr rfl fun u _ => inner u, bI]
  simp only [Ideal.maximumf_def, Ideal.addf_def, Ideal.ofBits_def, Ideal.ofBits_zero_f32]
  rfl

/-- The sensitive decoder's hidden layer, read at row p and column q: the reference computes h · W, then adj · (h · W), adds the bias row and
    clamps at zero, which is the layer of the specification over the arrays read as matrices. -/
theorem hS_read (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x8 : (⟨S64x64, .f32⟩ : BufTy).Contents (Elt Ideal)) (x9 : (⟨S64, .f32⟩ : BufTy).Contents (Elt Ideal))
    (p : Fin 10000) (q : Fin 64) :
    val_main_v23 (F := Ideal) x0 x1 x2 x3 x4 x5 x8 x9 (ix2 p q) = Spec.hS (Spec.mat x0) (Spec.mat x1) (Spec.mat x2) (Spec.vec x3) (Spec.mat x4) (Spec.vec x5) (Spec.mat x8) (Spec.vec x9) p q := by
  have lB : ∀ u : Fin 10000, lidx_main_v19 (ix2 p q) u = ix2 p u := fun u => funext fun a => by
    match a with | ⟨0, _⟩ => rfl | ⟨1, _⟩ => rfl
  have rB : ∀ u : Fin 10000, ridx_main_v19 (ix2 p q) u = ix2 u q := fun u => funext fun a => by
    match a with | ⟨0, _⟩ => rfl | ⟨1, _⟩ => rfl
  have lA : ∀ (u : Fin 10000) (k : Fin 64), lidx_main_v18 (ix2 u q) k = ix2 u k := fun u k => funext fun a => by
    match a with | ⟨0, _⟩ => rfl | ⟨1, _⟩ => rfl
  have rA : ∀ (u : Fin 10000) (k : Fin 64), ridx_main_v18 (ix2 u q) k = ix2 k q := fun u k => funext fun a => by
    match a with | ⟨0, _⟩ => rfl | ⟨1, _⟩ => rfl
  have bI : idx_main_v20 (idx_main_v21 (ix2 p q)) = ix1 q := funext fun a => by
    match a with | ⟨0, _⟩ => rfl
  have inner : ∀ u : Fin 10000,
      x1 (lidx_main_v19 (ix2 p q) u) * val_main_v18 (F := Ideal) x0 x1 x2 x3 x4 x5 x8 (ridx_main_v19 (ix2 p q) u)
        = Spec.mat x1 p u * ∑ k : Fin 64, (Spec.zS (Spec.mat x0) (Spec.mat x1) (Spec.mat x2) (Spec.vec x3) (Spec.mat x4) (Spec.vec x5)) u k * Spec.mat x8 k q := by
    intro u
    rw [lB u, rB u, val_main_v18_apply]
    refine congrArg (fun t => x1 (ix2 p u) * t) (Finset.sum_congr rfl fun k _ => ?_)
    rw [lA u k, rA u k, zS_read]
  rw [val_main_v23_apply, val_main_v22_apply, val_main_v19_apply, val_main_v21_apply, val_main_v20_apply,
    val_main_call3_v0_apply, val_main_call3_cst_apply, Finset.sum_congr rfl fun u _ => inner u, bI]
  simp only [Ideal.maximumf_def, Ideal.addf_def, Ideal.ofBits_def, Ideal.ofBits_zero_f32]
  rfl

/-- The features reconstructed from the sensitive code, read at row p and column q: the reference computes h · W, then adj · (h · W), adds the bias row and
    clamps at zero, which is the layer of the specification over the arrays read as matrices. -/
theorem xS_read (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x128, .f32⟩ : BufTy).Contents (Elt Ideal)) (x11 : (⟨S128, .f32⟩ : BufTy).Contents (Elt Ideal))
    (p : Fin 10000) (q : Fin 128) :
    val_main_v29 (F := Ideal) x0 x1 x2 x3 x4 x5 x8 x9 x10 x11 (ix2 p q) = Spec.xS (Spec.mat x0) (Spec.mat x1) (Spec.mat x2) (Spec.vec x3) (Spec.mat x4) (Spec.vec x5) (Spec.mat x8) (Spec.vec x9) (Spec.mat x10) (Spec.vec x11) p q := by
  have lB : ∀ u : Fin 10000, lidx_main_v25 (ix2 p q) u = ix2 p u := fun u => funext fun a => by
    match a with | ⟨0, _⟩ => rfl | ⟨1, _⟩ => rfl
  have rB : ∀ u : Fin 10000, ridx_main_v25 (ix2 p q) u = ix2 u q := fun u => funext fun a => by
    match a with | ⟨0, _⟩ => rfl | ⟨1, _⟩ => rfl
  have lA : ∀ (u : Fin 10000) (k : Fin 64), lidx_main_v24 (ix2 u q) k = ix2 u k := fun u k => funext fun a => by
    match a with | ⟨0, _⟩ => rfl | ⟨1, _⟩ => rfl
  have rA : ∀ (u : Fin 10000) (k : Fin 64), ridx_main_v24 (ix2 u q) k = ix2 k q := fun u k => funext fun a => by
    match a with | ⟨0, _⟩ => rfl | ⟨1, _⟩ => rfl
  have bI : idx_main_v26 (idx_main_v27 (ix2 p q)) = ix1 q := funext fun a => by
    match a with | ⟨0, _⟩ => rfl
  have inner : ∀ u : Fin 10000,
      x1 (lidx_main_v25 (ix2 p q) u) * val_main_v24 (F := Ideal) x0 x1 x2 x3 x4 x5 x8 x9 x10 (ridx_main_v25 (ix2 p q) u)
        = Spec.mat x1 p u * ∑ k : Fin 64, (Spec.hS (Spec.mat x0) (Spec.mat x1) (Spec.mat x2) (Spec.vec x3) (Spec.mat x4) (Spec.vec x5) (Spec.mat x8) (Spec.vec x9)) u k * Spec.mat x10 k q := by
    intro u
    rw [lB u, rB u, val_main_v24_apply]
    refine congrArg (fun t => x1 (ix2 p u) * t) (Finset.sum_congr rfl fun k _ => ?_)
    rw [lA u k, rA u k, hS_read]
  rw [val_main_v29_apply, val_main_v28_apply, val_main_v25_apply, val_main_v27_apply, val_main_v26_apply,
    val_main_call4_v0_apply, val_main_call4_cst_apply, Finset.sum_congr rfl fun u _ => inner u, bI]
  simp only [Ideal.maximumf_def, Ideal.addf_def, Ideal.ofBits_def, Ideal.ofBits_zero_f32]
  rfl

/-- The non-sensitive decoder's hidden layer, read at row p and column q: the reference computes h · W, then adj · (h · W), adds the bias row and
    clamps at zero, which is the layer of the specification over the arrays read as matrices. -/
theorem hNS_read (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) (x6 : (⟨S64x64, .f32⟩ : BufTy).Contents (Elt Ideal)) (x7 : (⟨S64, .f32⟩ : BufTy).Contents (Elt Ideal)) (x12 : (⟨S64x64, .f32⟩ : BufTy).Contents (Elt Ideal)) (x13 : (⟨S64, .f32⟩ : BufTy).Contents (Elt Ideal))
    (p : Fin 10000) (q : Fin 64) :
    val_main_v35 (F := Ideal) x0 x1 x2 x3 x6 x7 x12 x13 (ix2 p q) = Spec.hNS (Spec.mat x0) (Spec.mat x1) (Spec.mat x2) (Spec.vec x3) (Spec.mat x6) (Spec.vec x7) (Spec.mat x12) (Spec.vec x13) p q := by
  have lB : ∀ u : Fin 10000, lidx_main_v31 (ix2 p q) u = ix2 p u := fun u => funext fun a => by
    match a with | ⟨0, _⟩ => rfl | ⟨1, _⟩ => rfl
  have rB : ∀ u : Fin 10000, ridx_main_v31 (ix2 p q) u = ix2 u q := fun u => funext fun a => by
    match a with | ⟨0, _⟩ => rfl | ⟨1, _⟩ => rfl
  have lA : ∀ (u : Fin 10000) (k : Fin 64), lidx_main_v30 (ix2 u q) k = ix2 u k := fun u k => funext fun a => by
    match a with | ⟨0, _⟩ => rfl | ⟨1, _⟩ => rfl
  have rA : ∀ (u : Fin 10000) (k : Fin 64), ridx_main_v30 (ix2 u q) k = ix2 k q := fun u k => funext fun a => by
    match a with | ⟨0, _⟩ => rfl | ⟨1, _⟩ => rfl
  have bI : idx_main_v32 (idx_main_v33 (ix2 p q)) = ix1 q := funext fun a => by
    match a with | ⟨0, _⟩ => rfl
  have inner : ∀ u : Fin 10000,
      x1 (lidx_main_v31 (ix2 p q) u) * val_main_v30 (F := Ideal) x0 x1 x2 x3 x6 x7 x12 (ridx_main_v31 (ix2 p q) u)
        = Spec.mat x1 p u * ∑ k : Fin 64, (Spec.zNS (Spec.mat x0) (Spec.mat x1) (Spec.mat x2) (Spec.vec x3) (Spec.mat x6) (Spec.vec x7)) u k * Spec.mat x12 k q := by
    intro u
    rw [lB u, rB u, val_main_v30_apply]
    refine congrArg (fun t => x1 (ix2 p u) * t) (Finset.sum_congr rfl fun k _ => ?_)
    rw [lA u k, rA u k, zNS_read]
  rw [val_main_v35_apply, val_main_v34_apply, val_main_v31_apply, val_main_v33_apply, val_main_v32_apply,
    val_main_call5_v0_apply, val_main_call5_cst_apply, Finset.sum_congr rfl fun u _ => inner u, bI]
  simp only [Ideal.maximumf_def, Ideal.addf_def, Ideal.ofBits_def, Ideal.ofBits_zero_f32]
  rfl

/-- The features reconstructed from the non-sensitive code, read at row p and column q: the reference computes h · W, then adj · (h · W), adds the bias row and
    clamps at zero, which is the layer of the specification over the arrays read as matrices. -/
theorem xNS_read (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) (x6 : (⟨S64x64, .f32⟩ : BufTy).Contents (Elt Ideal)) (x7 : (⟨S64, .f32⟩ : BufTy).Contents (Elt Ideal)) (x12 : (⟨S64x64, .f32⟩ : BufTy).Contents (Elt Ideal)) (x13 : (⟨S64, .f32⟩ : BufTy).Contents (Elt Ideal)) (x14 : (⟨S64x128, .f32⟩ : BufTy).Contents (Elt Ideal)) (x15 : (⟨S128, .f32⟩ : BufTy).Contents (Elt Ideal))
    (p : Fin 10000) (q : Fin 128) :
    val_main_v41 (F := Ideal) x0 x1 x2 x3 x6 x7 x12 x13 x14 x15 (ix2 p q) = Spec.xNS (Spec.mat x0) (Spec.mat x1) (Spec.mat x2) (Spec.vec x3) (Spec.mat x6) (Spec.vec x7) (Spec.mat x12) (Spec.vec x13) (Spec.mat x14) (Spec.vec x15) p q := by
  have lB : ∀ u : Fin 10000, lidx_main_v37 (ix2 p q) u = ix2 p u := fun u => funext fun a => by
    match a with | ⟨0, _⟩ => rfl | ⟨1, _⟩ => rfl
  have rB : ∀ u : Fin 10000, ridx_main_v37 (ix2 p q) u = ix2 u q := fun u => funext fun a => by
    match a with | ⟨0, _⟩ => rfl | ⟨1, _⟩ => rfl
  have lA : ∀ (u : Fin 10000) (k : Fin 64), lidx_main_v36 (ix2 u q) k = ix2 u k := fun u k => funext fun a => by
    match a with | ⟨0, _⟩ => rfl | ⟨1, _⟩ => rfl
  have rA : ∀ (u : Fin 10000) (k : Fin 64), ridx_main_v36 (ix2 u q) k = ix2 k q := fun u k => funext fun a => by
    match a with | ⟨0, _⟩ => rfl | ⟨1, _⟩ => rfl
  have bI : idx_main_v38 (idx_main_v39 (ix2 p q)) = ix1 q := funext fun a => by
    match a with | ⟨0, _⟩ => rfl
  have inner : ∀ u : Fin 10000,
      x1 (lidx_main_v37 (ix2 p q) u) * val_main_v36 (F := Ideal) x0 x1 x2 x3 x6 x7 x12 x13 x14 (ridx_main_v37 (ix2 p q) u)
        = Spec.mat x1 p u * ∑ k : Fin 64, (Spec.hNS (Spec.mat x0) (Spec.mat x1) (Spec.mat x2) (Spec.vec x3) (Spec.mat x6) (Spec.vec x7) (Spec.mat x12) (Spec.vec x13)) u k * Spec.mat x14 k q := by
    intro u
    rw [lB u, rB u, val_main_v36_apply]
    refine congrArg (fun t => x1 (ix2 p u) * t) (Finset.sum_congr rfl fun k _ => ?_)
    rw [lA u k, rA u k, hNS_read]
  rw [val_main_v41_apply, val_main_v40_apply, val_main_v37_apply, val_main_v39_apply, val_main_v38_apply,
    val_main_call6_v0_apply, val_main_call6_cst_apply, Finset.sum_congr rfl fun u _ => inner u, bI]
  simp only [Ideal.maximumf_def, Ideal.addf_def, Ideal.ofBits_def, Ideal.ofBits_zero_f32]
  rfl

/-- The structure decoder's layer, read at row p and column q: the reference computes h · W, then adj · (h · W), adds the bias row and
    clamps at zero, which is the layer of the specification over the arrays read as matrices. -/
theorem hST_read (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) (x6 : (⟨S64x64, .f32⟩ : BufTy).Contents (Elt Ideal)) (x7 : (⟨S64, .f32⟩ : BufTy).Contents (Elt Ideal)) (x16 : (⟨S64x64, .f32⟩ : BufTy).Contents (Elt Ideal)) (x17 : (⟨S64, .f32⟩ : BufTy).Contents (Elt Ideal))
    (p : Fin 10000) (q : Fin 64) :
    val_main_v47 (F := Ideal) x0 x1 x2 x3 x6 x7 x16 x17 (ix2 p q) = Spec.hST (Spec.mat x0) (Spec.mat x1) (Spec.mat x2) (Spec.vec x3) (Spec.mat x6) (Spec.vec x7) (Spec.mat x16) (Spec.vec x17) p q := by
  have lB : ∀ u : Fin 10000, lidx_main_v43 (ix2 p q) u = ix2 p u := fun u => funext fun a => by
    match a with | ⟨0, _⟩ => rfl | ⟨1, _⟩ => rfl
  have rB : ∀ u : Fin 10000, ridx_main_v43 (ix2 p q) u = ix2 u q := fun u => funext fun a => by
    match a with | ⟨0, _⟩ => rfl | ⟨1, _⟩ => rfl
  have lA : ∀ (u : Fin 10000) (k : Fin 64), lidx_main_v42 (ix2 u q) k = ix2 u k := fun u k => funext fun a => by
    match a with | ⟨0, _⟩ => rfl | ⟨1, _⟩ => rfl
  have rA : ∀ (u : Fin 10000) (k : Fin 64), ridx_main_v42 (ix2 u q) k = ix2 k q := fun u k => funext fun a => by
    match a with | ⟨0, _⟩ => rfl | ⟨1, _⟩ => rfl
  have bI : idx_main_v44 (idx_main_v45 (ix2 p q)) = ix1 q := funext fun a => by
    match a with | ⟨0, _⟩ => rfl
  have inner : ∀ u : Fin 10000,
      x1 (lidx_main_v43 (ix2 p q) u) * val_main_v42 (F := Ideal) x0 x1 x2 x3 x6 x7 x16 (ridx_main_v43 (ix2 p q) u)
        = Spec.mat x1 p u * ∑ k : Fin 64, (Spec.zNS (Spec.mat x0) (Spec.mat x1) (Spec.mat x2) (Spec.vec x3) (Spec.mat x6) (Spec.vec x7)) u k * Spec.mat x16 k q := by
    intro u
    rw [lB u, rB u, val_main_v42_apply]
    refine congrArg (fun t => x1 (ix2 p u) * t) (Finset.sum_congr rfl fun k _ => ?_)
    rw [lA u k, rA u k, zNS_read]
  rw [val_main_v47_apply, val_main_v46_apply, val_main_v43_apply, val_main_v45_apply, val_main_v44_apply,
    val_main_call7_v0_apply, val_main_call7_cst_apply, Finset.sum_congr rfl fun u _ => inner u, bI]
  simp only [Ideal.maximumf_def, Ideal.addf_def, Ideal.ofBits_def, Ideal.ofBits_zero_f32]
  rfl

/-- The reconstructed structure at row p and column q: the product of the structure decoder's layer with its own
    transpose is the inner product of rows p and q of that layer. -/
theorem struct_read (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) (x6 : (⟨S64x64, .f32⟩ : BufTy).Contents (Elt Ideal)) (x7 : (⟨S64, .f32⟩ : BufTy).Contents (Elt Ideal)) (x16 : (⟨S64x64, .f32⟩ : BufTy).Contents (Elt Ideal)) (x17 : (⟨S64, .f32⟩ : BufTy).Contents (Elt Ideal))
    (p q : Fin 10000) :
    val_main_v49 (F := Ideal) x0 x1 x2 x3 x6 x7 x16 x17 (ix2 p q) = Spec.struct (Spec.mat x0) (Spec.mat x1) (Spec.mat x2) (Spec.vec x3) (Spec.mat x6) (Spec.vec x7) (Spec.mat x16) (Spec.vec x17) p q := by
  have l : ∀ k : Fin 64, lidx_main_v49 (ix2 p q) k = ix2 p k := fun k => funext fun a => by
    match a with | ⟨0, _⟩ => rfl | ⟨1, _⟩ => rfl
  have r : ∀ k : Fin 64, idx_main_v48 (ridx_main_v49 (ix2 p q) k) = ix2 q k := fun k => funext fun a => by
    match a with | ⟨0, _⟩ => rfl | ⟨1, _⟩ => rfl
  rw [val_main_v49_apply]
  unfold Spec.struct Spec.gram
  refine Finset.sum_congr rfl fun k _ => ?_
  rw [val_main_v48_apply, l k, r k, hST_read, hST_read]

/-! ## The five results as whole arrays -/

/-- The structure output, as a whole array: the array of the specification's entries. -/
theorem struct_eq (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) (x6 : (⟨S64x64, .f32⟩ : BufTy).Contents (Elt Ideal)) (x7 : (⟨S64, .f32⟩ : BufTy).Contents (Elt Ideal)) (x16 : (⟨S64x64, .f32⟩ : BufTy).Contents (Elt Ideal)) (x17 : (⟨S64, .f32⟩ : BufTy).Contents (Elt Ideal)) :
    val_main_v49 (F := Ideal) x0 x1 x2 x3 x6 x7 x16 x17 = Spec.unmat (Spec.struct (Spec.mat x0) (Spec.mat x1) (Spec.mat x2) (Spec.vec x3) (Spec.mat x6) (Spec.vec x7) (Spec.mat x16) (Spec.vec x17)) :=
  Spec.eq_unmat _ _ fun p q => struct_read x0 x1 x2 x3 x6 x7 x16 x17 p q

/-- The features reconstructed from the sensitive code, as a whole array: the array of the specification's entries. -/
theorem xS_eq (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x128, .f32⟩ : BufTy).Contents (Elt Ideal)) (x11 : (⟨S128, .f32⟩ : BufTy).Contents (Elt Ideal)) :
    val_main_v29 (F := Ideal) x0 x1 x2 x3 x4 x5 x8 x9 x10 x11 = Spec.unmat (Spec.xS (Spec.mat x0) (Spec.mat x1) (Spec.mat x2) (Spec.vec x3) (Spec.mat x4) (Spec.vec x5) (Spec.mat x8) (Spec.vec x9) (Spec.mat x10) (Spec.vec x11)) :=
  Spec.eq_unmat _ _ fun p q => xS_read x0 x1 x2 x3 x4 x5 x8 x9 x10 x11 p q

/-- The features reconstructed from the non-sensitive code, as a whole array: the array of the specification's entries. -/
theorem xNS_eq (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) (x6 : (⟨S64x64, .f32⟩ : BufTy).Contents (Elt Ideal)) (x7 : (⟨S64, .f32⟩ : BufTy).Contents (Elt Ideal)) (x12 : (⟨S64x64, .f32⟩ : BufTy).Contents (Elt Ideal)) (x13 : (⟨S64, .f32⟩ : BufTy).Contents (Elt Ideal)) (x14 : (⟨S64x128, .f32⟩ : BufTy).Contents (Elt Ideal)) (x15 : (⟨S128, .f32⟩ : BufTy).Contents (Elt Ideal)) :
    val_main_v41 (F := Ideal) x0 x1 x2 x3 x6 x7 x12 x13 x14 x15 = Spec.unmat (Spec.xNS (Spec.mat x0) (Spec.mat x1) (Spec.mat x2) (Spec.vec x3) (Spec.mat x6) (Spec.vec x7) (Spec.mat x12) (Spec.vec x13) (Spec.mat x14) (Spec.vec x15)) :=
  Spec.eq_unmat _ _ fun p q => xNS_read x0 x1 x2 x3 x6 x7 x12 x13 x14 x15 p q

/-- The sensitive code, as a whole array: the array of the specification's entries. -/
theorem zS_eq (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) :
    val_main_v11 (F := Ideal) x0 x1 x2 x3 x4 x5 = Spec.unmat (Spec.zS (Spec.mat x0) (Spec.mat x1) (Spec.mat x2) (Spec.vec x3) (Spec.mat x4) (Spec.vec x5)) :=
  Spec.eq_unmat _ _ fun p q => zS_read x0 x1 x2 x3 x4 x5 p q

/-- The non-sensitive code, as a whole array: the array of the specification's entries. -/
theorem zNS_eq (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) (x6 : (⟨S64x64, .f32⟩ : BufTy).Contents (Elt Ideal)) (x7 : (⟨S64, .f32⟩ : BufTy).Contents (Elt Ideal)) :
    val_main_v17 (F := Ideal) x0 x1 x2 x3 x6 x7 = Spec.unmat (Spec.zNS (Spec.mat x0) (Spec.mat x1) (Spec.mat x2) (Spec.vec x3) (Spec.mat x6) (Spec.vec x7)) :=
  Spec.eq_unmat _ _ fun p q => zNS_read x0 x1 x2 x3 x6 x7 p q

end Cert.ReferenceIdeal.RefValue

end
-- ==== Proof.Claims.lean ====
/-
  The reference's frame, and the equality of the two idealized programs' results.

  At the ideal instance the kernel's five result arrays (read off the run of its nine items) and the reference's
  (its generated run) are the same functions of the argument arrays: the structure reconstruction, the two feature
  reconstructions and the two codes of the specification, entry by entry on the extended reals.
-/
import proofs.«168842_g31997506355971_cont_9to1_2144_8_alg».proof.Defs
import proofs.«168842_g31997506355971_cont_9to1_2144_8_alg».proof.Proof.Gen.Pre_finite_inputs
import proofs.«168842_g31997506355971_cont_9to1_2144_8_alg».proof.Proof.Gen.KernelIdeal
import proofs.«168842_g31997506355971_cont_9to1_2144_8_alg».proof.Proof.Gen.ReferenceIdeal
import proofs.«168842_g31997506355971_cont_9to1_2144_8_alg».proof.Proof.Gen.ReferenceIdeal.Run
import proofs.«168842_g31997506355971_cont_9to1_2144_8_alg».proof.Proof.Gen.ReferenceIdeal.Read
import proofs.«168842_g31997506355971_cont_9to1_2144_8_alg».proof.Proof.KernelResults
import proofs.«168842_g31997506355971_cont_9to1_2144_8_alg».proof.Proof.RefIsSpec

set_option maxRecDepth 16384

noncomputable section

namespace Cert.Proof.Claims

open Idealize.ShloMosaic Idealize.SL.Sem

/-- The reference's arguments end as launched: its generated run with the results dropped. -/
theorem frame_ri : Cert.frame_ReferenceIdeal := fun m ρ _ =>
  (θ_run (Cert.ReferenceIdeal.defs (F := Ideal)) _ _).mono (fun _ h c => (h c).2.2.2.2.2)
    (Cert.ReferenceIdeal.Value.run (F := Ideal) m ρ)

/-- Both idealized programs run, and end with the specification's five arrays of the (agreeing) arguments. -/
theorem algebraic : Cert.algebraic_KernelIdeal_ReferenceIdeal := by
  intro m ρ m' ρ' _ hagree
  refine ⟨fun c => Cert.Spec.unmat (Cert.Spec.struct (Cert.KernelIdeal.KValue.a0 m ρ c) (Cert.KernelIdeal.KValue.a1 m ρ c) (Cert.KernelIdeal.KValue.a2 m ρ c) (Cert.KernelIdeal.KValue.a3 m ρ c) (Cert.KernelIdeal.KValue.a6 m ρ c) (Cert.KernelIdeal.KValue.a7 m ρ c) (Cert.KernelIdeal.KValue.a16 m ρ c) (Cert.KernelIdeal.KValue.a17 m ρ c)),
    fun c => Cert.Spec.unmat (Cert.Spec.xS (Cert.KernelIdeal.KValue.a0 m ρ c) (Cert.KernelIdeal.KValue.a1 m ρ c) (Cert.KernelIdeal.KValue.a2 m ρ c) (Cert.KernelIdeal.KValue.a3 m ρ c) (Cert.KernelIdeal.KValue.a4 m ρ c) (Cert.KernelIdeal.KValue.a5 m ρ c) (Cert.KernelIdeal.KValue.a8 m ρ c) (Cert.KernelIdeal.KValue.a9 m ρ c) (Cert.KernelIdeal.KValue.a10 m ρ c) (Cert.KernelIdeal.KValue.a11 m ρ c)),
    fun c => Cert.Spec.unmat (Cert.Spec.xNS (Cert.KernelIdeal.KValue.a0 m ρ c) (Cert.KernelIdeal.KValue.a1 m ρ c) (Cert.KernelIdeal.KValue.a2 m ρ c) (Cert.KernelIdeal.KValue.a3 m ρ c) (Cert.KernelIdeal.KValue.a6 m ρ c) (Cert.KernelIdeal.KValue.a7 m ρ c) (Cert.KernelIdeal.KValue.a12 m ρ c) (Cert.KernelIdeal.KValue.a13 m ρ c) (Cert.KernelIdeal.KValue.a14 m ρ c) (Cert.KernelIdeal.KValue.a15 m ρ c)),
    fun c => Cert.Spec.unmat (Cert.Spec.zS (Cert.KernelIdeal.KValue.a0 m ρ c) (Cert.KernelIdeal.KValue.a1 m ρ c) (Cert.KernelIdeal.KValue.a2 m ρ c) (Cert.KernelIdeal.KValue.a3 m ρ c) (Cert.KernelIdeal.KValue.a4 m ρ c) (Cert.KernelIdeal.KValue.a5 m ρ c)),
    fun c => Cert.Spec.unmat (Cert.Spec.zNS (Cert.KernelIdeal.KValue.a0 m ρ c) (Cert.KernelIdeal.KValue.a1 m ρ c) (Cert.KernelIdeal.KValue.a2 m ρ c) (Cert.KernelIdeal.KValue.a3 m ρ c) (Cert.KernelIdeal.KValue.a6 m ρ c) (Cert.KernelIdeal.KValue.a7 m ρ c)), ?_, ?_⟩
  · refine (θ_run (Cert.KernelIdeal.defs (F := Ideal)) _ _).mono (fun r h c =>
      ⟨(h c _ (Cert.KernelIdeal.Hand.mem_uc Cert.KernelIdeal.main_v22 (by decide))).trans (Cert.KernelIdeal.KValue.res_struct m ρ c),
       (h c _ (Cert.KernelIdeal.Hand.mem_uc Cert.KernelIdeal.main_v25 (by decide))).trans (Cert.KernelIdeal.KValue.res_xS m ρ c),
       (h c _ (Cert.KernelIdeal.Hand.mem_uc Cert.KernelIdeal.main_v26 (by decide))).trans (Cert.KernelIdeal.KValue.res_xNS m ρ c),
       (h c _ (Cert.KernelIdeal.Hand.mem_uc Cert.KernelIdeal.main_v23 (by decide))).trans (Cert.KernelIdeal.KValue.res_zS m ρ c),
       (h c _ (Cert.KernelIdeal.Hand.mem_uc Cert.KernelIdeal.main_v24 (by decide))).trans (Cert.KernelIdeal.KValue.res_zNS m ρ c),
       (h c _ (Cert.KernelIdeal.Hand.mem_uc Cert.KernelIdeal.main_arg0 (by decide))).trans (Cert.KernelIdeal.Hand.B9_keep m ρ c Cert.KernelIdeal.main_arg0 (by decide) (by decide) (by decide) (by decide)),
       (h c _ (Cert.KernelIdeal.Hand.mem_uc Cert.KernelIdeal.main_arg1 (by decide))).trans (Cert.KernelIdeal.Hand.B9_keep m ρ c Cert.KernelIdeal.main_arg1 (by decide) (by decide) (by decide) (by decide)),
       (h c _ (Cert.KernelIdeal.Hand.mem_uc Cert.KernelIdeal.main_arg2 (by decide))).trans (Cert.KernelIdeal.Hand.B9_keep m ρ c Cert.KernelIdeal.main_arg2 (by decide) (by decide) (by decide) (by decide)),
       (h c _ (Cert.KernelIdeal.Hand.mem_uc Cert.KernelIdeal.main_arg3 (by decide))).trans (Cert.KernelIdeal.Hand.B9_keep m ρ c Cert.KernelIdeal.main_arg3 (by decide) (by decide) (by decide) (by decide)),
       (h c _ (Cert.KernelIdeal.Hand.mem_uc Cert.KernelIdeal.main_arg4 (by decide))).trans (Cert.KernelIdeal.Hand.B9_keep m ρ c Cert.KernelIdeal.main_arg4 (by decide) (by decide) (by decide) (by decide)),
       (h c _ (Cert.KernelIdeal.Hand.mem_uc Cert.KernelIdeal.main_arg5 (by decide))).trans (Cert.KernelIdeal.Hand.B9_keep m ρ c Cert.KernelIdeal.main_arg5 (by decide) (by decide) (by decide) (by decide)),
       (h c _ (Cert.KernelIdeal.Hand.mem_uc Cert.KernelIdeal.main_arg6 (by decide))).trans (Cert.KernelIdeal.Hand.B9_keep m ρ c Cert.KernelIdeal.main_arg6 (by decide) (by decide) (by decide) (by decide)),
       (h c _ (Cert.KernelIdeal.Hand.mem_uc Cert.KernelIdeal.main_arg7 (by decide))).trans (Cert.KernelIdeal.Hand.B9_keep m ρ c Cert.KernelIdeal.main_arg7 (by decide) (by decide) (by decide) (by decide)),
       (h c _ (Cert.KernelIdeal.Hand.mem_uc Cert.KernelIdeal.main_arg8 (by decide))).trans (Cert.KernelIdeal.Hand.B9_keep m ρ c Cert.KernelIdeal.main_arg8 (by decide) (by decide) (by decide) (by decide)),
       (h c _ (Cert.KernelIdeal.Hand.mem_uc Cert.KernelIdeal.main_arg9 (by decide))).trans (Cert.KernelIdeal.Hand.B9_keep m ρ c Cert.KernelIdeal.main_arg9 (by decide) (by decide) (by decide) (by decide)),
       (h c _ (Cert.KernelIdeal.Hand.mem_uc Cert.KernelIdeal.main_arg10 (by decide))).trans (Cert.KernelIdeal.Hand.B9_keep m ρ c Cert.KernelIdeal.main_arg10 (by decide) (by decide) (by decide) (by decide)),
       (h c _ (Cert.KernelIdeal.Hand.mem_uc Cert.KernelIdeal.main_arg11 (by decide))).trans (Cert.KernelIdeal.Hand.B9_keep m ρ c Cert.KernelIdeal.main_arg11 (by decide) (by decide) (by decide) (by decide)),
       (h c _ (Cert.KernelIdeal.Hand.mem_uc Cert.KernelIdeal.main_arg12 (by decide))).trans (Cert.KernelIdeal.Hand.B9_keep m ρ c Cert.KernelIdeal.main_arg12 (by decide) (by decide) (by decide) (by decide)),
       (h c _ (Cert.KernelIdeal.Hand.mem_uc Cert.KernelIdeal.main_arg13 (by decide))).trans (Cert.KernelIdeal.Hand.B9_keep m ρ c Cert.KernelIdeal.main_arg13 (by decide) (by decide) (by decide) (by decide)),
       (h c _ (Cert.KernelIdeal.Hand.mem_uc Cert.KernelIdeal.main_arg14 (by decide))).trans (Cert.KernelIdeal.Hand.B9_keep m ρ c Cert.KernelIdeal.main_arg14 (by decide) (by decide) (by decide) (by decide)),
       (h c _ (Cert.KernelIdeal.Hand.mem_uc Cert.KernelIdeal.main_arg15 (by decide))).trans (Cert.KernelIdeal.Hand.B9_keep m ρ c Cert.KernelIdeal.main_arg15 (by decide) (by decide) (by decide) (by decide)),
       (h c _ (Cert.KernelIdeal.Hand.mem_uc Cert.KernelIdeal.main_arg16 (by decide))).trans (Cert.KernelIdeal.Hand.B9_keep m ρ c Cert.KernelIdeal.main_arg16 (by decide) (by decide) (by decide) (by decide)),
       (h c _ (Cert.KernelIdeal.Hand.mem_uc Cert.KernelIdeal.main_arg17 (by decide))).trans (Cert.KernelIdeal.Hand.B9_keep m ρ c Cert.KernelIdeal.main_arg17 (by decide) (by decide) (by decide) (by decide))⟩)
      (Cert.KernelIdeal.Hand.run_all (F := Ideal) m ρ)
  · refine (θ_run (Cert.ReferenceIdeal.defs (F := Ideal)) _ _).mono (fun _ h c => ?_)
      (Cert.ReferenceIdeal.Value.run (F := Ideal) m' ρ')
    obtain ⟨e0, e1, e2, e3, e4, e5, e6, e7, e8, e9, e10, e11, e12, e13, e14, e15, e16, e17⟩ := hagree c
    refine ⟨(h c).1.trans ((Cert.ReferenceIdeal.RefValue.struct_eq _ _ _ _ _ _ _ _).trans ?_),
      (h c).2.1.trans ((Cert.ReferenceIdeal.RefValue.xS_eq _ _ _ _ _ _ _ _ _ _).trans ?_),
      (h c).2.2.1.trans ((Cert.ReferenceIdeal.RefValue.xNS_eq _ _ _ _ _ _ _ _ _ _).trans ?_),
      (h c).2.2.2.1.trans ((Cert.ReferenceIdeal.RefValue.zS_eq _ _ _ _ _ _).trans ?_),
      (h c).2.2.2.2.1.trans ((Cert.ReferenceIdeal.RefValue.zNS_eq _ _ _ _ _ _).trans ?_),
      (h c).2.2.2.2.2⟩
    · rw [e0, e1, e2, e3, e6, e7, e16, e17]
    · rw [e0, e1, e2, e3, e4, e5, e8, e9, e10, e11]
    · rw [e0, e1, e2, e3, e6, e7, e12, e13, e14, e15]
    · rw [e0, e1, e2, e3, e4, e5]
    · rw [e0, e1, e2, e3, e6, e7]

end Cert.Proof.Claims

end
-- ==== Proof.lean ====
/-
  A graph-convolution autoencoder over a dense adjacency: eight layers relu(adj · (h · W) + b) and the Gram matrix of
  one of them.  The kernel runs the eight layers as four passes over the adjacency, branches that share an input
  placed side by side in wider weights (zero blocks where a branch does not read a column block), and a fifth pass
  for the Gram matrix; the reference runs the layers one by one.

  Frames: the kernel's run of its nine items ends with every argument array as launched, at the word-level instance
  and at the ideal one (Proof/Frames.lean over Proof/Run.lean and its word-level twin); the reference's frame is its
  generated run.  The idealization rewrote nothing, so its ledger is empty.  Values: on the extended reals both
  programs' five results are the specification's functions of the arguments (Proof/Claims.lean): a product with a
  zero entry is zero and adding zero changes nothing on every extended real, so no finiteness is needed.
-/
import proofs.«168842_g31997506355971_cont_9to1_2144_8_alg».proof.Defs
import proofs.«168842_g31997506355971_cont_9to1_2144_8_alg».proof.Proof.Gen.Kernel
import proofs.«168842_g31997506355971_cont_9to1_2144_8_alg».proof.Proof.Gen.KernelIdeal
import proofs.«168842_g31997506355971_cont_9to1_2144_8_alg».proof.Proof.Gen.ReferenceIdeal
import proofs.«168842_g31997506355971_cont_9to1_2144_8_alg».proof.Proof.Gen.Pre_finite_inputs
import proofs.«168842_g31997506355971_cont_9to1_2144_8_alg».proof.Proof.Frames
import proofs.«168842_g31997506355971_cont_9to1_2144_8_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Frames.frame_k, Frames.frame_ki, Claims.frame_ri, trivial, Claims.algebraic⟩

end Cert.Proof

end
